-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : IVec S16777216 32) : IVec S_ 1 :=
  let main_c : IVec S_ 32 := constantI S_ 32 0#32
  let main_v0 : IVec S16777216 32 := broadcastInDim S16777216 ![] bcast_S_S16777216 main_c
  let main_v1 : IVec S16777216 1 := cmpi .sge main_arg0 main_v0
  let main_c_0 : IVec S_ 32 := constantI S_ 32 65535#32
  let main_v2 : IVec S16777216 32 := broadcastInDim S16777216 ![] bcast_S_S16777216 main_c_0
  let main_v3 : IVec S16777216 1 := cmpi .sle main_arg0 main_v2
  let main_v4 : IVec S16777216 1 := andi main_v1 main_v3
  let main_c_1 : IVec S_ 1 := constantI S_ 1 1#1
  let main_v5 : IVec S_ 1 := (fun x v => Host.reduce IntOp.andi x v reducesTo_S16777216_S_d0 h_S_) main_v4 main_c_1
  main_v5
-- ==== Kernel.lean ====
abbrev S16777216 : Shape := ⟨1, ![16777216]⟩
abbrev S32x65536 : Shape := ⟨2, ![32, 65536]⟩
abbrev S65536 : Shape := ⟨1, ![65536]⟩
abbrev S16384 : Shape := ⟨1, ![16384]⟩
abbrev S_ : Shape := ⟨0, ![]⟩
abbrev S16 : Shape := ⟨1, ![16]⟩
abbrev S1x65536 : Shape := ⟨2, ![1, 65536]⟩

abbrev nBuf : Table → Nat
  | .hbm => 3
  | .local .tc .vmem => 2
  | .local .scVector .vmem => 4
  | _ => 0

abbrev bufTy : (tb : Table) → Fin (nBuf tb) → BufTy
  | .hbm, ⟨0, _⟩ => ⟨S16777216, .i32⟩
  | .hbm, ⟨1, _⟩ => ⟨S32x65536, .i32⟩
  | .hbm, ⟨2, _⟩ => ⟨S65536, .i32⟩
  | .local .tc .vmem, ⟨0, _⟩ => ⟨S32x65536, .i32⟩
  | .local .tc .vmem, ⟨1, _⟩ => ⟨S65536, .i32⟩
  | .local .scVector .vmem, ⟨0, _⟩ => ⟨S65536, .i32⟩
  | .local .scVector .vmem, ⟨1, _⟩ => ⟨S16384, .i32⟩
  | .local .scVector .vmem, ⟨2, _⟩ => ⟨S16384, .i32⟩
  | .local .scVector .vmem, ⟨3, _⟩ => ⟨S16384, .i32⟩
  | _, _ => ⟨S16777216, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let v3 : BitVec 32 := Scalar.addi v2 c0_i32
  ![v3.toNat]
@[reducible] def k0_t1_loop : Scf.Loop 32 :=
  let c0_i32_2 : BitVec 32 := 0#32
  let c512_i32 : BitVec 32 := 512#32
  let v13 : BitVec 32 := Scalar.addi c0_i32_2 c512_i32
  let c1_i32 : BitVec 32 := 1#32
  ⟨c0_i32_2, v13, c1_i32⟩
def k0_off2 (k0_t1 : Fin k0_t1_loop.trips) (c0_i32_196 : BitVec 32) : Fin 1 → Nat :=
  let c0_i32_2 : BitVec 32 := 0#32
  let c1_i32 : BitVec 32 := 1#32
  let arg11 : BitVec 32 := Scf.iv c0_i32_2 c1_i32 k0_t1
  let c8_i32 : BitVec 32 := 8#32
  let v230 : BitVec 32 := Scalar.muli arg11 c8_i32
  let v231 : BitVec 32 := Scalar.addi v230 c0_i32_196
  let c16_i32 : BitVec 32 := 16#32
  let v232 : BitVec 32 := Scalar.muli v231 c16_i32
  let v233 : Index := Scalar.indexCast v232
  ![v233.toNat]
@[reducible] def k0_t2_loop : Scf.Loop 32 :=
  let c0_i32_7 : BitVec 32 := 0#32
  let c64_i32 : BitVec 32 := 64#32
  let v18 : BitVec 32 := Scalar.addi c0_i32_7 c64_i32
  let c1_i32_8 : BitVec 32 := 1#32
  ⟨c0_i32_7, v18, c1_i32_8⟩
def k0_off3 (k0_t2 : Fin k0_t2_loop.trips) (c0_i32_196 : BitVec 32) : Fin 1 → Nat :=
  let c0_i32_7 : BitVec 32 := 0#32
  let c1_i32_8 : BitVec 32 := 1#32
  let arg11 : BitVec 32 := Scf.iv c0_i32_7 c1_i32_8 k0_t2
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk1 (v234 : IVec S16 32) : Prop :=
  (∀ a x, ((![v234] : Fin 1 → IVec S16 32) a x).toNat < S65536.size a)
instance k0_chk1.dec : ∀ (v234 : IVec S16 32), Decidable (k0_chk1 v234) := fun v234 => decidable_of_iff' _ (Iff.of_eq (k0_chk1.eq_1 v234))
theorem k0_idx1_inb : ∀ (v234 : IVec S16 32) (k0_hw1 : k0_chk1 v234), ∀ a x, ((![v234] : Fin 1 → IVec S16 32) a x).toNat < S65536.size a := fun v234 k0_hw1 => k0_hw1

def k0_chk2 (v239 : IVec S16 32) : Prop :=
  (∀ a x, ((![v239] : Fin 1 → IVec S16 32) a x).toNat < S65536.size a)
instance k0_chk2.dec : ∀ (v239 : IVec S16 32), Decidable (k0_chk2 v239) := fun v239 => decidable_of_iff' _ (Iff.of_eq (k0_chk2.eq_1 v239))
theorem k0_idx2_inb : ∀ (v239 : IVec S16 32) (k0_hw2 : k0_chk2 v239), ∀ a x, ((![v239] : Fin 1 → IVec S16 32) a x).toNat < S65536.size a := fun v239 k0_hw2 => k0_hw2

def k0_chk3 (v244 : IVec S16 32) : Prop :=
  (∀ a x, ((![v244] : Fin 1 → IVec S16 32) a x).toNat < S65536.size a)
instance k0_chk3.dec : ∀ (v244 : IVec S16 32), Decidable (k0_chk3 v244) := fun v244 => decidable_of_iff' _ (Iff.of_eq (k0_chk3.eq_1 v244))
theorem k0_idx3_inb : ∀ (v244 : IVec S16 32) (k0_hw3 : k0_chk3 v244), ∀ a x, ((![v244] : Fin 1 → IVec S16 32) a x).toNat < S65536.size a := fun v244 k0_hw3 => k0_hw3

def k0_chk4 (v249 : IVec S16 32) : Prop :=
  (∀ a x, ((![v249] : Fin 1 → IVec S16 32) a x).toNat < S65536.size a)
instance k0_chk4.dec : ∀ (v249 : IVec S16 32), Decidable (k0_chk4 v249) := fun v249 => decidable_of_iff' _ (Iff.of_eq (k0_chk4.eq_1 v249))
theorem k0_idx4_inb : ∀ (v249 : IVec S16 32) (k0_hw4 : k0_chk4 v249), ∀ a x, ((![v249] : Fin 1 → IVec S16 32) a x).toNat < S65536.size a := fun v249 k0_hw4 => k0_hw4

def k0_chk5 (v254 : IVec S16 32) : Prop :=
  (∀ a x, ((![v254] : Fin 1 → IVec S16 32) a x).toNat < S65536.size a)
instance k0_chk5.dec : ∀ (v254 : IVec S16 32), Decidable (k0_chk5 v254) := fun v254 => decidable_of_iff' _ (Iff.of_eq (k0_chk5.eq_1 v254))
theorem k0_idx5_inb : ∀ (v254 : IVec S16 32) (k0_hw5 : k0_chk5 v254), ∀ a x, ((![v254] : Fin 1 → IVec S16 32) a x).toNat < S65536.size a := fun v254 k0_hw5 => k0_hw5

def k0_chk6 (v259 : IVec S16 32) : Prop :=
  (∀ a x, ((![v259] : Fin 1 → IVec S16 32) a x).toNat < S65536.size a)
instance k0_chk6.dec : ∀ (v259 : IVec S16 32), Decidable (k0_chk6 v259) := fun v259 => decidable_of_iff' _ (Iff.of_eq (k0_chk6.eq_1 v259))
theorem k0_idx6_inb : ∀ (v259 : IVec S16 32) (k0_hw6 : k0_chk6 v259), ∀ a x, ((![v259] : Fin 1 → IVec S16 32) a x).toNat < S65536.size a := fun v259 k0_hw6 => k0_hw6

def k0_chk7 (v264 : IVec S16 32) : Prop :=
  (∀ a x, ((![v264] : Fin 1 → IVec S16 32) a x).toNat < S65536.size a)
instance k0_chk7.dec : ∀ (v264 : IVec S16 32), Decidable (k0_chk7 v264) := fun v264 => decidable_of_iff' _ (Iff.of_eq (k0_chk7.eq_1 v264))
theorem k0_idx7_inb : ∀ (v264 : IVec S16 32) (k0_hw7 : k0_chk7 v264), ∀ a x, ((![v264] : Fin 1 → IVec S16 32) a x).toNat < S65536.size a := fun v264 k0_hw7 => k0_hw7

def k0_chk8 (v269 : IVec S16 32) : Prop :=
  (∀ a x, ((![v269] : Fin 1 → IVec S16 32) a x).toNat < S65536.size a)
instance k0_chk8.dec : ∀ (v269 : IVec S16 32), Decidable (k0_chk8 v269) := fun v269 => decidable_of_iff' _ (Iff.of_eq (k0_chk8.eq_1 v269))
theorem k0_idx8_inb : ∀ (v269 : IVec S16 32) (k0_hw8 : k0_chk8 v269), ∀ a x, ((![v269] : Fin 1 → IVec S16 32) a x).toNat < S65536.size a := fun v269 k0_hw8 => k0_hw8

def k0_chk9 (v274 : IVec S16 32) : Prop :=
  (∀ a x, ((![v274] : Fin 1 → IVec S16 32) a x).toNat < S65536.size a)
instance k0_chk9.dec : ∀ (v274 : IVec S16 32), Decidable (k0_chk9 v274) := fun v274 => decidable_of_iff' _ (Iff.of_eq (k0_chk9.eq_1 v274))
theorem k0_idx9_inb : ∀ (v274 : IVec S16 32) (k0_hw9 : k0_chk9 v274), ∀ a x, ((![v274] : Fin 1 → IVec S16 32) a x).toNat < S65536.size a := fun v274 k0_hw9 => k0_hw9

def k0_chk10 (v279 : IVec S16 32) : Prop :=
  (∀ a x, ((![v279] : Fin 1 → IVec S16 32) a x).toNat < S65536.size a)
instance k0_chk10.dec : ∀ (v279 : IVec S16 32), Decidable (k0_chk10 v279) := fun v279 => decidable_of_iff' _ (Iff.of_eq (k0_chk10.eq_1 v279))
theorem k0_idx10_inb : ∀ (v279 : IVec S16 32) (k0_hw10 : k0_chk10 v279), ∀ a x, ((![v279] : Fin 1 → IVec S16 32) a x).toNat < S65536.size a := fun v279 k0_hw10 => k0_hw10

def k0_chk11 (v284 : IVec S16 32) : Prop :=
  (∀ a x, ((![v284] : Fin 1 → IVec S16 32) a x).toNat < S65536.size a)
instance k0_chk11.dec : ∀ (v284 : IVec S16 32), Decidable (k0_chk11 v284) := fun v284 => decidable_of_iff' _ (Iff.of_eq (k0_chk11.eq_1 v284))
theorem k0_idx11_inb : ∀ (v284 : IVec S16 32) (k0_hw11 : k0_chk11 v284), ∀ a x, ((![v284] : Fin 1 → IVec S16 32) a x).toNat < S65536.size a := fun v284 k0_hw11 => k0_hw11

def k0_chk12 (v289 : IVec S16 32) : Prop :=
  (∀ a x, ((![v289] : Fin 1 → IVec S16 32) a x).toNat < S65536.size a)
instance k0_chk12.dec : ∀ (v289 : IVec S16 32), Decidable (k0_chk12 v289) := fun v289 => decidable_of_iff' _ (Iff.of_eq (k0_chk12.eq_1 v289))
theorem k0_idx12_inb : ∀ (v289 : IVec S16 32) (k0_hw12 : k0_chk12 v289), ∀ a x, ((![v289] : Fin 1 → IVec S16 32) a x).toNat < S65536.size a := fun v289 k0_hw12 => k0_hw12

def k0_chk13 (v294 : IVec S16 32) : Prop :=
  (∀ a x, ((![v294] : Fin 1 → IVec S16 32) a x).toNat < S65536.size a)
instance k0_chk13.dec : ∀ (v294 : IVec S16 32), Decidable (k0_chk13 v294) := fun v294 => decidable_of_iff' _ (Iff.of_eq (k0_chk13.eq_1 v294))
theorem k0_idx13_inb : ∀ (v294 : IVec S16 32) (k0_hw13 : k0_chk13 v294), ∀ a x, ((![v294] : Fin 1 → IVec S16 32) a x).toNat < S65536.size a := fun v294 k0_hw13 => k0_hw13

def k0_chk14 (v299 : IVec S16 32) : Prop :=
  (∀ a x, ((![v299] : Fin 1 → IVec S16 32) a x).toNat < S65536.size a)
instance k0_chk14.dec : ∀ (v299 : IVec S16 32), Decidable (k0_chk14 v299) := fun v299 => decidable_of_iff' _ (Iff.of_eq (k0_chk14.eq_1 v299))
theorem k0_idx14_inb : ∀ (v299 : IVec S16 32) (k0_hw14 : k0_chk14 v299), ∀ a x, ((![v299] : Fin 1 → IVec S16 32) a x).toNat < S65536.size a := fun v299 k0_hw14 => k0_hw14

def k0_chk15 (v304 : IVec S16 32) : Prop :=
  (∀ a x, ((![v304] : Fin 1 → IVec S16 32) a x).toNat < S65536.size a)
instance k0_chk15.dec : ∀ (v304 : IVec S16 32), Decidable (k0_chk15 v304) := fun v304 => decidable_of_iff' _ (Iff.of_eq (k0_chk15.eq_1 v304))
theorem k0_idx15_inb : ∀ (v304 : IVec S16 32) (k0_hw15 : k0_chk15 v304), ∀ a x, ((![v304] : Fin 1 → IVec S16 32) a x).toNat < S65536.size a := fun v304 k0_hw15 => k0_hw15

def k0_chk16 (v309 : IVec S16 32) : Prop :=
  (∀ a x, ((![v309] : Fin 1 → IVec S16 32) a x).toNat < S65536.size a)
instance k0_chk16.dec : ∀ (v309 : IVec S16 32), Decidable (k0_chk16 v309) := fun v309 => decidable_of_iff' _ (Iff.of_eq (k0_chk16.eq_1 v309))
theorem k0_idx16_inb : ∀ (v309 : IVec S16 32) (k0_hw16 : k0_chk16 v309), ∀ a x, ((![v309] : Fin 1 → IVec S16 32) a x).toNat < S65536.size a := fun v309 k0_hw16 => k0_hw16
@[reducible] def k0_t3_loop : Scf.Loop 32 :=
  let c0_i32_12 : BitVec 32 := 0#32
  let c64_i32_13 : BitVec 32 := 64#32
  let v25 : BitVec 32 := Scalar.addi c0_i32_12 c64_i32_13
  let c1_i32_14 : BitVec 32 := 1#32
  ⟨c0_i32_12, v25, c1_i32_14⟩
def k0_off4 (k0_t3 : Fin k0_t3_loop.trips) (c0_i32_196 : BitVec 32) : Fin 1 → Nat :=
  let c0_i32_12 : BitVec 32 := 0#32
  let c1_i32_14 : BitVec 32 := 1#32
  let arg11 : BitVec 32 := Scf.iv c0_i32_12 c1_i32_14 k0_t3
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk17 (v234 : IVec S16 32) : Prop :=
  (∀ a x, ((![v234] : Fin 1 → IVec S16 32) a x).toNat < S65536.size a)
instance k0_chk17.dec : ∀ (v234 : IVec S16 32), Decidable (k0_chk17 v234) := fun v234 => decidable_of_iff' _ (Iff.of_eq (k0_chk17.eq_1 v234))
theorem k0_idx17_inb : ∀ (v234 : IVec S16 32) (k0_hw17 : k0_chk17 v234), ∀ a x, ((![v234] : Fin 1 → IVec S16 32) a x).toNat < S65536.size a := fun v234 k0_hw17 => k0_hw17

def k0_chk18 (v239 : IVec S16 32) : Prop :=
  (∀ a x, ((![v239] : Fin 1 → IVec S16 32) a x).toNat < S65536.size a)
instance k0_chk18.dec : ∀ (v239 : IVec S16 32), Decidable (k0_chk18 v239) := fun v239 => decidable_of_iff' _ (Iff.of_eq (k0_chk18.eq_1 v239))
theorem k0_idx18_inb : ∀ (v239 : IVec S16 32) (k0_hw18 : k0_chk18 v239), ∀ a x, ((![v239] : Fin 1 → IVec S16 32) a x).toNat < S65536.size a := fun v239 k0_hw18 => k0_hw18

def k0_chk19 (v244 : IVec S16 32) : Prop :=
  (∀ a x, ((![v244] : Fin 1 → IVec S16 32) a x).toNat < S65536.size a)
instance k0_chk19.dec : ∀ (v244 : IVec S16 32), Decidable (k0_chk19 v244) := fun v244 => decidable_of_iff' _ (Iff.of_eq (k0_chk19.eq_1 v244))
theorem k0_idx19_inb : ∀ (v244 : IVec S16 32) (k0_hw19 : k0_chk19 v244), ∀ a x, ((![v244] : Fin 1 → IVec S16 32) a x).toNat < S65536.size a := fun v244 k0_hw19 => k0_hw19

def k0_chk20 (v249 : IVec S16 32) : Prop :=
  (∀ a x, ((![v249] : Fin 1 → IVec S16 32) a x).toNat < S65536.size a)
instance k0_chk20.dec : ∀ (v249 : IVec S16 32), Decidable (k0_chk20 v249) := fun v249 => decidable_of_iff' _ (Iff.of_eq (k0_chk20.eq_1 v249))
theorem k0_idx20_inb : ∀ (v249 : IVec S16 32) (k0_hw20 : k0_chk20 v249), ∀ a x, ((![v249] : Fin 1 → IVec S16 32) a x).toNat < S65536.size a := fun v249 k0_hw20 => k0_hw20

def k0_chk21 (v254 : IVec S16 32) : Prop :=
  (∀ a x, ((![v254] : Fin 1 → IVec S16 32) a x).toNat < S65536.size a)
instance k0_chk21.dec : ∀ (v254 : IVec S16 32), Decidable (k0_chk21 v254) := fun v254 => decidable_of_iff' _ (Iff.of_eq (k0_chk21.eq_1 v254))
theorem k0_idx21_inb : ∀ (v254 : IVec S16 32) (k0_hw21 : k0_chk21 v254), ∀ a x, ((![v254] : Fin 1 → IVec S16 32) a x).toNat < S65536.size a := fun v254 k0_hw21 => k0_hw21

def k0_chk22 (v259 : IVec S16 32) : Prop :=
  (∀ a x, ((![v259] : Fin 1 → IVec S16 32) a x).toNat < S65536.size a)
instance k0_chk22.dec : ∀ (v259 : IVec S16 32), Decidable (k0_chk22 v259) := fun v259 => decidable_of_iff' _ (Iff.of_eq (k0_chk22.eq_1 v259))
theorem k0_idx22_inb : ∀ (v259 : IVec S16 32) (k0_hw22 : k0_chk22 v259), ∀ a x, ((![v259] : Fin 1 → IVec S16 32) a x).toNat < S65536.size a := fun v259 k0_hw22 => k0_hw22

def k0_chk23 (v264 : IVec S16 32) : Prop :=
  (∀ a x, ((![v264] : Fin 1 → IVec S16 32) a x).toNat < S65536.size a)
instance k0_chk23.dec : ∀ (v264 : IVec S16 32), Decidable (k0_chk23 v264) := fun v264 => decidable_of_iff' _ (Iff.of_eq (k0_chk23.eq_1 v264))
theorem k0_idx23_inb : ∀ (v264 : IVec S16 32) (k0_hw23 : k0_chk23 v264), ∀ a x, ((![v264] : Fin 1 → IVec S16 32) a x).toNat < S65536.size a := fun v264 k0_hw23 => k0_hw23

def k0_chk24 (v269 : IVec S16 32) : Prop :=
  (∀ a x, ((![v269] : Fin 1 → IVec S16 32) a x).toNat < S65536.size a)
instance k0_chk24.dec : ∀ (v269 : IVec S16 32), Decidable (k0_chk24 v269) := fun v269 => decidable_of_iff' _ (Iff.of_eq (k0_chk24.eq_1 v269))
theorem k0_idx24_inb : ∀ (v269 : IVec S16 32) (k0_hw24 : k0_chk24 v269), ∀ a x, ((![v269] : Fin 1 → IVec S16 32) a x).toNat < S65536.size a := fun v269 k0_hw24 => k0_hw24

def k0_chk25 (v274 : IVec S16 32) : Prop :=
  (∀ a x, ((![v274] : Fin 1 → IVec S16 32) a x).toNat < S65536.size a)
instance k0_chk25.dec : ∀ (v274 : IVec S16 32), Decidable (k0_chk25 v274) := fun v274 => decidable_of_iff' _ (Iff.of_eq (k0_chk25.eq_1 v274))
theorem k0_idx25_inb : ∀ (v274 : IVec S16 32) (k0_hw25 : k0_chk25 v274), ∀ a x, ((![v274] : Fin 1 → IVec S16 32) a x).toNat < S65536.size a := fun v274 k0_hw25 => k0_hw25

def k0_chk26 (v279 : IVec S16 32) : Prop :=
  (∀ a x, ((![v279] : Fin 1 → IVec S16 32) a x).toNat < S65536.size a)
instance k0_chk26.dec : ∀ (v279 : IVec S16 32), Decidable (k0_chk26 v279) := fun v279 => decidable_of_iff' _ (Iff.of_eq (k0_chk26.eq_1 v279))
theorem k0_idx26_inb : ∀ (v279 : IVec S16 32) (k0_hw26 : k0_chk26 v279), ∀ a x, ((![v279] : Fin 1 → IVec S16 32) a x).toNat < S65536.size a := fun v279 k0_hw26 => k0_hw26

def k0_chk27 (v284 : IVec S16 32) : Prop :=
  (∀ a x, ((![v284] : Fin 1 → IVec S16 32) a x).toNat < S65536.size a)
instance k0_chk27.dec : ∀ (v284 : IVec S16 32), Decidable (k0_chk27 v284) := fun v284 => decidable_of_iff' _ (Iff.of_eq (k0_chk27.eq_1 v284))
theorem k0_idx27_inb : ∀ (v284 : IVec S16 32) (k0_hw27 : k0_chk27 v284), ∀ a x, ((![v284] : Fin 1 → IVec S16 32) a x).toNat < S65536.size a := fun v284 k0_hw27 => k0_hw27

def k0_chk28 (v289 : IVec S16 32) : Prop :=
  (∀ a x, ((![v289] : Fin 1 → IVec S16 32) a x).toNat < S65536.size a)
instance k0_chk28.dec : ∀ (v289 : IVec S16 32), Decidable (k0_chk28 v289) := fun v289 => decidable_of_iff' _ (Iff.of_eq (k0_chk28.eq_1 v289))
theorem k0_idx28_inb : ∀ (v289 : IVec S16 32) (k0_hw28 : k0_chk28 v289), ∀ a x, ((![v289] : Fin 1 → IVec S16 32) a x).toNat < S65536.size a := fun v289 k0_hw28 => k0_hw28

def k0_chk29 (v294 : IVec S16 32) : Prop :=
  (∀ a x, ((![v294] : Fin 1 → IVec S16 32) a x).toNat < S65536.size a)
instance k0_chk29.dec : ∀ (v294 : IVec S16 32), Decidable (k0_chk29 v294) := fun v294 => decidable_of_iff' _ (Iff.of_eq (k0_chk29.eq_1 v294))
theorem k0_idx29_inb : ∀ (v294 : IVec S16 32) (k0_hw29 : k0_chk29 v294), ∀ a x, ((![v294] : Fin 1 → IVec S16 32) a x).toNat < S65536.size a := fun v294 k0_hw29 => k0_hw29

def k0_chk30 (v299 : IVec S16 32) : Prop :=
  (∀ a x, ((![v299] : Fin 1 → IVec S16 32) a x).toNat < S65536.size a)
instance k0_chk30.dec : ∀ (v299 : IVec S16 32), Decidable (k0_chk30 v299) := fun v299 => decidable_of_iff' _ (Iff.of_eq (k0_chk30.eq_1 v299))
theorem k0_idx30_inb : ∀ (v299 : IVec S16 32) (k0_hw30 : k0_chk30 v299), ∀ a x, ((![v299] : Fin 1 → IVec S16 32) a x).toNat < S65536.size a := fun v299 k0_hw30 => k0_hw30

def k0_chk31 (v304 : IVec S16 32) : Prop :=
  (∀ a x, ((![v304] : Fin 1 → IVec S16 32) a x).toNat < S65536.size a)
instance k0_chk31.dec : ∀ (v304 : IVec S16 32), Decidable (k0_chk31 v304) := fun v304 => decidable_of_iff' _ (Iff.of_eq (k0_chk31.eq_1 v304))
theorem k0_idx31_inb : ∀ (v304 : IVec S16 32) (k0_hw31 : k0_chk31 v304), ∀ a x, ((![v304] : Fin 1 → IVec S16 32) a x).toNat < S65536.size a := fun v304 k0_hw31 => k0_hw31

def k0_chk32 (v309 : IVec S16 32) : Prop :=
  (∀ a x, ((![v309] : Fin 1 → IVec S16 32) a x).toNat < S65536.size a)
instance k0_chk32.dec : ∀ (v309 : IVec S16 32), Decidable (k0_chk32 v309) := fun v309 => decidable_of_iff' _ (Iff.of_eq (k0_chk32.eq_1 v309))
theorem k0_idx32_inb : ∀ (v309 : IVec S16 32) (k0_hw32 : k0_chk32 v309), ∀ a x, ((![v309] : Fin 1 → IVec S16 32) a x).toNat < S65536.size a := fun v309 k0_hw32 => k0_hw32
@[reducible] def k0_t4_loop : Scf.Loop 32 :=
  let c0_i32_18 : BitVec 32 := 0#32
  let c64_i32_19 : BitVec 32 := 64#32
  let v32 : BitVec 32 := Scalar.addi c0_i32_18 c64_i32_19
  let c1_i32_20 : BitVec 32 := 1#32
  ⟨c0_i32_18, v32, c1_i32_20⟩
def k0_off5 (k0_t4 : Fin k0_t4_loop.trips) (c0_i32_196 : BitVec 32) : Fin 1 → Nat :=
  let c0_i32_18 : BitVec 32 := 0#32
  let c1_i32_20 : BitVec 32 := 1#32
  let arg11 : BitVec 32 := Scf.iv c0_i32_18 c1_i32_20 k0_t4
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk33 (v234 : IVec S16 32) : Prop :=
  (∀ a x, ((![v234] : Fin 1 → IVec S16 32) a x).toNat < S65536.size a)
instance k0_chk33.dec : ∀ (v234 : IVec S16 32), Decidable (k0_chk33 v234) := fun v234 => decidable_of_iff' _ (Iff.of_eq (k0_chk33.eq_1 v234))
theorem k0_idx33_inb : ∀ (v234 : IVec S16 32) (k0_hw33 : k0_chk33 v234), ∀ a x, ((![v234] : Fin 1 → IVec S16 32) a x).toNat < S65536.size a := fun v234 k0_hw33 => k0_hw33

def k0_chk34 (v239 : IVec S16 32) : Prop :=
  (∀ a x, ((![v239] : Fin 1 → IVec S16 32) a x).toNat < S65536.size a)
instance k0_chk34.dec : ∀ (v239 : IVec S16 32), Decidable (k0_chk34 v239) := fun v239 => decidable_of_iff' _ (Iff.of_eq (k0_chk34.eq_1 v239))
theorem k0_idx34_inb : ∀ (v239 : IVec S16 32) (k0_hw34 : k0_chk34 v239), ∀ a x, ((![v239] : Fin 1 → IVec S16 32) a x).toNat < S65536.size a := fun v239 k0_hw34 => k0_hw34

def k0_chk35 (v244 : IVec S16 32) : Prop :=
  (∀ a x, ((![v244] : Fin 1 → IVec S16 32) a x).toNat < S65536.size a)
instance k0_chk35.dec : ∀ (v244 : IVec S16 32), Decidable (k0_chk35 v244) := fun v244 => decidable_of_iff' _ (Iff.of_eq (k0_chk35.eq_1 v244))
theorem k0_idx35_inb : ∀ (v244 : IVec S16 32) (k0_hw35 : k0_chk35 v244), ∀ a x, ((![v244] : Fin 1 → IVec S16 32) a x).toNat < S65536.size a := fun v244 k0_hw35 => k0_hw35

def k0_chk36 (v249 : IVec S16 32) : Prop :=
  (∀ a x, ((![v249] : Fin 1 → IVec S16 32) a x).toNat < S65536.size a)
instance k0_chk36.dec : ∀ (v249 : IVec S16 32), Decidable (k0_chk36 v249) := fun v249 => decidable_of_iff' _ (Iff.of_eq (k0_chk36.eq_1 v249))
theorem k0_idx36_inb : ∀ (v249 : IVec S16 32) (k0_hw36 : k0_chk36 v249), ∀ a x, ((![v249] : Fin 1 → IVec S16 32) a x).toNat < S65536.size a := fun v249 k0_hw36 => k0_hw36

def k0_chk37 (v254 : IVec S16 32) : Prop :=
  (∀ a x, ((![v254] : Fin 1 → IVec S16 32) a x).toNat < S65536.size a)
instance k0_chk37.dec : ∀ (v254 : IVec S16 32), Decidable (k0_chk37 v254) := fun v254 => decidable_of_iff' _ (Iff.of_eq (k0_chk37.eq_1 v254))
theorem k0_idx37_inb : ∀ (v254 : IVec S16 32) (k0_hw37 : k0_chk37 v254), ∀ a x, ((![v254] : Fin 1 → IVec S16 32) a x).toNat < S65536.size a := fun v254 k0_hw37 => k0_hw37

def k0_chk38 (v259 : IVec S16 32) : Prop :=
  (∀ a x, ((![v259] : Fin 1 → IVec S16 32) a x).toNat < S65536.size a)
instance k0_chk38.dec : ∀ (v259 : IVec S16 32), Decidable (k0_chk38 v259) := fun v259 => decidable_of_iff' _ (Iff.of_eq (k0_chk38.eq_1 v259))
theorem k0_idx38_inb : ∀ (v259 : IVec S16 32) (k0_hw38 : k0_chk38 v259), ∀ a x, ((![v259] : Fin 1 → IVec S16 32) a x).toNat < S65536.size a := fun v259 k0_hw38 => k0_hw38

def k0_chk39 (v264 : IVec S16 32) : Prop :=
  (∀ a x, ((![v264] : Fin 1 → IVec S16 32) a x).toNat < S65536.size a)
instance k0_chk39.dec : ∀ (v264 : IVec S16 32), Decidable (k0_chk39 v264) := fun v264 => decidable_of_iff' _ (Iff.of_eq (k0_chk39.eq_1 v264))
theorem k0_idx39_inb : ∀ (v264 : IVec S16 32) (k0_hw39 : k0_chk39 v264), ∀ a x, ((![v264] : Fin 1 → IVec S16 32) a x).toNat < S65536.size a := fun v264 k0_hw39 => k0_hw39

def k0_chk40 (v269 : IVec S16 32) : Prop :=
  (∀ a x, ((![v269] : Fin 1 → IVec S16 32) a x).toNat < S65536.size a)
instance k0_chk40.dec : ∀ (v269 : IVec S16 32), Decidable (k0_chk40 v269) := fun v269 => decidable_of_iff' _ (Iff.of_eq (k0_chk40.eq_1 v269))
theorem k0_idx40_inb : ∀ (v269 : IVec S16 32) (k0_hw40 : k0_chk40 v269), ∀ a x, ((![v269] : Fin 1 → IVec S16 32) a x).toNat < S65536.size a := fun v269 k0_hw40 => k0_hw40

def k0_chk41 (v274 : IVec S16 32) : Prop :=
  (∀ a x, ((![v274] : Fin 1 → IVec S16 32) a x).toNat < S65536.size a)
instance k0_chk41.dec : ∀ (v274 : IVec S16 32), Decidable (k0_chk41 v274) := fun v274 => decidable_of_iff' _ (Iff.of_eq (k0_chk41.eq_1 v274))
theorem k0_idx41_inb : ∀ (v274 : IVec S16 32) (k0_hw41 : k0_chk41 v274), ∀ a x, ((![v274] : Fin 1 → IVec S16 32) a x).toNat < S65536.size a := fun v274 k0_hw41 => k0_hw41

def k0_chk42 (v279 : IVec S16 32) : Prop :=
  (∀ a x, ((![v279] : Fin 1 → IVec S16 32) a x).toNat < S65536.size a)
instance k0_chk42.dec : ∀ (v279 : IVec S16 32), Decidable (k0_chk42 v279) := fun v279 => decidable_of_iff' _ (Iff.of_eq (k0_chk42.eq_1 v279))
theorem k0_idx42_inb : ∀ (v279 : IVec S16 32) (k0_hw42 : k0_chk42 v279), ∀ a x, ((![v279] : Fin 1 → IVec S16 32) a x).toNat < S65536.size a := fun v279 k0_hw42 => k0_hw42

def k0_chk43 (v284 : IVec S16 32) : Prop :=
  (∀ a x, ((![v284] : Fin 1 → IVec S16 32) a x).toNat < S65536.size a)
instance k0_chk43.dec : ∀ (v284 : IVec S16 32), Decidable (k0_chk43 v284) := fun v284 => decidable_of_iff' _ (Iff.of_eq (k0_chk43.eq_1 v284))
theorem k0_idx43_inb : ∀ (v284 : IVec S16 32) (k0_hw43 : k0_chk43 v284), ∀ a x, ((![v284] : Fin 1 → IVec S16 32) a x).toNat < S65536.size a := fun v284 k0_hw43 => k0_hw43

def k0_chk44 (v289 : IVec S16 32) : Prop :=
  (∀ a x, ((![v289] : Fin 1 → IVec S16 32) a x).toNat < S65536.size a)
instance k0_chk44.dec : ∀ (v289 : IVec S16 32), Decidable (k0_chk44 v289) := fun v289 => decidable_of_iff' _ (Iff.of_eq (k0_chk44.eq_1 v289))
theorem k0_idx44_inb : ∀ (v289 : IVec S16 32) (k0_hw44 : k0_chk44 v289), ∀ a x, ((![v289] : Fin 1 → IVec S16 32) a x).toNat < S65536.size a := fun v289 k0_hw44 => k0_hw44

def k0_chk45 (v294 : IVec S16 32) : Prop :=
  (∀ a x, ((![v294] : Fin 1 → IVec S16 32) a x).toNat < S65536.size a)
instance k0_chk45.dec : ∀ (v294 : IVec S16 32), Decidable (k0_chk45 v294) := fun v294 => decidable_of_iff' _ (Iff.of_eq (k0_chk45.eq_1 v294))
theorem k0_idx45_inb : ∀ (v294 : IVec S16 32) (k0_hw45 : k0_chk45 v294), ∀ a x, ((![v294] : Fin 1 → IVec S16 32) a x).toNat < S65536.size a := fun v294 k0_hw45 => k0_hw45

def k0_chk46 (v299 : IVec S16 32) : Prop :=
  (∀ a x, ((![v299] : Fin 1 → IVec S16 32) a x).toNat < S65536.size a)
instance k0_chk46.dec : ∀ (v299 : IVec S16 32), Decidable (k0_chk46 v299) := fun v299 => decidable_of_iff' _ (Iff.of_eq (k0_chk46.eq_1 v299))
theorem k0_idx46_inb : ∀ (v299 : IVec S16 32) (k0_hw46 : k0_chk46 v299), ∀ a x, ((![v299] : Fin 1 → IVec S16 32) a x).toNat < S65536.size a := fun v299 k0_hw46 => k0_hw46

def k0_chk47 (v304 : IVec S16 32) : Prop :=
  (∀ a x, ((![v304] : Fin 1 → IVec S16 32) a x).toNat < S65536.size a)
instance k0_chk47.dec : ∀ (v304 : IVec S16 32), Decidable (k0_chk47 v304) := fun v304 => decidable_of_iff' _ (Iff.of_eq (k0_chk47.eq_1 v304))
theorem k0_idx47_inb : ∀ (v304 : IVec S16 32) (k0_hw47 : k0_chk47 v304), ∀ a x, ((![v304] : Fin 1 → IVec S16 32) a x).toNat < S65536.size a := fun v304 k0_hw47 => k0_hw47

def k0_chk48 (v309 : IVec S16 32) : Prop :=
  (∀ a x, ((![v309] : Fin 1 → IVec S16 32) a x).toNat < S65536.size a)
instance k0_chk48.dec : ∀ (v309 : IVec S16 32), Decidable (k0_chk48 v309) := fun v309 => decidable_of_iff' _ (Iff.of_eq (k0_chk48.eq_1 v309))
theorem k0_idx48_inb : ∀ (v309 : IVec S16 32) (k0_hw48 : k0_chk48 v309), ∀ a x, ((![v309] : Fin 1 → IVec S16 32) a x).toNat < S65536.size a := fun v309 k0_hw48 => k0_hw48
@[reducible] def k0_t5_loop : Scf.Loop 32 :=
  let c0_i32_24 : BitVec 32 := 0#32
  let c64_i32_25 : BitVec 32 := 64#32
  let v39 : BitVec 32 := Scalar.addi c0_i32_24 c64_i32_25
  let c1_i32_26 : BitVec 32 := 1#32
  ⟨c0_i32_24, v39, c1_i32_26⟩
def k0_off6 (k0_t5 : Fin k0_t5_loop.trips) (c0_i32_196 : BitVec 32) : Fin 1 → Nat :=
  let c0_i32_24 : BitVec 32 := 0#32
  let c1_i32_26 : BitVec 32 := 1#32
  let arg11 : BitVec 32 := Scf.iv c0_i32_24 c1_i32_26 k0_t5
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk49 (v234 : IVec S16 32) : Prop :=
  (∀ a x, ((![v234] : Fin 1 → IVec S16 32) a x).toNat < S65536.size a)
instance k0_chk49.dec : ∀ (v234 : IVec S16 32), Decidable (k0_chk49 v234) := fun v234 => decidable_of_iff' _ (Iff.of_eq (k0_chk49.eq_1 v234))
theorem k0_idx49_inb : ∀ (v234 : IVec S16 32) (k0_hw49 : k0_chk49 v234), ∀ a x, ((![v234] : Fin 1 → IVec S16 32) a x).toNat < S65536.size a := fun v234 k0_hw49 => k0_hw49

def k0_chk50 (v239 : IVec S16 32) : Prop :=
  (∀ a x, ((![v239] : Fin 1 → IVec S16 32) a x).toNat < S65536.size a)
instance k0_chk50.dec : ∀ (v239 : IVec S16 32), Decidable (k0_chk50 v239) := fun v239 => decidable_of_iff' _ (Iff.of_eq (k0_chk50.eq_1 v239))
theorem k0_idx50_inb : ∀ (v239 : IVec S16 32) (k0_hw50 : k0_chk50 v239), ∀ a x, ((![v239] : Fin 1 → IVec S16 32) a x).toNat < S65536.size a := fun v239 k0_hw50 => k0_hw50

def k0_chk51 (v244 : IVec S16 32) : Prop :=
  (∀ a x, ((![v244] : Fin 1 → IVec S16 32) a x).toNat < S65536.size a)
instance k0_chk51.dec : ∀ (v244 : IVec S16 32), Decidable (k0_chk51 v244) := fun v244 => decidable_of_iff' _ (Iff.of_eq (k0_chk51.eq_1 v244))
theorem k0_idx51_inb : ∀ (v244 : IVec S16 32) (k0_hw51 : k0_chk51 v244), ∀ a x, ((![v244] : Fin 1 → IVec S16 32) a x).toNat < S65536.size a := fun v244 k0_hw51 => k0_hw51

def k0_chk52 (v249 : IVec S16 32) : Prop :=
  (∀ a x, ((![v249] : Fin 1 → IVec S16 32) a x).toNat < S65536.size a)
instance k0_chk52.dec : ∀ (v249 : IVec S16 32), Decidable (k0_chk52 v249) := fun v249 => decidable_of_iff' _ (Iff.of_eq (k0_chk52.eq_1 v249))
theorem k0_idx52_inb : ∀ (v249 : IVec S16 32) (k0_hw52 : k0_chk52 v249), ∀ a x, ((![v249] : Fin 1 → IVec S16 32) a x).toNat < S65536.size a := fun v249 k0_hw52 => k0_hw52

def k0_chk53 (v254 : IVec S16 32) : Prop :=
  (∀ a x, ((![v254] : Fin 1 → IVec S16 32) a x).toNat < S65536.size a)
instance k0_chk53.dec : ∀ (v254 : IVec S16 32), Decidable (k0_chk53 v254) := fun v254 => decidable_of_iff' _ (Iff.of_eq (k0_chk53.eq_1 v254))
theorem k0_idx53_inb : ∀ (v254 : IVec S16 32) (k0_hw53 : k0_chk53 v254), ∀ a x, ((![v254] : Fin 1 → IVec S16 32) a x).toNat < S65536.size a := fun v254 k0_hw53 => k0_hw53

def k0_chk54 (v259 : IVec S16 32) : Prop :=
  (∀ a x, ((![v259] : Fin 1 → IVec S16 32) a x).toNat < S65536.size a)
instance k0_chk54.dec : ∀ (v259 : IVec S16 32), Decidable (k0_chk54 v259) := fun v259 => decidable_of_iff' _ (Iff.of_eq (k0_chk54.eq_1 v259))
theorem k0_idx54_inb : ∀ (v259 : IVec S16 32) (k0_hw54 : k0_chk54 v259), ∀ a x, ((![v259] : Fin 1 → IVec S16 32) a x).toNat < S65536.size a := fun v259 k0_hw54 => k0_hw54

def k0_chk55 (v264 : IVec S16 32) : Prop :=
  (∀ a x, ((![v264] : Fin 1 → IVec S16 32) a x).toNat < S65536.size a)
instance k0_chk55.dec : ∀ (v264 : IVec S16 32), Decidable (k0_chk55 v264) := fun v264 => decidable_of_iff' _ (Iff.of_eq (k0_chk55.eq_1 v264))
theorem k0_idx55_inb : ∀ (v264 : IVec S16 32) (k0_hw55 : k0_chk55 v264), ∀ a x, ((![v264] : Fin 1 → IVec S16 32) a x).toNat < S65536.size a := fun v264 k0_hw55 => k0_hw55

def k0_chk56 (v269 : IVec S16 32) : Prop :=
  (∀ a x, ((![v269] : Fin 1 → IVec S16 32) a x).toNat < S65536.size a)
instance k0_chk56.dec : ∀ (v269 : IVec S16 32), Decidable (k0_chk56 v269) := fun v269 => decidable_of_iff' _ (Iff.of_eq (k0_chk56.eq_1 v269))
theorem k0_idx56_inb : ∀ (v269 : IVec S16 32) (k0_hw56 : k0_chk56 v269), ∀ a x, ((![v269] : Fin 1 → IVec S16 32) a x).toNat < S65536.size a := fun v269 k0_hw56 => k0_hw56

def k0_chk57 (v274 : IVec S16 32) : Prop :=
  (∀ a x, ((![v274] : Fin 1 → IVec S16 32) a x).toNat < S65536.size a)
instance k0_chk57.dec : ∀ (v274 : IVec S16 32), Decidable (k0_chk57 v274) := fun v274 => decidable_of_iff' _ (Iff.of_eq (k0_chk57.eq_1 v274))
theorem k0_idx57_inb : ∀ (v274 : IVec S16 32) (k0_hw57 : k0_chk57 v274), ∀ a x, ((![v274] : Fin 1 → IVec S16 32) a x).toNat < S65536.size a := fun v274 k0_hw57 => k0_hw57

def k0_chk58 (v279 : IVec S16 32) : Prop :=
  (∀ a x, ((![v279] : Fin 1 → IVec S16 32) a x).toNat < S65536.size a)
instance k0_chk58.dec : ∀ (v279 : IVec S16 32), Decidable (k0_chk58 v279) := fun v279 => decidable_of_iff' _ (Iff.of_eq (k0_chk58.eq_1 v279))
theorem k0_idx58_inb : ∀ (v279 : IVec S16 32) (k0_hw58 : k0_chk58 v279), ∀ a x, ((![v279] : Fin 1 → IVec S16 32) a x).toNat < S65536.size a := fun v279 k0_hw58 => k0_hw58

def k0_chk59 (v284 : IVec S16 32) : Prop :=
  (∀ a x, ((![v284] : Fin 1 → IVec S16 32) a x).toNat < S65536.size a)
instance k0_chk59.dec : ∀ (v284 : IVec S16 32), Decidable (k0_chk59 v284) := fun v284 => decidable_of_iff' _ (Iff.of_eq (k0_chk59.eq_1 v284))
theorem k0_idx59_inb : ∀ (v284 : IVec S16 32) (k0_hw59 : k0_chk59 v284), ∀ a x, ((![v284] : Fin 1 → IVec S16 32) a x).toNat < S65536.size a := fun v284 k0_hw59 => k0_hw59

def k0_chk60 (v289 : IVec S16 32) : Prop :=
  (∀ a x, ((![v289] : Fin 1 → IVec S16 32) a x).toNat < S65536.size a)
instance k0_chk60.dec : ∀ (v289 : IVec S16 32), Decidable (k0_chk60 v289) := fun v289 => decidable_of_iff' _ (Iff.of_eq (k0_chk60.eq_1 v289))
theorem k0_idx60_inb : ∀ (v289 : IVec S16 32) (k0_hw60 : k0_chk60 v289), ∀ a x, ((![v289] : Fin 1 → IVec S16 32) a x).toNat < S65536.size a := fun v289 k0_hw60 => k0_hw60

def k0_chk61 (v294 : IVec S16 32) : Prop :=
  (∀ a x, ((![v294] : Fin 1 → IVec S16 32) a x).toNat < S65536.size a)
instance k0_chk61.dec : ∀ (v294 : IVec S16 32), Decidable (k0_chk61 v294) := fun v294 => decidable_of_iff' _ (Iff.of_eq (k0_chk61.eq_1 v294))
theorem k0_idx61_inb : ∀ (v294 : IVec S16 32) (k0_hw61 : k0_chk61 v294), ∀ a x, ((![v294] : Fin 1 → IVec S16 32) a x).toNat < S65536.size a := fun v294 k0_hw61 => k0_hw61

def k0_chk62 (v299 : IVec S16 32) : Prop :=
  (∀ a x, ((![v299] : Fin 1 → IVec S16 32) a x).toNat < S65536.size a)
instance k0_chk62.dec : ∀ (v299 : IVec S16 32), Decidable (k0_chk62 v299) := fun v299 => decidable_of_iff' _ (Iff.of_eq (k0_chk62.eq_1 v299))
theorem k0_idx62_inb : ∀ (v299 : IVec S16 32) (k0_hw62 : k0_chk62 v299), ∀ a x, ((![v299] : Fin 1 → IVec S16 32) a x).toNat < S65536.size a := fun v299 k0_hw62 => k0_hw62

def k0_chk63 (v304 : IVec S16 32) : Prop :=
  (∀ a x, ((![v304] : Fin 1 → IVec S16 32) a x).toNat < S65536.size a)
instance k0_chk63.dec : ∀ (v304 : IVec S16 32), Decidable (k0_chk63 v304) := fun v304 => decidable_of_iff' _ (Iff.of_eq (k0_chk63.eq_1 v304))
theorem k0_idx63_inb : ∀ (v304 : IVec S16 32) (k0_hw63 : k0_chk63 v304), ∀ a x, ((![v304] : Fin 1 → IVec S16 32) a x).toNat < S65536.size a := fun v304 k0_hw63 => k0_hw63

def k0_chk64 (v309 : IVec S16 32) : Prop :=
  (∀ a x, ((![v309] : Fin 1 → IVec S16 32) a x).toNat < S65536.size a)
instance k0_chk64.dec : ∀ (v309 : IVec S16 32), Decidable (k0_chk64 v309) := fun v309 => decidable_of_iff' _ (Iff.of_eq (k0_chk64.eq_1 v309))
theorem k0_idx64_inb : ∀ (v309 : IVec S16 32) (k0_hw64 : k0_chk64 v309), ∀ a x, ((![v309] : Fin 1 → IVec S16 32) a x).toNat < S65536.size a := fun v309 k0_hw64 => k0_hw64
@[reducible] def k0_t6_loop : Scf.Loop 32 :=
  let c0_i32_30 : BitVec 32 := 0#32
  let c64_i32_31 : BitVec 32 := 64#32
  let v46 : BitVec 32 := Scalar.addi c0_i32_30 c64_i32_31
  let c1_i32_32 : BitVec 32 := 1#32
  ⟨c0_i32_30, v46, c1_i32_32⟩
def k0_off7 (k0_t6 : Fin k0_t6_loop.trips) (c0_i32_196 : BitVec 32) : Fin 1 → Nat :=
  let c0_i32_30 : BitVec 32 := 0#32
  let c1_i32_32 : BitVec 32 := 1#32
  let arg11 : BitVec 32 := Scf.iv c0_i32_30 c1_i32_32 k0_t6
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk65 (v234 : IVec S16 32) : Prop :=
  (∀ a x, ((![v234] : Fin 1 → IVec S16 32) a x).toNat < S65536.size a)
instance k0_chk65.dec : ∀ (v234 : IVec S16 32), Decidable (k0_chk65 v234) := fun v234 => decidable_of_iff' _ (Iff.of_eq (k0_chk65.eq_1 v234))
theorem k0_idx65_inb : ∀ (v234 : IVec S16 32) (k0_hw65 : k0_chk65 v234), ∀ a x, ((![v234] : Fin 1 → IVec S16 32) a x).toNat < S65536.size a := fun v234 k0_hw65 => k0_hw65

def k0_chk66 (v239 : IVec S16 32) : Prop :=
  (∀ a x, ((![v239] : Fin 1 → IVec S16 32) a x).toNat < S65536.size a)
instance k0_chk66.dec : ∀ (v239 : IVec S16 32), Decidable (k0_chk66 v239) := fun v239 => decidable_of_iff' _ (Iff.of_eq (k0_chk66.eq_1 v239))
theorem k0_idx66_inb : ∀ (v239 : IVec S16 32) (k0_hw66 : k0_chk66 v239), ∀ a x, ((![v239] : Fin 1 → IVec S16 32) a x).toNat < S65536.size a := fun v239 k0_hw66 => k0_hw66

def k0_chk67 (v244 : IVec S16 32) : Prop :=
  (∀ a x, ((![v244] : Fin 1 → IVec S16 32) a x).toNat < S65536.size a)
instance k0_chk67.dec : ∀ (v244 : IVec S16 32), Decidable (k0_chk67 v244) := fun v244 => decidable_of_iff' _ (Iff.of_eq (k0_chk67.eq_1 v244))
theorem k0_idx67_inb : ∀ (v244 : IVec S16 32) (k0_hw67 : k0_chk67 v244), ∀ a x, ((![v244] : Fin 1 → IVec S16 32) a x).toNat < S65536.size a := fun v244 k0_hw67 => k0_hw67

def k0_chk68 (v249 : IVec S16 32) : Prop :=
  (∀ a x, ((![v249] : Fin 1 → IVec S16 32) a x).toNat < S65536.size a)
instance k0_chk68.dec : ∀ (v249 : IVec S16 32), Decidable (k0_chk68 v249) := fun v249 => decidable_of_iff' _ (Iff.of_eq (k0_chk68.eq_1 v249))
theorem k0_idx68_inb : ∀ (v249 : IVec S16 32) (k0_hw68 : k0_chk68 v249), ∀ a x, ((![v249] : Fin 1 → IVec S16 32) a x).toNat < S65536.size a := fun v249 k0_hw68 => k0_hw68

def k0_chk69 (v254 : IVec S16 32) : Prop :=
  (∀ a x, ((![v254] : Fin 1 → IVec S16 32) a x).toNat < S65536.size a)
instance k0_chk69.dec : ∀ (v254 : IVec S16 32), Decidable (k0_chk69 v254) := fun v254 => decidable_of_iff' _ (Iff.of_eq (k0_chk69.eq_1 v254))
theorem k0_idx69_inb : ∀ (v254 : IVec S16 32) (k0_hw69 : k0_chk69 v254), ∀ a x, ((![v254] : Fin 1 → IVec S16 32) a x).toNat < S65536.size a := fun v254 k0_hw69 => k0_hw69

def k0_chk70 (v259 : IVec S16 32) : Prop :=
  (∀ a x, ((![v259] : Fin 1 → IVec S16 32) a x).toNat < S65536.size a)
instance k0_chk70.dec : ∀ (v259 : IVec S16 32), Decidable (k0_chk70 v259) := fun v259 => decidable_of_iff' _ (Iff.of_eq (k0_chk70.eq_1 v259))
theorem k0_idx70_inb : ∀ (v259 : IVec S16 32) (k0_hw70 : k0_chk70 v259), ∀ a x, ((![v259] : Fin 1 → IVec S16 32) a x).toNat < S65536.size a := fun v259 k0_hw70 => k0_hw70

def k0_chk71 (v264 : IVec S16 32) : Prop :=
  (∀ a x, ((![v264] : Fin 1 → IVec S16 32) a x).toNat < S65536.size a)
instance k0_chk71.dec : ∀ (v264 : IVec S16 32), Decidable (k0_chk71 v264) := fun v264 => decidable_of_iff' _ (Iff.of_eq (k0_chk71.eq_1 v264))
theorem k0_idx71_inb : ∀ (v264 : IVec S16 32) (k0_hw71 : k0_chk71 v264), ∀ a x, ((![v264] : Fin 1 → IVec S16 32) a x).toNat < S65536.size a := fun v264 k0_hw71 => k0_hw71

def k0_chk72 (v269 : IVec S16 32) : Prop :=
  (∀ a x, ((![v269] : Fin 1 → IVec S16 32) a x).toNat < S65536.size a)
instance k0_chk72.dec : ∀ (v269 : IVec S16 32), Decidable (k0_chk72 v269) := fun v269 => decidable_of_iff' _ (Iff.of_eq (k0_chk72.eq_1 v269))
theorem k0_idx72_inb : ∀ (v269 : IVec S16 32) (k0_hw72 : k0_chk72 v269), ∀ a x, ((![v269] : Fin 1 → IVec S16 32) a x).toNat < S65536.size a := fun v269 k0_hw72 => k0_hw72

def k0_chk73 (v274 : IVec S16 32) : Prop :=
  (∀ a x, ((![v274] : Fin 1 → IVec S16 32) a x).toNat < S65536.size a)
instance k0_chk73.dec : ∀ (v274 : IVec S16 32), Decidable (k0_chk73 v274) := fun v274 => decidable_of_iff' _ (Iff.of_eq (k0_chk73.eq_1 v274))
theorem k0_idx73_inb : ∀ (v274 : IVec S16 32) (k0_hw73 : k0_chk73 v274), ∀ a x, ((![v274] : Fin 1 → IVec S16 32) a x).toNat < S65536.size a := fun v274 k0_hw73 => k0_hw73

def k0_chk74 (v279 : IVec S16 32) : Prop :=
  (∀ a x, ((![v279] : Fin 1 → IVec S16 32) a x).toNat < S65536.size a)
instance k0_chk74.dec : ∀ (v279 : IVec S16 32), Decidable (k0_chk74 v279) := fun v279 => decidable_of_iff' _ (Iff.of_eq (k0_chk74.eq_1 v279))
theorem k0_idx74_inb : ∀ (v279 : IVec S16 32) (k0_hw74 : k0_chk74 v279), ∀ a x, ((![v279] : Fin 1 → IVec S16 32) a x).toNat < S65536.size a := fun v279 k0_hw74 => k0_hw74

def k0_chk75 (v284 : IVec S16 32) : Prop :=
  (∀ a x, ((![v284] : Fin 1 → IVec S16 32) a x).toNat < S65536.size a)
instance k0_chk75.dec : ∀ (v284 : IVec S16 32), Decidable (k0_chk75 v284) := fun v284 => decidable_of_iff' _ (Iff.of_eq (k0_chk75.eq_1 v284))
theorem k0_idx75_inb : ∀ (v284 : IVec S16 32) (k0_hw75 : k0_chk75 v284), ∀ a x, ((![v284] : Fin 1 → IVec S16 32) a x).toNat < S65536.size a := fun v284 k0_hw75 => k0_hw75

def k0_chk76 (v289 : IVec S16 32) : Prop :=
  (∀ a x, ((![v289] : Fin 1 → IVec S16 32) a x).toNat < S65536.size a)
instance k0_chk76.dec : ∀ (v289 : IVec S16 32), Decidable (k0_chk76 v289) := fun v289 => decidable_of_iff' _ (Iff.of_eq (k0_chk76.eq_1 v289))
theorem k0_idx76_inb : ∀ (v289 : IVec S16 32) (k0_hw76 : k0_chk76 v289), ∀ a x, ((![v289] : Fin 1 → IVec S16 32) a x).toNat < S65536.size a := fun v289 k0_hw76 => k0_hw76

def k0_chk77 (v294 : IVec S16 32) : Prop :=
  (∀ a x, ((![v294] : Fin 1 → IVec S16 32) a x).toNat < S65536.size a)
instance k0_chk77.dec : ∀ (v294 : IVec S16 32), Decidable (k0_chk77 v294) := fun v294 => decidable_of_iff' _ (Iff.of_eq (k0_chk77.eq_1 v294))
theorem k0_idx77_inb : ∀ (v294 : IVec S16 32) (k0_hw77 : k0_chk77 v294), ∀ a x, ((![v294] : Fin 1 → IVec S16 32) a x).toNat < S65536.size a := fun v294 k0_hw77 => k0_hw77

def k0_chk78 (v299 : IVec S16 32) : Prop :=
  (∀ a x, ((![v299] : Fin 1 → IVec S16 32) a x).toNat < S65536.size a)
instance k0_chk78.dec : ∀ (v299 : IVec S16 32), Decidable (k0_chk78 v299) := fun v299 => decidable_of_iff' _ (Iff.of_eq (k0_chk78.eq_1 v299))
theorem k0_idx78_inb : ∀ (v299 : IVec S16 32) (k0_hw78 : k0_chk78 v299), ∀ a x, ((![v299] : Fin 1 → IVec S16 32) a x).toNat < S65536.size a := fun v299 k0_hw78 => k0_hw78

def k0_chk79 (v304 : IVec S16 32) : Prop :=
  (∀ a x, ((![v304] : Fin 1 → IVec S16 32) a x).toNat < S65536.size a)
instance k0_chk79.dec : ∀ (v304 : IVec S16 32), Decidable (k0_chk79 v304) := fun v304 => decidable_of_iff' _ (Iff.of_eq (k0_chk79.eq_1 v304))
theorem k0_idx79_inb : ∀ (v304 : IVec S16 32) (k0_hw79 : k0_chk79 v304), ∀ a x, ((![v304] : Fin 1 → IVec S16 32) a x).toNat < S65536.size a := fun v304 k0_hw79 => k0_hw79

def k0_chk80 (v309 : IVec S16 32) : Prop :=
  (∀ a x, ((![v309] : Fin 1 → IVec S16 32) a x).toNat < S65536.size a)
instance k0_chk80.dec : ∀ (v309 : IVec S16 32), Decidable (k0_chk80 v309) := fun v309 => decidable_of_iff' _ (Iff.of_eq (k0_chk80.eq_1 v309))
theorem k0_idx80_inb : ∀ (v309 : IVec S16 32) (k0_hw80 : k0_chk80 v309), ∀ a x, ((![v309] : Fin 1 → IVec S16 32) a x).toNat < S65536.size a := fun v309 k0_hw80 => k0_hw80
@[reducible] def k0_t7_loop : Scf.Loop 32 :=
  let c0_i32_36 : BitVec 32 := 0#32
  let c64_i32_37 : BitVec 32 := 64#32
  let v53 : BitVec 32 := Scalar.addi c0_i32_36 c64_i32_37
  let c1_i32_38 : BitVec 32 := 1#32
  ⟨c0_i32_36, v53, c1_i32_38⟩
def k0_off8 (k0_t7 : Fin k0_t7_loop.trips) (c0_i32_196 : BitVec 32) : Fin 1 → Nat :=
  let c0_i32_36 : BitVec 32 := 0#32
  let c1_i32_38 : BitVec 32 := 1#32
  let arg11 : BitVec 32 := Scf.iv c0_i32_36 c1_i32_38 k0_t7
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk81 (v234 : IVec S16 32) : Prop :=
  (∀ a x, ((![v234] : Fin 1 → IVec S16 32) a x).toNat < S65536.size a)
instance k0_chk81.dec : ∀ (v234 : IVec S16 32), Decidable (k0_chk81 v234) := fun v234 => decidable_of_iff' _ (Iff.of_eq (k0_chk81.eq_1 v234))
theorem k0_idx81_inb : ∀ (v234 : IVec S16 32) (k0_hw81 : k0_chk81 v234), ∀ a x, ((![v234] : Fin 1 → IVec S16 32) a x).toNat < S65536.size a := fun v234 k0_hw81 => k0_hw81

def k0_chk82 (v239 : IVec S16 32) : Prop :=
  (∀ a x, ((![v239] : Fin 1 → IVec S16 32) a x).toNat < S65536.size a)
instance k0_chk82.dec : ∀ (v239 : IVec S16 32), Decidable (k0_chk82 v239) := fun v239 => decidable_of_iff' _ (Iff.of_eq (k0_chk82.eq_1 v239))
theorem k0_idx82_inb : ∀ (v239 : IVec S16 32) (k0_hw82 : k0_chk82 v239), ∀ a x, ((![v239] : Fin 1 → IVec S16 32) a x).toNat < S65536.size a := fun v239 k0_hw82 => k0_hw82

def k0_chk83 (v244 : IVec S16 32) : Prop :=
  (∀ a x, ((![v244] : Fin 1 → IVec S16 32) a x).toNat < S65536.size a)
instance k0_chk83.dec : ∀ (v244 : IVec S16 32), Decidable (k0_chk83 v244) := fun v244 => decidable_of_iff' _ (Iff.of_eq (k0_chk83.eq_1 v244))
theorem k0_idx83_inb : ∀ (v244 : IVec S16 32) (k0_hw83 : k0_chk83 v244), ∀ a x, ((![v244] : Fin 1 → IVec S16 32) a x).toNat < S65536.size a := fun v244 k0_hw83 => k0_hw83

def k0_chk84 (v249 : IVec S16 32) : Prop :=
  (∀ a x, ((![v249] : Fin 1 → IVec S16 32) a x).toNat < S65536.size a)
instance k0_chk84.dec : ∀ (v249 : IVec S16 32), Decidable (k0_chk84 v249) := fun v249 => decidable_of_iff' _ (Iff.of_eq (k0_chk84.eq_1 v249))
theorem k0_idx84_inb : ∀ (v249 : IVec S16 32) (k0_hw84 : k0_chk84 v249), ∀ a x, ((![v249] : Fin 1 → IVec S16 32) a x).toNat < S65536.size a := fun v249 k0_hw84 => k0_hw84

def k0_chk85 (v254 : IVec S16 32) : Prop :=
  (∀ a x, ((![v254] : Fin 1 → IVec S16 32) a x).toNat < S65536.size a)
instance k0_chk85.dec : ∀ (v254 : IVec S16 32), Decidable (k0_chk85 v254) := fun v254 => decidable_of_iff' _ (Iff.of_eq (k0_chk85.eq_1 v254))
theorem k0_idx85_inb : ∀ (v254 : IVec S16 32) (k0_hw85 : k0_chk85 v254), ∀ a x, ((![v254] : Fin 1 → IVec S16 32) a x).toNat < S65536.size a := fun v254 k0_hw85 => k0_hw85

def k0_chk86 (v259 : IVec S16 32) : Prop :=
  (∀ a x, ((![v259] : Fin 1 → IVec S16 32) a x).toNat < S65536.size a)
instance k0_chk86.dec : ∀ (v259 : IVec S16 32), Decidable (k0_chk86 v259) := fun v259 => decidable_of_iff' _ (Iff.of_eq (k0_chk86.eq_1 v259))
theorem k0_idx86_inb : ∀ (v259 : IVec S16 32) (k0_hw86 : k0_chk86 v259), ∀ a x, ((![v259] : Fin 1 → IVec S16 32) a x).toNat < S65536.size a := fun v259 k0_hw86 => k0_hw86

def k0_chk87 (v264 : IVec S16 32) : Prop :=
  (∀ a x, ((![v264] : Fin 1 → IVec S16 32) a x).toNat < S65536.size a)
instance k0_chk87.dec : ∀ (v264 : IVec S16 32), Decidable (k0_chk87 v264) := fun v264 => decidable_of_iff' _ (Iff.of_eq (k0_chk87.eq_1 v264))
theorem k0_idx87_inb : ∀ (v264 : IVec S16 32) (k0_hw87 : k0_chk87 v264), ∀ a x, ((![v264] : Fin 1 → IVec S16 32) a x).toNat < S65536.size a := fun v264 k0_hw87 => k0_hw87

def k0_chk88 (v269 : IVec S16 32) : Prop :=
  (∀ a x, ((![v269] : Fin 1 → IVec S16 32) a x).toNat < S65536.size a)
instance k0_chk88.dec : ∀ (v269 : IVec S16 32), Decidable (k0_chk88 v269) := fun v269 => decidable_of_iff' _ (Iff.of_eq (k0_chk88.eq_1 v269))
theorem k0_idx88_inb : ∀ (v269 : IVec S16 32) (k0_hw88 : k0_chk88 v269), ∀ a x, ((![v269] : Fin 1 → IVec S16 32) a x).toNat < S65536.size a := fun v269 k0_hw88 => k0_hw88

def k0_chk89 (v274 : IVec S16 32) : Prop :=
  (∀ a x, ((![v274] : Fin 1 → IVec S16 32) a x).toNat < S65536.size a)
instance k0_chk89.dec : ∀ (v274 : IVec S16 32), Decidable (k0_chk89 v274) := fun v274 => decidable_of_iff' _ (Iff.of_eq (k0_chk89.eq_1 v274))
theorem k0_idx89_inb : ∀ (v274 : IVec S16 32) (k0_hw89 : k0_chk89 v274), ∀ a x, ((![v274] : Fin 1 → IVec S16 32) a x).toNat < S65536.size a := fun v274 k0_hw89 => k0_hw89

def k0_chk90 (v279 : IVec S16 32) : Prop :=
  (∀ a x, ((![v279] : Fin 1 → IVec S16 32) a x).toNat < S65536.size a)
instance k0_chk90.dec : ∀ (v279 : IVec S16 32), Decidable (k0_chk90 v279) := fun v279 => decidable_of_iff' _ (Iff.of_eq (k0_chk90.eq_1 v279))
theorem k0_idx90_inb : ∀ (v279 : IVec S16 32) (k0_hw90 : k0_chk90 v279), ∀ a x, ((![v279] : Fin 1 → IVec S16 32) a x).toNat < S65536.size a := fun v279 k0_hw90 => k0_hw90

def k0_chk91 (v284 : IVec S16 32) : Prop :=
  (∀ a x, ((![v284] : Fin 1 → IVec S16 32) a x).toNat < S65536.size a)
instance k0_chk91.dec : ∀ (v284 : IVec S16 32), Decidable (k0_chk91 v284) := fun v284 => decidable_of_iff' _ (Iff.of_eq (k0_chk91.eq_1 v284))
theorem k0_idx91_inb : ∀ (v284 : IVec S16 32) (k0_hw91 : k0_chk91 v284), ∀ a x, ((![v284] : Fin 1 → IVec S16 32) a x).toNat < S65536.size a := fun v284 k0_hw91 => k0_hw91

def k0_chk92 (v289 : IVec S16 32) : Prop :=
  (∀ a x, ((![v289] : Fin 1 → IVec S16 32) a x).toNat < S65536.size a)
instance k0_chk92.dec : ∀ (v289 : IVec S16 32), Decidable (k0_chk92 v289) := fun v289 => decidable_of_iff' _ (Iff.of_eq (k0_chk92.eq_1 v289))
theorem k0_idx92_inb : ∀ (v289 : IVec S16 32) (k0_hw92 : k0_chk92 v289), ∀ a x, ((![v289] : Fin 1 → IVec S16 32) a x).toNat < S65536.size a := fun v289 k0_hw92 => k0_hw92

def k0_chk93 (v294 : IVec S16 32) : Prop :=
  (∀ a x, ((![v294] : Fin 1 → IVec S16 32) a x).toNat < S65536.size a)
instance k0_chk93.dec : ∀ (v294 : IVec S16 32), Decidable (k0_chk93 v294) := fun v294 => decidable_of_iff' _ (Iff.of_eq (k0_chk93.eq_1 v294))
theorem k0_idx93_inb : ∀ (v294 : IVec S16 32) (k0_hw93 : k0_chk93 v294), ∀ a x, ((![v294] : Fin 1 → IVec S16 32) a x).toNat < S65536.size a := fun v294 k0_hw93 => k0_hw93

def k0_chk94 (v299 : IVec S16 32) : Prop :=
  (∀ a x, ((![v299] : Fin 1 → IVec S16 32) a x).toNat < S65536.size a)
instance k0_chk94.dec : ∀ (v299 : IVec S16 32), Decidable (k0_chk94 v299) := fun v299 => decidable_of_iff' _ (Iff.of_eq (k0_chk94.eq_1 v299))
theorem k0_idx94_inb : ∀ (v299 : IVec S16 32) (k0_hw94 : k0_chk94 v299), ∀ a x, ((![v299] : Fin 1 → IVec S16 32) a x).toNat < S65536.size a := fun v299 k0_hw94 => k0_hw94

def k0_chk95 (v304 : IVec S16 32) : Prop :=
  (∀ a x, ((![v304] : Fin 1 → IVec S16 32) a x).toNat < S65536.size a)
instance k0_chk95.dec : ∀ (v304 : IVec S16 32), Decidable (k0_chk95 v304) := fun v304 => decidable_of_iff' _ (Iff.of_eq (k0_chk95.eq_1 v304))
theorem k0_idx95_inb : ∀ (v304 : IVec S16 32) (k0_hw95 : k0_chk95 v304), ∀ a x, ((![v304] : Fin 1 → IVec S16 32) a x).toNat < S65536.size a := fun v304 k0_hw95 => k0_hw95

def k0_chk96 (v309 : IVec S16 32) : Prop :=
  (∀ a x, ((![v309] : Fin 1 → IVec S16 32) a x).toNat < S65536.size a)
instance k0_chk96.dec : ∀ (v309 : IVec S16 32), Decidable (k0_chk96 v309) := fun v309 => decidable_of_iff' _ (Iff.of_eq (k0_chk96.eq_1 v309))
theorem k0_idx96_inb : ∀ (v309 : IVec S16 32) (k0_hw96 : k0_chk96 v309), ∀ a x, ((![v309] : Fin 1 → IVec S16 32) a x).toNat < S65536.size a := fun v309 k0_hw96 => k0_hw96
@[reducible] def k0_t8_loop : Scf.Loop 32 :=
  let c0_i32_42 : BitVec 32 := 0#32
  let c64_i32_43 : BitVec 32 := 64#32
  let v60 : BitVec 32 := Scalar.addi c0_i32_42 c64_i32_43
  let c1_i32_44 : BitVec 32 := 1#32
  ⟨c0_i32_42, v60, c1_i32_44⟩
def k0_off9 (k0_t8 : Fin k0_t8_loop.trips) (c0_i32_196 : BitVec 32) : Fin 1 → Nat :=
  let c0_i32_42 : BitVec 32 := 0#32
  let c1_i32_44 : BitVec 32 := 1#32
  let arg11 : BitVec 32 := Scf.iv c0_i32_42 c1_i32_44 k0_t8
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk97 (v234 : IVec S16 32) : Prop :=
  (∀ a x, ((![v234] : Fin 1 → IVec S16 32) a x).toNat < S65536.size a)
instance k0_chk97.dec : ∀ (v234 : IVec S16 32), Decidable (k0_chk97 v234) := fun v234 => decidable_of_iff' _ (Iff.of_eq (k0_chk97.eq_1 v234))
theorem k0_idx97_inb : ∀ (v234 : IVec S16 32) (k0_hw97 : k0_chk97 v234), ∀ a x, ((![v234] : Fin 1 → IVec S16 32) a x).toNat < S65536.size a := fun v234 k0_hw97 => k0_hw97

def k0_chk98 (v239 : IVec S16 32) : Prop :=
  (∀ a x, ((![v239] : Fin 1 → IVec S16 32) a x).toNat < S65536.size a)
instance k0_chk98.dec : ∀ (v239 : IVec S16 32), Decidable (k0_chk98 v239) := fun v239 => decidable_of_iff' _ (Iff.of_eq (k0_chk98.eq_1 v239))
theorem k0_idx98_inb : ∀ (v239 : IVec S16 32) (k0_hw98 : k0_chk98 v239), ∀ a x, ((![v239] : Fin 1 → IVec S16 32) a x).toNat < S65536.size a := fun v239 k0_hw98 => k0_hw98

def k0_chk99 (v244 : IVec S16 32) : Prop :=
  (∀ a x, ((![v244] : Fin 1 → IVec S16 32) a x).toNat < S65536.size a)
instance k0_chk99.dec : ∀ (v244 : IVec S16 32), Decidable (k0_chk99 v244) := fun v244 => decidable_of_iff' _ (Iff.of_eq (k0_chk99.eq_1 v244))
theorem k0_idx99_inb : ∀ (v244 : IVec S16 32) (k0_hw99 : k0_chk99 v244), ∀ a x, ((![v244] : Fin 1 → IVec S16 32) a x).toNat < S65536.size a := fun v244 k0_hw99 => k0_hw99

def k0_chk100 (v249 : IVec S16 32) : Prop :=
  (∀ a x, ((![v249] : Fin 1 → IVec S16 32) a x).toNat < S65536.size a)
instance k0_chk100.dec : ∀ (v249 : IVec S16 32), Decidable (k0_chk100 v249) := fun v249 => decidable_of_iff' _ (Iff.of_eq (k0_chk100.eq_1 v249))
theorem k0_idx100_inb : ∀ (v249 : IVec S16 32) (k0_hw100 : k0_chk100 v249), ∀ a x, ((![v249] : Fin 1 → IVec S16 32) a x).toNat < S65536.size a := fun v249 k0_hw100 => k0_hw100

def k0_chk101 (v254 : IVec S16 32) : Prop :=
  (∀ a x, ((![v254] : Fin 1 → IVec S16 32) a x).toNat < S65536.size a)
instance k0_chk101.dec : ∀ (v254 : IVec S16 32), Decidable (k0_chk101 v254) := fun v254 => decidable_of_iff' _ (Iff.of_eq (k0_chk101.eq_1 v254))
theorem k0_idx101_inb : ∀ (v254 : IVec S16 32) (k0_hw101 : k0_chk101 v254), ∀ a x, ((![v254] : Fin 1 → IVec S16 32) a x).toNat < S65536.size a := fun v254 k0_hw101 => k0_hw101

def k0_chk102 (v259 : IVec S16 32) : Prop :=
  (∀ a x, ((![v259] : Fin 1 → IVec S16 32) a x).toNat < S65536.size a)
instance k0_chk102.dec : ∀ (v259 : IVec S16 32), Decidable (k0_chk102 v259) := fun v259 => decidable_of_iff' _ (Iff.of_eq (k0_chk102.eq_1 v259))
theorem k0_idx102_inb : ∀ (v259 : IVec S16 32) (k0_hw102 : k0_chk102 v259), ∀ a x, ((![v259] : Fin 1 → IVec S16 32) a x).toNat < S65536.size a := fun v259 k0_hw102 => k0_hw102

def k0_chk103 (v264 : IVec S16 32) : Prop :=
  (∀ a x, ((![v264] : Fin 1 → IVec S16 32) a x).toNat < S65536.size a)
instance k0_chk103.dec : ∀ (v264 : IVec S16 32), Decidable (k0_chk103 v264) := fun v264 => decidable_of_iff' _ (Iff.of_eq (k0_chk103.eq_1 v264))
theorem k0_idx103_inb : ∀ (v264 : IVec S16 32) (k0_hw103 : k0_chk103 v264), ∀ a x, ((![v264] : Fin 1 → IVec S16 32) a x).toNat < S65536.size a := fun v264 k0_hw103 => k0_hw103

def k0_chk104 (v269 : IVec S16 32) : Prop :=
  (∀ a x, ((![v269] : Fin 1 → IVec S16 32) a x).toNat < S65536.size a)
instance k0_chk104.dec : ∀ (v269 : IVec S16 32), Decidable (k0_chk104 v269) := fun v269 => decidable_of_iff' _ (Iff.of_eq (k0_chk104.eq_1 v269))
theorem k0_idx104_inb : ∀ (v269 : IVec S16 32) (k0_hw104 : k0_chk104 v269), ∀ a x, ((![v269] : Fin 1 → IVec S16 32) a x).toNat < S65536.size a := fun v269 k0_hw104 => k0_hw104

def k0_chk105 (v274 : IVec S16 32) : Prop :=
  (∀ a x, ((![v274] : Fin 1 → IVec S16 32) a x).toNat < S65536.size a)
instance k0_chk105.dec : ∀ (v274 : IVec S16 32), Decidable (k0_chk105 v274) := fun v274 => decidable_of_iff' _ (Iff.of_eq (k0_chk105.eq_1 v274))
theorem k0_idx105_inb : ∀ (v274 : IVec S16 32) (k0_hw105 : k0_chk105 v274), ∀ a x, ((![v274] : Fin 1 → IVec S16 32) a x).toNat < S65536.size a := fun v274 k0_hw105 => k0_hw105

def k0_chk106 (v279 : IVec S16 32) : Prop :=
  (∀ a x, ((![v279] : Fin 1 → IVec S16 32) a x).toNat < S65536.size a)
instance k0_chk106.dec : ∀ (v279 : IVec S16 32), Decidable (k0_chk106 v279) := fun v279 => decidable_of_iff' _ (Iff.of_eq (k0_chk106.eq_1 v279))
theorem k0_idx106_inb : ∀ (v279 : IVec S16 32) (k0_hw106 : k0_chk106 v279), ∀ a x, ((![v279] : Fin 1 → IVec S16 32) a x).toNat < S65536.size a := fun v279 k0_hw106 => k0_hw106

def k0_chk107 (v284 : IVec S16 32) : Prop :=
  (∀ a x, ((![v284] : Fin 1 → IVec S16 32) a x).toNat < S65536.size a)
instance k0_chk107.dec : ∀ (v284 : IVec S16 32), Decidable (k0_chk107 v284) := fun v284 => decidable_of_iff' _ (Iff.of_eq (k0_chk107.eq_1 v284))
theorem k0_idx107_inb : ∀ (v284 : IVec S16 32) (k0_hw107 : k0_chk107 v284), ∀ a x, ((![v284] : Fin 1 → IVec S16 32) a x).toNat < S65536.size a := fun v284 k0_hw107 => k0_hw107

def k0_chk108 (v289 : IVec S16 32) : Prop :=
  (∀ a x, ((![v289] : Fin 1 → IVec S16 32) a x).toNat < S65536.size a)
instance k0_chk108.dec : ∀ (v289 : IVec S16 32), Decidable (k0_chk108 v289) := fun v289 => decidable_of_iff' _ (Iff.of_eq (k0_chk108.eq_1 v289))
theorem k0_idx108_inb : ∀ (v289 : IVec S16 32) (k0_hw108 : k0_chk108 v289), ∀ a x, ((![v289] : Fin 1 → IVec S16 32) a x).toNat < S65536.size a := fun v289 k0_hw108 => k0_hw108

def k0_chk109 (v294 : IVec S16 32) : Prop :=
  (∀ a x, ((![v294] : Fin 1 → IVec S16 32) a x).toNat < S65536.size a)
instance k0_chk109.dec : ∀ (v294 : IVec S16 32), Decidable (k0_chk109 v294) := fun v294 => decidable_of_iff' _ (Iff.of_eq (k0_chk109.eq_1 v294))
theorem k0_idx109_inb : ∀ (v294 : IVec S16 32) (k0_hw109 : k0_chk109 v294), ∀ a x, ((![v294] : Fin 1 → IVec S16 32) a x).toNat < S65536.size a := fun v294 k0_hw109 => k0_hw109

def k0_chk110 (v299 : IVec S16 32) : Prop :=
  (∀ a x, ((![v299] : Fin 1 → IVec S16 32) a x).toNat < S65536.size a)
instance k0_chk110.dec : ∀ (v299 : IVec S16 32), Decidable (k0_chk110 v299) := fun v299 => decidable_of_iff' _ (Iff.of_eq (k0_chk110.eq_1 v299))
theorem k0_idx110_inb : ∀ (v299 : IVec S16 32) (k0_hw110 : k0_chk110 v299), ∀ a x, ((![v299] : Fin 1 → IVec S16 32) a x).toNat < S65536.size a := fun v299 k0_hw110 => k0_hw110

def k0_chk111 (v304 : IVec S16 32) : Prop :=
  (∀ a x, ((![v304] : Fin 1 → IVec S16 32) a x).toNat < S65536.size a)
instance k0_chk111.dec : ∀ (v304 : IVec S16 32), Decidable (k0_chk111 v304) := fun v304 => decidable_of_iff' _ (Iff.of_eq (k0_chk111.eq_1 v304))
theorem k0_idx111_inb : ∀ (v304 : IVec S16 32) (k0_hw111 : k0_chk111 v304), ∀ a x, ((![v304] : Fin 1 → IVec S16 32) a x).toNat < S65536.size a := fun v304 k0_hw111 => k0_hw111

def k0_chk112 (v309 : IVec S16 32) : Prop :=
  (∀ a x, ((![v309] : Fin 1 → IVec S16 32) a x).toNat < S65536.size a)
instance k0_chk112.dec : ∀ (v309 : IVec S16 32), Decidable (k0_chk112 v309) := fun v309 => decidable_of_iff' _ (Iff.of_eq (k0_chk112.eq_1 v309))
theorem k0_idx112_inb : ∀ (v309 : IVec S16 32) (k0_hw112 : k0_chk112 v309), ∀ a x, ((![v309] : Fin 1 → IVec S16 32) a x).toNat < S65536.size a := fun v309 k0_hw112 => k0_hw112
@[reducible] def k0_t9_loop : Scf.Loop 32 :=
  let c0_i32_48 : BitVec 32 := 0#32
  let c64_i32_49 : BitVec 32 := 64#32
  let v67 : BitVec 32 := Scalar.addi c0_i32_48 c64_i32_49
  let c1_i32_50 : BitVec 32 := 1#32
  ⟨c0_i32_48, v67, c1_i32_50⟩
def k0_off10 (k0_t9 : Fin k0_t9_loop.trips) (c0_i32_196 : BitVec 32) : Fin 1 → Nat :=
  let c0_i32_48 : BitVec 32 := 0#32
  let c1_i32_50 : BitVec 32 := 1#32
  let arg11 : BitVec 32 := Scf.iv c0_i32_48 c1_i32_50 k0_t9
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk113 (v234 : IVec S16 32) : Prop :=
  (∀ a x, ((![v234] : Fin 1 → IVec S16 32) a x).toNat < S65536.size a)
instance k0_chk113.dec : ∀ (v234 : IVec S16 32), Decidable (k0_chk113 v234) := fun v234 => decidable_of_iff' _ (Iff.of_eq (k0_chk113.eq_1 v234))
theorem k0_idx113_inb : ∀ (v234 : IVec S16 32) (k0_hw113 : k0_chk113 v234), ∀ a x, ((![v234] : Fin 1 → IVec S16 32) a x).toNat < S65536.size a := fun v234 k0_hw113 => k0_hw113

def k0_chk114 (v239 : IVec S16 32) : Prop :=
  (∀ a x, ((![v239] : Fin 1 → IVec S16 32) a x).toNat < S65536.size a)
instance k0_chk114.dec : ∀ (v239 : IVec S16 32), Decidable (k0_chk114 v239) := fun v239 => decidable_of_iff' _ (Iff.of_eq (k0_chk114.eq_1 v239))
theorem k0_idx114_inb : ∀ (v239 : IVec S16 32) (k0_hw114 : k0_chk114 v239), ∀ a x, ((![v239] : Fin 1 → IVec S16 32) a x).toNat < S65536.size a := fun v239 k0_hw114 => k0_hw114

def k0_chk115 (v244 : IVec S16 32) : Prop :=
  (∀ a x, ((![v244] : Fin 1 → IVec S16 32) a x).toNat < S65536.size a)
instance k0_chk115.dec : ∀ (v244 : IVec S16 32), Decidable (k0_chk115 v244) := fun v244 => decidable_of_iff' _ (Iff.of_eq (k0_chk115.eq_1 v244))
theorem k0_idx115_inb : ∀ (v244 : IVec S16 32) (k0_hw115 : k0_chk115 v244), ∀ a x, ((![v244] : Fin 1 → IVec S16 32) a x).toNat < S65536.size a := fun v244 k0_hw115 => k0_hw115

def k0_chk116 (v249 : IVec S16 32) : Prop :=
  (∀ a x, ((![v249] : Fin 1 → IVec S16 32) a x).toNat < S65536.size a)
instance k0_chk116.dec : ∀ (v249 : IVec S16 32), Decidable (k0_chk116 v249) := fun v249 => decidable_of_iff' _ (Iff.of_eq (k0_chk116.eq_1 v249))
theorem k0_idx116_inb : ∀ (v249 : IVec S16 32) (k0_hw116 : k0_chk116 v249), ∀ a x, ((![v249] : Fin 1 → IVec S16 32) a x).toNat < S65536.size a := fun v249 k0_hw116 => k0_hw116

def k0_chk117 (v254 : IVec S16 32) : Prop :=
  (∀ a x, ((![v254] : Fin 1 → IVec S16 32) a x).toNat < S65536.size a)
instance k0_chk117.dec : ∀ (v254 : IVec S16 32), Decidable (k0_chk117 v254) := fun v254 => decidable_of_iff' _ (Iff.of_eq (k0_chk117.eq_1 v254))
theorem k0_idx117_inb : ∀ (v254 : IVec S16 32) (k0_hw117 : k0_chk117 v254), ∀ a x, ((![v254] : Fin 1 → IVec S16 32) a x).toNat < S65536.size a := fun v254 k0_hw117 => k0_hw117

def k0_chk118 (v259 : IVec S16 32) : Prop :=
  (∀ a x, ((![v259] : Fin 1 → IVec S16 32) a x).toNat < S65536.size a)
instance k0_chk118.dec : ∀ (v259 : IVec S16 32), Decidable (k0_chk118 v259) := fun v259 => decidable_of_iff' _ (Iff.of_eq (k0_chk118.eq_1 v259))
theorem k0_idx118_inb : ∀ (v259 : IVec S16 32) (k0_hw118 : k0_chk118 v259), ∀ a x, ((![v259] : Fin 1 → IVec S16 32) a x).toNat < S65536.size a := fun v259 k0_hw118 => k0_hw118

def k0_chk119 (v264 : IVec S16 32) : Prop :=
  (∀ a x, ((![v264] : Fin 1 → IVec S16 32) a x).toNat < S65536.size a)
instance k0_chk119.dec : ∀ (v264 : IVec S16 32), Decidable (k0_chk119 v264) := fun v264 => decidable_of_iff' _ (Iff.of_eq (k0_chk119.eq_1 v264))
theorem k0_idx119_inb : ∀ (v264 : IVec S16 32) (k0_hw119 : k0_chk119 v264), ∀ a x, ((![v264] : Fin 1 → IVec S16 32) a x).toNat < S65536.size a := fun v264 k0_hw119 => k0_hw119

def k0_chk120 (v269 : IVec S16 32) : Prop :=
  (∀ a x, ((![v269] : Fin 1 → IVec S16 32) a x).toNat < S65536.size a)
instance k0_chk120.dec : ∀ (v269 : IVec S16 32), Decidable (k0_chk120 v269) := fun v269 => decidable_of_iff' _ (Iff.of_eq (k0_chk120.eq_1 v269))
theorem k0_idx120_inb : ∀ (v269 : IVec S16 32) (k0_hw120 : k0_chk120 v269), ∀ a x, ((![v269] : Fin 1 → IVec S16 32) a x).toNat < S65536.size a := fun v269 k0_hw120 => k0_hw120

def k0_chk121 (v274 : IVec S16 32) : Prop :=
  (∀ a x, ((![v274] : Fin 1 → IVec S16 32) a x).toNat < S65536.size a)
instance k0_chk121.dec : ∀ (v274 : IVec S16 32), Decidable (k0_chk121 v274) := fun v274 => decidable_of_iff' _ (Iff.of_eq (k0_chk121.eq_1 v274))
theorem k0_idx121_inb : ∀ (v274 : IVec S16 32) (k0_hw121 : k0_chk121 v274), ∀ a x, ((![v274] : Fin 1 → IVec S16 32) a x).toNat < S65536.size a := fun v274 k0_hw121 => k0_hw121

def k0_chk122 (v279 : IVec S16 32) : Prop :=
  (∀ a x, ((![v279] : Fin 1 → IVec S16 32) a x).toNat < S65536.size a)
instance k0_chk122.dec : ∀ (v279 : IVec S16 32), Decidable (k0_chk122 v279) := fun v279 => decidable_of_iff' _ (Iff.of_eq (k0_chk122.eq_1 v279))
theorem k0_idx122_inb : ∀ (v279 : IVec S16 32) (k0_hw122 : k0_chk122 v279), ∀ a x, ((![v279] : Fin 1 → IVec S16 32) a x).toNat < S65536.size a := fun v279 k0_hw122 => k0_hw122

def k0_chk123 (v284 : IVec S16 32) : Prop :=
  (∀ a x, ((![v284] : Fin 1 → IVec S16 32) a x).toNat < S65536.size a)
instance k0_chk123.dec : ∀ (v284 : IVec S16 32), Decidable (k0_chk123 v284) := fun v284 => decidable_of_iff' _ (Iff.of_eq (k0_chk123.eq_1 v284))
theorem k0_idx123_inb : ∀ (v284 : IVec S16 32) (k0_hw123 : k0_chk123 v284), ∀ a x, ((![v284] : Fin 1 → IVec S16 32) a x).toNat < S65536.size a := fun v284 k0_hw123 => k0_hw123

def k0_chk124 (v289 : IVec S16 32) : Prop :=
  (∀ a x, ((![v289] : Fin 1 → IVec S16 32) a x).toNat < S65536.size a)
instance k0_chk124.dec : ∀ (v289 : IVec S16 32), Decidable (k0_chk124 v289) := fun v289 => decidable_of_iff' _ (Iff.of_eq (k0_chk124.eq_1 v289))
theorem k0_idx124_inb : ∀ (v289 : IVec S16 32) (k0_hw124 : k0_chk124 v289), ∀ a x, ((![v289] : Fin 1 → IVec S16 32) a x).toNat < S65536.size a := fun v289 k0_hw124 => k0_hw124

def k0_chk125 (v294 : IVec S16 32) : Prop :=
  (∀ a x, ((![v294] : Fin 1 → IVec S16 32) a x).toNat < S65536.size a)
instance k0_chk125.dec : ∀ (v294 : IVec S16 32), Decidable (k0_chk125 v294) := fun v294 => decidable_of_iff' _ (Iff.of_eq (k0_chk125.eq_1 v294))
theorem k0_idx125_inb : ∀ (v294 : IVec S16 32) (k0_hw125 : k0_chk125 v294), ∀ a x, ((![v294] : Fin 1 → IVec S16 32) a x).toNat < S65536.size a := fun v294 k0_hw125 => k0_hw125

def k0_chk126 (v299 : IVec S16 32) : Prop :=
  (∀ a x, ((![v299] : Fin 1 → IVec S16 32) a x).toNat < S65536.size a)
instance k0_chk126.dec : ∀ (v299 : IVec S16 32), Decidable (k0_chk126 v299) := fun v299 => decidable_of_iff' _ (Iff.of_eq (k0_chk126.eq_1 v299))
theorem k0_idx126_inb : ∀ (v299 : IVec S16 32) (k0_hw126 : k0_chk126 v299), ∀ a x, ((![v299] : Fin 1 → IVec S16 32) a x).toNat < S65536.size a := fun v299 k0_hw126 => k0_hw126

def k0_chk127 (v304 : IVec S16 32) : Prop :=
  (∀ a x, ((![v304] : Fin 1 → IVec S16 32) a x).toNat < S65536.size a)
instance k0_chk127.dec : ∀ (v304 : IVec S16 32), Decidable (k0_chk127 v304) := fun v304 => decidable_of_iff' _ (Iff.of_eq (k0_chk127.eq_1 v304))
theorem k0_idx127_inb : ∀ (v304 : IVec S16 32) (k0_hw127 : k0_chk127 v304), ∀ a x, ((![v304] : Fin 1 → IVec S16 32) a x).toNat < S65536.size a := fun v304 k0_hw127 => k0_hw127

def k0_chk128 (v309 : IVec S16 32) : Prop :=
  (∀ a x, ((![v309] : Fin 1 → IVec S16 32) a x).toNat < S65536.size a)
instance k0_chk128.dec : ∀ (v309 : IVec S16 32), Decidable (k0_chk128 v309) := fun v309 => decidable_of_iff' _ (Iff.of_eq (k0_chk128.eq_1 v309))
theorem k0_idx128_inb : ∀ (v309 : IVec S16 32) (k0_hw128 : k0_chk128 v309), ∀ a x, ((![v309] : Fin 1 → IVec S16 32) a x).toNat < S65536.size a := fun v309 k0_hw128 => k0_hw128
@[reducible] def k0_t10_loop : Scf.Loop 32 :=
  let c0_i32_54 : BitVec 32 := 0#32
  let c64_i32_55 : BitVec 32 := 64#32
  let v74 : BitVec 32 := Scalar.addi c0_i32_54 c64_i32_55
  let c1_i32_56 : BitVec 32 := 1#32
  ⟨c0_i32_54, v74, c1_i32_56⟩
def k0_off11 (k0_t10 : Fin k0_t10_loop.trips) (c0_i32_196 : BitVec 32) : Fin 1 → Nat :=
  let c0_i32_54 : BitVec 32 := 0#32
  let c1_i32_56 : BitVec 32 := 1#32
  let arg11 : BitVec 32 := Scf.iv c0_i32_54 c1_i32_56 k0_t10
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk129 (v234 : IVec S16 32) : Prop :=
  (∀ a x, ((![v234] : Fin 1 → IVec S16 32) a x).toNat < S65536.size a)
instance k0_chk129.dec : ∀ (v234 : IVec S16 32), Decidable (k0_chk129 v234) := fun v234 => decidable_of_iff' _ (Iff.of_eq (k0_chk129.eq_1 v234))
theorem k0_idx129_inb : ∀ (v234 : IVec S16 32) (k0_hw129 : k0_chk129 v234), ∀ a x, ((![v234] : Fin 1 → IVec S16 32) a x).toNat < S65536.size a := fun v234 k0_hw129 => k0_hw129

def k0_chk130 (v239 : IVec S16 32) : Prop :=
  (∀ a x, ((![v239] : Fin 1 → IVec S16 32) a x).toNat < S65536.size a)
instance k0_chk130.dec : ∀ (v239 : IVec S16 32), Decidable (k0_chk130 v239) := fun v239 => decidable_of_iff' _ (Iff.of_eq (k0_chk130.eq_1 v239))
theorem k0_idx130_inb : ∀ (v239 : IVec S16 32) (k0_hw130 : k0_chk130 v239), ∀ a x, ((![v239] : Fin 1 → IVec S16 32) a x).toNat < S65536.size a := fun v239 k0_hw130 => k0_hw130

def k0_chk131 (v244 : IVec S16 32) : Prop :=
  (∀ a x, ((![v244] : Fin 1 → IVec S16 32) a x).toNat < S65536.size a)
instance k0_chk131.dec : ∀ (v244 : IVec S16 32), Decidable (k0_chk131 v244) := fun v244 => decidable_of_iff' _ (Iff.of_eq (k0_chk131.eq_1 v244))
theorem k0_idx131_inb : ∀ (v244 : IVec S16 32) (k0_hw131 : k0_chk131 v244), ∀ a x, ((![v244] : Fin 1 → IVec S16 32) a x).toNat < S65536.size a := fun v244 k0_hw131 => k0_hw131

def k0_chk132 (v249 : IVec S16 32) : Prop :=
  (∀ a x, ((![v249] : Fin 1 → IVec S16 32) a x).toNat < S65536.size a)
instance k0_chk132.dec : ∀ (v249 : IVec S16 32), Decidable (k0_chk132 v249) := fun v249 => decidable_of_iff' _ (Iff.of_eq (k0_chk132.eq_1 v249))
theorem k0_idx132_inb : ∀ (v249 : IVec S16 32) (k0_hw132 : k0_chk132 v249), ∀ a x, ((![v249] : Fin 1 → IVec S16 32) a x).toNat < S65536.size a := fun v249 k0_hw132 => k0_hw132

def k0_chk133 (v254 : IVec S16 32) : Prop :=
  (∀ a x, ((![v254] : Fin 1 → IVec S16 32) a x).toNat < S65536.size a)
instance k0_chk133.dec : ∀ (v254 : IVec S16 32), Decidable (k0_chk133 v254) := fun v254 => decidable_of_iff' _ (Iff.of_eq (k0_chk133.eq_1 v254))
theorem k0_idx133_inb : ∀ (v254 : IVec S16 32) (k0_hw133 : k0_chk133 v254), ∀ a x, ((![v254] : Fin 1 → IVec S16 32) a x).toNat < S65536.size a := fun v254 k0_hw133 => k0_hw133

def k0_chk134 (v259 : IVec S16 32) : Prop :=
  (∀ a x, ((![v259] : Fin 1 → IVec S16 32) a x).toNat < S65536.size a)
instance k0_chk134.dec : ∀ (v259 : IVec S16 32), Decidable (k0_chk134 v259) := fun v259 => decidable_of_iff' _ (Iff.of_eq (k0_chk134.eq_1 v259))
theorem k0_idx134_inb : ∀ (v259 : IVec S16 32) (k0_hw134 : k0_chk134 v259), ∀ a x, ((![v259] : Fin 1 → IVec S16 32) a x).toNat < S65536.size a := fun v259 k0_hw134 => k0_hw134

def k0_chk135 (v264 : IVec S16 32) : Prop :=
  (∀ a x, ((![v264] : Fin 1 → IVec S16 32) a x).toNat < S65536.size a)
instance k0_chk135.dec : ∀ (v264 : IVec S16 32), Decidable (k0_chk135 v264) := fun v264 => decidable_of_iff' _ (Iff.of_eq (k0_chk135.eq_1 v264))
theorem k0_idx135_inb : ∀ (v264 : IVec S16 32) (k0_hw135 : k0_chk135 v264), ∀ a x, ((![v264] : Fin 1 → IVec S16 32) a x).toNat < S65536.size a := fun v264 k0_hw135 => k0_hw135

def k0_chk136 (v269 : IVec S16 32) : Prop :=
  (∀ a x, ((![v269] : Fin 1 → IVec S16 32) a x).toNat < S65536.size a)
instance k0_chk136.dec : ∀ (v269 : IVec S16 32), Decidable (k0_chk136 v269) := fun v269 => decidable_of_iff' _ (Iff.of_eq (k0_chk136.eq_1 v269))
theorem k0_idx136_inb : ∀ (v269 : IVec S16 32) (k0_hw136 : k0_chk136 v269), ∀ a x, ((![v269] : Fin 1 → IVec S16 32) a x).toNat < S65536.size a := fun v269 k0_hw136 => k0_hw136

def k0_chk137 (v274 : IVec S16 32) : Prop :=
  (∀ a x, ((![v274] : Fin 1 → IVec S16 32) a x).toNat < S65536.size a)
instance k0_chk137.dec : ∀ (v274 : IVec S16 32), Decidable (k0_chk137 v274) := fun v274 => decidable_of_iff' _ (Iff.of_eq (k0_chk137.eq_1 v274))
theorem k0_idx137_inb : ∀ (v274 : IVec S16 32) (k0_hw137 : k0_chk137 v274), ∀ a x, ((![v274] : Fin 1 → IVec S16 32) a x).toNat < S65536.size a := fun v274 k0_hw137 => k0_hw137

def k0_chk138 (v279 : IVec S16 32) : Prop :=
  (∀ a x, ((![v279] : Fin 1 → IVec S16 32) a x).toNat < S65536.size a)
instance k0_chk138.dec : ∀ (v279 : IVec S16 32), Decidable (k0_chk138 v279) := fun v279 => decidable_of_iff' _ (Iff.of_eq (k0_chk138.eq_1 v279))
theorem k0_idx138_inb : ∀ (v279 : IVec S16 32) (k0_hw138 : k0_chk138 v279), ∀ a x, ((![v279] : Fin 1 → IVec S16 32) a x).toNat < S65536.size a := fun v279 k0_hw138 => k0_hw138

def k0_chk139 (v284 : IVec S16 32) : Prop :=
  (∀ a x, ((![v284] : Fin 1 → IVec S16 32) a x).toNat < S65536.size a)
instance k0_chk139.dec : ∀ (v284 : IVec S16 32), Decidable (k0_chk139 v284) := fun v284 => decidable_of_iff' _ (Iff.of_eq (k0_chk139.eq_1 v284))
theorem k0_idx139_inb : ∀ (v284 : IVec S16 32) (k0_hw139 : k0_chk139 v284), ∀ a x, ((![v284] : Fin 1 → IVec S16 32) a x).toNat < S65536.size a := fun v284 k0_hw139 => k0_hw139

def k0_chk140 (v289 : IVec S16 32) : Prop :=
  (∀ a x, ((![v289] : Fin 1 → IVec S16 32) a x).toNat < S65536.size a)
instance k0_chk140.dec : ∀ (v289 : IVec S16 32), Decidable (k0_chk140 v289) := fun v289 => decidable_of_iff' _ (Iff.of_eq (k0_chk140.eq_1 v289))
theorem k0_idx140_inb : ∀ (v289 : IVec S16 32) (k0_hw140 : k0_chk140 v289), ∀ a x, ((![v289] : Fin 1 → IVec S16 32) a x).toNat < S65536.size a := fun v289 k0_hw140 => k0_hw140

def k0_chk141 (v294 : IVec S16 32) : Prop :=
  (∀ a x, ((![v294] : Fin 1 → IVec S16 32) a x).toNat < S65536.size a)
instance k0_chk141.dec : ∀ (v294 : IVec S16 32), Decidable (k0_chk141 v294) := fun v294 => decidable_of_iff' _ (Iff.of_eq (k0_chk141.eq_1 v294))
theorem k0_idx141_inb : ∀ (v294 : IVec S16 32) (k0_hw141 : k0_chk141 v294), ∀ a x, ((![v294] : Fin 1 → IVec S16 32) a x).toNat < S65536.size a := fun v294 k0_hw141 => k0_hw141

def k0_chk142 (v299 : IVec S16 32) : Prop :=
  (∀ a x, ((![v299] : Fin 1 → IVec S16 32) a x).toNat < S65536.size a)
instance k0_chk142.dec : ∀ (v299 : IVec S16 32), Decidable (k0_chk142 v299) := fun v299 => decidable_of_iff' _ (Iff.of_eq (k0_chk142.eq_1 v299))
theorem k0_idx142_inb : ∀ (v299 : IVec S16 32) (k0_hw142 : k0_chk142 v299), ∀ a x, ((![v299] : Fin 1 → IVec S16 32) a x).toNat < S65536.size a := fun v299 k0_hw142 => k0_hw142

def k0_chk143 (v304 : IVec S16 32) : Prop :=
  (∀ a x, ((![v304] : Fin 1 → IVec S16 32) a x).toNat < S65536.size a)
instance k0_chk143.dec : ∀ (v304 : IVec S16 32), Decidable (k0_chk143 v304) := fun v304 => decidable_of_iff' _ (Iff.of_eq (k0_chk143.eq_1 v304))
theorem k0_idx143_inb : ∀ (v304 : IVec S16 32) (k0_hw143 : k0_chk143 v304), ∀ a x, ((![v304] : Fin 1 → IVec S16 32) a x).toNat < S65536.size a := fun v304 k0_hw143 => k0_hw143

def k0_chk144 (v309 : IVec S16 32) : Prop :=
  (∀ a x, ((![v309] : Fin 1 → IVec S16 32) a x).toNat < S65536.size a)
instance k0_chk144.dec : ∀ (v309 : IVec S16 32), Decidable (k0_chk144 v309) := fun v309 => decidable_of_iff' _ (Iff.of_eq (k0_chk144.eq_1 v309))
theorem k0_idx144_inb : ∀ (v309 : IVec S16 32) (k0_hw144 : k0_chk144 v309), ∀ a x, ((![v309] : Fin 1 → IVec S16 32) a x).toNat < S65536.size a := fun v309 k0_hw144 => k0_hw144
@[reducible] def k0_t11_loop : Scf.Loop 32 :=
  let c0_i32_60 : BitVec 32 := 0#32
  let c64_i32_61 : BitVec 32 := 64#32
  let v81 : BitVec 32 := Scalar.addi c0_i32_60 c64_i32_61
  let c1_i32_62 : BitVec 32 := 1#32
  ⟨c0_i32_60, v81, c1_i32_62⟩
def k0_off12 (k0_t11 : Fin k0_t11_loop.trips) (c0_i32_196 : BitVec 32) : Fin 1 → Nat :=
  let c0_i32_60 : BitVec 32 := 0#32
  let c1_i32_62 : BitVec 32 := 1#32
  let arg11 : BitVec 32 := Scf.iv c0_i32_60 c1_i32_62 k0_t11
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk145 (v234 : IVec S16 32) : Prop :=
  (∀ a x, ((![v234] : Fin 1 → IVec S16 32) a x).toNat < S65536.size a)
instance k0_chk145.dec : ∀ (v234 : IVec S16 32), Decidable (k0_chk145 v234) := fun v234 => decidable_of_iff' _ (Iff.of_eq (k0_chk145.eq_1 v234))
theorem k0_idx145_inb : ∀ (v234 : IVec S16 32) (k0_hw145 : k0_chk145 v234), ∀ a x, ((![v234] : Fin 1 → IVec S16 32) a x).toNat < S65536.size a := fun v234 k0_hw145 => k0_hw145

def k0_chk146 (v239 : IVec S16 32) : Prop :=
  (∀ a x, ((![v239] : Fin 1 → IVec S16 32) a x).toNat < S65536.size a)
instance k0_chk146.dec : ∀ (v239 : IVec S16 32), Decidable (k0_chk146 v239) := fun v239 => decidable_of_iff' _ (Iff.of_eq (k0_chk146.eq_1 v239))
theorem k0_idx146_inb : ∀ (v239 : IVec S16 32) (k0_hw146 : k0_chk146 v239), ∀ a x, ((![v239] : Fin 1 → IVec S16 32) a x).toNat < S65536.size a := fun v239 k0_hw146 => k0_hw146

def k0_chk147 (v244 : IVec S16 32) : Prop :=
  (∀ a x, ((![v244] : Fin 1 → IVec S16 32) a x).toNat < S65536.size a)
instance k0_chk147.dec : ∀ (v244 : IVec S16 32), Decidable (k0_chk147 v244) := fun v244 => decidable_of_iff' _ (Iff.of_eq (k0_chk147.eq_1 v244))
theorem k0_idx147_inb : ∀ (v244 : IVec S16 32) (k0_hw147 : k0_chk147 v244), ∀ a x, ((![v244] : Fin 1 → IVec S16 32) a x).toNat < S65536.size a := fun v244 k0_hw147 => k0_hw147

def k0_chk148 (v249 : IVec S16 32) : Prop :=
  (∀ a x, ((![v249] : Fin 1 → IVec S16 32) a x).toNat < S65536.size a)
instance k0_chk148.dec : ∀ (v249 : IVec S16 32), Decidable (k0_chk148 v249) := fun v249 => decidable_of_iff' _ (Iff.of_eq (k0_chk148.eq_1 v249))
theorem k0_idx148_inb : ∀ (v249 : IVec S16 32) (k0_hw148 : k0_chk148 v249), ∀ a x, ((![v249] : Fin 1 → IVec S16 32) a x).toNat < S65536.size a := fun v249 k0_hw148 => k0_hw148

def k0_chk149 (v254 : IVec S16 32) : Prop :=
  (∀ a x, ((![v254] : Fin 1 → IVec S16 32) a x).toNat < S65536.size a)
instance k0_chk149.dec : ∀ (v254 : IVec S16 32), Decidable (k0_chk149 v254) := fun v254 => decidable_of_iff' _ (Iff.of_eq (k0_chk149.eq_1 v254))
theorem k0_idx149_inb : ∀ (v254 : IVec S16 32) (k0_hw149 : k0_chk149 v254), ∀ a x, ((![v254] : Fin 1 → IVec S16 32) a x).toNat < S65536.size a := fun v254 k0_hw149 => k0_hw149

def k0_chk150 (v259 : IVec S16 32) : Prop :=
  (∀ a x, ((![v259] : Fin 1 → IVec S16 32) a x).toNat < S65536.size a)
instance k0_chk150.dec : ∀ (v259 : IVec S16 32), Decidable (k0_chk150 v259) := fun v259 => decidable_of_iff' _ (Iff.of_eq (k0_chk150.eq_1 v259))
theorem k0_idx150_inb : ∀ (v259 : IVec S16 32) (k0_hw150 : k0_chk150 v259), ∀ a x, ((![v259] : Fin 1 → IVec S16 32) a x).toNat < S65536.size a := fun v259 k0_hw150 => k0_hw150

def k0_chk151 (v264 : IVec S16 32) : Prop :=
  (∀ a x, ((![v264] : Fin 1 → IVec S16 32) a x).toNat < S65536.size a)
instance k0_chk151.dec : ∀ (v264 : IVec S16 32), Decidable (k0_chk151 v264) := fun v264 => decidable_of_iff' _ (Iff.of_eq (k0_chk151.eq_1 v264))
theorem k0_idx151_inb : ∀ (v264 : IVec S16 32) (k0_hw151 : k0_chk151 v264), ∀ a x, ((![v264] : Fin 1 → IVec S16 32) a x).toNat < S65536.size a := fun v264 k0_hw151 => k0_hw151

def k0_chk152 (v269 : IVec S16 32) : Prop :=
  (∀ a x, ((![v269] : Fin 1 → IVec S16 32) a x).toNat < S65536.size a)
instance k0_chk152.dec : ∀ (v269 : IVec S16 32), Decidable (k0_chk152 v269) := fun v269 => decidable_of_iff' _ (Iff.of_eq (k0_chk152.eq_1 v269))
theorem k0_idx152_inb : ∀ (v269 : IVec S16 32) (k0_hw152 : k0_chk152 v269), ∀ a x, ((![v269] : Fin 1 → IVec S16 32) a x).toNat < S65536.size a := fun v269 k0_hw152 => k0_hw152

def k0_chk153 (v274 : IVec S16 32) : Prop :=
  (∀ a x, ((![v274] : Fin 1 → IVec S16 32) a x).toNat < S65536.size a)
instance k0_chk153.dec : ∀ (v274 : IVec S16 32), Decidable (k0_chk153 v274) := fun v274 => decidable_of_iff' _ (Iff.of_eq (k0_chk153.eq_1 v274))
theorem k0_idx153_inb : ∀ (v274 : IVec S16 32) (k0_hw153 : k0_chk153 v274), ∀ a x, ((![v274] : Fin 1 → IVec S16 32) a x).toNat < S65536.size a := fun v274 k0_hw153 => k0_hw153

def k0_chk154 (v279 : IVec S16 32) : Prop :=
  (∀ a x, ((![v279] : Fin 1 → IVec S16 32) a x).toNat < S65536.size a)
instance k0_chk154.dec : ∀ (v279 : IVec S16 32), Decidable (k0_chk154 v279) := fun v279 => decidable_of_iff' _ (Iff.of_eq (k0_chk154.eq_1 v279))
theorem k0_idx154_inb : ∀ (v279 : IVec S16 32) (k0_hw154 : k0_chk154 v279), ∀ a x, ((![v279] : Fin 1 → IVec S16 32) a x).toNat < S65536.size a := fun v279 k0_hw154 => k0_hw154

def k0_chk155 (v284 : IVec S16 32) : Prop :=
  (∀ a x, ((![v284] : Fin 1 → IVec S16 32) a x).toNat < S65536.size a)
instance k0_chk155.dec : ∀ (v284 : IVec S16 32), Decidable (k0_chk155 v284) := fun v284 => decidable_of_iff' _ (Iff.of_eq (k0_chk155.eq_1 v284))
theorem k0_idx155_inb : ∀ (v284 : IVec S16 32) (k0_hw155 : k0_chk155 v284), ∀ a x, ((![v284] : Fin 1 → IVec S16 32) a x).toNat < S65536.size a := fun v284 k0_hw155 => k0_hw155

def k0_chk156 (v289 : IVec S16 32) : Prop :=
  (∀ a x, ((![v289] : Fin 1 → IVec S16 32) a x).toNat < S65536.size a)
instance k0_chk156.dec : ∀ (v289 : IVec S16 32), Decidable (k0_chk156 v289) := fun v289 => decidable_of_iff' _ (Iff.of_eq (k0_chk156.eq_1 v289))
theorem k0_idx156_inb : ∀ (v289 : IVec S16 32) (k0_hw156 : k0_chk156 v289), ∀ a x, ((![v289] : Fin 1 → IVec S16 32) a x).toNat < S65536.size a := fun v289 k0_hw156 => k0_hw156

def k0_chk157 (v294 : IVec S16 32) : Prop :=
  (∀ a x, ((![v294] : Fin 1 → IVec S16 32) a x).toNat < S65536.size a)
instance k0_chk157.dec : ∀ (v294 : IVec S16 32), Decidable (k0_chk157 v294) := fun v294 => decidable_of_iff' _ (Iff.of_eq (k0_chk157.eq_1 v294))
theorem k0_idx157_inb : ∀ (v294 : IVec S16 32) (k0_hw157 : k0_chk157 v294), ∀ a x, ((![v294] : Fin 1 → IVec S16 32) a x).toNat < S65536.size a := fun v294 k0_hw157 => k0_hw157

def k0_chk158 (v299 : IVec S16 32) : Prop :=
  (∀ a x, ((![v299] : Fin 1 → IVec S16 32) a x).toNat < S65536.size a)
instance k0_chk158.dec : ∀ (v299 : IVec S16 32), Decidable (k0_chk158 v299) := fun v299 => decidable_of_iff' _ (Iff.of_eq (k0_chk158.eq_1 v299))
theorem k0_idx158_inb : ∀ (v299 : IVec S16 32) (k0_hw158 : k0_chk158 v299), ∀ a x, ((![v299] : Fin 1 → IVec S16 32) a x).toNat < S65536.size a := fun v299 k0_hw158 => k0_hw158

def k0_chk159 (v304 : IVec S16 32) : Prop :=
  (∀ a x, ((![v304] : Fin 1 → IVec S16 32) a x).toNat < S65536.size a)
instance k0_chk159.dec : ∀ (v304 : IVec S16 32), Decidable (k0_chk159 v304) := fun v304 => decidable_of_iff' _ (Iff.of_eq (k0_chk159.eq_1 v304))
theorem k0_idx159_inb : ∀ (v304 : IVec S16 32) (k0_hw159 : k0_chk159 v304), ∀ a x, ((![v304] : Fin 1 → IVec S16 32) a x).toNat < S65536.size a := fun v304 k0_hw159 => k0_hw159

def k0_chk160 (v309 : IVec S16 32) : Prop :=
  (∀ a x, ((![v309] : Fin 1 → IVec S16 32) a x).toNat < S65536.size a)
instance k0_chk160.dec : ∀ (v309 : IVec S16 32), Decidable (k0_chk160 v309) := fun v309 => decidable_of_iff' _ (Iff.of_eq (k0_chk160.eq_1 v309))
theorem k0_idx160_inb : ∀ (v309 : IVec S16 32) (k0_hw160 : k0_chk160 v309), ∀ a x, ((![v309] : Fin 1 → IVec S16 32) a x).toNat < S65536.size a := fun v309 k0_hw160 => k0_hw160
@[reducible] def k0_t12_loop : Scf.Loop 32 :=
  let c0_i32_66 : BitVec 32 := 0#32
  let c64_i32_67 : BitVec 32 := 64#32
  let v88 : BitVec 32 := Scalar.addi c0_i32_66 c64_i32_67
  let c1_i32_68 : BitVec 32 := 1#32
  ⟨c0_i32_66, v88, c1_i32_68⟩
def k0_off13 (k0_t12 : Fin k0_t12_loop.trips) (c0_i32_196 : BitVec 32) : Fin 1 → Nat :=
  let c0_i32_66 : BitVec 32 := 0#32
  let c1_i32_68 : BitVec 32 := 1#32
  let arg11 : BitVec 32 := Scf.iv c0_i32_66 c1_i32_68 k0_t12
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk161 (v234 : IVec S16 32) : Prop :=
  (∀ a x, ((![v234] : Fin 1 → IVec S16 32) a x).toNat < S65536.size a)
instance k0_chk161.dec : ∀ (v234 : IVec S16 32), Decidable (k0_chk161 v234) := fun v234 => decidable_of_iff' _ (Iff.of_eq (k0_chk161.eq_1 v234))
theorem k0_idx161_inb : ∀ (v234 : IVec S16 32) (k0_hw161 : k0_chk161 v234), ∀ a x, ((![v234] : Fin 1 → IVec S16 32) a x).toNat < S65536.size a := fun v234 k0_hw161 => k0_hw161

def k0_chk162 (v239 : IVec S16 32) : Prop :=
  (∀ a x, ((![v239] : Fin 1 → IVec S16 32) a x).toNat < S65536.size a)
instance k0_chk162.dec : ∀ (v239 : IVec S16 32), Decidable (k0_chk162 v239) := fun v239 => decidable_of_iff' _ (Iff.of_eq (k0_chk162.eq_1 v239))
theorem k0_idx162_inb : ∀ (v239 : IVec S16 32) (k0_hw162 : k0_chk162 v239), ∀ a x, ((![v239] : Fin 1 → IVec S16 32) a x).toNat < S65536.size a := fun v239 k0_hw162 => k0_hw162

def k0_chk163 (v244 : IVec S16 32) : Prop :=
  (∀ a x, ((![v244] : Fin 1 → IVec S16 32) a x).toNat < S65536.size a)
instance k0_chk163.dec : ∀ (v244 : IVec S16 32), Decidable (k0_chk163 v244) := fun v244 => decidable_of_iff' _ (Iff.of_eq (k0_chk163.eq_1 v244))
theorem k0_idx163_inb : ∀ (v244 : IVec S16 32) (k0_hw163 : k0_chk163 v244), ∀ a x, ((![v244] : Fin 1 → IVec S16 32) a x).toNat < S65536.size a := fun v244 k0_hw163 => k0_hw163

def k0_chk164 (v249 : IVec S16 32) : Prop :=
  (∀ a x, ((![v249] : Fin 1 → IVec S16 32) a x).toNat < S65536.size a)
instance k0_chk164.dec : ∀ (v249 : IVec S16 32), Decidable (k0_chk164 v249) := fun v249 => decidable_of_iff' _ (Iff.of_eq (k0_chk164.eq_1 v249))
theorem k0_idx164_inb : ∀ (v249 : IVec S16 32) (k0_hw164 : k0_chk164 v249), ∀ a x, ((![v249] : Fin 1 → IVec S16 32) a x).toNat < S65536.size a := fun v249 k0_hw164 => k0_hw164

def k0_chk165 (v254 : IVec S16 32) : Prop :=
  (∀ a x, ((![v254] : Fin 1 → IVec S16 32) a x).toNat < S65536.size a)
instance k0_chk165.dec : ∀ (v254 : IVec S16 32), Decidable (k0_chk165 v254) := fun v254 => decidable_of_iff' _ (Iff.of_eq (k0_chk165.eq_1 v254))
theorem k0_idx165_inb : ∀ (v254 : IVec S16 32) (k0_hw165 : k0_chk165 v254), ∀ a x, ((![v254] : Fin 1 → IVec S16 32) a x).toNat < S65536.size a := fun v254 k0_hw165 => k0_hw165

def k0_chk166 (v259 : IVec S16 32) : Prop :=
  (∀ a x, ((![v259] : Fin 1 → IVec S16 32) a x).toNat < S65536.size a)
instance k0_chk166.dec : ∀ (v259 : IVec S16 32), Decidable (k0_chk166 v259) := fun v259 => decidable_of_iff' _ (Iff.of_eq (k0_chk166.eq_1 v259))
theorem k0_idx166_inb : ∀ (v259 : IVec S16 32) (k0_hw166 : k0_chk166 v259), ∀ a x, ((![v259] : Fin 1 → IVec S16 32) a x).toNat < S65536.size a := fun v259 k0_hw166 => k0_hw166

def k0_chk167 (v264 : IVec S16 32) : Prop :=
  (∀ a x, ((![v264] : Fin 1 → IVec S16 32) a x).toNat < S65536.size a)
instance k0_chk167.dec : ∀ (v264 : IVec S16 32), Decidable (k0_chk167 v264) := fun v264 => decidable_of_iff' _ (Iff.of_eq (k0_chk167.eq_1 v264))
theorem k0_idx167_inb : ∀ (v264 : IVec S16 32) (k0_hw167 : k0_chk167 v264), ∀ a x, ((![v264] : Fin 1 → IVec S16 32) a x).toNat < S65536.size a := fun v264 k0_hw167 => k0_hw167

def k0_chk168 (v269 : IVec S16 32) : Prop :=
  (∀ a x, ((![v269] : Fin 1 → IVec S16 32) a x).toNat < S65536.size a)
instance k0_chk168.dec : ∀ (v269 : IVec S16 32), Decidable (k0_chk168 v269) := fun v269 => decidable_of_iff' _ (Iff.of_eq (k0_chk168.eq_1 v269))
theorem k0_idx168_inb : ∀ (v269 : IVec S16 32) (k0_hw168 : k0_chk168 v269), ∀ a x, ((![v269] : Fin 1 → IVec S16 32) a x).toNat < S65536.size a := fun v269 k0_hw168 => k0_hw168

def k0_chk169 (v274 : IVec S16 32) : Prop :=
  (∀ a x, ((![v274] : Fin 1 → IVec S16 32) a x).toNat < S65536.size a)
instance k0_chk169.dec : ∀ (v274 : IVec S16 32), Decidable (k0_chk169 v274) := fun v274 => decidable_of_iff' _ (Iff.of_eq (k0_chk169.eq_1 v274))
theorem k0_idx169_inb : ∀ (v274 : IVec S16 32) (k0_hw169 : k0_chk169 v274), ∀ a x, ((![v274] : Fin 1 → IVec S16 32) a x).toNat < S65536.size a := fun v274 k0_hw169 => k0_hw169

def k0_chk170 (v279 : IVec S16 32) : Prop :=
  (∀ a x, ((![v279] : Fin 1 → IVec S16 32) a x).toNat < S65536.size a)
instance k0_chk170.dec : ∀ (v279 : IVec S16 32), Decidable (k0_chk170 v279) := fun v279 => decidable_of_iff' _ (Iff.of_eq (k0_chk170.eq_1 v279))
theorem k0_idx170_inb : ∀ (v279 : IVec S16 32) (k0_hw170 : k0_chk170 v279), ∀ a x, ((![v279] : Fin 1 → IVec S16 32) a x).toNat < S65536.size a := fun v279 k0_hw170 => k0_hw170

def k0_chk171 (v284 : IVec S16 32) : Prop :=
  (∀ a x, ((![v284] : Fin 1 → IVec S16 32) a x).toNat < S65536.size a)
instance k0_chk171.dec : ∀ (v284 : IVec S16 32), Decidable (k0_chk171 v284) := fun v284 => decidable_of_iff' _ (Iff.of_eq (k0_chk171.eq_1 v284))
theorem k0_idx171_inb : ∀ (v284 : IVec S16 32) (k0_hw171 : k0_chk171 v284), ∀ a x, ((![v284] : Fin 1 → IVec S16 32) a x).toNat < S65536.size a := fun v284 k0_hw171 => k0_hw171

def k0_chk172 (v289 : IVec S16 32) : Prop :=
  (∀ a x, ((![v289] : Fin 1 → IVec S16 32) a x).toNat < S65536.size a)
instance k0_chk172.dec : ∀ (v289 : IVec S16 32), Decidable (k0_chk172 v289) := fun v289 => decidable_of_iff' _ (Iff.of_eq (k0_chk172.eq_1 v289))
theorem k0_idx172_inb : ∀ (v289 : IVec S16 32) (k0_hw172 : k0_chk172 v289), ∀ a x, ((![v289] : Fin 1 → IVec S16 32) a x).toNat < S65536.size a := fun v289 k0_hw172 => k0_hw172

def k0_chk173 (v294 : IVec S16 32) : Prop :=
  (∀ a x, ((![v294] : Fin 1 → IVec S16 32) a x).toNat < S65536.size a)
instance k0_chk173.dec : ∀ (v294 : IVec S16 32), Decidable (k0_chk173 v294) := fun v294 => decidable_of_iff' _ (Iff.of_eq (k0_chk173.eq_1 v294))
theorem k0_idx173_inb : ∀ (v294 : IVec S16 32) (k0_hw173 : k0_chk173 v294), ∀ a x, ((![v294] : Fin 1 → IVec S16 32) a x).toNat < S65536.size a := fun v294 k0_hw173 => k0_hw173

def k0_chk174 (v299 : IVec S16 32) : Prop :=
  (∀ a x, ((![v299] : Fin 1 → IVec S16 32) a x).toNat < S65536.size a)
instance k0_chk174.dec : ∀ (v299 : IVec S16 32), Decidable (k0_chk174 v299) := fun v299 => decidable_of_iff' _ (Iff.of_eq (k0_chk174.eq_1 v299))
theorem k0_idx174_inb : ∀ (v299 : IVec S16 32) (k0_hw174 : k0_chk174 v299), ∀ a x, ((![v299] : Fin 1 → IVec S16 32) a x).toNat < S65536.size a := fun v299 k0_hw174 => k0_hw174

def k0_chk175 (v304 : IVec S16 32) : Prop :=
  (∀ a x, ((![v304] : Fin 1 → IVec S16 32) a x).toNat < S65536.size a)
instance k0_chk175.dec : ∀ (v304 : IVec S16 32), Decidable (k0_chk175 v304) := fun v304 => decidable_of_iff' _ (Iff.of_eq (k0_chk175.eq_1 v304))
theorem k0_idx175_inb : ∀ (v304 : IVec S16 32) (k0_hw175 : k0_chk175 v304), ∀ a x, ((![v304] : Fin 1 → IVec S16 32) a x).toNat < S65536.size a := fun v304 k0_hw175 => k0_hw175

def k0_chk176 (v309 : IVec S16 32) : Prop :=
  (∀ a x, ((![v309] : Fin 1 → IVec S16 32) a x).toNat < S65536.size a)
instance k0_chk176.dec : ∀ (v309 : IVec S16 32), Decidable (k0_chk176 v309) := fun v309 => decidable_of_iff' _ (Iff.of_eq (k0_chk176.eq_1 v309))
theorem k0_idx176_inb : ∀ (v309 : IVec S16 32) (k0_hw176 : k0_chk176 v309), ∀ a x, ((![v309] : Fin 1 → IVec S16 32) a x).toNat < S65536.size a := fun v309 k0_hw176 => k0_hw176
@[reducible] def k0_t13_loop : Scf.Loop 32 :=
  let c0_i32_72 : BitVec 32 := 0#32
  let c64_i32_73 : BitVec 32 := 64#32
  let v95 : BitVec 32 := Scalar.addi c0_i32_72 c64_i32_73
  let c1_i32_74 : BitVec 32 := 1#32
  ⟨c0_i32_72, v95, c1_i32_74⟩
def k0_off14 (k0_t13 : Fin k0_t13_loop.trips) (c0_i32_196 : BitVec 32) : Fin 1 → Nat :=
  let c0_i32_72 : BitVec 32 := 0#32
  let c1_i32_74 : BitVec 32 := 1#32
  let arg11 : BitVec 32 := Scf.iv c0_i32_72 c1_i32_74 k0_t13
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk177 (v234 : IVec S16 32) : Prop :=
  (∀ a x, ((![v234] : Fin 1 → IVec S16 32) a x).toNat < S65536.size a)
instance k0_chk177.dec : ∀ (v234 : IVec S16 32), Decidable (k0_chk177 v234) := fun v234 => decidable_of_iff' _ (Iff.of_eq (k0_chk177.eq_1 v234))
theorem k0_idx177_inb : ∀ (v234 : IVec S16 32) (k0_hw177 : k0_chk177 v234), ∀ a x, ((![v234] : Fin 1 → IVec S16 32) a x).toNat < S65536.size a := fun v234 k0_hw177 => k0_hw177

def k0_chk178 (v239 : IVec S16 32) : Prop :=
  (∀ a x, ((![v239] : Fin 1 → IVec S16 32) a x).toNat < S65536.size a)
instance k0_chk178.dec : ∀ (v239 : IVec S16 32), Decidable (k0_chk178 v239) := fun v239 => decidable_of_iff' _ (Iff.of_eq (k0_chk178.eq_1 v239))
theorem k0_idx178_inb : ∀ (v239 : IVec S16 32) (k0_hw178 : k0_chk178 v239), ∀ a x, ((![v239] : Fin 1 → IVec S16 32) a x).toNat < S65536.size a := fun v239 k0_hw178 => k0_hw178

def k0_chk179 (v244 : IVec S16 32) : Prop :=
  (∀ a x, ((![v244] : Fin 1 → IVec S16 32) a x).toNat < S65536.size a)
instance k0_chk179.dec : ∀ (v244 : IVec S16 32), Decidable (k0_chk179 v244) := fun v244 => decidable_of_iff' _ (Iff.of_eq (k0_chk179.eq_1 v244))
theorem k0_idx179_inb : ∀ (v244 : IVec S16 32) (k0_hw179 : k0_chk179 v244), ∀ a x, ((![v244] : Fin 1 → IVec S16 32) a x).toNat < S65536.size a := fun v244 k0_hw179 => k0_hw179

def k0_chk180 (v249 : IVec S16 32) : Prop :=
  (∀ a x, ((![v249] : Fin 1 → IVec S16 32) a x).toNat < S65536.size a)
instance k0_chk180.dec : ∀ (v249 : IVec S16 32), Decidable (k0_chk180 v249) := fun v249 => decidable_of_iff' _ (Iff.of_eq (k0_chk180.eq_1 v249))
theorem k0_idx180_inb : ∀ (v249 : IVec S16 32) (k0_hw180 : k0_chk180 v249), ∀ a x, ((![v249] : Fin 1 → IVec S16 32) a x).toNat < S65536.size a := fun v249 k0_hw180 => k0_hw180

def k0_chk181 (v254 : IVec S16 32) : Prop :=
  (∀ a x, ((![v254] : Fin 1 → IVec S16 32) a x).toNat < S65536.size a)
instance k0_chk181.dec : ∀ (v254 : IVec S16 32), Decidable (k0_chk181 v254) := fun v254 => decidable_of_iff' _ (Iff.of_eq (k0_chk181.eq_1 v254))
theorem k0_idx181_inb : ∀ (v254 : IVec S16 32) (k0_hw181 : k0_chk181 v254), ∀ a x, ((![v254] : Fin 1 → IVec S16 32) a x).toNat < S65536.size a := fun v254 k0_hw181 => k0_hw181

def k0_chk182 (v259 : IVec S16 32) : Prop :=
  (∀ a x, ((![v259] : Fin 1 → IVec S16 32) a x).toNat < S65536.size a)
instance k0_chk182.dec : ∀ (v259 : IVec S16 32), Decidable (k0_chk182 v259) := fun v259 => decidable_of_iff' _ (Iff.of_eq (k0_chk182.eq_1 v259))
theorem k0_idx182_inb : ∀ (v259 : IVec S16 32) (k0_hw182 : k0_chk182 v259), ∀ a x, ((![v259] : Fin 1 → IVec S16 32) a x).toNat < S65536.size a := fun v259 k0_hw182 => k0_hw182

def k0_chk183 (v264 : IVec S16 32) : Prop :=
  (∀ a x, ((![v264] : Fin 1 → IVec S16 32) a x).toNat < S65536.size a)
instance k0_chk183.dec : ∀ (v264 : IVec S16 32), Decidable (k0_chk183 v264) := fun v264 => decidable_of_iff' _ (Iff.of_eq (k0_chk183.eq_1 v264))
theorem k0_idx183_inb : ∀ (v264 : IVec S16 32) (k0_hw183 : k0_chk183 v264), ∀ a x, ((![v264] : Fin 1 → IVec S16 32) a x).toNat < S65536.size a := fun v264 k0_hw183 => k0_hw183

def k0_chk184 (v269 : IVec S16 32) : Prop :=
  (∀ a x, ((![v269] : Fin 1 → IVec S16 32) a x).toNat < S65536.size a)
instance k0_chk184.dec : ∀ (v269 : IVec S16 32), Decidable (k0_chk184 v269) := fun v269 => decidable_of_iff' _ (Iff.of_eq (k0_chk184.eq_1 v269))
theorem k0_idx184_inb : ∀ (v269 : IVec S16 32) (k0_hw184 : k0_chk184 v269), ∀ a x, ((![v269] : Fin 1 → IVec S16 32) a x).toNat < S65536.size a := fun v269 k0_hw184 => k0_hw184

def k0_chk185 (v274 : IVec S16 32) : Prop :=
  (∀ a x, ((![v274] : Fin 1 → IVec S16 32) a x).toNat < S65536.size a)
instance k0_chk185.dec : ∀ (v274 : IVec S16 32), Decidable (k0_chk185 v274) := fun v274 => decidable_of_iff' _ (Iff.of_eq (k0_chk185.eq_1 v274))
theorem k0_idx185_inb : ∀ (v274 : IVec S16 32) (k0_hw185 : k0_chk185 v274), ∀ a x, ((![v274] : Fin 1 → IVec S16 32) a x).toNat < S65536.size a := fun v274 k0_hw185 => k0_hw185

def k0_chk186 (v279 : IVec S16 32) : Prop :=
  (∀ a x, ((![v279] : Fin 1 → IVec S16 32) a x).toNat < S65536.size a)
instance k0_chk186.dec : ∀ (v279 : IVec S16 32), Decidable (k0_chk186 v279) := fun v279 => decidable_of_iff' _ (Iff.of_eq (k0_chk186.eq_1 v279))
theorem k0_idx186_inb : ∀ (v279 : IVec S16 32) (k0_hw186 : k0_chk186 v279), ∀ a x, ((![v279] : Fin 1 → IVec S16 32) a x).toNat < S65536.size a := fun v279 k0_hw186 => k0_hw186

def k0_chk187 (v284 : IVec S16 32) : Prop :=
  (∀ a x, ((![v284] : Fin 1 → IVec S16 32) a x).toNat < S65536.size a)
instance k0_chk187.dec : ∀ (v284 : IVec S16 32), Decidable (k0_chk187 v284) := fun v284 => decidable_of_iff' _ (Iff.of_eq (k0_chk187.eq_1 v284))
theorem k0_idx187_inb : ∀ (v284 : IVec S16 32) (k0_hw187 : k0_chk187 v284), ∀ a x, ((![v284] : Fin 1 → IVec S16 32) a x).toNat < S65536.size a := fun v284 k0_hw187 => k0_hw187

def k0_chk188 (v289 : IVec S16 32) : Prop :=
  (∀ a x, ((![v289] : Fin 1 → IVec S16 32) a x).toNat < S65536.size a)
instance k0_chk188.dec : ∀ (v289 : IVec S16 32), Decidable (k0_chk188 v289) := fun v289 => decidable_of_iff' _ (Iff.of_eq (k0_chk188.eq_1 v289))
theorem k0_idx188_inb : ∀ (v289 : IVec S16 32) (k0_hw188 : k0_chk188 v289), ∀ a x, ((![v289] : Fin 1 → IVec S16 32) a x).toNat < S65536.size a := fun v289 k0_hw188 => k0_hw188

def k0_chk189 (v294 : IVec S16 32) : Prop :=
  (∀ a x, ((![v294] : Fin 1 → IVec S16 32) a x).toNat < S65536.size a)
instance k0_chk189.dec : ∀ (v294 : IVec S16 32), Decidable (k0_chk189 v294) := fun v294 => decidable_of_iff' _ (Iff.of_eq (k0_chk189.eq_1 v294))
theorem k0_idx189_inb : ∀ (v294 : IVec S16 32) (k0_hw189 : k0_chk189 v294), ∀ a x, ((![v294] : Fin 1 → IVec S16 32) a x).toNat < S65536.size a := fun v294 k0_hw189 => k0_hw189

def k0_chk190 (v299 : IVec S16 32) : Prop :=
  (∀ a x, ((![v299] : Fin 1 → IVec S16 32) a x).toNat < S65536.size a)
instance k0_chk190.dec : ∀ (v299 : IVec S16 32), Decidable (k0_chk190 v299) := fun v299 => decidable_of_iff' _ (Iff.of_eq (k0_chk190.eq_1 v299))
theorem k0_idx190_inb : ∀ (v299 : IVec S16 32) (k0_hw190 : k0_chk190 v299), ∀ a x, ((![v299] : Fin 1 → IVec S16 32) a x).toNat < S65536.size a := fun v299 k0_hw190 => k0_hw190

def k0_chk191 (v304 : IVec S16 32) : Prop :=
  (∀ a x, ((![v304] : Fin 1 → IVec S16 32) a x).toNat < S65536.size a)
instance k0_chk191.dec : ∀ (v304 : IVec S16 32), Decidable (k0_chk191 v304) := fun v304 => decidable_of_iff' _ (Iff.of_eq (k0_chk191.eq_1 v304))
theorem k0_idx191_inb : ∀ (v304 : IVec S16 32) (k0_hw191 : k0_chk191 v304), ∀ a x, ((![v304] : Fin 1 → IVec S16 32) a x).toNat < S65536.size a := fun v304 k0_hw191 => k0_hw191

def k0_chk192 (v309 : IVec S16 32) : Prop :=
  (∀ a x, ((![v309] : Fin 1 → IVec S16 32) a x).toNat < S65536.size a)
instance k0_chk192.dec : ∀ (v309 : IVec S16 32), Decidable (k0_chk192 v309) := fun v309 => decidable_of_iff' _ (Iff.of_eq (k0_chk192.eq_1 v309))
theorem k0_idx192_inb : ∀ (v309 : IVec S16 32) (k0_hw192 : k0_chk192 v309), ∀ a x, ((![v309] : Fin 1 → IVec S16 32) a x).toNat < S65536.size a := fun v309 k0_hw192 => k0_hw192
@[reducible] def k0_t14_loop : Scf.Loop 32 :=
  let c0_i32_78 : BitVec 32 := 0#32
  let c64_i32_79 : BitVec 32 := 64#32
  let v102 : BitVec 32 := Scalar.addi c0_i32_78 c64_i32_79
  let c1_i32_80 : BitVec 32 := 1#32
  ⟨c0_i32_78, v102, c1_i32_80⟩
def k0_off15 (k0_t14 : Fin k0_t14_loop.trips) (c0_i32_196 : BitVec 32) : Fin 1 → Nat :=
  let c0_i32_78 : BitVec 32 := 0#32
  let c1_i32_80 : BitVec 32 := 1#32
  let arg11 : BitVec 32 := Scf.iv c0_i32_78 c1_i32_80 k0_t14
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk193 (v234 : IVec S16 32) : Prop :=
  (∀ a x, ((![v234] : Fin 1 → IVec S16 32) a x).toNat < S65536.size a)
instance k0_chk193.dec : ∀ (v234 : IVec S16 32), Decidable (k0_chk193 v234) := fun v234 => decidable_of_iff' _ (Iff.of_eq (k0_chk193.eq_1 v234))
theorem k0_idx193_inb : ∀ (v234 : IVec S16 32) (k0_hw193 : k0_chk193 v234), ∀ a x, ((![v234] : Fin 1 → IVec S16 32) a x).toNat < S65536.size a := fun v234 k0_hw193 => k0_hw193

def k0_chk194 (v239 : IVec S16 32) : Prop :=
  (∀ a x, ((![v239] : Fin 1 → IVec S16 32) a x).toNat < S65536.size a)
instance k0_chk194.dec : ∀ (v239 : IVec S16 32), Decidable (k0_chk194 v239) := fun v239 => decidable_of_iff' _ (Iff.of_eq (k0_chk194.eq_1 v239))
theorem k0_idx194_inb : ∀ (v239 : IVec S16 32) (k0_hw194 : k0_chk194 v239), ∀ a x, ((![v239] : Fin 1 → IVec S16 32) a x).toNat < S65536.size a := fun v239 k0_hw194 => k0_hw194

def k0_chk195 (v244 : IVec S16 32) : Prop :=
  (∀ a x, ((![v244] : Fin 1 → IVec S16 32) a x).toNat < S65536.size a)
instance k0_chk195.dec : ∀ (v244 : IVec S16 32), Decidable (k0_chk195 v244) := fun v244 => decidable_of_iff' _ (Iff.of_eq (k0_chk195.eq_1 v244))
theorem k0_idx195_inb : ∀ (v244 : IVec S16 32) (k0_hw195 : k0_chk195 v244), ∀ a x, ((![v244] : Fin 1 → IVec S16 32) a x).toNat < S65536.size a := fun v244 k0_hw195 => k0_hw195

def k0_chk196 (v249 : IVec S16 32) : Prop :=
  (∀ a x, ((![v249] : Fin 1 → IVec S16 32) a x).toNat < S65536.size a)
instance k0_chk196.dec : ∀ (v249 : IVec S16 32), Decidable (k0_chk196 v249) := fun v249 => decidable_of_iff' _ (Iff.of_eq (k0_chk196.eq_1 v249))
theorem k0_idx196_inb : ∀ (v249 : IVec S16 32) (k0_hw196 : k0_chk196 v249), ∀ a x, ((![v249] : Fin 1 → IVec S16 32) a x).toNat < S65536.size a := fun v249 k0_hw196 => k0_hw196

def k0_chk197 (v254 : IVec S16 32) : Prop :=
  (∀ a x, ((![v254] : Fin 1 → IVec S16 32) a x).toNat < S65536.size a)
instance k0_chk197.dec : ∀ (v254 : IVec S16 32), Decidable (k0_chk197 v254) := fun v254 => decidable_of_iff' _ (Iff.of_eq (k0_chk197.eq_1 v254))
theorem k0_idx197_inb : ∀ (v254 : IVec S16 32) (k0_hw197 : k0_chk197 v254), ∀ a x, ((![v254] : Fin 1 → IVec S16 32) a x).toNat < S65536.size a := fun v254 k0_hw197 => k0_hw197

def k0_chk198 (v259 : IVec S16 32) : Prop :=
  (∀ a x, ((![v259] : Fin 1 → IVec S16 32) a x).toNat < S65536.size a)
instance k0_chk198.dec : ∀ (v259 : IVec S16 32), Decidable (k0_chk198 v259) := fun v259 => decidable_of_iff' _ (Iff.of_eq (k0_chk198.eq_1 v259))
theorem k0_idx198_inb : ∀ (v259 : IVec S16 32) (k0_hw198 : k0_chk198 v259), ∀ a x, ((![v259] : Fin 1 → IVec S16 32) a x).toNat < S65536.size a := fun v259 k0_hw198 => k0_hw198

def k0_chk199 (v264 : IVec S16 32) : Prop :=
  (∀ a x, ((![v264] : Fin 1 → IVec S16 32) a x).toNat < S65536.size a)
instance k0_chk199.dec : ∀ (v264 : IVec S16 32), Decidable (k0_chk199 v264) := fun v264 => decidable_of_iff' _ (Iff.of_eq (k0_chk199.eq_1 v264))
theorem k0_idx199_inb : ∀ (v264 : IVec S16 32) (k0_hw199 : k0_chk199 v264), ∀ a x, ((![v264] : Fin 1 → IVec S16 32) a x).toNat < S65536.size a := fun v264 k0_hw199 => k0_hw199

def k0_chk200 (v269 : IVec S16 32) : Prop :=
  (∀ a x, ((![v269] : Fin 1 → IVec S16 32) a x).toNat < S65536.size a)
instance k0_chk200.dec : ∀ (v269 : IVec S16 32), Decidable (k0_chk200 v269) := fun v269 => decidable_of_iff' _ (Iff.of_eq (k0_chk200.eq_1 v269))
theorem k0_idx200_inb : ∀ (v269 : IVec S16 32) (k0_hw200 : k0_chk200 v269), ∀ a x, ((![v269] : Fin 1 → IVec S16 32) a x).toNat < S65536.size a := fun v269 k0_hw200 => k0_hw200

def k0_chk201 (v274 : IVec S16 32) : Prop :=
  (∀ a x, ((![v274] : Fin 1 → IVec S16 32) a x).toNat < S65536.size a)
instance k0_chk201.dec : ∀ (v274 : IVec S16 32), Decidable (k0_chk201 v274) := fun v274 => decidable_of_iff' _ (Iff.of_eq (k0_chk201.eq_1 v274))
theorem k0_idx201_inb : ∀ (v274 : IVec S16 32) (k0_hw201 : k0_chk201 v274), ∀ a x, ((![v274] : Fin 1 → IVec S16 32) a x).toNat < S65536.size a := fun v274 k0_hw201 => k0_hw201

def k0_chk202 (v279 : IVec S16 32) : Prop :=
  (∀ a x, ((![v279] : Fin 1 → IVec S16 32) a x).toNat < S65536.size a)
instance k0_chk202.dec : ∀ (v279 : IVec S16 32), Decidable (k0_chk202 v279) := fun v279 => decidable_of_iff' _ (Iff.of_eq (k0_chk202.eq_1 v279))
theorem k0_idx202_inb : ∀ (v279 : IVec S16 32) (k0_hw202 : k0_chk202 v279), ∀ a x, ((![v279] : Fin 1 → IVec S16 32) a x).toNat < S65536.size a := fun v279 k0_hw202 => k0_hw202

def k0_chk203 (v284 : IVec S16 32) : Prop :=
  (∀ a x, ((![v284] : Fin 1 → IVec S16 32) a x).toNat < S65536.size a)
instance k0_chk203.dec : ∀ (v284 : IVec S16 32), Decidable (k0_chk203 v284) := fun v284 => decidable_of_iff' _ (Iff.of_eq (k0_chk203.eq_1 v284))
theorem k0_idx203_inb : ∀ (v284 : IVec S16 32) (k0_hw203 : k0_chk203 v284), ∀ a x, ((![v284] : Fin 1 → IVec S16 32) a x).toNat < S65536.size a := fun v284 k0_hw203 => k0_hw203

def k0_chk204 (v289 : IVec S16 32) : Prop :=
  (∀ a x, ((![v289] : Fin 1 → IVec S16 32) a x).toNat < S65536.size a)
instance k0_chk204.dec : ∀ (v289 : IVec S16 32), Decidable (k0_chk204 v289) := fun v289 => decidable_of_iff' _ (Iff.of_eq (k0_chk204.eq_1 v289))
theorem k0_idx204_inb : ∀ (v289 : IVec S16 32) (k0_hw204 : k0_chk204 v289), ∀ a x, ((![v289] : Fin 1 → IVec S16 32) a x).toNat < S65536.size a := fun v289 k0_hw204 => k0_hw204

def k0_chk205 (v294 : IVec S16 32) : Prop :=
  (∀ a x, ((![v294] : Fin 1 → IVec S16 32) a x).toNat < S65536.size a)
instance k0_chk205.dec : ∀ (v294 : IVec S16 32), Decidable (k0_chk205 v294) := fun v294 => decidable_of_iff' _ (Iff.of_eq (k0_chk205.eq_1 v294))
theorem k0_idx205_inb : ∀ (v294 : IVec S16 32) (k0_hw205 : k0_chk205 v294), ∀ a x, ((![v294] : Fin 1 → IVec S16 32) a x).toNat < S65536.size a := fun v294 k0_hw205 => k0_hw205

def k0_chk206 (v299 : IVec S16 32) : Prop :=
  (∀ a x, ((![v299] : Fin 1 → IVec S16 32) a x).toNat < S65536.size a)
instance k0_chk206.dec : ∀ (v299 : IVec S16 32), Decidable (k0_chk206 v299) := fun v299 => decidable_of_iff' _ (Iff.of_eq (k0_chk206.eq_1 v299))
theorem k0_idx206_inb : ∀ (v299 : IVec S16 32) (k0_hw206 : k0_chk206 v299), ∀ a x, ((![v299] : Fin 1 → IVec S16 32) a x).toNat < S65536.size a := fun v299 k0_hw206 => k0_hw206

def k0_chk207 (v304 : IVec S16 32) : Prop :=
  (∀ a x, ((![v304] : Fin 1 → IVec S16 32) a x).toNat < S65536.size a)
instance k0_chk207.dec : ∀ (v304 : IVec S16 32), Decidable (k0_chk207 v304) := fun v304 => decidable_of_iff' _ (Iff.of_eq (k0_chk207.eq_1 v304))
theorem k0_idx207_inb : ∀ (v304 : IVec S16 32) (k0_hw207 : k0_chk207 v304), ∀ a x, ((![v304] : Fin 1 → IVec S16 32) a x).toNat < S65536.size a := fun v304 k0_hw207 => k0_hw207

def k0_chk208 (v309 : IVec S16 32) : Prop :=
  (∀ a x, ((![v309] : Fin 1 → IVec S16 32) a x).toNat < S65536.size a)
instance k0_chk208.dec : ∀ (v309 : IVec S16 32), Decidable (k0_chk208 v309) := fun v309 => decidable_of_iff' _ (Iff.of_eq (k0_chk208.eq_1 v309))
theorem k0_idx208_inb : ∀ (v309 : IVec S16 32) (k0_hw208 : k0_chk208 v309), ∀ a x, ((![v309] : Fin 1 → IVec S16 32) a x).toNat < S65536.size a := fun v309 k0_hw208 => k0_hw208
@[reducible] def k0_t15_loop : Scf.Loop 32 :=
  let c0_i32_84 : BitVec 32 := 0#32
  let c64_i32_85 : BitVec 32 := 64#32
  let v109 : BitVec 32 := Scalar.addi c0_i32_84 c64_i32_85
  let c1_i32_86 : BitVec 32 := 1#32
  ⟨c0_i32_84, v109, c1_i32_86⟩
def k0_off16 (k0_t15 : Fin k0_t15_loop.trips) (c0_i32_196 : BitVec 32) : Fin 1 → Nat :=
  let c0_i32_84 : BitVec 32 := 0#32
  let c1_i32_86 : BitVec 32 := 1#32
  let arg11 : BitVec 32 := Scf.iv c0_i32_84 c1_i32_86 k0_t15
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk209 (v234 : IVec S16 32) : Prop :=
  (∀ a x, ((![v234] : Fin 1 → IVec S16 32) a x).toNat < S65536.size a)
instance k0_chk209.dec : ∀ (v234 : IVec S16 32), Decidable (k0_chk209 v234) := fun v234 => decidable_of_iff' _ (Iff.of_eq (k0_chk209.eq_1 v234))
theorem k0_idx209_inb : ∀ (v234 : IVec S16 32) (k0_hw209 : k0_chk209 v234), ∀ a x, ((![v234] : Fin 1 → IVec S16 32) a x).toNat < S65536.size a := fun v234 k0_hw209 => k0_hw209

def k0_chk210 (v239 : IVec S16 32) : Prop :=
  (∀ a x, ((![v239] : Fin 1 → IVec S16 32) a x).toNat < S65536.size a)
instance k0_chk210.dec : ∀ (v239 : IVec S16 32), Decidable (k0_chk210 v239) := fun v239 => decidable_of_iff' _ (Iff.of_eq (k0_chk210.eq_1 v239))
theorem k0_idx210_inb : ∀ (v239 : IVec S16 32) (k0_hw210 : k0_chk210 v239), ∀ a x, ((![v239] : Fin 1 → IVec S16 32) a x).toNat < S65536.size a := fun v239 k0_hw210 => k0_hw210

def k0_chk211 (v244 : IVec S16 32) : Prop :=
  (∀ a x, ((![v244] : Fin 1 → IVec S16 32) a x).toNat < S65536.size a)
instance k0_chk211.dec : ∀ (v244 : IVec S16 32), Decidable (k0_chk211 v244) := fun v244 => decidable_of_iff' _ (Iff.of_eq (k0_chk211.eq_1 v244))
theorem k0_idx211_inb : ∀ (v244 : IVec S16 32) (k0_hw211 : k0_chk211 v244), ∀ a x, ((![v244] : Fin 1 → IVec S16 32) a x).toNat < S65536.size a := fun v244 k0_hw211 => k0_hw211

def k0_chk212 (v249 : IVec S16 32) : Prop :=
  (∀ a x, ((![v249] : Fin 1 → IVec S16 32) a x).toNat < S65536.size a)
instance k0_chk212.dec : ∀ (v249 : IVec S16 32), Decidable (k0_chk212 v249) := fun v249 => decidable_of_iff' _ (Iff.of_eq (k0_chk212.eq_1 v249))
theorem k0_idx212_inb : ∀ (v249 : IVec S16 32) (k0_hw212 : k0_chk212 v249), ∀ a x, ((![v249] : Fin 1 → IVec S16 32) a x).toNat < S65536.size a := fun v249 k0_hw212 => k0_hw212

def k0_chk213 (v254 : IVec S16 32) : Prop :=
  (∀ a x, ((![v254] : Fin 1 → IVec S16 32) a x).toNat < S65536.size a)
instance k0_chk213.dec : ∀ (v254 : IVec S16 32), Decidable (k0_chk213 v254) := fun v254 => decidable_of_iff' _ (Iff.of_eq (k0_chk213.eq_1 v254))
theorem k0_idx213_inb : ∀ (v254 : IVec S16 32) (k0_hw213 : k0_chk213 v254), ∀ a x, ((![v254] : Fin 1 → IVec S16 32) a x).toNat < S65536.size a := fun v254 k0_hw213 => k0_hw213

def k0_chk214 (v259 : IVec S16 32) : Prop :=
  (∀ a x, ((![v259] : Fin 1 → IVec S16 32) a x).toNat < S65536.size a)
instance k0_chk214.dec : ∀ (v259 : IVec S16 32), Decidable (k0_chk214 v259) := fun v259 => decidable_of_iff' _ (Iff.of_eq (k0_chk214.eq_1 v259))
theorem k0_idx214_inb : ∀ (v259 : IVec S16 32) (k0_hw214 : k0_chk214 v259), ∀ a x, ((![v259] : Fin 1 → IVec S16 32) a x).toNat < S65536.size a := fun v259 k0_hw214 => k0_hw214

def k0_chk215 (v264 : IVec S16 32) : Prop :=
  (∀ a x, ((![v264] : Fin 1 → IVec S16 32) a x).toNat < S65536.size a)
instance k0_chk215.dec : ∀ (v264 : IVec S16 32), Decidable (k0_chk215 v264) := fun v264 => decidable_of_iff' _ (Iff.of_eq (k0_chk215.eq_1 v264))
theorem k0_idx215_inb : ∀ (v264 : IVec S16 32) (k0_hw215 : k0_chk215 v264), ∀ a x, ((![v264] : Fin 1 → IVec S16 32) a x).toNat < S65536.size a := fun v264 k0_hw215 => k0_hw215

def k0_chk216 (v269 : IVec S16 32) : Prop :=
  (∀ a x, ((![v269] : Fin 1 → IVec S16 32) a x).toNat < S65536.size a)
instance k0_chk216.dec : ∀ (v269 : IVec S16 32), Decidable (k0_chk216 v269) := fun v269 => decidable_of_iff' _ (Iff.of_eq (k0_chk216.eq_1 v269))
theorem k0_idx216_inb : ∀ (v269 : IVec S16 32) (k0_hw216 : k0_chk216 v269), ∀ a x, ((![v269] : Fin 1 → IVec S16 32) a x).toNat < S65536.size a := fun v269 k0_hw216 => k0_hw216

def k0_chk217 (v274 : IVec S16 32) : Prop :=
  (∀ a x, ((![v274] : Fin 1 → IVec S16 32) a x).toNat < S65536.size a)
instance k0_chk217.dec : ∀ (v274 : IVec S16 32), Decidable (k0_chk217 v274) := fun v274 => decidable_of_iff' _ (Iff.of_eq (k0_chk217.eq_1 v274))
theorem k0_idx217_inb : ∀ (v274 : IVec S16 32) (k0_hw217 : k0_chk217 v274), ∀ a x, ((![v274] : Fin 1 → IVec S16 32) a x).toNat < S65536.size a := fun v274 k0_hw217 => k0_hw217

def k0_chk218 (v279 : IVec S16 32) : Prop :=
  (∀ a x, ((![v279] : Fin 1 → IVec S16 32) a x).toNat < S65536.size a)
instance k0_chk218.dec : ∀ (v279 : IVec S16 32), Decidable (k0_chk218 v279) := fun v279 => decidable_of_iff' _ (Iff.of_eq (k0_chk218.eq_1 v279))
theorem k0_idx218_inb : ∀ (v279 : IVec S16 32) (k0_hw218 : k0_chk218 v279), ∀ a x, ((![v279] : Fin 1 → IVec S16 32) a x).toNat < S65536.size a := fun v279 k0_hw218 => k0_hw218

def k0_chk219 (v284 : IVec S16 32) : Prop :=
  (∀ a x, ((![v284] : Fin 1 → IVec S16 32) a x).toNat < S65536.size a)
instance k0_chk219.dec : ∀ (v284 : IVec S16 32), Decidable (k0_chk219 v284) := fun v284 => decidable_of_iff' _ (Iff.of_eq (k0_chk219.eq_1 v284))
theorem k0_idx219_inb : ∀ (v284 : IVec S16 32) (k0_hw219 : k0_chk219 v284), ∀ a x, ((![v284] : Fin 1 → IVec S16 32) a x).toNat < S65536.size a := fun v284 k0_hw219 => k0_hw219

def k0_chk220 (v289 : IVec S16 32) : Prop :=
  (∀ a x, ((![v289] : Fin 1 → IVec S16 32) a x).toNat < S65536.size a)
instance k0_chk220.dec : ∀ (v289 : IVec S16 32), Decidable (k0_chk220 v289) := fun v289 => decidable_of_iff' _ (Iff.of_eq (k0_chk220.eq_1 v289))
theorem k0_idx220_inb : ∀ (v289 : IVec S16 32) (k0_hw220 : k0_chk220 v289), ∀ a x, ((![v289] : Fin 1 → IVec S16 32) a x).toNat < S65536.size a := fun v289 k0_hw220 => k0_hw220

def k0_chk221 (v294 : IVec S16 32) : Prop :=
  (∀ a x, ((![v294] : Fin 1 → IVec S16 32) a x).toNat < S65536.size a)
instance k0_chk221.dec : ∀ (v294 : IVec S16 32), Decidable (k0_chk221 v294) := fun v294 => decidable_of_iff' _ (Iff.of_eq (k0_chk221.eq_1 v294))
theorem k0_idx221_inb : ∀ (v294 : IVec S16 32) (k0_hw221 : k0_chk221 v294), ∀ a x, ((![v294] : Fin 1 → IVec S16 32) a x).toNat < S65536.size a := fun v294 k0_hw221 => k0_hw221

def k0_chk222 (v299 : IVec S16 32) : Prop :=
  (∀ a x, ((![v299] : Fin 1 → IVec S16 32) a x).toNat < S65536.size a)
instance k0_chk222.dec : ∀ (v299 : IVec S16 32), Decidable (k0_chk222 v299) := fun v299 => decidable_of_iff' _ (Iff.of_eq (k0_chk222.eq_1 v299))
theorem k0_idx222_inb : ∀ (v299 : IVec S16 32) (k0_hw222 : k0_chk222 v299), ∀ a x, ((![v299] : Fin 1 → IVec S16 32) a x).toNat < S65536.size a := fun v299 k0_hw222 => k0_hw222

def k0_chk223 (v304 : IVec S16 32) : Prop :=
  (∀ a x, ((![v304] : Fin 1 → IVec S16 32) a x).toNat < S65536.size a)
instance k0_chk223.dec : ∀ (v304 : IVec S16 32), Decidable (k0_chk223 v304) := fun v304 => decidable_of_iff' _ (Iff.of_eq (k0_chk223.eq_1 v304))
theorem k0_idx223_inb : ∀ (v304 : IVec S16 32) (k0_hw223 : k0_chk223 v304), ∀ a x, ((![v304] : Fin 1 → IVec S16 32) a x).toNat < S65536.size a := fun v304 k0_hw223 => k0_hw223

def k0_chk224 (v309 : IVec S16 32) : Prop :=
  (∀ a x, ((![v309] : Fin 1 → IVec S16 32) a x).toNat < S65536.size a)
instance k0_chk224.dec : ∀ (v309 : IVec S16 32), Decidable (k0_chk224 v309) := fun v309 => decidable_of_iff' _ (Iff.of_eq (k0_chk224.eq_1 v309))
theorem k0_idx224_inb : ∀ (v309 : IVec S16 32) (k0_hw224 : k0_chk224 v309), ∀ a x, ((![v309] : Fin 1 → IVec S16 32) a x).toNat < S65536.size a := fun v309 k0_hw224 => k0_hw224
@[reducible] def k0_t16_loop : Scf.Loop 32 :=
  let c0_i32_90 : BitVec 32 := 0#32
  let c64_i32_91 : BitVec 32 := 64#32
  let v116 : BitVec 32 := Scalar.addi c0_i32_90 c64_i32_91
  let c1_i32_92 : BitVec 32 := 1#32
  ⟨c0_i32_90, v116, c1_i32_92⟩
def k0_off17 (k0_t16 : Fin k0_t16_loop.trips) (c0_i32_196 : BitVec 32) : Fin 1 → Nat :=
  let c0_i32_90 : BitVec 32 := 0#32
  let c1_i32_92 : BitVec 32 := 1#32
  let arg11 : BitVec 32 := Scf.iv c0_i32_90 c1_i32_92 k0_t16
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk225 (v234 : IVec S16 32) : Prop :=
  (∀ a x, ((![v234] : Fin 1 → IVec S16 32) a x).toNat < S65536.size a)
instance k0_chk225.dec : ∀ (v234 : IVec S16 32), Decidable (k0_chk225 v234) := fun v234 => decidable_of_iff' _ (Iff.of_eq (k0_chk225.eq_1 v234))
theorem k0_idx225_inb : ∀ (v234 : IVec S16 32) (k0_hw225 : k0_chk225 v234), ∀ a x, ((![v234] : Fin 1 → IVec S16 32) a x).toNat < S65536.size a := fun v234 k0_hw225 => k0_hw225

def k0_chk226 (v239 : IVec S16 32) : Prop :=
  (∀ a x, ((![v239] : Fin 1 → IVec S16 32) a x).toNat < S65536.size a)
instance k0_chk226.dec : ∀ (v239 : IVec S16 32), Decidable (k0_chk226 v239) := fun v239 => decidable_of_iff' _ (Iff.of_eq (k0_chk226.eq_1 v239))
theorem k0_idx226_inb : ∀ (v239 : IVec S16 32) (k0_hw226 : k0_chk226 v239), ∀ a x, ((![v239] : Fin 1 → IVec S16 32) a x).toNat < S65536.size a := fun v239 k0_hw226 => k0_hw226

def k0_chk227 (v244 : IVec S16 32) : Prop :=
  (∀ a x, ((![v244] : Fin 1 → IVec S16 32) a x).toNat < S65536.size a)
instance k0_chk227.dec : ∀ (v244 : IVec S16 32), Decidable (k0_chk227 v244) := fun v244 => decidable_of_iff' _ (Iff.of_eq (k0_chk227.eq_1 v244))
theorem k0_idx227_inb : ∀ (v244 : IVec S16 32) (k0_hw227 : k0_chk227 v244), ∀ a x, ((![v244] : Fin 1 → IVec S16 32) a x).toNat < S65536.size a := fun v244 k0_hw227 => k0_hw227

def k0_chk228 (v249 : IVec S16 32) : Prop :=
  (∀ a x, ((![v249] : Fin 1 → IVec S16 32) a x).toNat < S65536.size a)
instance k0_chk228.dec : ∀ (v249 : IVec S16 32), Decidable (k0_chk228 v249) := fun v249 => decidable_of_iff' _ (Iff.of_eq (k0_chk228.eq_1 v249))
theorem k0_idx228_inb : ∀ (v249 : IVec S16 32) (k0_hw228 : k0_chk228 v249), ∀ a x, ((![v249] : Fin 1 → IVec S16 32) a x).toNat < S65536.size a := fun v249 k0_hw228 => k0_hw228

def k0_chk229 (v254 : IVec S16 32) : Prop :=
  (∀ a x, ((![v254] : Fin 1 → IVec S16 32) a x).toNat < S65536.size a)
instance k0_chk229.dec : ∀ (v254 : IVec S16 32), Decidable (k0_chk229 v254) := fun v254 => decidable_of_iff' _ (Iff.of_eq (k0_chk229.eq_1 v254))
theorem k0_idx229_inb : ∀ (v254 : IVec S16 32) (k0_hw229 : k0_chk229 v254), ∀ a x, ((![v254] : Fin 1 → IVec S16 32) a x).toNat < S65536.size a := fun v254 k0_hw229 => k0_hw229

def k0_chk230 (v259 : IVec S16 32) : Prop :=
  (∀ a x, ((![v259] : Fin 1 → IVec S16 32) a x).toNat < S65536.size a)
instance k0_chk230.dec : ∀ (v259 : IVec S16 32), Decidable (k0_chk230 v259) := fun v259 => decidable_of_iff' _ (Iff.of_eq (k0_chk230.eq_1 v259))
theorem k0_idx230_inb : ∀ (v259 : IVec S16 32) (k0_hw230 : k0_chk230 v259), ∀ a x, ((![v259] : Fin 1 → IVec S16 32) a x).toNat < S65536.size a := fun v259 k0_hw230 => k0_hw230

def k0_chk231 (v264 : IVec S16 32) : Prop :=
  (∀ a x, ((![v264] : Fin 1 → IVec S16 32) a x).toNat < S65536.size a)
instance k0_chk231.dec : ∀ (v264 : IVec S16 32), Decidable (k0_chk231 v264) := fun v264 => decidable_of_iff' _ (Iff.of_eq (k0_chk231.eq_1 v264))
theorem k0_idx231_inb : ∀ (v264 : IVec S16 32) (k0_hw231 : k0_chk231 v264), ∀ a x, ((![v264] : Fin 1 → IVec S16 32) a x).toNat < S65536.size a := fun v264 k0_hw231 => k0_hw231

def k0_chk232 (v269 : IVec S16 32) : Prop :=
  (∀ a x, ((![v269] : Fin 1 → IVec S16 32) a x).toNat < S65536.size a)
instance k0_chk232.dec : ∀ (v269 : IVec S16 32), Decidable (k0_chk232 v269) := fun v269 => decidable_of_iff' _ (Iff.of_eq (k0_chk232.eq_1 v269))
theorem k0_idx232_inb : ∀ (v269 : IVec S16 32) (k0_hw232 : k0_chk232 v269), ∀ a x, ((![v269] : Fin 1 → IVec S16 32) a x).toNat < S65536.size a := fun v269 k0_hw232 => k0_hw232

def k0_chk233 (v274 : IVec S16 32) : Prop :=
  (∀ a x, ((![v274] : Fin 1 → IVec S16 32) a x).toNat < S65536.size a)
instance k0_chk233.dec : ∀ (v274 : IVec S16 32), Decidable (k0_chk233 v274) := fun v274 => decidable_of_iff' _ (Iff.of_eq (k0_chk233.eq_1 v274))
theorem k0_idx233_inb : ∀ (v274 : IVec S16 32) (k0_hw233 : k0_chk233 v274), ∀ a x, ((![v274] : Fin 1 → IVec S16 32) a x).toNat < S65536.size a := fun v274 k0_hw233 => k0_hw233

def k0_chk234 (v279 : IVec S16 32) : Prop :=
  (∀ a x, ((![v279] : Fin 1 → IVec S16 32) a x).toNat < S65536.size a)
instance k0_chk234.dec : ∀ (v279 : IVec S16 32), Decidable (k0_chk234 v279) := fun v279 => decidable_of_iff' _ (Iff.of_eq (k0_chk234.eq_1 v279))
theorem k0_idx234_inb : ∀ (v279 : IVec S16 32) (k0_hw234 : k0_chk234 v279), ∀ a x, ((![v279] : Fin 1 → IVec S16 32) a x).toNat < S65536.size a := fun v279 k0_hw234 => k0_hw234

def k0_chk235 (v284 : IVec S16 32) : Prop :=
  (∀ a x, ((![v284] : Fin 1 → IVec S16 32) a x).toNat < S65536.size a)
instance k0_chk235.dec : ∀ (v284 : IVec S16 32), Decidable (k0_chk235 v284) := fun v284 => decidable_of_iff' _ (Iff.of_eq (k0_chk235.eq_1 v284))
theorem k0_idx235_inb : ∀ (v284 : IVec S16 32) (k0_hw235 : k0_chk235 v284), ∀ a x, ((![v284] : Fin 1 → IVec S16 32) a x).toNat < S65536.size a := fun v284 k0_hw235 => k0_hw235

def k0_chk236 (v289 : IVec S16 32) : Prop :=
  (∀ a x, ((![v289] : Fin 1 → IVec S16 32) a x).toNat < S65536.size a)
instance k0_chk236.dec : ∀ (v289 : IVec S16 32), Decidable (k0_chk236 v289) := fun v289 => decidable_of_iff' _ (Iff.of_eq (k0_chk236.eq_1 v289))
theorem k0_idx236_inb : ∀ (v289 : IVec S16 32) (k0_hw236 : k0_chk236 v289), ∀ a x, ((![v289] : Fin 1 → IVec S16 32) a x).toNat < S65536.size a := fun v289 k0_hw236 => k0_hw236

def k0_chk237 (v294 : IVec S16 32) : Prop :=
  (∀ a x, ((![v294] : Fin 1 → IVec S16 32) a x).toNat < S65536.size a)
instance k0_chk237.dec : ∀ (v294 : IVec S16 32), Decidable (k0_chk237 v294) := fun v294 => decidable_of_iff' _ (Iff.of_eq (k0_chk237.eq_1 v294))
theorem k0_idx237_inb : ∀ (v294 : IVec S16 32) (k0_hw237 : k0_chk237 v294), ∀ a x, ((![v294] : Fin 1 → IVec S16 32) a x).toNat < S65536.size a := fun v294 k0_hw237 => k0_hw237

def k0_chk238 (v299 : IVec S16 32) : Prop :=
  (∀ a x, ((![v299] : Fin 1 → IVec S16 32) a x).toNat < S65536.size a)
instance k0_chk238.dec : ∀ (v299 : IVec S16 32), Decidable (k0_chk238 v299) := fun v299 => decidable_of_iff' _ (Iff.of_eq (k0_chk238.eq_1 v299))
theorem k0_idx238_inb : ∀ (v299 : IVec S16 32) (k0_hw238 : k0_chk238 v299), ∀ a x, ((![v299] : Fin 1 → IVec S16 32) a x).toNat < S65536.size a := fun v299 k0_hw238 => k0_hw238

def k0_chk239 (v304 : IVec S16 32) : Prop :=
  (∀ a x, ((![v304] : Fin 1 → IVec S16 32) a x).toNat < S65536.size a)
instance k0_chk239.dec : ∀ (v304 : IVec S16 32), Decidable (k0_chk239 v304) := fun v304 => decidable_of_iff' _ (Iff.of_eq (k0_chk239.eq_1 v304))
theorem k0_idx239_inb : ∀ (v304 : IVec S16 32) (k0_hw239 : k0_chk239 v304), ∀ a x, ((![v304] : Fin 1 → IVec S16 32) a x).toNat < S65536.size a := fun v304 k0_hw239 => k0_hw239

def k0_chk240 (v309 : IVec S16 32) : Prop :=
  (∀ a x, ((![v309] : Fin 1 → IVec S16 32) a x).toNat < S65536.size a)
instance k0_chk240.dec : ∀ (v309 : IVec S16 32), Decidable (k0_chk240 v309) := fun v309 => decidable_of_iff' _ (Iff.of_eq (k0_chk240.eq_1 v309))
theorem k0_idx240_inb : ∀ (v309 : IVec S16 32) (k0_hw240 : k0_chk240 v309), ∀ a x, ((![v309] : Fin 1 → IVec S16 32) a x).toNat < S65536.size a := fun v309 k0_hw240 => k0_hw240
@[reducible] def k0_t17_loop : Scf.Loop 32 :=
  let c0_i32_96 : BitVec 32 := 0#32
  let c64_i32_97 : BitVec 32 := 64#32
  let v123 : BitVec 32 := Scalar.addi c0_i32_96 c64_i32_97
  let c1_i32_98 : BitVec 32 := 1#32
  ⟨c0_i32_96, v123, c1_i32_98⟩
def k0_off18 (k0_t17 : Fin k0_t17_loop.trips) (c0_i32_196 : BitVec 32) : Fin 1 → Nat :=
  let c0_i32_96 : BitVec 32 := 0#32
  let c1_i32_98 : BitVec 32 := 1#32
  let arg11 : BitVec 32 := Scf.iv c0_i32_96 c1_i32_98 k0_t17
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk241 (v234 : IVec S16 32) : Prop :=
  (∀ a x, ((![v234] : Fin 1 → IVec S16 32) a x).toNat < S65536.size a)
instance k0_chk241.dec : ∀ (v234 : IVec S16 32), Decidable (k0_chk241 v234) := fun v234 => decidable_of_iff' _ (Iff.of_eq (k0_chk241.eq_1 v234))
theorem k0_idx241_inb : ∀ (v234 : IVec S16 32) (k0_hw241 : k0_chk241 v234), ∀ a x, ((![v234] : Fin 1 → IVec S16 32) a x).toNat < S65536.size a := fun v234 k0_hw241 => k0_hw241

def k0_chk242 (v239 : IVec S16 32) : Prop :=
  (∀ a x, ((![v239] : Fin 1 → IVec S16 32) a x).toNat < S65536.size a)
instance k0_chk242.dec : ∀ (v239 : IVec S16 32), Decidable (k0_chk242 v239) := fun v239 => decidable_of_iff' _ (Iff.of_eq (k0_chk242.eq_1 v239))
theorem k0_idx242_inb : ∀ (v239 : IVec S16 32) (k0_hw242 : k0_chk242 v239), ∀ a x, ((![v239] : Fin 1 → IVec S16 32) a x).toNat < S65536.size a := fun v239 k0_hw242 => k0_hw242

def k0_chk243 (v244 : IVec S16 32) : Prop :=
  (∀ a x, ((![v244] : Fin 1 → IVec S16 32) a x).toNat < S65536.size a)
instance k0_chk243.dec : ∀ (v244 : IVec S16 32), Decidable (k0_chk243 v244) := fun v244 => decidable_of_iff' _ (Iff.of_eq (k0_chk243.eq_1 v244))
theorem k0_idx243_inb : ∀ (v244 : IVec S16 32) (k0_hw243 : k0_chk243 v244), ∀ a x, ((![v244] : Fin 1 → IVec S16 32) a x).toNat < S65536.size a := fun v244 k0_hw243 => k0_hw243

def k0_chk244 (v249 : IVec S16 32) : Prop :=
  (∀ a x, ((![v249] : Fin 1 → IVec S16 32) a x).toNat < S65536.size a)
instance k0_chk244.dec : ∀ (v249 : IVec S16 32), Decidable (k0_chk244 v249) := fun v249 => decidable_of_iff' _ (Iff.of_eq (k0_chk244.eq_1 v249))
theorem k0_idx244_inb : ∀ (v249 : IVec S16 32) (k0_hw244 : k0_chk244 v249), ∀ a x, ((![v249] : Fin 1 → IVec S16 32) a x).toNat < S65536.size a := fun v249 k0_hw244 => k0_hw244

def k0_chk245 (v254 : IVec S16 32) : Prop :=
  (∀ a x, ((![v254] : Fin 1 → IVec S16 32) a x).toNat < S65536.size a)
instance k0_chk245.dec : ∀ (v254 : IVec S16 32), Decidable (k0_chk245 v254) := fun v254 => decidable_of_iff' _ (Iff.of_eq (k0_chk245.eq_1 v254))
theorem k0_idx245_inb : ∀ (v254 : IVec S16 32) (k0_hw245 : k0_chk245 v254), ∀ a x, ((![v254] : Fin 1 → IVec S16 32) a x).toNat < S65536.size a := fun v254 k0_hw245 => k0_hw245

def k0_chk246 (v259 : IVec S16 32) : Prop :=
  (∀ a x, ((![v259] : Fin 1 → IVec S16 32) a x).toNat < S65536.size a)
instance k0_chk246.dec : ∀ (v259 : IVec S16 32), Decidable (k0_chk246 v259) := fun v259 => decidable_of_iff' _ (Iff.of_eq (k0_chk246.eq_1 v259))
theorem k0_idx246_inb : ∀ (v259 : IVec S16 32) (k0_hw246 : k0_chk246 v259), ∀ a x, ((![v259] : Fin 1 → IVec S16 32) a x).toNat < S65536.size a := fun v259 k0_hw246 => k0_hw246

def k0_chk247 (v264 : IVec S16 32) : Prop :=
  (∀ a x, ((![v264] : Fin 1 → IVec S16 32) a x).toNat < S65536.size a)
instance k0_chk247.dec : ∀ (v264 : IVec S16 32), Decidable (k0_chk247 v264) := fun v264 => decidable_of_iff' _ (Iff.of_eq (k0_chk247.eq_1 v264))
theorem k0_idx247_inb : ∀ (v264 : IVec S16 32) (k0_hw247 : k0_chk247 v264), ∀ a x, ((![v264] : Fin 1 → IVec S16 32) a x).toNat < S65536.size a := fun v264 k0_hw247 => k0_hw247

def k0_chk248 (v269 : IVec S16 32) : Prop :=
  (∀ a x, ((![v269] : Fin 1 → IVec S16 32) a x).toNat < S65536.size a)
instance k0_chk248.dec : ∀ (v269 : IVec S16 32), Decidable (k0_chk248 v269) := fun v269 => decidable_of_iff' _ (Iff.of_eq (k0_chk248.eq_1 v269))
theorem k0_idx248_inb : ∀ (v269 : IVec S16 32) (k0_hw248 : k0_chk248 v269), ∀ a x, ((![v269] : Fin 1 → IVec S16 32) a x).toNat < S65536.size a := fun v269 k0_hw248 => k0_hw248

def k0_chk249 (v274 : IVec S16 32) : Prop :=
  (∀ a x, ((![v274] : Fin 1 → IVec S16 32) a x).toNat < S65536.size a)
instance k0_chk249.dec : ∀ (v274 : IVec S16 32), Decidable (k0_chk249 v274) := fun v274 => decidable_of_iff' _ (Iff.of_eq (k0_chk249.eq_1 v274))
theorem k0_idx249_inb : ∀ (v274 : IVec S16 32) (k0_hw249 : k0_chk249 v274), ∀ a x, ((![v274] : Fin 1 → IVec S16 32) a x).toNat < S65536.size a := fun v274 k0_hw249 => k0_hw249

def k0_chk250 (v279 : IVec S16 32) : Prop :=
  (∀ a x, ((![v279] : Fin 1 → IVec S16 32) a x).toNat < S65536.size a)
instance k0_chk250.dec : ∀ (v279 : IVec S16 32), Decidable (k0_chk250 v279) := fun v279 => decidable_of_iff' _ (Iff.of_eq (k0_chk250.eq_1 v279))
theorem k0_idx250_inb : ∀ (v279 : IVec S16 32) (k0_hw250 : k0_chk250 v279), ∀ a x, ((![v279] : Fin 1 → IVec S16 32) a x).toNat < S65536.size a := fun v279 k0_hw250 => k0_hw250

def k0_chk251 (v284 : IVec S16 32) : Prop :=
  (∀ a x, ((![v284] : Fin 1 → IVec S16 32) a x).toNat < S65536.size a)
instance k0_chk251.dec : ∀ (v284 : IVec S16 32), Decidable (k0_chk251 v284) := fun v284 => decidable_of_iff' _ (Iff.of_eq (k0_chk251.eq_1 v284))
theorem k0_idx251_inb : ∀ (v284 : IVec S16 32) (k0_hw251 : k0_chk251 v284), ∀ a x, ((![v284] : Fin 1 → IVec S16 32) a x).toNat < S65536.size a := fun v284 k0_hw251 => k0_hw251

def k0_chk252 (v289 : IVec S16 32) : Prop :=
  (∀ a x, ((![v289] : Fin 1 → IVec S16 32) a x).toNat < S65536.size a)
instance k0_chk252.dec : ∀ (v289 : IVec S16 32), Decidable (k0_chk252 v289) := fun v289 => decidable_of_iff' _ (Iff.of_eq (k0_chk252.eq_1 v289))
theorem k0_idx252_inb : ∀ (v289 : IVec S16 32) (k0_hw252 : k0_chk252 v289), ∀ a x, ((![v289] : Fin 1 → IVec S16 32) a x).toNat < S65536.size a := fun v289 k0_hw252 => k0_hw252

def k0_chk253 (v294 : IVec S16 32) : Prop :=
  (∀ a x, ((![v294] : Fin 1 → IVec S16 32) a x).toNat < S65536.size a)
instance k0_chk253.dec : ∀ (v294 : IVec S16 32), Decidable (k0_chk253 v294) := fun v294 => decidable_of_iff' _ (Iff.of_eq (k0_chk253.eq_1 v294))
theorem k0_idx253_inb : ∀ (v294 : IVec S16 32) (k0_hw253 : k0_chk253 v294), ∀ a x, ((![v294] : Fin 1 → IVec S16 32) a x).toNat < S65536.size a := fun v294 k0_hw253 => k0_hw253

def k0_chk254 (v299 : IVec S16 32) : Prop :=
  (∀ a x, ((![v299] : Fin 1 → IVec S16 32) a x).toNat < S65536.size a)
instance k0_chk254.dec : ∀ (v299 : IVec S16 32), Decidable (k0_chk254 v299) := fun v299 => decidable_of_iff' _ (Iff.of_eq (k0_chk254.eq_1 v299))
theorem k0_idx254_inb : ∀ (v299 : IVec S16 32) (k0_hw254 : k0_chk254 v299), ∀ a x, ((![v299] : Fin 1 → IVec S16 32) a x).toNat < S65536.size a := fun v299 k0_hw254 => k0_hw254

def k0_chk255 (v304 : IVec S16 32) : Prop :=
  (∀ a x, ((![v304] : Fin 1 → IVec S16 32) a x).toNat < S65536.size a)
instance k0_chk255.dec : ∀ (v304 : IVec S16 32), Decidable (k0_chk255 v304) := fun v304 => decidable_of_iff' _ (Iff.of_eq (k0_chk255.eq_1 v304))
theorem k0_idx255_inb : ∀ (v304 : IVec S16 32) (k0_hw255 : k0_chk255 v304), ∀ a x, ((![v304] : Fin 1 → IVec S16 32) a x).toNat < S65536.size a := fun v304 k0_hw255 => k0_hw255

def k0_chk256 (v309 : IVec S16 32) : Prop :=
  (∀ a x, ((![v309] : Fin 1 → IVec S16 32) a x).toNat < S65536.size a)
instance k0_chk256.dec : ∀ (v309 : IVec S16 32), Decidable (k0_chk256 v309) := fun v309 => decidable_of_iff' _ (Iff.of_eq (k0_chk256.eq_1 v309))
theorem k0_idx256_inb : ∀ (v309 : IVec S16 32) (k0_hw256 : k0_chk256 v309), ∀ a x, ((![v309] : Fin 1 → IVec S16 32) a x).toNat < S65536.size a := fun v309 k0_hw256 => k0_hw256
@[reducible] def k0_t18_loop : Scf.Loop 32 :=
  let c0_i32_102 : BitVec 32 := 0#32
  let c64_i32_103 : BitVec 32 := 64#32
  let v130 : BitVec 32 := Scalar.addi c0_i32_102 c64_i32_103
  let c1_i32_104 : BitVec 32 := 1#32
  ⟨c0_i32_102, v130, c1_i32_104⟩
def k0_off19 (k0_t18 : Fin k0_t18_loop.trips) (c0_i32_196 : BitVec 32) : Fin 1 → Nat :=
  let c0_i32_102 : BitVec 32 := 0#32
  let c1_i32_104 : BitVec 32 := 1#32
  let arg11 : BitVec 32 := Scf.iv c0_i32_102 c1_i32_104 k0_t18
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk257 (v234 : IVec S16 32) : Prop :=
  (∀ a x, ((![v234] : Fin 1 → IVec S16 32) a x).toNat < S65536.size a)
instance k0_chk257.dec : ∀ (v234 : IVec S16 32), Decidable (k0_chk257 v234) := fun v234 => decidable_of_iff' _ (Iff.of_eq (k0_chk257.eq_1 v234))
theorem k0_idx257_inb : ∀ (v234 : IVec S16 32) (k0_hw257 : k0_chk257 v234), ∀ a x, ((![v234] : Fin 1 → IVec S16 32) a x).toNat < S65536.size a := fun v234 k0_hw257 => k0_hw257

def k0_chk258 (v239 : IVec S16 32) : Prop :=
  (∀ a x, ((![v239] : Fin 1 → IVec S16 32) a x).toNat < S65536.size a)
instance k0_chk258.dec : ∀ (v239 : IVec S16 32), Decidable (k0_chk258 v239) := fun v239 => decidable_of_iff' _ (Iff.of_eq (k0_chk258.eq_1 v239))
theorem k0_idx258_inb : ∀ (v239 : IVec S16 32) (k0_hw258 : k0_chk258 v239), ∀ a x, ((![v239] : Fin 1 → IVec S16 32) a x).toNat < S65536.size a := fun v239 k0_hw258 => k0_hw258

def k0_chk259 (v244 : IVec S16 32) : Prop :=
  (∀ a x, ((![v244] : Fin 1 → IVec S16 32) a x).toNat < S65536.size a)
instance k0_chk259.dec : ∀ (v244 : IVec S16 32), Decidable (k0_chk259 v244) := fun v244 => decidable_of_iff' _ (Iff.of_eq (k0_chk259.eq_1 v244))
theorem k0_idx259_inb : ∀ (v244 : IVec S16 32) (k0_hw259 : k0_chk259 v244), ∀ a x, ((![v244] : Fin 1 → IVec S16 32) a x).toNat < S65536.size a := fun v244 k0_hw259 => k0_hw259

def k0_chk260 (v249 : IVec S16 32) : Prop :=
  (∀ a x, ((![v249] : Fin 1 → IVec S16 32) a x).toNat < S65536.size a)
instance k0_chk260.dec : ∀ (v249 : IVec S16 32), Decidable (k0_chk260 v249) := fun v249 => decidable_of_iff' _ (Iff.of_eq (k0_chk260.eq_1 v249))
theorem k0_idx260_inb : ∀ (v249 : IVec S16 32) (k0_hw260 : k0_chk260 v249), ∀ a x, ((![v249] : Fin 1 → IVec S16 32) a x).toNat < S65536.size a := fun v249 k0_hw260 => k0_hw260

def k0_chk261 (v254 : IVec S16 32) : Prop :=
  (∀ a x, ((![v254] : Fin 1 → IVec S16 32) a x).toNat < S65536.size a)
instance k0_chk261.dec : ∀ (v254 : IVec S16 32), Decidable (k0_chk261 v254) := fun v254 => decidable_of_iff' _ (Iff.of_eq (k0_chk261.eq_1 v254))
theorem k0_idx261_inb : ∀ (v254 : IVec S16 32) (k0_hw261 : k0_chk261 v254), ∀ a x, ((![v254] : Fin 1 → IVec S16 32) a x).toNat < S65536.size a := fun v254 k0_hw261 => k0_hw261

def k0_chk262 (v259 : IVec S16 32) : Prop :=
  (∀ a x, ((![v259] : Fin 1 → IVec S16 32) a x).toNat < S65536.size a)
instance k0_chk262.dec : ∀ (v259 : IVec S16 32), Decidable (k0_chk262 v259) := fun v259 => decidable_of_iff' _ (Iff.of_eq (k0_chk262.eq_1 v259))
theorem k0_idx262_inb : ∀ (v259 : IVec S16 32) (k0_hw262 : k0_chk262 v259), ∀ a x, ((![v259] : Fin 1 → IVec S16 32) a x).toNat < S65536.size a := fun v259 k0_hw262 => k0_hw262

def k0_chk263 (v264 : IVec S16 32) : Prop :=
  (∀ a x, ((![v264] : Fin 1 → IVec S16 32) a x).toNat < S65536.size a)
instance k0_chk263.dec : ∀ (v264 : IVec S16 32), Decidable (k0_chk263 v264) := fun v264 => decidable_of_iff' _ (Iff.of_eq (k0_chk263.eq_1 v264))
theorem k0_idx263_inb : ∀ (v264 : IVec S16 32) (k0_hw263 : k0_chk263 v264), ∀ a x, ((![v264] : Fin 1 → IVec S16 32) a x).toNat < S65536.size a := fun v264 k0_hw263 => k0_hw263

def k0_chk264 (v269 : IVec S16 32) : Prop :=
  (∀ a x, ((![v269] : Fin 1 → IVec S16 32) a x).toNat < S65536.size a)
instance k0_chk264.dec : ∀ (v269 : IVec S16 32), Decidable (k0_chk264 v269) := fun v269 => decidable_of_iff' _ (Iff.of_eq (k0_chk264.eq_1 v269))
theorem k0_idx264_inb : ∀ (v269 : IVec S16 32) (k0_hw264 : k0_chk264 v269), ∀ a x, ((![v269] : Fin 1 → IVec S16 32) a x).toNat < S65536.size a := fun v269 k0_hw264 => k0_hw264

def k0_chk265 (v274 : IVec S16 32) : Prop :=
  (∀ a x, ((![v274] : Fin 1 → IVec S16 32) a x).toNat < S65536.size a)
instance k0_chk265.dec : ∀ (v274 : IVec S16 32), Decidable (k0_chk265 v274) := fun v274 => decidable_of_iff' _ (Iff.of_eq (k0_chk265.eq_1 v274))
theorem k0_idx265_inb : ∀ (v274 : IVec S16 32) (k0_hw265 : k0_chk265 v274), ∀ a x, ((![v274] : Fin 1 → IVec S16 32) a x).toNat < S65536.size a := fun v274 k0_hw265 => k0_hw265

def k0_chk266 (v279 : IVec S16 32) : Prop :=
  (∀ a x, ((![v279] : Fin 1 → IVec S16 32) a x).toNat < S65536.size a)
instance k0_chk266.dec : ∀ (v279 : IVec S16 32), Decidable (k0_chk266 v279) := fun v279 => decidable_of_iff' _ (Iff.of_eq (k0_chk266.eq_1 v279))
theorem k0_idx266_inb : ∀ (v279 : IVec S16 32) (k0_hw266 : k0_chk266 v279), ∀ a x, ((![v279] : Fin 1 → IVec S16 32) a x).toNat < S65536.size a := fun v279 k0_hw266 => k0_hw266

def k0_chk267 (v284 : IVec S16 32) : Prop :=
  (∀ a x, ((![v284] : Fin 1 → IVec S16 32) a x).toNat < S65536.size a)
instance k0_chk267.dec : ∀ (v284 : IVec S16 32), Decidable (k0_chk267 v284) := fun v284 => decidable_of_iff' _ (Iff.of_eq (k0_chk267.eq_1 v284))
theorem k0_idx267_inb : ∀ (v284 : IVec S16 32) (k0_hw267 : k0_chk267 v284), ∀ a x, ((![v284] : Fin 1 → IVec S16 32) a x).toNat < S65536.size a := fun v284 k0_hw267 => k0_hw267

def k0_chk268 (v289 : IVec S16 32) : Prop :=
  (∀ a x, ((![v289] : Fin 1 → IVec S16 32) a x).toNat < S65536.size a)
instance k0_chk268.dec : ∀ (v289 : IVec S16 32), Decidable (k0_chk268 v289) := fun v289 => decidable_of_iff' _ (Iff.of_eq (k0_chk268.eq_1 v289))
theorem k0_idx268_inb : ∀ (v289 : IVec S16 32) (k0_hw268 : k0_chk268 v289), ∀ a x, ((![v289] : Fin 1 → IVec S16 32) a x).toNat < S65536.size a := fun v289 k0_hw268 => k0_hw268

def k0_chk269 (v294 : IVec S16 32) : Prop :=
  (∀ a x, ((![v294] : Fin 1 → IVec S16 32) a x).toNat < S65536.size a)
instance k0_chk269.dec : ∀ (v294 : IVec S16 32), Decidable (k0_chk269 v294) := fun v294 => decidable_of_iff' _ (Iff.of_eq (k0_chk269.eq_1 v294))
theorem k0_idx269_inb : ∀ (v294 : IVec S16 32) (k0_hw269 : k0_chk269 v294), ∀ a x, ((![v294] : Fin 1 → IVec S16 32) a x).toNat < S65536.size a := fun v294 k0_hw269 => k0_hw269

def k0_chk270 (v299 : IVec S16 32) : Prop :=
  (∀ a x, ((![v299] : Fin 1 → IVec S16 32) a x).toNat < S65536.size a)
instance k0_chk270.dec : ∀ (v299 : IVec S16 32), Decidable (k0_chk270 v299) := fun v299 => decidable_of_iff' _ (Iff.of_eq (k0_chk270.eq_1 v299))
theorem k0_idx270_inb : ∀ (v299 : IVec S16 32) (k0_hw270 : k0_chk270 v299), ∀ a x, ((![v299] : Fin 1 → IVec S16 32) a x).toNat < S65536.size a := fun v299 k0_hw270 => k0_hw270

def k0_chk271 (v304 : IVec S16 32) : Prop :=
  (∀ a x, ((![v304] : Fin 1 → IVec S16 32) a x).toNat < S65536.size a)
instance k0_chk271.dec : ∀ (v304 : IVec S16 32), Decidable (k0_chk271 v304) := fun v304 => decidable_of_iff' _ (Iff.of_eq (k0_chk271.eq_1 v304))
theorem k0_idx271_inb : ∀ (v304 : IVec S16 32) (k0_hw271 : k0_chk271 v304), ∀ a x, ((![v304] : Fin 1 → IVec S16 32) a x).toNat < S65536.size a := fun v304 k0_hw271 => k0_hw271

def k0_chk272 (v309 : IVec S16 32) : Prop :=
  (∀ a x, ((![v309] : Fin 1 → IVec S16 32) a x).toNat < S65536.size a)
instance k0_chk272.dec : ∀ (v309 : IVec S16 32), Decidable (k0_chk272 v309) := fun v309 => decidable_of_iff' _ (Iff.of_eq (k0_chk272.eq_1 v309))
theorem k0_idx272_inb : ∀ (v309 : IVec S16 32) (k0_hw272 : k0_chk272 v309), ∀ a x, ((![v309] : Fin 1 → IVec S16 32) a x).toNat < S65536.size a := fun v309 k0_hw272 => k0_hw272
@[reducible] def k0_t19_loop : Scf.Loop 32 :=
  let c0_i32_108 : BitVec 32 := 0#32
  let c64_i32_109 : BitVec 32 := 64#32
  let v137 : BitVec 32 := Scalar.addi c0_i32_108 c64_i32_109
  let c1_i32_110 : BitVec 32 := 1#32
  ⟨c0_i32_108, v137, c1_i32_110⟩
def k0_off20 (k0_t19 : Fin k0_t19_loop.trips) (c0_i32_196 : BitVec 32) : Fin 1 → Nat :=
  let c0_i32_108 : BitVec 32 := 0#32
  let c1_i32_110 : BitVec 32 := 1#32
  let arg11 : BitVec 32 := Scf.iv c0_i32_108 c1_i32_110 k0_t19
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk273 (v234 : IVec S16 32) : Prop :=
  (∀ a x, ((![v234] : Fin 1 → IVec S16 32) a x).toNat < S65536.size a)
instance k0_chk273.dec : ∀ (v234 : IVec S16 32), Decidable (k0_chk273 v234) := fun v234 => decidable_of_iff' _ (Iff.of_eq (k0_chk273.eq_1 v234))
theorem k0_idx273_inb : ∀ (v234 : IVec S16 32) (k0_hw273 : k0_chk273 v234), ∀ a x, ((![v234] : Fin 1 → IVec S16 32) a x).toNat < S65536.size a := fun v234 k0_hw273 => k0_hw273

def k0_chk274 (v239 : IVec S16 32) : Prop :=
  (∀ a x, ((![v239] : Fin 1 → IVec S16 32) a x).toNat < S65536.size a)
instance k0_chk274.dec : ∀ (v239 : IVec S16 32), Decidable (k0_chk274 v239) := fun v239 => decidable_of_iff' _ (Iff.of_eq (k0_chk274.eq_1 v239))
theorem k0_idx274_inb : ∀ (v239 : IVec S16 32) (k0_hw274 : k0_chk274 v239), ∀ a x, ((![v239] : Fin 1 → IVec S16 32) a x).toNat < S65536.size a := fun v239 k0_hw274 => k0_hw274

def k0_chk275 (v244 : IVec S16 32) : Prop :=
  (∀ a x, ((![v244] : Fin 1 → IVec S16 32) a x).toNat < S65536.size a)
instance k0_chk275.dec : ∀ (v244 : IVec S16 32), Decidable (k0_chk275 v244) := fun v244 => decidable_of_iff' _ (Iff.of_eq (k0_chk275.eq_1 v244))
theorem k0_idx275_inb : ∀ (v244 : IVec S16 32) (k0_hw275 : k0_chk275 v244), ∀ a x, ((![v244] : Fin 1 → IVec S16 32) a x).toNat < S65536.size a := fun v244 k0_hw275 => k0_hw275

def k0_chk276 (v249 : IVec S16 32) : Prop :=
  (∀ a x, ((![v249] : Fin 1 → IVec S16 32) a x).toNat < S65536.size a)
instance k0_chk276.dec : ∀ (v249 : IVec S16 32), Decidable (k0_chk276 v249) := fun v249 => decidable_of_iff' _ (Iff.of_eq (k0_chk276.eq_1 v249))
theorem k0_idx276_inb : ∀ (v249 : IVec S16 32) (k0_hw276 : k0_chk276 v249), ∀ a x, ((![v249] : Fin 1 → IVec S16 32) a x).toNat < S65536.size a := fun v249 k0_hw276 => k0_hw276

def k0_chk277 (v254 : IVec S16 32) : Prop :=
  (∀ a x, ((![v254] : Fin 1 → IVec S16 32) a x).toNat < S65536.size a)
instance k0_chk277.dec : ∀ (v254 : IVec S16 32), Decidable (k0_chk277 v254) := fun v254 => decidable_of_iff' _ (Iff.of_eq (k0_chk277.eq_1 v254))
theorem k0_idx277_inb : ∀ (v254 : IVec S16 32) (k0_hw277 : k0_chk277 v254), ∀ a x, ((![v254] : Fin 1 → IVec S16 32) a x).toNat < S65536.size a := fun v254 k0_hw277 => k0_hw277

def k0_chk278 (v259 : IVec S16 32) : Prop :=
  (∀ a x, ((![v259] : Fin 1 → IVec S16 32) a x).toNat < S65536.size a)
instance k0_chk278.dec : ∀ (v259 : IVec S16 32), Decidable (k0_chk278 v259) := fun v259 => decidable_of_iff' _ (Iff.of_eq (k0_chk278.eq_1 v259))
theorem k0_idx278_inb : ∀ (v259 : IVec S16 32) (k0_hw278 : k0_chk278 v259), ∀ a x, ((![v259] : Fin 1 → IVec S16 32) a x).toNat < S65536.size a := fun v259 k0_hw278 => k0_hw278

def k0_chk279 (v264 : IVec S16 32) : Prop :=
  (∀ a x, ((![v264] : Fin 1 → IVec S16 32) a x).toNat < S65536.size a)
instance k0_chk279.dec : ∀ (v264 : IVec S16 32), Decidable (k0_chk279 v264) := fun v264 => decidable_of_iff' _ (Iff.of_eq (k0_chk279.eq_1 v264))
theorem k0_idx279_inb : ∀ (v264 : IVec S16 32) (k0_hw279 : k0_chk279 v264), ∀ a x, ((![v264] : Fin 1 → IVec S16 32) a x).toNat < S65536.size a := fun v264 k0_hw279 => k0_hw279

def k0_chk280 (v269 : IVec S16 32) : Prop :=
  (∀ a x, ((![v269] : Fin 1 → IVec S16 32) a x).toNat < S65536.size a)
instance k0_chk280.dec : ∀ (v269 : IVec S16 32), Decidable (k0_chk280 v269) := fun v269 => decidable_of_iff' _ (Iff.of_eq (k0_chk280.eq_1 v269))
theorem k0_idx280_inb : ∀ (v269 : IVec S16 32) (k0_hw280 : k0_chk280 v269), ∀ a x, ((![v269] : Fin 1 → IVec S16 32) a x).toNat < S65536.size a := fun v269 k0_hw280 => k0_hw280

def k0_chk281 (v274 : IVec S16 32) : Prop :=
  (∀ a x, ((![v274] : Fin 1 → IVec S16 32) a x).toNat < S65536.size a)
instance k0_chk281.dec : ∀ (v274 : IVec S16 32), Decidable (k0_chk281 v274) := fun v274 => decidable_of_iff' _ (Iff.of_eq (k0_chk281.eq_1 v274))
theorem k0_idx281_inb : ∀ (v274 : IVec S16 32) (k0_hw281 : k0_chk281 v274), ∀ a x, ((![v274] : Fin 1 → IVec S16 32) a x).toNat < S65536.size a := fun v274 k0_hw281 => k0_hw281

def k0_chk282 (v279 : IVec S16 32) : Prop :=
  (∀ a x, ((![v279] : Fin 1 → IVec S16 32) a x).toNat < S65536.size a)
instance k0_chk282.dec : ∀ (v279 : IVec S16 32), Decidable (k0_chk282 v279) := fun v279 => decidable_of_iff' _ (Iff.of_eq (k0_chk282.eq_1 v279))
theorem k0_idx282_inb : ∀ (v279 : IVec S16 32) (k0_hw282 : k0_chk282 v279), ∀ a x, ((![v279] : Fin 1 → IVec S16 32) a x).toNat < S65536.size a := fun v279 k0_hw282 => k0_hw282

def k0_chk283 (v284 : IVec S16 32) : Prop :=
  (∀ a x, ((![v284] : Fin 1 → IVec S16 32) a x).toNat < S65536.size a)
instance k0_chk283.dec : ∀ (v284 : IVec S16 32), Decidable (k0_chk283 v284) := fun v284 => decidable_of_iff' _ (Iff.of_eq (k0_chk283.eq_1 v284))
theorem k0_idx283_inb : ∀ (v284 : IVec S16 32) (k0_hw283 : k0_chk283 v284), ∀ a x, ((![v284] : Fin 1 → IVec S16 32) a x).toNat < S65536.size a := fun v284 k0_hw283 => k0_hw283

def k0_chk284 (v289 : IVec S16 32) : Prop :=
  (∀ a x, ((![v289] : Fin 1 → IVec S16 32) a x).toNat < S65536.size a)
instance k0_chk284.dec : ∀ (v289 : IVec S16 32), Decidable (k0_chk284 v289) := fun v289 => decidable_of_iff' _ (Iff.of_eq (k0_chk284.eq_1 v289))
theorem k0_idx284_inb : ∀ (v289 : IVec S16 32) (k0_hw284 : k0_chk284 v289), ∀ a x, ((![v289] : Fin 1 → IVec S16 32) a x).toNat < S65536.size a := fun v289 k0_hw284 => k0_hw284

def k0_chk285 (v294 : IVec S16 32) : Prop :=
  (∀ a x, ((![v294] : Fin 1 → IVec S16 32) a x).toNat < S65536.size a)
instance k0_chk285.dec : ∀ (v294 : IVec S16 32), Decidable (k0_chk285 v294) := fun v294 => decidable_of_iff' _ (Iff.of_eq (k0_chk285.eq_1 v294))
theorem k0_idx285_inb : ∀ (v294 : IVec S16 32) (k0_hw285 : k0_chk285 v294), ∀ a x, ((![v294] : Fin 1 → IVec S16 32) a x).toNat < S65536.size a := fun v294 k0_hw285 => k0_hw285

def k0_chk286 (v299 : IVec S16 32) : Prop :=
  (∀ a x, ((![v299] : Fin 1 → IVec S16 32) a x).toNat < S65536.size a)
instance k0_chk286.dec : ∀ (v299 : IVec S16 32), Decidable (k0_chk286 v299) := fun v299 => decidable_of_iff' _ (Iff.of_eq (k0_chk286.eq_1 v299))
theorem k0_idx286_inb : ∀ (v299 : IVec S16 32) (k0_hw286 : k0_chk286 v299), ∀ a x, ((![v299] : Fin 1 → IVec S16 32) a x).toNat < S65536.size a := fun v299 k0_hw286 => k0_hw286

def k0_chk287 (v304 : IVec S16 32) : Prop :=
  (∀ a x, ((![v304] : Fin 1 → IVec S16 32) a x).toNat < S65536.size a)
instance k0_chk287.dec : ∀ (v304 : IVec S16 32), Decidable (k0_chk287 v304) := fun v304 => decidable_of_iff' _ (Iff.of_eq (k0_chk287.eq_1 v304))
theorem k0_idx287_inb : ∀ (v304 : IVec S16 32) (k0_hw287 : k0_chk287 v304), ∀ a x, ((![v304] : Fin 1 → IVec S16 32) a x).toNat < S65536.size a := fun v304 k0_hw287 => k0_hw287

def k0_chk288 (v309 : IVec S16 32) : Prop :=
  (∀ a x, ((![v309] : Fin 1 → IVec S16 32) a x).toNat < S65536.size a)
instance k0_chk288.dec : ∀ (v309 : IVec S16 32), Decidable (k0_chk288 v309) := fun v309 => decidable_of_iff' _ (Iff.of_eq (k0_chk288.eq_1 v309))
theorem k0_idx288_inb : ∀ (v309 : IVec S16 32) (k0_hw288 : k0_chk288 v309), ∀ a x, ((![v309] : Fin 1 → IVec S16 32) a x).toNat < S65536.size a := fun v309 k0_hw288 => k0_hw288
@[reducible] def k0_t20_loop : Scf.Loop 32 :=
  let c0_i32_114 : BitVec 32 := 0#32
  let c64_i32_115 : BitVec 32 := 64#32
  let v144 : BitVec 32 := Scalar.addi c0_i32_114 c64_i32_115
  let c1_i32_116 : BitVec 32 := 1#32
  ⟨c0_i32_114, v144, c1_i32_116⟩
def k0_off21 (k0_t20 : Fin k0_t20_loop.trips) (c0_i32_196 : BitVec 32) : Fin 1 → Nat :=
  let c0_i32_114 : BitVec 32 := 0#32
  let c1_i32_116 : BitVec 32 := 1#32
  let arg11 : BitVec 32 := Scf.iv c0_i32_114 c1_i32_116 k0_t20
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk289 (v234 : IVec S16 32) : Prop :=
  (∀ a x, ((![v234] : Fin 1 → IVec S16 32) a x).toNat < S65536.size a)
instance k0_chk289.dec : ∀ (v234 : IVec S16 32), Decidable (k0_chk289 v234) := fun v234 => decidable_of_iff' _ (Iff.of_eq (k0_chk289.eq_1 v234))
theorem k0_idx289_inb : ∀ (v234 : IVec S16 32) (k0_hw289 : k0_chk289 v234), ∀ a x, ((![v234] : Fin 1 → IVec S16 32) a x).toNat < S65536.size a := fun v234 k0_hw289 => k0_hw289

def k0_chk290 (v239 : IVec S16 32) : Prop :=
  (∀ a x, ((![v239] : Fin 1 → IVec S16 32) a x).toNat < S65536.size a)
instance k0_chk290.dec : ∀ (v239 : IVec S16 32), Decidable (k0_chk290 v239) := fun v239 => decidable_of_iff' _ (Iff.of_eq (k0_chk290.eq_1 v239))
theorem k0_idx290_inb : ∀ (v239 : IVec S16 32) (k0_hw290 : k0_chk290 v239), ∀ a x, ((![v239] : Fin 1 → IVec S16 32) a x).toNat < S65536.size a := fun v239 k0_hw290 => k0_hw290

def k0_chk291 (v244 : IVec S16 32) : Prop :=
  (∀ a x, ((![v244] : Fin 1 → IVec S16 32) a x).toNat < S65536.size a)
instance k0_chk291.dec : ∀ (v244 : IVec S16 32), Decidable (k0_chk291 v244) := fun v244 => decidable_of_iff' _ (Iff.of_eq (k0_chk291.eq_1 v244))
theorem k0_idx291_inb : ∀ (v244 : IVec S16 32) (k0_hw291 : k0_chk291 v244), ∀ a x, ((![v244] : Fin 1 → IVec S16 32) a x).toNat < S65536.size a := fun v244 k0_hw291 => k0_hw291

def k0_chk292 (v249 : IVec S16 32) : Prop :=
  (∀ a x, ((![v249] : Fin 1 → IVec S16 32) a x).toNat < S65536.size a)
instance k0_chk292.dec : ∀ (v249 : IVec S16 32), Decidable (k0_chk292 v249) := fun v249 => decidable_of_iff' _ (Iff.of_eq (k0_chk292.eq_1 v249))
theorem k0_idx292_inb : ∀ (v249 : IVec S16 32) (k0_hw292 : k0_chk292 v249), ∀ a x, ((![v249] : Fin 1 → IVec S16 32) a x).toNat < S65536.size a := fun v249 k0_hw292 => k0_hw292

def k0_chk293 (v254 : IVec S16 32) : Prop :=
  (∀ a x, ((![v254] : Fin 1 → IVec S16 32) a x).toNat < S65536.size a)
instance k0_chk293.dec : ∀ (v254 : IVec S16 32), Decidable (k0_chk293 v254) := fun v254 => decidable_of_iff' _ (Iff.of_eq (k0_chk293.eq_1 v254))
theorem k0_idx293_inb : ∀ (v254 : IVec S16 32) (k0_hw293 : k0_chk293 v254), ∀ a x, ((![v254] : Fin 1 → IVec S16 32) a x).toNat < S65536.size a := fun v254 k0_hw293 => k0_hw293

def k0_chk294 (v259 : IVec S16 32) : Prop :=
  (∀ a x, ((![v259] : Fin 1 → IVec S16 32) a x).toNat < S65536.size a)
instance k0_chk294.dec : ∀ (v259 : IVec S16 32), Decidable (k0_chk294 v259) := fun v259 => decidable_of_iff' _ (Iff.of_eq (k0_chk294.eq_1 v259))
theorem k0_idx294_inb : ∀ (v259 : IVec S16 32) (k0_hw294 : k0_chk294 v259), ∀ a x, ((![v259] : Fin 1 → IVec S16 32) a x).toNat < S65536.size a := fun v259 k0_hw294 => k0_hw294

def k0_chk295 (v264 : IVec S16 32) : Prop :=
  (∀ a x, ((![v264] : Fin 1 → IVec S16 32) a x).toNat < S65536.size a)
instance k0_chk295.dec : ∀ (v264 : IVec S16 32), Decidable (k0_chk295 v264) := fun v264 => decidable_of_iff' _ (Iff.of_eq (k0_chk295.eq_1 v264))
theorem k0_idx295_inb : ∀ (v264 : IVec S16 32) (k0_hw295 : k0_chk295 v264), ∀ a x, ((![v264] : Fin 1 → IVec S16 32) a x).toNat < S65536.size a := fun v264 k0_hw295 => k0_hw295

def k0_chk296 (v269 : IVec S16 32) : Prop :=
  (∀ a x, ((![v269] : Fin 1 → IVec S16 32) a x).toNat < S65536.size a)
instance k0_chk296.dec : ∀ (v269 : IVec S16 32), Decidable (k0_chk296 v269) := fun v269 => decidable_of_iff' _ (Iff.of_eq (k0_chk296.eq_1 v269))
theorem k0_idx296_inb : ∀ (v269 : IVec S16 32) (k0_hw296 : k0_chk296 v269), ∀ a x, ((![v269] : Fin 1 → IVec S16 32) a x).toNat < S65536.size a := fun v269 k0_hw296 => k0_hw296

def k0_chk297 (v274 : IVec S16 32) : Prop :=
  (∀ a x, ((![v274] : Fin 1 → IVec S16 32) a x).toNat < S65536.size a)
instance k0_chk297.dec : ∀ (v274 : IVec S16 32), Decidable (k0_chk297 v274) := fun v274 => decidable_of_iff' _ (Iff.of_eq (k0_chk297.eq_1 v274))
theorem k0_idx297_inb : ∀ (v274 : IVec S16 32) (k0_hw297 : k0_chk297 v274), ∀ a x, ((![v274] : Fin 1 → IVec S16 32) a x).toNat < S65536.size a := fun v274 k0_hw297 => k0_hw297

def k0_chk298 (v279 : IVec S16 32) : Prop :=
  (∀ a x, ((![v279] : Fin 1 → IVec S16 32) a x).toNat < S65536.size a)
instance k0_chk298.dec : ∀ (v279 : IVec S16 32), Decidable (k0_chk298 v279) := fun v279 => decidable_of_iff' _ (Iff.of_eq (k0_chk298.eq_1 v279))
theorem k0_idx298_inb : ∀ (v279 : IVec S16 32) (k0_hw298 : k0_chk298 v279), ∀ a x, ((![v279] : Fin 1 → IVec S16 32) a x).toNat < S65536.size a := fun v279 k0_hw298 => k0_hw298

def k0_chk299 (v284 : IVec S16 32) : Prop :=
  (∀ a x, ((![v284] : Fin 1 → IVec S16 32) a x).toNat < S65536.size a)
instance k0_chk299.dec : ∀ (v284 : IVec S16 32), Decidable (k0_chk299 v284) := fun v284 => decidable_of_iff' _ (Iff.of_eq (k0_chk299.eq_1 v284))
theorem k0_idx299_inb : ∀ (v284 : IVec S16 32) (k0_hw299 : k0_chk299 v284), ∀ a x, ((![v284] : Fin 1 → IVec S16 32) a x).toNat < S65536.size a := fun v284 k0_hw299 => k0_hw299

def k0_chk300 (v289 : IVec S16 32) : Prop :=
  (∀ a x, ((![v289] : Fin 1 → IVec S16 32) a x).toNat < S65536.size a)
instance k0_chk300.dec : ∀ (v289 : IVec S16 32), Decidable (k0_chk300 v289) := fun v289 => decidable_of_iff' _ (Iff.of_eq (k0_chk300.eq_1 v289))
theorem k0_idx300_inb : ∀ (v289 : IVec S16 32) (k0_hw300 : k0_chk300 v289), ∀ a x, ((![v289] : Fin 1 → IVec S16 32) a x).toNat < S65536.size a := fun v289 k0_hw300 => k0_hw300

def k0_chk301 (v294 : IVec S16 32) : Prop :=
  (∀ a x, ((![v294] : Fin 1 → IVec S16 32) a x).toNat < S65536.size a)
instance k0_chk301.dec : ∀ (v294 : IVec S16 32), Decidable (k0_chk301 v294) := fun v294 => decidable_of_iff' _ (Iff.of_eq (k0_chk301.eq_1 v294))
theorem k0_idx301_inb : ∀ (v294 : IVec S16 32) (k0_hw301 : k0_chk301 v294), ∀ a x, ((![v294] : Fin 1 → IVec S16 32) a x).toNat < S65536.size a := fun v294 k0_hw301 => k0_hw301

def k0_chk302 (v299 : IVec S16 32) : Prop :=
  (∀ a x, ((![v299] : Fin 1 → IVec S16 32) a x).toNat < S65536.size a)
instance k0_chk302.dec : ∀ (v299 : IVec S16 32), Decidable (k0_chk302 v299) := fun v299 => decidable_of_iff' _ (Iff.of_eq (k0_chk302.eq_1 v299))
theorem k0_idx302_inb : ∀ (v299 : IVec S16 32) (k0_hw302 : k0_chk302 v299), ∀ a x, ((![v299] : Fin 1 → IVec S16 32) a x).toNat < S65536.size a := fun v299 k0_hw302 => k0_hw302

def k0_chk303 (v304 : IVec S16 32) : Prop :=
  (∀ a x, ((![v304] : Fin 1 → IVec S16 32) a x).toNat < S65536.size a)
instance k0_chk303.dec : ∀ (v304 : IVec S16 32), Decidable (k0_chk303 v304) := fun v304 => decidable_of_iff' _ (Iff.of_eq (k0_chk303.eq_1 v304))
theorem k0_idx303_inb : ∀ (v304 : IVec S16 32) (k0_hw303 : k0_chk303 v304), ∀ a x, ((![v304] : Fin 1 → IVec S16 32) a x).toNat < S65536.size a := fun v304 k0_hw303 => k0_hw303

def k0_chk304 (v309 : IVec S16 32) : Prop :=
  (∀ a x, ((![v309] : Fin 1 → IVec S16 32) a x).toNat < S65536.size a)
instance k0_chk304.dec : ∀ (v309 : IVec S16 32), Decidable (k0_chk304 v309) := fun v309 => decidable_of_iff' _ (Iff.of_eq (k0_chk304.eq_1 v309))
theorem k0_idx304_inb : ∀ (v309 : IVec S16 32) (k0_hw304 : k0_chk304 v309), ∀ a x, ((![v309] : Fin 1 → IVec S16 32) a x).toNat < S65536.size a := fun v309 k0_hw304 => k0_hw304
@[reducible] def k0_t21_loop : Scf.Loop 32 :=
  let c0_i32_120 : BitVec 32 := 0#32
  let c64_i32_121 : BitVec 32 := 64#32
  let v151 : BitVec 32 := Scalar.addi c0_i32_120 c64_i32_121
  let c1_i32_122 : BitVec 32 := 1#32
  ⟨c0_i32_120, v151, c1_i32_122⟩
def k0_off22 (k0_t21 : Fin k0_t21_loop.trips) (c0_i32_196 : BitVec 32) : Fin 1 → Nat :=
  let c0_i32_120 : BitVec 32 := 0#32
  let c1_i32_122 : BitVec 32 := 1#32
  let arg11 : BitVec 32 := Scf.iv c0_i32_120 c1_i32_122 k0_t21
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk305 (v234 : IVec S16 32) : Prop :=
  (∀ a x, ((![v234] : Fin 1 → IVec S16 32) a x).toNat < S65536.size a)
instance k0_chk305.dec : ∀ (v234 : IVec S16 32), Decidable (k0_chk305 v234) := fun v234 => decidable_of_iff' _ (Iff.of_eq (k0_chk305.eq_1 v234))
theorem k0_idx305_inb : ∀ (v234 : IVec S16 32) (k0_hw305 : k0_chk305 v234), ∀ a x, ((![v234] : Fin 1 → IVec S16 32) a x).toNat < S65536.size a := fun v234 k0_hw305 => k0_hw305

def k0_chk306 (v239 : IVec S16 32) : Prop :=
  (∀ a x, ((![v239] : Fin 1 → IVec S16 32) a x).toNat < S65536.size a)
instance k0_chk306.dec : ∀ (v239 : IVec S16 32), Decidable (k0_chk306 v239) := fun v239 => decidable_of_iff' _ (Iff.of_eq (k0_chk306.eq_1 v239))
theorem k0_idx306_inb : ∀ (v239 : IVec S16 32) (k0_hw306 : k0_chk306 v239), ∀ a x, ((![v239] : Fin 1 → IVec S16 32) a x).toNat < S65536.size a := fun v239 k0_hw306 => k0_hw306

def k0_chk307 (v244 : IVec S16 32) : Prop :=
  (∀ a x, ((![v244] : Fin 1 → IVec S16 32) a x).toNat < S65536.size a)
instance k0_chk307.dec : ∀ (v244 : IVec S16 32), Decidable (k0_chk307 v244) := fun v244 => decidable_of_iff' _ (Iff.of_eq (k0_chk307.eq_1 v244))
theorem k0_idx307_inb : ∀ (v244 : IVec S16 32) (k0_hw307 : k0_chk307 v244), ∀ a x, ((![v244] : Fin 1 → IVec S16 32) a x).toNat < S65536.size a := fun v244 k0_hw307 => k0_hw307

def k0_chk308 (v249 : IVec S16 32) : Prop :=
  (∀ a x, ((![v249] : Fin 1 → IVec S16 32) a x).toNat < S65536.size a)
instance k0_chk308.dec : ∀ (v249 : IVec S16 32), Decidable (k0_chk308 v249) := fun v249 => decidable_of_iff' _ (Iff.of_eq (k0_chk308.eq_1 v249))
theorem k0_idx308_inb : ∀ (v249 : IVec S16 32) (k0_hw308 : k0_chk308 v249), ∀ a x, ((![v249] : Fin 1 → IVec S16 32) a x).toNat < S65536.size a := fun v249 k0_hw308 => k0_hw308

def k0_chk309 (v254 : IVec S16 32) : Prop :=
  (∀ a x, ((![v254] : Fin 1 → IVec S16 32) a x).toNat < S65536.size a)
instance k0_chk309.dec : ∀ (v254 : IVec S16 32), Decidable (k0_chk309 v254) := fun v254 => decidable_of_iff' _ (Iff.of_eq (k0_chk309.eq_1 v254))
theorem k0_idx309_inb : ∀ (v254 : IVec S16 32) (k0_hw309 : k0_chk309 v254), ∀ a x, ((![v254] : Fin 1 → IVec S16 32) a x).toNat < S65536.size a := fun v254 k0_hw309 => k0_hw309

def k0_chk310 (v259 : IVec S16 32) : Prop :=
  (∀ a x, ((![v259] : Fin 1 → IVec S16 32) a x).toNat < S65536.size a)
instance k0_chk310.dec : ∀ (v259 : IVec S16 32), Decidable (k0_chk310 v259) := fun v259 => decidable_of_iff' _ (Iff.of_eq (k0_chk310.eq_1 v259))
theorem k0_idx310_inb : ∀ (v259 : IVec S16 32) (k0_hw310 : k0_chk310 v259), ∀ a x, ((![v259] : Fin 1 → IVec S16 32) a x).toNat < S65536.size a := fun v259 k0_hw310 => k0_hw310

def k0_chk311 (v264 : IVec S16 32) : Prop :=
  (∀ a x, ((![v264] : Fin 1 → IVec S16 32) a x).toNat < S65536.size a)
instance k0_chk311.dec : ∀ (v264 : IVec S16 32), Decidable (k0_chk311 v264) := fun v264 => decidable_of_iff' _ (Iff.of_eq (k0_chk311.eq_1 v264))
theorem k0_idx311_inb : ∀ (v264 : IVec S16 32) (k0_hw311 : k0_chk311 v264), ∀ a x, ((![v264] : Fin 1 → IVec S16 32) a x).toNat < S65536.size a := fun v264 k0_hw311 => k0_hw311

def k0_chk312 (v269 : IVec S16 32) : Prop :=
  (∀ a x, ((![v269] : Fin 1 → IVec S16 32) a x).toNat < S65536.size a)
instance k0_chk312.dec : ∀ (v269 : IVec S16 32), Decidable (k0_chk312 v269) := fun v269 => decidable_of_iff' _ (Iff.of_eq (k0_chk312.eq_1 v269))
theorem k0_idx312_inb : ∀ (v269 : IVec S16 32) (k0_hw312 : k0_chk312 v269), ∀ a x, ((![v269] : Fin 1 → IVec S16 32) a x).toNat < S65536.size a := fun v269 k0_hw312 => k0_hw312

def k0_chk313 (v274 : IVec S16 32) : Prop :=
  (∀ a x, ((![v274] : Fin 1 → IVec S16 32) a x).toNat < S65536.size a)
instance k0_chk313.dec : ∀ (v274 : IVec S16 32), Decidable (k0_chk313 v274) := fun v274 => decidable_of_iff' _ (Iff.of_eq (k0_chk313.eq_1 v274))
theorem k0_idx313_inb : ∀ (v274 : IVec S16 32) (k0_hw313 : k0_chk313 v274), ∀ a x, ((![v274] : Fin 1 → IVec S16 32) a x).toNat < S65536.size a := fun v274 k0_hw313 => k0_hw313

def k0_chk314 (v279 : IVec S16 32) : Prop :=
  (∀ a x, ((![v279] : Fin 1 → IVec S16 32) a x).toNat < S65536.size a)
instance k0_chk314.dec : ∀ (v279 : IVec S16 32), Decidable (k0_chk314 v279) := fun v279 => decidable_of_iff' _ (Iff.of_eq (k0_chk314.eq_1 v279))
theorem k0_idx314_inb : ∀ (v279 : IVec S16 32) (k0_hw314 : k0_chk314 v279), ∀ a x, ((![v279] : Fin 1 → IVec S16 32) a x).toNat < S65536.size a := fun v279 k0_hw314 => k0_hw314

def k0_chk315 (v284 : IVec S16 32) : Prop :=
  (∀ a x, ((![v284] : Fin 1 → IVec S16 32) a x).toNat < S65536.size a)
instance k0_chk315.dec : ∀ (v284 : IVec S16 32), Decidable (k0_chk315 v284) := fun v284 => decidable_of_iff' _ (Iff.of_eq (k0_chk315.eq_1 v284))
theorem k0_idx315_inb : ∀ (v284 : IVec S16 32) (k0_hw315 : k0_chk315 v284), ∀ a x, ((![v284] : Fin 1 → IVec S16 32) a x).toNat < S65536.size a := fun v284 k0_hw315 => k0_hw315

def k0_chk316 (v289 : IVec S16 32) : Prop :=
  (∀ a x, ((![v289] : Fin 1 → IVec S16 32) a x).toNat < S65536.size a)
instance k0_chk316.dec : ∀ (v289 : IVec S16 32), Decidable (k0_chk316 v289) := fun v289 => decidable_of_iff' _ (Iff.of_eq (k0_chk316.eq_1 v289))
theorem k0_idx316_inb : ∀ (v289 : IVec S16 32) (k0_hw316 : k0_chk316 v289), ∀ a x, ((![v289] : Fin 1 → IVec S16 32) a x).toNat < S65536.size a := fun v289 k0_hw316 => k0_hw316

def k0_chk317 (v294 : IVec S16 32) : Prop :=
  (∀ a x, ((![v294] : Fin 1 → IVec S16 32) a x).toNat < S65536.size a)
instance k0_chk317.dec : ∀ (v294 : IVec S16 32), Decidable (k0_chk317 v294) := fun v294 => decidable_of_iff' _ (Iff.of_eq (k0_chk317.eq_1 v294))
theorem k0_idx317_inb : ∀ (v294 : IVec S16 32) (k0_hw317 : k0_chk317 v294), ∀ a x, ((![v294] : Fin 1 → IVec S16 32) a x).toNat < S65536.size a := fun v294 k0_hw317 => k0_hw317

def k0_chk318 (v299 : IVec S16 32) : Prop :=
  (∀ a x, ((![v299] : Fin 1 → IVec S16 32) a x).toNat < S65536.size a)
instance k0_chk318.dec : ∀ (v299 : IVec S16 32), Decidable (k0_chk318 v299) := fun v299 => decidable_of_iff' _ (Iff.of_eq (k0_chk318.eq_1 v299))
theorem k0_idx318_inb : ∀ (v299 : IVec S16 32) (k0_hw318 : k0_chk318 v299), ∀ a x, ((![v299] : Fin 1 → IVec S16 32) a x).toNat < S65536.size a := fun v299 k0_hw318 => k0_hw318

def k0_chk319 (v304 : IVec S16 32) : Prop :=
  (∀ a x, ((![v304] : Fin 1 → IVec S16 32) a x).toNat < S65536.size a)
instance k0_chk319.dec : ∀ (v304 : IVec S16 32), Decidable (k0_chk319 v304) := fun v304 => decidable_of_iff' _ (Iff.of_eq (k0_chk319.eq_1 v304))
theorem k0_idx319_inb : ∀ (v304 : IVec S16 32) (k0_hw319 : k0_chk319 v304), ∀ a x, ((![v304] : Fin 1 → IVec S16 32) a x).toNat < S65536.size a := fun v304 k0_hw319 => k0_hw319

def k0_chk320 (v309 : IVec S16 32) : Prop :=
  (∀ a x, ((![v309] : Fin 1 → IVec S16 32) a x).toNat < S65536.size a)
instance k0_chk320.dec : ∀ (v309 : IVec S16 32), Decidable (k0_chk320 v309) := fun v309 => decidable_of_iff' _ (Iff.of_eq (k0_chk320.eq_1 v309))
theorem k0_idx320_inb : ∀ (v309 : IVec S16 32) (k0_hw320 : k0_chk320 v309), ∀ a x, ((![v309] : Fin 1 → IVec S16 32) a x).toNat < S65536.size a := fun v309 k0_hw320 => k0_hw320
@[reducible] def k0_t22_loop : Scf.Loop 32 :=
  let c0_i32_126 : BitVec 32 := 0#32
  let c64_i32_127 : BitVec 32 := 64#32
  let v158 : BitVec 32 := Scalar.addi c0_i32_126 c64_i32_127
  let c1_i32_128 : BitVec 32 := 1#32
  ⟨c0_i32_126, v158, c1_i32_128⟩
def k0_off23 (k0_t22 : Fin k0_t22_loop.trips) (c0_i32_196 : BitVec 32) : Fin 1 → Nat :=
  let c0_i32_126 : BitVec 32 := 0#32
  let c1_i32_128 : BitVec 32 := 1#32
  let arg11 : BitVec 32 := Scf.iv c0_i32_126 c1_i32_128 k0_t22
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk321 (v234 : IVec S16 32) : Prop :=
  (∀ a x, ((![v234] : Fin 1 → IVec S16 32) a x).toNat < S65536.size a)
instance k0_chk321.dec : ∀ (v234 : IVec S16 32), Decidable (k0_chk321 v234) := fun v234 => decidable_of_iff' _ (Iff.of_eq (k0_chk321.eq_1 v234))
theorem k0_idx321_inb : ∀ (v234 : IVec S16 32) (k0_hw321 : k0_chk321 v234), ∀ a x, ((![v234] : Fin 1 → IVec S16 32) a x).toNat < S65536.size a := fun v234 k0_hw321 => k0_hw321

def k0_chk322 (v239 : IVec S16 32) : Prop :=
  (∀ a x, ((![v239] : Fin 1 → IVec S16 32) a x).toNat < S65536.size a)
instance k0_chk322.dec : ∀ (v239 : IVec S16 32), Decidable (k0_chk322 v239) := fun v239 => decidable_of_iff' _ (Iff.of_eq (k0_chk322.eq_1 v239))
theorem k0_idx322_inb : ∀ (v239 : IVec S16 32) (k0_hw322 : k0_chk322 v239), ∀ a x, ((![v239] : Fin 1 → IVec S16 32) a x).toNat < S65536.size a := fun v239 k0_hw322 => k0_hw322

def k0_chk323 (v244 : IVec S16 32) : Prop :=
  (∀ a x, ((![v244] : Fin 1 → IVec S16 32) a x).toNat < S65536.size a)
instance k0_chk323.dec : ∀ (v244 : IVec S16 32), Decidable (k0_chk323 v244) := fun v244 => decidable_of_iff' _ (Iff.of_eq (k0_chk323.eq_1 v244))
theorem k0_idx323_inb : ∀ (v244 : IVec S16 32) (k0_hw323 : k0_chk323 v244), ∀ a x, ((![v244] : Fin 1 → IVec S16 32) a x).toNat < S65536.size a := fun v244 k0_hw323 => k0_hw323

def k0_chk324 (v249 : IVec S16 32) : Prop :=
  (∀ a x, ((![v249] : Fin 1 → IVec S16 32) a x).toNat < S65536.size a)
instance k0_chk324.dec : ∀ (v249 : IVec S16 32), Decidable (k0_chk324 v249) := fun v249 => decidable_of_iff' _ (Iff.of_eq (k0_chk324.eq_1 v249))
theorem k0_idx324_inb : ∀ (v249 : IVec S16 32) (k0_hw324 : k0_chk324 v249), ∀ a x, ((![v249] : Fin 1 → IVec S16 32) a x).toNat < S65536.size a := fun v249 k0_hw324 => k0_hw324

def k0_chk325 (v254 : IVec S16 32) : Prop :=
  (∀ a x, ((![v254] : Fin 1 → IVec S16 32) a x).toNat < S65536.size a)
instance k0_chk325.dec : ∀ (v254 : IVec S16 32), Decidable (k0_chk325 v254) := fun v254 => decidable_of_iff' _ (Iff.of_eq (k0_chk325.eq_1 v254))
theorem k0_idx325_inb : ∀ (v254 : IVec S16 32) (k0_hw325 : k0_chk325 v254), ∀ a x, ((![v254] : Fin 1 → IVec S16 32) a x).toNat < S65536.size a := fun v254 k0_hw325 => k0_hw325

def k0_chk326 (v259 : IVec S16 32) : Prop :=
  (∀ a x, ((![v259] : Fin 1 → IVec S16 32) a x).toNat < S65536.size a)
instance k0_chk326.dec : ∀ (v259 : IVec S16 32), Decidable (k0_chk326 v259) := fun v259 => decidable_of_iff' _ (Iff.of_eq (k0_chk326.eq_1 v259))
theorem k0_idx326_inb : ∀ (v259 : IVec S16 32) (k0_hw326 : k0_chk326 v259), ∀ a x, ((![v259] : Fin 1 → IVec S16 32) a x).toNat < S65536.size a := fun v259 k0_hw326 => k0_hw326

def k0_chk327 (v264 : IVec S16 32) : Prop :=
  (∀ a x, ((![v264] : Fin 1 → IVec S16 32) a x).toNat < S65536.size a)
instance k0_chk327.dec : ∀ (v264 : IVec S16 32), Decidable (k0_chk327 v264) := fun v264 => decidable_of_iff' _ (Iff.of_eq (k0_chk327.eq_1 v264))
theorem k0_idx327_inb : ∀ (v264 : IVec S16 32) (k0_hw327 : k0_chk327 v264), ∀ a x, ((![v264] : Fin 1 → IVec S16 32) a x).toNat < S65536.size a := fun v264 k0_hw327 => k0_hw327

def k0_chk328 (v269 : IVec S16 32) : Prop :=
  (∀ a x, ((![v269] : Fin 1 → IVec S16 32) a x).toNat < S65536.size a)
instance k0_chk328.dec : ∀ (v269 : IVec S16 32), Decidable (k0_chk328 v269) := fun v269 => decidable_of_iff' _ (Iff.of_eq (k0_chk328.eq_1 v269))
theorem k0_idx328_inb : ∀ (v269 : IVec S16 32) (k0_hw328 : k0_chk328 v269), ∀ a x, ((![v269] : Fin 1 → IVec S16 32) a x).toNat < S65536.size a := fun v269 k0_hw328 => k0_hw328

def k0_chk329 (v274 : IVec S16 32) : Prop :=
  (∀ a x, ((![v274] : Fin 1 → IVec S16 32) a x).toNat < S65536.size a)
instance k0_chk329.dec : ∀ (v274 : IVec S16 32), Decidable (k0_chk329 v274) := fun v274 => decidable_of_iff' _ (Iff.of_eq (k0_chk329.eq_1 v274))
theorem k0_idx329_inb : ∀ (v274 : IVec S16 32) (k0_hw329 : k0_chk329 v274), ∀ a x, ((![v274] : Fin 1 → IVec S16 32) a x).toNat < S65536.size a := fun v274 k0_hw329 => k0_hw329

def k0_chk330 (v279 : IVec S16 32) : Prop :=
  (∀ a x, ((![v279] : Fin 1 → IVec S16 32) a x).toNat < S65536.size a)
instance k0_chk330.dec : ∀ (v279 : IVec S16 32), Decidable (k0_chk330 v279) := fun v279 => decidable_of_iff' _ (Iff.of_eq (k0_chk330.eq_1 v279))
theorem k0_idx330_inb : ∀ (v279 : IVec S16 32) (k0_hw330 : k0_chk330 v279), ∀ a x, ((![v279] : Fin 1 → IVec S16 32) a x).toNat < S65536.size a := fun v279 k0_hw330 => k0_hw330

def k0_chk331 (v284 : IVec S16 32) : Prop :=
  (∀ a x, ((![v284] : Fin 1 → IVec S16 32) a x).toNat < S65536.size a)
instance k0_chk331.dec : ∀ (v284 : IVec S16 32), Decidable (k0_chk331 v284) := fun v284 => decidable_of_iff' _ (Iff.of_eq (k0_chk331.eq_1 v284))
theorem k0_idx331_inb : ∀ (v284 : IVec S16 32) (k0_hw331 : k0_chk331 v284), ∀ a x, ((![v284] : Fin 1 → IVec S16 32) a x).toNat < S65536.size a := fun v284 k0_hw331 => k0_hw331

def k0_chk332 (v289 : IVec S16 32) : Prop :=
  (∀ a x, ((![v289] : Fin 1 → IVec S16 32) a x).toNat < S65536.size a)
instance k0_chk332.dec : ∀ (v289 : IVec S16 32), Decidable (k0_chk332 v289) := fun v289 => decidable_of_iff' _ (Iff.of_eq (k0_chk332.eq_1 v289))
theorem k0_idx332_inb : ∀ (v289 : IVec S16 32) (k0_hw332 : k0_chk332 v289), ∀ a x, ((![v289] : Fin 1 → IVec S16 32) a x).toNat < S65536.size a := fun v289 k0_hw332 => k0_hw332

def k0_chk333 (v294 : IVec S16 32) : Prop :=
  (∀ a x, ((![v294] : Fin 1 → IVec S16 32) a x).toNat < S65536.size a)
instance k0_chk333.dec : ∀ (v294 : IVec S16 32), Decidable (k0_chk333 v294) := fun v294 => decidable_of_iff' _ (Iff.of_eq (k0_chk333.eq_1 v294))
theorem k0_idx333_inb : ∀ (v294 : IVec S16 32) (k0_hw333 : k0_chk333 v294), ∀ a x, ((![v294] : Fin 1 → IVec S16 32) a x).toNat < S65536.size a := fun v294 k0_hw333 => k0_hw333

def k0_chk334 (v299 : IVec S16 32) : Prop :=
  (∀ a x, ((![v299] : Fin 1 → IVec S16 32) a x).toNat < S65536.size a)
instance k0_chk334.dec : ∀ (v299 : IVec S16 32), Decidable (k0_chk334 v299) := fun v299 => decidable_of_iff' _ (Iff.of_eq (k0_chk334.eq_1 v299))
theorem k0_idx334_inb : ∀ (v299 : IVec S16 32) (k0_hw334 : k0_chk334 v299), ∀ a x, ((![v299] : Fin 1 → IVec S16 32) a x).toNat < S65536.size a := fun v299 k0_hw334 => k0_hw334

def k0_chk335 (v304 : IVec S16 32) : Prop :=
  (∀ a x, ((![v304] : Fin 1 → IVec S16 32) a x).toNat < S65536.size a)
instance k0_chk335.dec : ∀ (v304 : IVec S16 32), Decidable (k0_chk335 v304) := fun v304 => decidable_of_iff' _ (Iff.of_eq (k0_chk335.eq_1 v304))
theorem k0_idx335_inb : ∀ (v304 : IVec S16 32) (k0_hw335 : k0_chk335 v304), ∀ a x, ((![v304] : Fin 1 → IVec S16 32) a x).toNat < S65536.size a := fun v304 k0_hw335 => k0_hw335

def k0_chk336 (v309 : IVec S16 32) : Prop :=
  (∀ a x, ((![v309] : Fin 1 → IVec S16 32) a x).toNat < S65536.size a)
instance k0_chk336.dec : ∀ (v309 : IVec S16 32), Decidable (k0_chk336 v309) := fun v309 => decidable_of_iff' _ (Iff.of_eq (k0_chk336.eq_1 v309))
theorem k0_idx336_inb : ∀ (v309 : IVec S16 32) (k0_hw336 : k0_chk336 v309), ∀ a x, ((![v309] : Fin 1 → IVec S16 32) a x).toNat < S65536.size a := fun v309 k0_hw336 => k0_hw336
@[reducible] def k0_t23_loop : Scf.Loop 32 :=
  let c0_i32_132 : BitVec 32 := 0#32
  let c64_i32_133 : BitVec 32 := 64#32
  let v165 : BitVec 32 := Scalar.addi c0_i32_132 c64_i32_133
  let c1_i32_134 : BitVec 32 := 1#32
  ⟨c0_i32_132, v165, c1_i32_134⟩
def k0_off24 (k0_t23 : Fin k0_t23_loop.trips) (c0_i32_196 : BitVec 32) : Fin 1 → Nat :=
  let c0_i32_132 : BitVec 32 := 0#32
  let c1_i32_134 : BitVec 32 := 1#32
  let arg11 : BitVec 32 := Scf.iv c0_i32_132 c1_i32_134 k0_t23
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk337 (v234 : IVec S16 32) : Prop :=
  (∀ a x, ((![v234] : Fin 1 → IVec S16 32) a x).toNat < S65536.size a)
instance k0_chk337.dec : ∀ (v234 : IVec S16 32), Decidable (k0_chk337 v234) := fun v234 => decidable_of_iff' _ (Iff.of_eq (k0_chk337.eq_1 v234))
theorem k0_idx337_inb : ∀ (v234 : IVec S16 32) (k0_hw337 : k0_chk337 v234), ∀ a x, ((![v234] : Fin 1 → IVec S16 32) a x).toNat < S65536.size a := fun v234 k0_hw337 => k0_hw337

def k0_chk338 (v239 : IVec S16 32) : Prop :=
  (∀ a x, ((![v239] : Fin 1 → IVec S16 32) a x).toNat < S65536.size a)
instance k0_chk338.dec : ∀ (v239 : IVec S16 32), Decidable (k0_chk338 v239) := fun v239 => decidable_of_iff' _ (Iff.of_eq (k0_chk338.eq_1 v239))
theorem k0_idx338_inb : ∀ (v239 : IVec S16 32) (k0_hw338 : k0_chk338 v239), ∀ a x, ((![v239] : Fin 1 → IVec S16 32) a x).toNat < S65536.size a := fun v239 k0_hw338 => k0_hw338

def k0_chk339 (v244 : IVec S16 32) : Prop :=
  (∀ a x, ((![v244] : Fin 1 → IVec S16 32) a x).toNat < S65536.size a)
instance k0_chk339.dec : ∀ (v244 : IVec S16 32), Decidable (k0_chk339 v244) := fun v244 => decidable_of_iff' _ (Iff.of_eq (k0_chk339.eq_1 v244))
theorem k0_idx339_inb : ∀ (v244 : IVec S16 32) (k0_hw339 : k0_chk339 v244), ∀ a x, ((![v244] : Fin 1 → IVec S16 32) a x).toNat < S65536.size a := fun v244 k0_hw339 => k0_hw339

def k0_chk340 (v249 : IVec S16 32) : Prop :=
  (∀ a x, ((![v249] : Fin 1 → IVec S16 32) a x).toNat < S65536.size a)
instance k0_chk340.dec : ∀ (v249 : IVec S16 32), Decidable (k0_chk340 v249) := fun v249 => decidable_of_iff' _ (Iff.of_eq (k0_chk340.eq_1 v249))
theorem k0_idx340_inb : ∀ (v249 : IVec S16 32) (k0_hw340 : k0_chk340 v249), ∀ a x, ((![v249] : Fin 1 → IVec S16 32) a x).toNat < S65536.size a := fun v249 k0_hw340 => k0_hw340

def k0_chk341 (v254 : IVec S16 32) : Prop :=
  (∀ a x, ((![v254] : Fin 1 → IVec S16 32) a x).toNat < S65536.size a)
instance k0_chk341.dec : ∀ (v254 : IVec S16 32), Decidable (k0_chk341 v254) := fun v254 => decidable_of_iff' _ (Iff.of_eq (k0_chk341.eq_1 v254))
theorem k0_idx341_inb : ∀ (v254 : IVec S16 32) (k0_hw341 : k0_chk341 v254), ∀ a x, ((![v254] : Fin 1 → IVec S16 32) a x).toNat < S65536.size a := fun v254 k0_hw341 => k0_hw341

def k0_chk342 (v259 : IVec S16 32) : Prop :=
  (∀ a x, ((![v259] : Fin 1 → IVec S16 32) a x).toNat < S65536.size a)
instance k0_chk342.dec : ∀ (v259 : IVec S16 32), Decidable (k0_chk342 v259) := fun v259 => decidable_of_iff' _ (Iff.of_eq (k0_chk342.eq_1 v259))
theorem k0_idx342_inb : ∀ (v259 : IVec S16 32) (k0_hw342 : k0_chk342 v259), ∀ a x, ((![v259] : Fin 1 → IVec S16 32) a x).toNat < S65536.size a := fun v259 k0_hw342 => k0_hw342

def k0_chk343 (v264 : IVec S16 32) : Prop :=
  (∀ a x, ((![v264] : Fin 1 → IVec S16 32) a x).toNat < S65536.size a)
instance k0_chk343.dec : ∀ (v264 : IVec S16 32), Decidable (k0_chk343 v264) := fun v264 => decidable_of_iff' _ (Iff.of_eq (k0_chk343.eq_1 v264))
theorem k0_idx343_inb : ∀ (v264 : IVec S16 32) (k0_hw343 : k0_chk343 v264), ∀ a x, ((![v264] : Fin 1 → IVec S16 32) a x).toNat < S65536.size a := fun v264 k0_hw343 => k0_hw343

def k0_chk344 (v269 : IVec S16 32) : Prop :=
  (∀ a x, ((![v269] : Fin 1 → IVec S16 32) a x).toNat < S65536.size a)
instance k0_chk344.dec : ∀ (v269 : IVec S16 32), Decidable (k0_chk344 v269) := fun v269 => decidable_of_iff' _ (Iff.of_eq (k0_chk344.eq_1 v269))
theorem k0_idx344_inb : ∀ (v269 : IVec S16 32) (k0_hw344 : k0_chk344 v269), ∀ a x, ((![v269] : Fin 1 → IVec S16 32) a x).toNat < S65536.size a := fun v269 k0_hw344 => k0_hw344

def k0_chk345 (v274 : IVec S16 32) : Prop :=
  (∀ a x, ((![v274] : Fin 1 → IVec S16 32) a x).toNat < S65536.size a)
instance k0_chk345.dec : ∀ (v274 : IVec S16 32), Decidable (k0_chk345 v274) := fun v274 => decidable_of_iff' _ (Iff.of_eq (k0_chk345.eq_1 v274))
theorem k0_idx345_inb : ∀ (v274 : IVec S16 32) (k0_hw345 : k0_chk345 v274), ∀ a x, ((![v274] : Fin 1 → IVec S16 32) a x).toNat < S65536.size a := fun v274 k0_hw345 => k0_hw345

def k0_chk346 (v279 : IVec S16 32) : Prop :=
  (∀ a x, ((![v279] : Fin 1 → IVec S16 32) a x).toNat < S65536.size a)
instance k0_chk346.dec : ∀ (v279 : IVec S16 32), Decidable (k0_chk346 v279) := fun v279 => decidable_of_iff' _ (Iff.of_eq (k0_chk346.eq_1 v279))
theorem k0_idx346_inb : ∀ (v279 : IVec S16 32) (k0_hw346 : k0_chk346 v279), ∀ a x, ((![v279] : Fin 1 → IVec S16 32) a x).toNat < S65536.size a := fun v279 k0_hw346 => k0_hw346

def k0_chk347 (v284 : IVec S16 32) : Prop :=
  (∀ a x, ((![v284] : Fin 1 → IVec S16 32) a x).toNat < S65536.size a)
instance k0_chk347.dec : ∀ (v284 : IVec S16 32), Decidable (k0_chk347 v284) := fun v284 => decidable_of_iff' _ (Iff.of_eq (k0_chk347.eq_1 v284))
theorem k0_idx347_inb : ∀ (v284 : IVec S16 32) (k0_hw347 : k0_chk347 v284), ∀ a x, ((![v284] : Fin 1 → IVec S16 32) a x).toNat < S65536.size a := fun v284 k0_hw347 => k0_hw347

def k0_chk348 (v289 : IVec S16 32) : Prop :=
  (∀ a x, ((![v289] : Fin 1 → IVec S16 32) a x).toNat < S65536.size a)
instance k0_chk348.dec : ∀ (v289 : IVec S16 32), Decidable (k0_chk348 v289) := fun v289 => decidable_of_iff' _ (Iff.of_eq (k0_chk348.eq_1 v289))
theorem k0_idx348_inb : ∀ (v289 : IVec S16 32) (k0_hw348 : k0_chk348 v289), ∀ a x, ((![v289] : Fin 1 → IVec S16 32) a x).toNat < S65536.size a := fun v289 k0_hw348 => k0_hw348

def k0_chk349 (v294 : IVec S16 32) : Prop :=
  (∀ a x, ((![v294] : Fin 1 → IVec S16 32) a x).toNat < S65536.size a)
instance k0_chk349.dec : ∀ (v294 : IVec S16 32), Decidable (k0_chk349 v294) := fun v294 => decidable_of_iff' _ (Iff.of_eq (k0_chk349.eq_1 v294))
theorem k0_idx349_inb : ∀ (v294 : IVec S16 32) (k0_hw349 : k0_chk349 v294), ∀ a x, ((![v294] : Fin 1 → IVec S16 32) a x).toNat < S65536.size a := fun v294 k0_hw349 => k0_hw349

def k0_chk350 (v299 : IVec S16 32) : Prop :=
  (∀ a x, ((![v299] : Fin 1 → IVec S16 32) a x).toNat < S65536.size a)
instance k0_chk350.dec : ∀ (v299 : IVec S16 32), Decidable (k0_chk350 v299) := fun v299 => decidable_of_iff' _ (Iff.of_eq (k0_chk350.eq_1 v299))
theorem k0_idx350_inb : ∀ (v299 : IVec S16 32) (k0_hw350 : k0_chk350 v299), ∀ a x, ((![v299] : Fin 1 → IVec S16 32) a x).toNat < S65536.size a := fun v299 k0_hw350 => k0_hw350

def k0_chk351 (v304 : IVec S16 32) : Prop :=
  (∀ a x, ((![v304] : Fin 1 → IVec S16 32) a x).toNat < S65536.size a)
instance k0_chk351.dec : ∀ (v304 : IVec S16 32), Decidable (k0_chk351 v304) := fun v304 => decidable_of_iff' _ (Iff.of_eq (k0_chk351.eq_1 v304))
theorem k0_idx351_inb : ∀ (v304 : IVec S16 32) (k0_hw351 : k0_chk351 v304), ∀ a x, ((![v304] : Fin 1 → IVec S16 32) a x).toNat < S65536.size a := fun v304 k0_hw351 => k0_hw351

def k0_chk352 (v309 : IVec S16 32) : Prop :=
  (∀ a x, ((![v309] : Fin 1 → IVec S16 32) a x).toNat < S65536.size a)
instance k0_chk352.dec : ∀ (v309 : IVec S16 32), Decidable (k0_chk352 v309) := fun v309 => decidable_of_iff' _ (Iff.of_eq (k0_chk352.eq_1 v309))
theorem k0_idx352_inb : ∀ (v309 : IVec S16 32) (k0_hw352 : k0_chk352 v309), ∀ a x, ((![v309] : Fin 1 → IVec S16 32) a x).toNat < S65536.size a := fun v309 k0_hw352 => k0_hw352
@[reducible] def k0_t24_loop : Scf.Loop 32 :=
  let c0_i32_138 : BitVec 32 := 0#32
  let c64_i32_139 : BitVec 32 := 64#32
  let v172 : BitVec 32 := Scalar.addi c0_i32_138 c64_i32_139
  let c1_i32_140 : BitVec 32 := 1#32
  ⟨c0_i32_138, v172, c1_i32_140⟩
def k0_off25 (k0_t24 : Fin k0_t24_loop.trips) (c0_i32_196 : BitVec 32) : Fin 1 → Nat :=
  let c0_i32_138 : BitVec 32 := 0#32
  let c1_i32_140 : BitVec 32 := 1#32
  let arg11 : BitVec 32 := Scf.iv c0_i32_138 c1_i32_140 k0_t24
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk353 (v234 : IVec S16 32) : Prop :=
  (∀ a x, ((![v234] : Fin 1 → IVec S16 32) a x).toNat < S65536.size a)
instance k0_chk353.dec : ∀ (v234 : IVec S16 32), Decidable (k0_chk353 v234) := fun v234 => decidable_of_iff' _ (Iff.of_eq (k0_chk353.eq_1 v234))
theorem k0_idx353_inb : ∀ (v234 : IVec S16 32) (k0_hw353 : k0_chk353 v234), ∀ a x, ((![v234] : Fin 1 → IVec S16 32) a x).toNat < S65536.size a := fun v234 k0_hw353 => k0_hw353

def k0_chk354 (v239 : IVec S16 32) : Prop :=
  (∀ a x, ((![v239] : Fin 1 → IVec S16 32) a x).toNat < S65536.size a)
instance k0_chk354.dec : ∀ (v239 : IVec S16 32), Decidable (k0_chk354 v239) := fun v239 => decidable_of_iff' _ (Iff.of_eq (k0_chk354.eq_1 v239))
theorem k0_idx354_inb : ∀ (v239 : IVec S16 32) (k0_hw354 : k0_chk354 v239), ∀ a x, ((![v239] : Fin 1 → IVec S16 32) a x).toNat < S65536.size a := fun v239 k0_hw354 => k0_hw354

def k0_chk355 (v244 : IVec S16 32) : Prop :=
  (∀ a x, ((![v244] : Fin 1 → IVec S16 32) a x).toNat < S65536.size a)
instance k0_chk355.dec : ∀ (v244 : IVec S16 32), Decidable (k0_chk355 v244) := fun v244 => decidable_of_iff' _ (Iff.of_eq (k0_chk355.eq_1 v244))
theorem k0_idx355_inb : ∀ (v244 : IVec S16 32) (k0_hw355 : k0_chk355 v244), ∀ a x, ((![v244] : Fin 1 → IVec S16 32) a x).toNat < S65536.size a := fun v244 k0_hw355 => k0_hw355

def k0_chk356 (v249 : IVec S16 32) : Prop :=
  (∀ a x, ((![v249] : Fin 1 → IVec S16 32) a x).toNat < S65536.size a)
instance k0_chk356.dec : ∀ (v249 : IVec S16 32), Decidable (k0_chk356 v249) := fun v249 => decidable_of_iff' _ (Iff.of_eq (k0_chk356.eq_1 v249))
theorem k0_idx356_inb : ∀ (v249 : IVec S16 32) (k0_hw356 : k0_chk356 v249), ∀ a x, ((![v249] : Fin 1 → IVec S16 32) a x).toNat < S65536.size a := fun v249 k0_hw356 => k0_hw356

def k0_chk357 (v254 : IVec S16 32) : Prop :=
  (∀ a x, ((![v254] : Fin 1 → IVec S16 32) a x).toNat < S65536.size a)
instance k0_chk357.dec : ∀ (v254 : IVec S16 32), Decidable (k0_chk357 v254) := fun v254 => decidable_of_iff' _ (Iff.of_eq (k0_chk357.eq_1 v254))
theorem k0_idx357_inb : ∀ (v254 : IVec S16 32) (k0_hw357 : k0_chk357 v254), ∀ a x, ((![v254] : Fin 1 → IVec S16 32) a x).toNat < S65536.size a := fun v254 k0_hw357 => k0_hw357

def k0_chk358 (v259 : IVec S16 32) : Prop :=
  (∀ a x, ((![v259] : Fin 1 → IVec S16 32) a x).toNat < S65536.size a)
instance k0_chk358.dec : ∀ (v259 : IVec S16 32), Decidable (k0_chk358 v259) := fun v259 => decidable_of_iff' _ (Iff.of_eq (k0_chk358.eq_1 v259))
theorem k0_idx358_inb : ∀ (v259 : IVec S16 32) (k0_hw358 : k0_chk358 v259), ∀ a x, ((![v259] : Fin 1 → IVec S16 32) a x).toNat < S65536.size a := fun v259 k0_hw358 => k0_hw358

def k0_chk359 (v264 : IVec S16 32) : Prop :=
  (∀ a x, ((![v264] : Fin 1 → IVec S16 32) a x).toNat < S65536.size a)
instance k0_chk359.dec : ∀ (v264 : IVec S16 32), Decidable (k0_chk359 v264) := fun v264 => decidable_of_iff' _ (Iff.of_eq (k0_chk359.eq_1 v264))
theorem k0_idx359_inb : ∀ (v264 : IVec S16 32) (k0_hw359 : k0_chk359 v264), ∀ a x, ((![v264] : Fin 1 → IVec S16 32) a x).toNat < S65536.size a := fun v264 k0_hw359 => k0_hw359

def k0_chk360 (v269 : IVec S16 32) : Prop :=
  (∀ a x, ((![v269] : Fin 1 → IVec S16 32) a x).toNat < S65536.size a)
instance k0_chk360.dec : ∀ (v269 : IVec S16 32), Decidable (k0_chk360 v269) := fun v269 => decidable_of_iff' _ (Iff.of_eq (k0_chk360.eq_1 v269))
theorem k0_idx360_inb : ∀ (v269 : IVec S16 32) (k0_hw360 : k0_chk360 v269), ∀ a x, ((![v269] : Fin 1 → IVec S16 32) a x).toNat < S65536.size a := fun v269 k0_hw360 => k0_hw360

def k0_chk361 (v274 : IVec S16 32) : Prop :=
  (∀ a x, ((![v274] : Fin 1 → IVec S16 32) a x).toNat < S65536.size a)
instance k0_chk361.dec : ∀ (v274 : IVec S16 32), Decidable (k0_chk361 v274) := fun v274 => decidable_of_iff' _ (Iff.of_eq (k0_chk361.eq_1 v274))
theorem k0_idx361_inb : ∀ (v274 : IVec S16 32) (k0_hw361 : k0_chk361 v274), ∀ a x, ((![v274] : Fin 1 → IVec S16 32) a x).toNat < S65536.size a := fun v274 k0_hw361 => k0_hw361

def k0_chk362 (v279 : IVec S16 32) : Prop :=
  (∀ a x, ((![v279] : Fin 1 → IVec S16 32) a x).toNat < S65536.size a)
instance k0_chk362.dec : ∀ (v279 : IVec S16 32), Decidable (k0_chk362 v279) := fun v279 => decidable_of_iff' _ (Iff.of_eq (k0_chk362.eq_1 v279))
theorem k0_idx362_inb : ∀ (v279 : IVec S16 32) (k0_hw362 : k0_chk362 v279), ∀ a x, ((![v279] : Fin 1 → IVec S16 32) a x).toNat < S65536.size a := fun v279 k0_hw362 => k0_hw362

def k0_chk363 (v284 : IVec S16 32) : Prop :=
  (∀ a x, ((![v284] : Fin 1 → IVec S16 32) a x).toNat < S65536.size a)
instance k0_chk363.dec : ∀ (v284 : IVec S16 32), Decidable (k0_chk363 v284) := fun v284 => decidable_of_iff' _ (Iff.of_eq (k0_chk363.eq_1 v284))
theorem k0_idx363_inb : ∀ (v284 : IVec S16 32) (k0_hw363 : k0_chk363 v284), ∀ a x, ((![v284] : Fin 1 → IVec S16 32) a x).toNat < S65536.size a := fun v284 k0_hw363 => k0_hw363

def k0_chk364 (v289 : IVec S16 32) : Prop :=
  (∀ a x, ((![v289] : Fin 1 → IVec S16 32) a x).toNat < S65536.size a)
instance k0_chk364.dec : ∀ (v289 : IVec S16 32), Decidable (k0_chk364 v289) := fun v289 => decidable_of_iff' _ (Iff.of_eq (k0_chk364.eq_1 v289))
theorem k0_idx364_inb : ∀ (v289 : IVec S16 32) (k0_hw364 : k0_chk364 v289), ∀ a x, ((![v289] : Fin 1 → IVec S16 32) a x).toNat < S65536.size a := fun v289 k0_hw364 => k0_hw364

def k0_chk365 (v294 : IVec S16 32) : Prop :=
  (∀ a x, ((![v294] : Fin 1 → IVec S16 32) a x).toNat < S65536.size a)
instance k0_chk365.dec : ∀ (v294 : IVec S16 32), Decidable (k0_chk365 v294) := fun v294 => decidable_of_iff' _ (Iff.of_eq (k0_chk365.eq_1 v294))
theorem k0_idx365_inb : ∀ (v294 : IVec S16 32) (k0_hw365 : k0_chk365 v294), ∀ a x, ((![v294] : Fin 1 → IVec S16 32) a x).toNat < S65536.size a := fun v294 k0_hw365 => k0_hw365

def k0_chk366 (v299 : IVec S16 32) : Prop :=
  (∀ a x, ((![v299] : Fin 1 → IVec S16 32) a x).toNat < S65536.size a)
instance k0_chk366.dec : ∀ (v299 : IVec S16 32), Decidable (k0_chk366 v299) := fun v299 => decidable_of_iff' _ (Iff.of_eq (k0_chk366.eq_1 v299))
theorem k0_idx366_inb : ∀ (v299 : IVec S16 32) (k0_hw366 : k0_chk366 v299), ∀ a x, ((![v299] : Fin 1 → IVec S16 32) a x).toNat < S65536.size a := fun v299 k0_hw366 => k0_hw366

def k0_chk367 (v304 : IVec S16 32) : Prop :=
  (∀ a x, ((![v304] : Fin 1 → IVec S16 32) a x).toNat < S65536.size a)
instance k0_chk367.dec : ∀ (v304 : IVec S16 32), Decidable (k0_chk367 v304) := fun v304 => decidable_of_iff' _ (Iff.of_eq (k0_chk367.eq_1 v304))
theorem k0_idx367_inb : ∀ (v304 : IVec S16 32) (k0_hw367 : k0_chk367 v304), ∀ a x, ((![v304] : Fin 1 → IVec S16 32) a x).toNat < S65536.size a := fun v304 k0_hw367 => k0_hw367

def k0_chk368 (v309 : IVec S16 32) : Prop :=
  (∀ a x, ((![v309] : Fin 1 → IVec S16 32) a x).toNat < S65536.size a)
instance k0_chk368.dec : ∀ (v309 : IVec S16 32), Decidable (k0_chk368 v309) := fun v309 => decidable_of_iff' _ (Iff.of_eq (k0_chk368.eq_1 v309))
theorem k0_idx368_inb : ∀ (v309 : IVec S16 32) (k0_hw368 : k0_chk368 v309), ∀ a x, ((![v309] : Fin 1 → IVec S16 32) a x).toNat < S65536.size a := fun v309 k0_hw368 => k0_hw368
@[reducible] def k0_t25_loop : Scf.Loop 32 :=
  let c0_i32_144 : BitVec 32 := 0#32
  let c64_i32_145 : BitVec 32 := 64#32
  let v179 : BitVec 32 := Scalar.addi c0_i32_144 c64_i32_145
  let c1_i32_146 : BitVec 32 := 1#32
  ⟨c0_i32_144, v179, c1_i32_146⟩
def k0_off26 (k0_t25 : Fin k0_t25_loop.trips) (c0_i32_196 : BitVec 32) : Fin 1 → Nat :=
  let c0_i32_144 : BitVec 32 := 0#32
  let c1_i32_146 : BitVec 32 := 1#32
  let arg11 : BitVec 32 := Scf.iv c0_i32_144 c1_i32_146 k0_t25
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk369 (v234 : IVec S16 32) : Prop :=
  (∀ a x, ((![v234] : Fin 1 → IVec S16 32) a x).toNat < S65536.size a)
instance k0_chk369.dec : ∀ (v234 : IVec S16 32), Decidable (k0_chk369 v234) := fun v234 => decidable_of_iff' _ (Iff.of_eq (k0_chk369.eq_1 v234))
theorem k0_idx369_inb : ∀ (v234 : IVec S16 32) (k0_hw369 : k0_chk369 v234), ∀ a x, ((![v234] : Fin 1 → IVec S16 32) a x).toNat < S65536.size a := fun v234 k0_hw369 => k0_hw369

def k0_chk370 (v239 : IVec S16 32) : Prop :=
  (∀ a x, ((![v239] : Fin 1 → IVec S16 32) a x).toNat < S65536.size a)
instance k0_chk370.dec : ∀ (v239 : IVec S16 32), Decidable (k0_chk370 v239) := fun v239 => decidable_of_iff' _ (Iff.of_eq (k0_chk370.eq_1 v239))
theorem k0_idx370_inb : ∀ (v239 : IVec S16 32) (k0_hw370 : k0_chk370 v239), ∀ a x, ((![v239] : Fin 1 → IVec S16 32) a x).toNat < S65536.size a := fun v239 k0_hw370 => k0_hw370

def k0_chk371 (v244 : IVec S16 32) : Prop :=
  (∀ a x, ((![v244] : Fin 1 → IVec S16 32) a x).toNat < S65536.size a)
instance k0_chk371.dec : ∀ (v244 : IVec S16 32), Decidable (k0_chk371 v244) := fun v244 => decidable_of_iff' _ (Iff.of_eq (k0_chk371.eq_1 v244))
theorem k0_idx371_inb : ∀ (v244 : IVec S16 32) (k0_hw371 : k0_chk371 v244), ∀ a x, ((![v244] : Fin 1 → IVec S16 32) a x).toNat < S65536.size a := fun v244 k0_hw371 => k0_hw371

def k0_chk372 (v249 : IVec S16 32) : Prop :=
  (∀ a x, ((![v249] : Fin 1 → IVec S16 32) a x).toNat < S65536.size a)
instance k0_chk372.dec : ∀ (v249 : IVec S16 32), Decidable (k0_chk372 v249) := fun v249 => decidable_of_iff' _ (Iff.of_eq (k0_chk372.eq_1 v249))
theorem k0_idx372_inb : ∀ (v249 : IVec S16 32) (k0_hw372 : k0_chk372 v249), ∀ a x, ((![v249] : Fin 1 → IVec S16 32) a x).toNat < S65536.size a := fun v249 k0_hw372 => k0_hw372

def k0_chk373 (v254 : IVec S16 32) : Prop :=
  (∀ a x, ((![v254] : Fin 1 → IVec S16 32) a x).toNat < S65536.size a)
instance k0_chk373.dec : ∀ (v254 : IVec S16 32), Decidable (k0_chk373 v254) := fun v254 => decidable_of_iff' _ (Iff.of_eq (k0_chk373.eq_1 v254))
theorem k0_idx373_inb : ∀ (v254 : IVec S16 32) (k0_hw373 : k0_chk373 v254), ∀ a x, ((![v254] : Fin 1 → IVec S16 32) a x).toNat < S65536.size a := fun v254 k0_hw373 => k0_hw373

def k0_chk374 (v259 : IVec S16 32) : Prop :=
  (∀ a x, ((![v259] : Fin 1 → IVec S16 32) a x).toNat < S65536.size a)
instance k0_chk374.dec : ∀ (v259 : IVec S16 32), Decidable (k0_chk374 v259) := fun v259 => decidable_of_iff' _ (Iff.of_eq (k0_chk374.eq_1 v259))
theorem k0_idx374_inb : ∀ (v259 : IVec S16 32) (k0_hw374 : k0_chk374 v259), ∀ a x, ((![v259] : Fin 1 → IVec S16 32) a x).toNat < S65536.size a := fun v259 k0_hw374 => k0_hw374

def k0_chk375 (v264 : IVec S16 32) : Prop :=
  (∀ a x, ((![v264] : Fin 1 → IVec S16 32) a x).toNat < S65536.size a)
instance k0_chk375.dec : ∀ (v264 : IVec S16 32), Decidable (k0_chk375 v264) := fun v264 => decidable_of_iff' _ (Iff.of_eq (k0_chk375.eq_1 v264))
theorem k0_idx375_inb : ∀ (v264 : IVec S16 32) (k0_hw375 : k0_chk375 v264), ∀ a x, ((![v264] : Fin 1 → IVec S16 32) a x).toNat < S65536.size a := fun v264 k0_hw375 => k0_hw375

def k0_chk376 (v269 : IVec S16 32) : Prop :=
  (∀ a x, ((![v269] : Fin 1 → IVec S16 32) a x).toNat < S65536.size a)
instance k0_chk376.dec : ∀ (v269 : IVec S16 32), Decidable (k0_chk376 v269) := fun v269 => decidable_of_iff' _ (Iff.of_eq (k0_chk376.eq_1 v269))
theorem k0_idx376_inb : ∀ (v269 : IVec S16 32) (k0_hw376 : k0_chk376 v269), ∀ a x, ((![v269] : Fin 1 → IVec S16 32) a x).toNat < S65536.size a := fun v269 k0_hw376 => k0_hw376

def k0_chk377 (v274 : IVec S16 32) : Prop :=
  (∀ a x, ((![v274] : Fin 1 → IVec S16 32) a x).toNat < S65536.size a)
instance k0_chk377.dec : ∀ (v274 : IVec S16 32), Decidable (k0_chk377 v274) := fun v274 => decidable_of_iff' _ (Iff.of_eq (k0_chk377.eq_1 v274))
theorem k0_idx377_inb : ∀ (v274 : IVec S16 32) (k0_hw377 : k0_chk377 v274), ∀ a x, ((![v274] : Fin 1 → IVec S16 32) a x).toNat < S65536.size a := fun v274 k0_hw377 => k0_hw377

def k0_chk378 (v279 : IVec S16 32) : Prop :=
  (∀ a x, ((![v279] : Fin 1 → IVec S16 32) a x).toNat < S65536.size a)
instance k0_chk378.dec : ∀ (v279 : IVec S16 32), Decidable (k0_chk378 v279) := fun v279 => decidable_of_iff' _ (Iff.of_eq (k0_chk378.eq_1 v279))
theorem k0_idx378_inb : ∀ (v279 : IVec S16 32) (k0_hw378 : k0_chk378 v279), ∀ a x, ((![v279] : Fin 1 → IVec S16 32) a x).toNat < S65536.size a := fun v279 k0_hw378 => k0_hw378

def k0_chk379 (v284 : IVec S16 32) : Prop :=
  (∀ a x, ((![v284] : Fin 1 → IVec S16 32) a x).toNat < S65536.size a)
instance k0_chk379.dec : ∀ (v284 : IVec S16 32), Decidable (k0_chk379 v284) := fun v284 => decidable_of_iff' _ (Iff.of_eq (k0_chk379.eq_1 v284))
theorem k0_idx379_inb : ∀ (v284 : IVec S16 32) (k0_hw379 : k0_chk379 v284), ∀ a x, ((![v284] : Fin 1 → IVec S16 32) a x).toNat < S65536.size a := fun v284 k0_hw379 => k0_hw379

def k0_chk380 (v289 : IVec S16 32) : Prop :=
  (∀ a x, ((![v289] : Fin 1 → IVec S16 32) a x).toNat < S65536.size a)
instance k0_chk380.dec : ∀ (v289 : IVec S16 32), Decidable (k0_chk380 v289) := fun v289 => decidable_of_iff' _ (Iff.of_eq (k0_chk380.eq_1 v289))
theorem k0_idx380_inb : ∀ (v289 : IVec S16 32) (k0_hw380 : k0_chk380 v289), ∀ a x, ((![v289] : Fin 1 → IVec S16 32) a x).toNat < S65536.size a := fun v289 k0_hw380 => k0_hw380

def k0_chk381 (v294 : IVec S16 32) : Prop :=
  (∀ a x, ((![v294] : Fin 1 → IVec S16 32) a x).toNat < S65536.size a)
instance k0_chk381.dec : ∀ (v294 : IVec S16 32), Decidable (k0_chk381 v294) := fun v294 => decidable_of_iff' _ (Iff.of_eq (k0_chk381.eq_1 v294))
theorem k0_idx381_inb : ∀ (v294 : IVec S16 32) (k0_hw381 : k0_chk381 v294), ∀ a x, ((![v294] : Fin 1 → IVec S16 32) a x).toNat < S65536.size a := fun v294 k0_hw381 => k0_hw381

def k0_chk382 (v299 : IVec S16 32) : Prop :=
  (∀ a x, ((![v299] : Fin 1 → IVec S16 32) a x).toNat < S65536.size a)
instance k0_chk382.dec : ∀ (v299 : IVec S16 32), Decidable (k0_chk382 v299) := fun v299 => decidable_of_iff' _ (Iff.of_eq (k0_chk382.eq_1 v299))
theorem k0_idx382_inb : ∀ (v299 : IVec S16 32) (k0_hw382 : k0_chk382 v299), ∀ a x, ((![v299] : Fin 1 → IVec S16 32) a x).toNat < S65536.size a := fun v299 k0_hw382 => k0_hw382

def k0_chk383 (v304 : IVec S16 32) : Prop :=
  (∀ a x, ((![v304] : Fin 1 → IVec S16 32) a x).toNat < S65536.size a)
instance k0_chk383.dec : ∀ (v304 : IVec S16 32), Decidable (k0_chk383 v304) := fun v304 => decidable_of_iff' _ (Iff.of_eq (k0_chk383.eq_1 v304))
theorem k0_idx383_inb : ∀ (v304 : IVec S16 32) (k0_hw383 : k0_chk383 v304), ∀ a x, ((![v304] : Fin 1 → IVec S16 32) a x).toNat < S65536.size a := fun v304 k0_hw383 => k0_hw383

def k0_chk384 (v309 : IVec S16 32) : Prop :=
  (∀ a x, ((![v309] : Fin 1 → IVec S16 32) a x).toNat < S65536.size a)
instance k0_chk384.dec : ∀ (v309 : IVec S16 32), Decidable (k0_chk384 v309) := fun v309 => decidable_of_iff' _ (Iff.of_eq (k0_chk384.eq_1 v309))
theorem k0_idx384_inb : ∀ (v309 : IVec S16 32) (k0_hw384 : k0_chk384 v309), ∀ a x, ((![v309] : Fin 1 → IVec S16 32) a x).toNat < S65536.size a := fun v309 k0_hw384 => k0_hw384
@[reducible] def k0_t26_loop : Scf.Loop 32 :=
  let c0_i32_150 : BitVec 32 := 0#32
  let c64_i32_151 : BitVec 32 := 64#32
  let v186 : BitVec 32 := Scalar.addi c0_i32_150 c64_i32_151
  let c1_i32_152 : BitVec 32 := 1#32
  ⟨c0_i32_150, v186, c1_i32_152⟩
def k0_off27 (k0_t26 : Fin k0_t26_loop.trips) (c0_i32_196 : BitVec 32) : Fin 1 → Nat :=
  let c0_i32_150 : BitVec 32 := 0#32
  let c1_i32_152 : BitVec 32 := 1#32
  let arg11 : BitVec 32 := Scf.iv c0_i32_150 c1_i32_152 k0_t26
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk385 (v234 : IVec S16 32) : Prop :=
  (∀ a x, ((![v234] : Fin 1 → IVec S16 32) a x).toNat < S65536.size a)
instance k0_chk385.dec : ∀ (v234 : IVec S16 32), Decidable (k0_chk385 v234) := fun v234 => decidable_of_iff' _ (Iff.of_eq (k0_chk385.eq_1 v234))
theorem k0_idx385_inb : ∀ (v234 : IVec S16 32) (k0_hw385 : k0_chk385 v234), ∀ a x, ((![v234] : Fin 1 → IVec S16 32) a x).toNat < S65536.size a := fun v234 k0_hw385 => k0_hw385

def k0_chk386 (v239 : IVec S16 32) : Prop :=
  (∀ a x, ((![v239] : Fin 1 → IVec S16 32) a x).toNat < S65536.size a)
instance k0_chk386.dec : ∀ (v239 : IVec S16 32), Decidable (k0_chk386 v239) := fun v239 => decidable_of_iff' _ (Iff.of_eq (k0_chk386.eq_1 v239))
theorem k0_idx386_inb : ∀ (v239 : IVec S16 32) (k0_hw386 : k0_chk386 v239), ∀ a x, ((![v239] : Fin 1 → IVec S16 32) a x).toNat < S65536.size a := fun v239 k0_hw386 => k0_hw386

def k0_chk387 (v244 : IVec S16 32) : Prop :=
  (∀ a x, ((![v244] : Fin 1 → IVec S16 32) a x).toNat < S65536.size a)
instance k0_chk387.dec : ∀ (v244 : IVec S16 32), Decidable (k0_chk387 v244) := fun v244 => decidable_of_iff' _ (Iff.of_eq (k0_chk387.eq_1 v244))
theorem k0_idx387_inb : ∀ (v244 : IVec S16 32) (k0_hw387 : k0_chk387 v244), ∀ a x, ((![v244] : Fin 1 → IVec S16 32) a x).toNat < S65536.size a := fun v244 k0_hw387 => k0_hw387

def k0_chk388 (v249 : IVec S16 32) : Prop :=
  (∀ a x, ((![v249] : Fin 1 → IVec S16 32) a x).toNat < S65536.size a)
instance k0_chk388.dec : ∀ (v249 : IVec S16 32), Decidable (k0_chk388 v249) := fun v249 => decidable_of_iff' _ (Iff.of_eq (k0_chk388.eq_1 v249))
theorem k0_idx388_inb : ∀ (v249 : IVec S16 32) (k0_hw388 : k0_chk388 v249), ∀ a x, ((![v249] : Fin 1 → IVec S16 32) a x).toNat < S65536.size a := fun v249 k0_hw388 => k0_hw388

def k0_chk389 (v254 : IVec S16 32) : Prop :=
  (∀ a x, ((![v254] : Fin 1 → IVec S16 32) a x).toNat < S65536.size a)
instance k0_chk389.dec : ∀ (v254 : IVec S16 32), Decidable (k0_chk389 v254) := fun v254 => decidable_of_iff' _ (Iff.of_eq (k0_chk389.eq_1 v254))
theorem k0_idx389_inb : ∀ (v254 : IVec S16 32) (k0_hw389 : k0_chk389 v254), ∀ a x, ((![v254] : Fin 1 → IVec S16 32) a x).toNat < S65536.size a := fun v254 k0_hw389 => k0_hw389

def k0_chk390 (v259 : IVec S16 32) : Prop :=
  (∀ a x, ((![v259] : Fin 1 → IVec S16 32) a x).toNat < S65536.size a)
instance k0_chk390.dec : ∀ (v259 : IVec S16 32), Decidable (k0_chk390 v259) := fun v259 => decidable_of_iff' _ (Iff.of_eq (k0_chk390.eq_1 v259))
theorem k0_idx390_inb : ∀ (v259 : IVec S16 32) (k0_hw390 : k0_chk390 v259), ∀ a x, ((![v259] : Fin 1 → IVec S16 32) a x).toNat < S65536.size a := fun v259 k0_hw390 => k0_hw390

def k0_chk391 (v264 : IVec S16 32) : Prop :=
  (∀ a x, ((![v264] : Fin 1 → IVec S16 32) a x).toNat < S65536.size a)
instance k0_chk391.dec : ∀ (v264 : IVec S16 32), Decidable (k0_chk391 v264) := fun v264 => decidable_of_iff' _ (Iff.of_eq (k0_chk391.eq_1 v264))
theorem k0_idx391_inb : ∀ (v264 : IVec S16 32) (k0_hw391 : k0_chk391 v264), ∀ a x, ((![v264] : Fin 1 → IVec S16 32) a x).toNat < S65536.size a := fun v264 k0_hw391 => k0_hw391

def k0_chk392 (v269 : IVec S16 32) : Prop :=
  (∀ a x, ((![v269] : Fin 1 → IVec S16 32) a x).toNat < S65536.size a)
instance k0_chk392.dec : ∀ (v269 : IVec S16 32), Decidable (k0_chk392 v269) := fun v269 => decidable_of_iff' _ (Iff.of_eq (k0_chk392.eq_1 v269))
theorem k0_idx392_inb : ∀ (v269 : IVec S16 32) (k0_hw392 : k0_chk392 v269), ∀ a x, ((![v269] : Fin 1 → IVec S16 32) a x).toNat < S65536.size a := fun v269 k0_hw392 => k0_hw392

def k0_chk393 (v274 : IVec S16 32) : Prop :=
  (∀ a x, ((![v274] : Fin 1 → IVec S16 32) a x).toNat < S65536.size a)
instance k0_chk393.dec : ∀ (v274 : IVec S16 32), Decidable (k0_chk393 v274) := fun v274 => decidable_of_iff' _ (Iff.of_eq (k0_chk393.eq_1 v274))
theorem k0_idx393_inb : ∀ (v274 : IVec S16 32) (k0_hw393 : k0_chk393 v274), ∀ a x, ((![v274] : Fin 1 → IVec S16 32) a x).toNat < S65536.size a := fun v274 k0_hw393 => k0_hw393

def k0_chk394 (v279 : IVec S16 32) : Prop :=
  (∀ a x, ((![v279] : Fin 1 → IVec S16 32) a x).toNat < S65536.size a)
instance k0_chk394.dec : ∀ (v279 : IVec S16 32), Decidable (k0_chk394 v279) := fun v279 => decidable_of_iff' _ (Iff.of_eq (k0_chk394.eq_1 v279))
theorem k0_idx394_inb : ∀ (v279 : IVec S16 32) (k0_hw394 : k0_chk394 v279), ∀ a x, ((![v279] : Fin 1 → IVec S16 32) a x).toNat < S65536.size a := fun v279 k0_hw394 => k0_hw394

def k0_chk395 (v284 : IVec S16 32) : Prop :=
  (∀ a x, ((![v284] : Fin 1 → IVec S16 32) a x).toNat < S65536.size a)
instance k0_chk395.dec : ∀ (v284 : IVec S16 32), Decidable (k0_chk395 v284) := fun v284 => decidable_of_iff' _ (Iff.of_eq (k0_chk395.eq_1 v284))
theorem k0_idx395_inb : ∀ (v284 : IVec S16 32) (k0_hw395 : k0_chk395 v284), ∀ a x, ((![v284] : Fin 1 → IVec S16 32) a x).toNat < S65536.size a := fun v284 k0_hw395 => k0_hw395

def k0_chk396 (v289 : IVec S16 32) : Prop :=
  (∀ a x, ((![v289] : Fin 1 → IVec S16 32) a x).toNat < S65536.size a)
instance k0_chk396.dec : ∀ (v289 : IVec S16 32), Decidable (k0_chk396 v289) := fun v289 => decidable_of_iff' _ (Iff.of_eq (k0_chk396.eq_1 v289))
theorem k0_idx396_inb : ∀ (v289 : IVec S16 32) (k0_hw396 : k0_chk396 v289), ∀ a x, ((![v289] : Fin 1 → IVec S16 32) a x).toNat < S65536.size a := fun v289 k0_hw396 => k0_hw396

def k0_chk397 (v294 : IVec S16 32) : Prop :=
  (∀ a x, ((![v294] : Fin 1 → IVec S16 32) a x).toNat < S65536.size a)
instance k0_chk397.dec : ∀ (v294 : IVec S16 32), Decidable (k0_chk397 v294) := fun v294 => decidable_of_iff' _ (Iff.of_eq (k0_chk397.eq_1 v294))
theorem k0_idx397_inb : ∀ (v294 : IVec S16 32) (k0_hw397 : k0_chk397 v294), ∀ a x, ((![v294] : Fin 1 → IVec S16 32) a x).toNat < S65536.size a := fun v294 k0_hw397 => k0_hw397

def k0_chk398 (v299 : IVec S16 32) : Prop :=
  (∀ a x, ((![v299] : Fin 1 → IVec S16 32) a x).toNat < S65536.size a)
instance k0_chk398.dec : ∀ (v299 : IVec S16 32), Decidable (k0_chk398 v299) := fun v299 => decidable_of_iff' _ (Iff.of_eq (k0_chk398.eq_1 v299))
theorem k0_idx398_inb : ∀ (v299 : IVec S16 32) (k0_hw398 : k0_chk398 v299), ∀ a x, ((![v299] : Fin 1 → IVec S16 32) a x).toNat < S65536.size a := fun v299 k0_hw398 => k0_hw398

def k0_chk399 (v304 : IVec S16 32) : Prop :=
  (∀ a x, ((![v304] : Fin 1 → IVec S16 32) a x).toNat < S65536.size a)
instance k0_chk399.dec : ∀ (v304 : IVec S16 32), Decidable (k0_chk399 v304) := fun v304 => decidable_of_iff' _ (Iff.of_eq (k0_chk399.eq_1 v304))
theorem k0_idx399_inb : ∀ (v304 : IVec S16 32) (k0_hw399 : k0_chk399 v304), ∀ a x, ((![v304] : Fin 1 → IVec S16 32) a x).toNat < S65536.size a := fun v304 k0_hw399 => k0_hw399

def k0_chk400 (v309 : IVec S16 32) : Prop :=
  (∀ a x, ((![v309] : Fin 1 → IVec S16 32) a x).toNat < S65536.size a)
instance k0_chk400.dec : ∀ (v309 : IVec S16 32), Decidable (k0_chk400 v309) := fun v309 => decidable_of_iff' _ (Iff.of_eq (k0_chk400.eq_1 v309))
theorem k0_idx400_inb : ∀ (v309 : IVec S16 32) (k0_hw400 : k0_chk400 v309), ∀ a x, ((![v309] : Fin 1 → IVec S16 32) a x).toNat < S65536.size a := fun v309 k0_hw400 => k0_hw400
@[reducible] def k0_t27_loop : Scf.Loop 32 :=
  let c0_i32_156 : BitVec 32 := 0#32
  let c64_i32_157 : BitVec 32 := 64#32
  let v193 : BitVec 32 := Scalar.addi c0_i32_156 c64_i32_157
  let c1_i32_158 : BitVec 32 := 1#32
  ⟨c0_i32_156, v193, c1_i32_158⟩
def k0_off28 (k0_t27 : Fin k0_t27_loop.trips) (c0_i32_196 : BitVec 32) : Fin 1 → Nat :=
  let c0_i32_156 : BitVec 32 := 0#32
  let c1_i32_158 : BitVec 32 := 1#32
  let arg11 : BitVec 32 := Scf.iv c0_i32_156 c1_i32_158 k0_t27
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk401 (v234 : IVec S16 32) : Prop :=
  (∀ a x, ((![v234] : Fin 1 → IVec S16 32) a x).toNat < S65536.size a)
instance k0_chk401.dec : ∀ (v234 : IVec S16 32), Decidable (k0_chk401 v234) := fun v234 => decidable_of_iff' _ (Iff.of_eq (k0_chk401.eq_1 v234))
theorem k0_idx401_inb : ∀ (v234 : IVec S16 32) (k0_hw401 : k0_chk401 v234), ∀ a x, ((![v234] : Fin 1 → IVec S16 32) a x).toNat < S65536.size a := fun v234 k0_hw401 => k0_hw401

def k0_chk402 (v239 : IVec S16 32) : Prop :=
  (∀ a x, ((![v239] : Fin 1 → IVec S16 32) a x).toNat < S65536.size a)
instance k0_chk402.dec : ∀ (v239 : IVec S16 32), Decidable (k0_chk402 v239) := fun v239 => decidable_of_iff' _ (Iff.of_eq (k0_chk402.eq_1 v239))
theorem k0_idx402_inb : ∀ (v239 : IVec S16 32) (k0_hw402 : k0_chk402 v239), ∀ a x, ((![v239] : Fin 1 → IVec S16 32) a x).toNat < S65536.size a := fun v239 k0_hw402 => k0_hw402

def k0_chk403 (v244 : IVec S16 32) : Prop :=
  (∀ a x, ((![v244] : Fin 1 → IVec S16 32) a x).toNat < S65536.size a)
instance k0_chk403.dec : ∀ (v244 : IVec S16 32), Decidable (k0_chk403 v244) := fun v244 => decidable_of_iff' _ (Iff.of_eq (k0_chk403.eq_1 v244))
theorem k0_idx403_inb : ∀ (v244 : IVec S16 32) (k0_hw403 : k0_chk403 v244), ∀ a x, ((![v244] : Fin 1 → IVec S16 32) a x).toNat < S65536.size a := fun v244 k0_hw403 => k0_hw403

def k0_chk404 (v249 : IVec S16 32) : Prop :=
  (∀ a x, ((![v249] : Fin 1 → IVec S16 32) a x).toNat < S65536.size a)
instance k0_chk404.dec : ∀ (v249 : IVec S16 32), Decidable (k0_chk404 v249) := fun v249 => decidable_of_iff' _ (Iff.of_eq (k0_chk404.eq_1 v249))
theorem k0_idx404_inb : ∀ (v249 : IVec S16 32) (k0_hw404 : k0_chk404 v249), ∀ a x, ((![v249] : Fin 1 → IVec S16 32) a x).toNat < S65536.size a := fun v249 k0_hw404 => k0_hw404

def k0_chk405 (v254 : IVec S16 32) : Prop :=
  (∀ a x, ((![v254] : Fin 1 → IVec S16 32) a x).toNat < S65536.size a)
instance k0_chk405.dec : ∀ (v254 : IVec S16 32), Decidable (k0_chk405 v254) := fun v254 => decidable_of_iff' _ (Iff.of_eq (k0_chk405.eq_1 v254))
theorem k0_idx405_inb : ∀ (v254 : IVec S16 32) (k0_hw405 : k0_chk405 v254), ∀ a x, ((![v254] : Fin 1 → IVec S16 32) a x).toNat < S65536.size a := fun v254 k0_hw405 => k0_hw405

def k0_chk406 (v259 : IVec S16 32) : Prop :=
  (∀ a x, ((![v259] : Fin 1 → IVec S16 32) a x).toNat < S65536.size a)
instance k0_chk406.dec : ∀ (v259 : IVec S16 32), Decidable (k0_chk406 v259) := fun v259 => decidable_of_iff' _ (Iff.of_eq (k0_chk406.eq_1 v259))
theorem k0_idx406_inb : ∀ (v259 : IVec S16 32) (k0_hw406 : k0_chk406 v259), ∀ a x, ((![v259] : Fin 1 → IVec S16 32) a x).toNat < S65536.size a := fun v259 k0_hw406 => k0_hw406

def k0_chk407 (v264 : IVec S16 32) : Prop :=
  (∀ a x, ((![v264] : Fin 1 → IVec S16 32) a x).toNat < S65536.size a)
instance k0_chk407.dec : ∀ (v264 : IVec S16 32), Decidable (k0_chk407 v264) := fun v264 => decidable_of_iff' _ (Iff.of_eq (k0_chk407.eq_1 v264))
theorem k0_idx407_inb : ∀ (v264 : IVec S16 32) (k0_hw407 : k0_chk407 v264), ∀ a x, ((![v264] : Fin 1 → IVec S16 32) a x).toNat < S65536.size a := fun v264 k0_hw407 => k0_hw407

def k0_chk408 (v269 : IVec S16 32) : Prop :=
  (∀ a x, ((![v269] : Fin 1 → IVec S16 32) a x).toNat < S65536.size a)
instance k0_chk408.dec : ∀ (v269 : IVec S16 32), Decidable (k0_chk408 v269) := fun v269 => decidable_of_iff' _ (Iff.of_eq (k0_chk408.eq_1 v269))
theorem k0_idx408_inb : ∀ (v269 : IVec S16 32) (k0_hw408 : k0_chk408 v269), ∀ a x, ((![v269] : Fin 1 → IVec S16 32) a x).toNat < S65536.size a := fun v269 k0_hw408 => k0_hw408

def k0_chk409 (v274 : IVec S16 32) : Prop :=
  (∀ a x, ((![v274] : Fin 1 → IVec S16 32) a x).toNat < S65536.size a)
instance k0_chk409.dec : ∀ (v274 : IVec S16 32), Decidable (k0_chk409 v274) := fun v274 => decidable_of_iff' _ (Iff.of_eq (k0_chk409.eq_1 v274))
theorem k0_idx409_inb : ∀ (v274 : IVec S16 32) (k0_hw409 : k0_chk409 v274), ∀ a x, ((![v274] : Fin 1 → IVec S16 32) a x).toNat < S65536.size a := fun v274 k0_hw409 => k0_hw409

def k0_chk410 (v279 : IVec S16 32) : Prop :=
  (∀ a x, ((![v279] : Fin 1 → IVec S16 32) a x).toNat < S65536.size a)
instance k0_chk410.dec : ∀ (v279 : IVec S16 32), Decidable (k0_chk410 v279) := fun v279 => decidable_of_iff' _ (Iff.of_eq (k0_chk410.eq_1 v279))
theorem k0_idx410_inb : ∀ (v279 : IVec S16 32) (k0_hw410 : k0_chk410 v279), ∀ a x, ((![v279] : Fin 1 → IVec S16 32) a x).toNat < S65536.size a := fun v279 k0_hw410 => k0_hw410

def k0_chk411 (v284 : IVec S16 32) : Prop :=
  (∀ a x, ((![v284] : Fin 1 → IVec S16 32) a x).toNat < S65536.size a)
instance k0_chk411.dec : ∀ (v284 : IVec S16 32), Decidable (k0_chk411 v284) := fun v284 => decidable_of_iff' _ (Iff.of_eq (k0_chk411.eq_1 v284))
theorem k0_idx411_inb : ∀ (v284 : IVec S16 32) (k0_hw411 : k0_chk411 v284), ∀ a x, ((![v284] : Fin 1 → IVec S16 32) a x).toNat < S65536.size a := fun v284 k0_hw411 => k0_hw411

def k0_chk412 (v289 : IVec S16 32) : Prop :=
  (∀ a x, ((![v289] : Fin 1 → IVec S16 32) a x).toNat < S65536.size a)
instance k0_chk412.dec : ∀ (v289 : IVec S16 32), Decidable (k0_chk412 v289) := fun v289 => decidable_of_iff' _ (Iff.of_eq (k0_chk412.eq_1 v289))
theorem k0_idx412_inb : ∀ (v289 : IVec S16 32) (k0_hw412 : k0_chk412 v289), ∀ a x, ((![v289] : Fin 1 → IVec S16 32) a x).toNat < S65536.size a := fun v289 k0_hw412 => k0_hw412

def k0_chk413 (v294 : IVec S16 32) : Prop :=
  (∀ a x, ((![v294] : Fin 1 → IVec S16 32) a x).toNat < S65536.size a)
instance k0_chk413.dec : ∀ (v294 : IVec S16 32), Decidable (k0_chk413 v294) := fun v294 => decidable_of_iff' _ (Iff.of_eq (k0_chk413.eq_1 v294))
theorem k0_idx413_inb : ∀ (v294 : IVec S16 32) (k0_hw413 : k0_chk413 v294), ∀ a x, ((![v294] : Fin 1 → IVec S16 32) a x).toNat < S65536.size a := fun v294 k0_hw413 => k0_hw413

def k0_chk414 (v299 : IVec S16 32) : Prop :=
  (∀ a x, ((![v299] : Fin 1 → IVec S16 32) a x).toNat < S65536.size a)
instance k0_chk414.dec : ∀ (v299 : IVec S16 32), Decidable (k0_chk414 v299) := fun v299 => decidable_of_iff' _ (Iff.of_eq (k0_chk414.eq_1 v299))
theorem k0_idx414_inb : ∀ (v299 : IVec S16 32) (k0_hw414 : k0_chk414 v299), ∀ a x, ((![v299] : Fin 1 → IVec S16 32) a x).toNat < S65536.size a := fun v299 k0_hw414 => k0_hw414

def k0_chk415 (v304 : IVec S16 32) : Prop :=
  (∀ a x, ((![v304] : Fin 1 → IVec S16 32) a x).toNat < S65536.size a)
instance k0_chk415.dec : ∀ (v304 : IVec S16 32), Decidable (k0_chk415 v304) := fun v304 => decidable_of_iff' _ (Iff.of_eq (k0_chk415.eq_1 v304))
theorem k0_idx415_inb : ∀ (v304 : IVec S16 32) (k0_hw415 : k0_chk415 v304), ∀ a x, ((![v304] : Fin 1 → IVec S16 32) a x).toNat < S65536.size a := fun v304 k0_hw415 => k0_hw415

def k0_chk416 (v309 : IVec S16 32) : Prop :=
  (∀ a x, ((![v309] : Fin 1 → IVec S16 32) a x).toNat < S65536.size a)
instance k0_chk416.dec : ∀ (v309 : IVec S16 32), Decidable (k0_chk416 v309) := fun v309 => decidable_of_iff' _ (Iff.of_eq (k0_chk416.eq_1 v309))
theorem k0_idx416_inb : ∀ (v309 : IVec S16 32) (k0_hw416 : k0_chk416 v309), ∀ a x, ((![v309] : Fin 1 → IVec S16 32) a x).toNat < S65536.size a := fun v309 k0_hw416 => k0_hw416
@[reducible] def k0_t28_loop : Scf.Loop 32 :=
  let c0_i32_162 : BitVec 32 := 0#32
  let c64_i32_163 : BitVec 32 := 64#32
  let v200 : BitVec 32 := Scalar.addi c0_i32_162 c64_i32_163
  let c1_i32_164 : BitVec 32 := 1#32
  ⟨c0_i32_162, v200, c1_i32_164⟩
def k0_off29 (k0_t28 : Fin k0_t28_loop.trips) (c0_i32_196 : BitVec 32) : Fin 1 → Nat :=
  let c0_i32_162 : BitVec 32 := 0#32
  let c1_i32_164 : BitVec 32 := 1#32
  let arg11 : BitVec 32 := Scf.iv c0_i32_162 c1_i32_164 k0_t28
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk417 (v234 : IVec S16 32) : Prop :=
  (∀ a x, ((![v234] : Fin 1 → IVec S16 32) a x).toNat < S65536.size a)
instance k0_chk417.dec : ∀ (v234 : IVec S16 32), Decidable (k0_chk417 v234) := fun v234 => decidable_of_iff' _ (Iff.of_eq (k0_chk417.eq_1 v234))
theorem k0_idx417_inb : ∀ (v234 : IVec S16 32) (k0_hw417 : k0_chk417 v234), ∀ a x, ((![v234] : Fin 1 → IVec S16 32) a x).toNat < S65536.size a := fun v234 k0_hw417 => k0_hw417

def k0_chk418 (v239 : IVec S16 32) : Prop :=
  (∀ a x, ((![v239] : Fin 1 → IVec S16 32) a x).toNat < S65536.size a)
instance k0_chk418.dec : ∀ (v239 : IVec S16 32), Decidable (k0_chk418 v239) := fun v239 => decidable_of_iff' _ (Iff.of_eq (k0_chk418.eq_1 v239))
theorem k0_idx418_inb : ∀ (v239 : IVec S16 32) (k0_hw418 : k0_chk418 v239), ∀ a x, ((![v239] : Fin 1 → IVec S16 32) a x).toNat < S65536.size a := fun v239 k0_hw418 => k0_hw418

def k0_chk419 (v244 : IVec S16 32) : Prop :=
  (∀ a x, ((![v244] : Fin 1 → IVec S16 32) a x).toNat < S65536.size a)
instance k0_chk419.dec : ∀ (v244 : IVec S16 32), Decidable (k0_chk419 v244) := fun v244 => decidable_of_iff' _ (Iff.of_eq (k0_chk419.eq_1 v244))
theorem k0_idx419_inb : ∀ (v244 : IVec S16 32) (k0_hw419 : k0_chk419 v244), ∀ a x, ((![v244] : Fin 1 → IVec S16 32) a x).toNat < S65536.size a := fun v244 k0_hw419 => k0_hw419

def k0_chk420 (v249 : IVec S16 32) : Prop :=
  (∀ a x, ((![v249] : Fin 1 → IVec S16 32) a x).toNat < S65536.size a)
instance k0_chk420.dec : ∀ (v249 : IVec S16 32), Decidable (k0_chk420 v249) := fun v249 => decidable_of_iff' _ (Iff.of_eq (k0_chk420.eq_1 v249))
theorem k0_idx420_inb : ∀ (v249 : IVec S16 32) (k0_hw420 : k0_chk420 v249), ∀ a x, ((![v249] : Fin 1 → IVec S16 32) a x).toNat < S65536.size a := fun v249 k0_hw420 => k0_hw420

def k0_chk421 (v254 : IVec S16 32) : Prop :=
  (∀ a x, ((![v254] : Fin 1 → IVec S16 32) a x).toNat < S65536.size a)
instance k0_chk421.dec : ∀ (v254 : IVec S16 32), Decidable (k0_chk421 v254) := fun v254 => decidable_of_iff' _ (Iff.of_eq (k0_chk421.eq_1 v254))
theorem k0_idx421_inb : ∀ (v254 : IVec S16 32) (k0_hw421 : k0_chk421 v254), ∀ a x, ((![v254] : Fin 1 → IVec S16 32) a x).toNat < S65536.size a := fun v254 k0_hw421 => k0_hw421

def k0_chk422 (v259 : IVec S16 32) : Prop :=
  (∀ a x, ((![v259] : Fin 1 → IVec S16 32) a x).toNat < S65536.size a)
instance k0_chk422.dec : ∀ (v259 : IVec S16 32), Decidable (k0_chk422 v259) := fun v259 => decidable_of_iff' _ (Iff.of_eq (k0_chk422.eq_1 v259))
theorem k0_idx422_inb : ∀ (v259 : IVec S16 32) (k0_hw422 : k0_chk422 v259), ∀ a x, ((![v259] : Fin 1 → IVec S16 32) a x).toNat < S65536.size a := fun v259 k0_hw422 => k0_hw422

def k0_chk423 (v264 : IVec S16 32) : Prop :=
  (∀ a x, ((![v264] : Fin 1 → IVec S16 32) a x).toNat < S65536.size a)
instance k0_chk423.dec : ∀ (v264 : IVec S16 32), Decidable (k0_chk423 v264) := fun v264 => decidable_of_iff' _ (Iff.of_eq (k0_chk423.eq_1 v264))
theorem k0_idx423_inb : ∀ (v264 : IVec S16 32) (k0_hw423 : k0_chk423 v264), ∀ a x, ((![v264] : Fin 1 → IVec S16 32) a x).toNat < S65536.size a := fun v264 k0_hw423 => k0_hw423

def k0_chk424 (v269 : IVec S16 32) : Prop :=
  (∀ a x, ((![v269] : Fin 1 → IVec S16 32) a x).toNat < S65536.size a)
instance k0_chk424.dec : ∀ (v269 : IVec S16 32), Decidable (k0_chk424 v269) := fun v269 => decidable_of_iff' _ (Iff.of_eq (k0_chk424.eq_1 v269))
theorem k0_idx424_inb : ∀ (v269 : IVec S16 32) (k0_hw424 : k0_chk424 v269), ∀ a x, ((![v269] : Fin 1 → IVec S16 32) a x).toNat < S65536.size a := fun v269 k0_hw424 => k0_hw424

def k0_chk425 (v274 : IVec S16 32) : Prop :=
  (∀ a x, ((![v274] : Fin 1 → IVec S16 32) a x).toNat < S65536.size a)
instance k0_chk425.dec : ∀ (v274 : IVec S16 32), Decidable (k0_chk425 v274) := fun v274 => decidable_of_iff' _ (Iff.of_eq (k0_chk425.eq_1 v274))
theorem k0_idx425_inb : ∀ (v274 : IVec S16 32) (k0_hw425 : k0_chk425 v274), ∀ a x, ((![v274] : Fin 1 → IVec S16 32) a x).toNat < S65536.size a := fun v274 k0_hw425 => k0_hw425

def k0_chk426 (v279 : IVec S16 32) : Prop :=
  (∀ a x, ((![v279] : Fin 1 → IVec S16 32) a x).toNat < S65536.size a)
instance k0_chk426.dec : ∀ (v279 : IVec S16 32), Decidable (k0_chk426 v279) := fun v279 => decidable_of_iff' _ (Iff.of_eq (k0_chk426.eq_1 v279))
theorem k0_idx426_inb : ∀ (v279 : IVec S16 32) (k0_hw426 : k0_chk426 v279), ∀ a x, ((![v279] : Fin 1 → IVec S16 32) a x).toNat < S65536.size a := fun v279 k0_hw426 => k0_hw426

def k0_chk427 (v284 : IVec S16 32) : Prop :=
  (∀ a x, ((![v284] : Fin 1 → IVec S16 32) a x).toNat < S65536.size a)
instance k0_chk427.dec : ∀ (v284 : IVec S16 32), Decidable (k0_chk427 v284) := fun v284 => decidable_of_iff' _ (Iff.of_eq (k0_chk427.eq_1 v284))
theorem k0_idx427_inb : ∀ (v284 : IVec S16 32) (k0_hw427 : k0_chk427 v284), ∀ a x, ((![v284] : Fin 1 → IVec S16 32) a x).toNat < S65536.size a := fun v284 k0_hw427 => k0_hw427

def k0_chk428 (v289 : IVec S16 32) : Prop :=
  (∀ a x, ((![v289] : Fin 1 → IVec S16 32) a x).toNat < S65536.size a)
instance k0_chk428.dec : ∀ (v289 : IVec S16 32), Decidable (k0_chk428 v289) := fun v289 => decidable_of_iff' _ (Iff.of_eq (k0_chk428.eq_1 v289))
theorem k0_idx428_inb : ∀ (v289 : IVec S16 32) (k0_hw428 : k0_chk428 v289), ∀ a x, ((![v289] : Fin 1 → IVec S16 32) a x).toNat < S65536.size a := fun v289 k0_hw428 => k0_hw428

def k0_chk429 (v294 : IVec S16 32) : Prop :=
  (∀ a x, ((![v294] : Fin 1 → IVec S16 32) a x).toNat < S65536.size a)
instance k0_chk429.dec : ∀ (v294 : IVec S16 32), Decidable (k0_chk429 v294) := fun v294 => decidable_of_iff' _ (Iff.of_eq (k0_chk429.eq_1 v294))
theorem k0_idx429_inb : ∀ (v294 : IVec S16 32) (k0_hw429 : k0_chk429 v294), ∀ a x, ((![v294] : Fin 1 → IVec S16 32) a x).toNat < S65536.size a := fun v294 k0_hw429 => k0_hw429

def k0_chk430 (v299 : IVec S16 32) : Prop :=
  (∀ a x, ((![v299] : Fin 1 → IVec S16 32) a x).toNat < S65536.size a)
instance k0_chk430.dec : ∀ (v299 : IVec S16 32), Decidable (k0_chk430 v299) := fun v299 => decidable_of_iff' _ (Iff.of_eq (k0_chk430.eq_1 v299))
theorem k0_idx430_inb : ∀ (v299 : IVec S16 32) (k0_hw430 : k0_chk430 v299), ∀ a x, ((![v299] : Fin 1 → IVec S16 32) a x).toNat < S65536.size a := fun v299 k0_hw430 => k0_hw430

def k0_chk431 (v304 : IVec S16 32) : Prop :=
  (∀ a x, ((![v304] : Fin 1 → IVec S16 32) a x).toNat < S65536.size a)
instance k0_chk431.dec : ∀ (v304 : IVec S16 32), Decidable (k0_chk431 v304) := fun v304 => decidable_of_iff' _ (Iff.of_eq (k0_chk431.eq_1 v304))
theorem k0_idx431_inb : ∀ (v304 : IVec S16 32) (k0_hw431 : k0_chk431 v304), ∀ a x, ((![v304] : Fin 1 → IVec S16 32) a x).toNat < S65536.size a := fun v304 k0_hw431 => k0_hw431

def k0_chk432 (v309 : IVec S16 32) : Prop :=
  (∀ a x, ((![v309] : Fin 1 → IVec S16 32) a x).toNat < S65536.size a)
instance k0_chk432.dec : ∀ (v309 : IVec S16 32), Decidable (k0_chk432 v309) := fun v309 => decidable_of_iff' _ (Iff.of_eq (k0_chk432.eq_1 v309))
theorem k0_idx432_inb : ∀ (v309 : IVec S16 32) (k0_hw432 : k0_chk432 v309), ∀ a x, ((![v309] : Fin 1 → IVec S16 32) a x).toNat < S65536.size a := fun v309 k0_hw432 => k0_hw432
@[reducible] def k0_t29_loop : Scf.Loop 32 :=
  let c0_i32_168 : BitVec 32 := 0#32
  let c64_i32_169 : BitVec 32 := 64#32
  let v207 : BitVec 32 := Scalar.addi c0_i32_168 c64_i32_169
  let c1_i32_170 : BitVec 32 := 1#32
  ⟨c0_i32_168, v207, c1_i32_170⟩
def k0_off30 (k0_t29 : Fin k0_t29_loop.trips) (c0_i32_196 : BitVec 32) : Fin 1 → Nat :=
  let c0_i32_168 : BitVec 32 := 0#32
  let c1_i32_170 : BitVec 32 := 1#32
  let arg11 : BitVec 32 := Scf.iv c0_i32_168 c1_i32_170 k0_t29
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk433 (v234 : IVec S16 32) : Prop :=
  (∀ a x, ((![v234] : Fin 1 → IVec S16 32) a x).toNat < S65536.size a)
instance k0_chk433.dec : ∀ (v234 : IVec S16 32), Decidable (k0_chk433 v234) := fun v234 => decidable_of_iff' _ (Iff.of_eq (k0_chk433.eq_1 v234))
theorem k0_idx433_inb : ∀ (v234 : IVec S16 32) (k0_hw433 : k0_chk433 v234), ∀ a x, ((![v234] : Fin 1 → IVec S16 32) a x).toNat < S65536.size a := fun v234 k0_hw433 => k0_hw433

def k0_chk434 (v239 : IVec S16 32) : Prop :=
  (∀ a x, ((![v239] : Fin 1 → IVec S16 32) a x).toNat < S65536.size a)
instance k0_chk434.dec : ∀ (v239 : IVec S16 32), Decidable (k0_chk434 v239) := fun v239 => decidable_of_iff' _ (Iff.of_eq (k0_chk434.eq_1 v239))
theorem k0_idx434_inb : ∀ (v239 : IVec S16 32) (k0_hw434 : k0_chk434 v239), ∀ a x, ((![v239] : Fin 1 → IVec S16 32) a x).toNat < S65536.size a := fun v239 k0_hw434 => k0_hw434

def k0_chk435 (v244 : IVec S16 32) : Prop :=
  (∀ a x, ((![v244] : Fin 1 → IVec S16 32) a x).toNat < S65536.size a)
instance k0_chk435.dec : ∀ (v244 : IVec S16 32), Decidable (k0_chk435 v244) := fun v244 => decidable_of_iff' _ (Iff.of_eq (k0_chk435.eq_1 v244))
theorem k0_idx435_inb : ∀ (v244 : IVec S16 32) (k0_hw435 : k0_chk435 v244), ∀ a x, ((![v244] : Fin 1 → IVec S16 32) a x).toNat < S65536.size a := fun v244 k0_hw435 => k0_hw435

def k0_chk436 (v249 : IVec S16 32) : Prop :=
  (∀ a x, ((![v249] : Fin 1 → IVec S16 32) a x).toNat < S65536.size a)
instance k0_chk436.dec : ∀ (v249 : IVec S16 32), Decidable (k0_chk436 v249) := fun v249 => decidable_of_iff' _ (Iff.of_eq (k0_chk436.eq_1 v249))
theorem k0_idx436_inb : ∀ (v249 : IVec S16 32) (k0_hw436 : k0_chk436 v249), ∀ a x, ((![v249] : Fin 1 → IVec S16 32) a x).toNat < S65536.size a := fun v249 k0_hw436 => k0_hw436

def k0_chk437 (v254 : IVec S16 32) : Prop :=
  (∀ a x, ((![v254] : Fin 1 → IVec S16 32) a x).toNat < S65536.size a)
instance k0_chk437.dec : ∀ (v254 : IVec S16 32), Decidable (k0_chk437 v254) := fun v254 => decidable_of_iff' _ (Iff.of_eq (k0_chk437.eq_1 v254))
theorem k0_idx437_inb : ∀ (v254 : IVec S16 32) (k0_hw437 : k0_chk437 v254), ∀ a x, ((![v254] : Fin 1 → IVec S16 32) a x).toNat < S65536.size a := fun v254 k0_hw437 => k0_hw437

def k0_chk438 (v259 : IVec S16 32) : Prop :=
  (∀ a x, ((![v259] : Fin 1 → IVec S16 32) a x).toNat < S65536.size a)
instance k0_chk438.dec : ∀ (v259 : IVec S16 32), Decidable (k0_chk438 v259) := fun v259 => decidable_of_iff' _ (Iff.of_eq (k0_chk438.eq_1 v259))
theorem k0_idx438_inb : ∀ (v259 : IVec S16 32) (k0_hw438 : k0_chk438 v259), ∀ a x, ((![v259] : Fin 1 → IVec S16 32) a x).toNat < S65536.size a := fun v259 k0_hw438 => k0_hw438

def k0_chk439 (v264 : IVec S16 32) : Prop :=
  (∀ a x, ((![v264] : Fin 1 → IVec S16 32) a x).toNat < S65536.size a)
instance k0_chk439.dec : ∀ (v264 : IVec S16 32), Decidable (k0_chk439 v264) := fun v264 => decidable_of_iff' _ (Iff.of_eq (k0_chk439.eq_1 v264))
theorem k0_idx439_inb : ∀ (v264 : IVec S16 32) (k0_hw439 : k0_chk439 v264), ∀ a x, ((![v264] : Fin 1 → IVec S16 32) a x).toNat < S65536.size a := fun v264 k0_hw439 => k0_hw439

def k0_chk440 (v269 : IVec S16 32) : Prop :=
  (∀ a x, ((![v269] : Fin 1 → IVec S16 32) a x).toNat < S65536.size a)
instance k0_chk440.dec : ∀ (v269 : IVec S16 32), Decidable (k0_chk440 v269) := fun v269 => decidable_of_iff' _ (Iff.of_eq (k0_chk440.eq_1 v269))
theorem k0_idx440_inb : ∀ (v269 : IVec S16 32) (k0_hw440 : k0_chk440 v269), ∀ a x, ((![v269] : Fin 1 → IVec S16 32) a x).toNat < S65536.size a := fun v269 k0_hw440 => k0_hw440

def k0_chk441 (v274 : IVec S16 32) : Prop :=
  (∀ a x, ((![v274] : Fin 1 → IVec S16 32) a x).toNat < S65536.size a)
instance k0_chk441.dec : ∀ (v274 : IVec S16 32), Decidable (k0_chk441 v274) := fun v274 => decidable_of_iff' _ (Iff.of_eq (k0_chk441.eq_1 v274))
theorem k0_idx441_inb : ∀ (v274 : IVec S16 32) (k0_hw441 : k0_chk441 v274), ∀ a x, ((![v274] : Fin 1 → IVec S16 32) a x).toNat < S65536.size a := fun v274 k0_hw441 => k0_hw441

def k0_chk442 (v279 : IVec S16 32) : Prop :=
  (∀ a x, ((![v279] : Fin 1 → IVec S16 32) a x).toNat < S65536.size a)
instance k0_chk442.dec : ∀ (v279 : IVec S16 32), Decidable (k0_chk442 v279) := fun v279 => decidable_of_iff' _ (Iff.of_eq (k0_chk442.eq_1 v279))
theorem k0_idx442_inb : ∀ (v279 : IVec S16 32) (k0_hw442 : k0_chk442 v279), ∀ a x, ((![v279] : Fin 1 → IVec S16 32) a x).toNat < S65536.size a := fun v279 k0_hw442 => k0_hw442

def k0_chk443 (v284 : IVec S16 32) : Prop :=
  (∀ a x, ((![v284] : Fin 1 → IVec S16 32) a x).toNat < S65536.size a)
instance k0_chk443.dec : ∀ (v284 : IVec S16 32), Decidable (k0_chk443 v284) := fun v284 => decidable_of_iff' _ (Iff.of_eq (k0_chk443.eq_1 v284))
theorem k0_idx443_inb : ∀ (v284 : IVec S16 32) (k0_hw443 : k0_chk443 v284), ∀ a x, ((![v284] : Fin 1 → IVec S16 32) a x).toNat < S65536.size a := fun v284 k0_hw443 => k0_hw443

def k0_chk444 (v289 : IVec S16 32) : Prop :=
  (∀ a x, ((![v289] : Fin 1 → IVec S16 32) a x).toNat < S65536.size a)
instance k0_chk444.dec : ∀ (v289 : IVec S16 32), Decidable (k0_chk444 v289) := fun v289 => decidable_of_iff' _ (Iff.of_eq (k0_chk444.eq_1 v289))
theorem k0_idx444_inb : ∀ (v289 : IVec S16 32) (k0_hw444 : k0_chk444 v289), ∀ a x, ((![v289] : Fin 1 → IVec S16 32) a x).toNat < S65536.size a := fun v289 k0_hw444 => k0_hw444

def k0_chk445 (v294 : IVec S16 32) : Prop :=
  (∀ a x, ((![v294] : Fin 1 → IVec S16 32) a x).toNat < S65536.size a)
instance k0_chk445.dec : ∀ (v294 : IVec S16 32), Decidable (k0_chk445 v294) := fun v294 => decidable_of_iff' _ (Iff.of_eq (k0_chk445.eq_1 v294))
theorem k0_idx445_inb : ∀ (v294 : IVec S16 32) (k0_hw445 : k0_chk445 v294), ∀ a x, ((![v294] : Fin 1 → IVec S16 32) a x).toNat < S65536.size a := fun v294 k0_hw445 => k0_hw445

def k0_chk446 (v299 : IVec S16 32) : Prop :=
  (∀ a x, ((![v299] : Fin 1 → IVec S16 32) a x).toNat < S65536.size a)
instance k0_chk446.dec : ∀ (v299 : IVec S16 32), Decidable (k0_chk446 v299) := fun v299 => decidable_of_iff' _ (Iff.of_eq (k0_chk446.eq_1 v299))
theorem k0_idx446_inb : ∀ (v299 : IVec S16 32) (k0_hw446 : k0_chk446 v299), ∀ a x, ((![v299] : Fin 1 → IVec S16 32) a x).toNat < S65536.size a := fun v299 k0_hw446 => k0_hw446

def k0_chk447 (v304 : IVec S16 32) : Prop :=
  (∀ a x, ((![v304] : Fin 1 → IVec S16 32) a x).toNat < S65536.size a)
instance k0_chk447.dec : ∀ (v304 : IVec S16 32), Decidable (k0_chk447 v304) := fun v304 => decidable_of_iff' _ (Iff.of_eq (k0_chk447.eq_1 v304))
theorem k0_idx447_inb : ∀ (v304 : IVec S16 32) (k0_hw447 : k0_chk447 v304), ∀ a x, ((![v304] : Fin 1 → IVec S16 32) a x).toNat < S65536.size a := fun v304 k0_hw447 => k0_hw447

def k0_chk448 (v309 : IVec S16 32) : Prop :=
  (∀ a x, ((![v309] : Fin 1 → IVec S16 32) a x).toNat < S65536.size a)
instance k0_chk448.dec : ∀ (v309 : IVec S16 32), Decidable (k0_chk448 v309) := fun v309 => decidable_of_iff' _ (Iff.of_eq (k0_chk448.eq_1 v309))
theorem k0_idx448_inb : ∀ (v309 : IVec S16 32) (k0_hw448 : k0_chk448 v309), ∀ a x, ((![v309] : Fin 1 → IVec S16 32) a x).toNat < S65536.size a := fun v309 k0_hw448 => k0_hw448
@[reducible] def k0_t30_loop : Scf.Loop 32 :=
  let c0_i32_174 : BitVec 32 := 0#32
  let c64_i32_175 : BitVec 32 := 64#32
  let v214 : BitVec 32 := Scalar.addi c0_i32_174 c64_i32_175
  let c1_i32_176 : BitVec 32 := 1#32
  ⟨c0_i32_174, v214, c1_i32_176⟩
def k0_off31 (k0_t30 : Fin k0_t30_loop.trips) (c0_i32_196 : BitVec 32) : Fin 1 → Nat :=
  let c0_i32_174 : BitVec 32 := 0#32
  let c1_i32_176 : BitVec 32 := 1#32
  let arg11 : BitVec 32 := Scf.iv c0_i32_174 c1_i32_176 k0_t30
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk449 (v234 : IVec S16 32) : Prop :=
  (∀ a x, ((![v234] : Fin 1 → IVec S16 32) a x).toNat < S65536.size a)
instance k0_chk449.dec : ∀ (v234 : IVec S16 32), Decidable (k0_chk449 v234) := fun v234 => decidable_of_iff' _ (Iff.of_eq (k0_chk449.eq_1 v234))
theorem k0_idx449_inb : ∀ (v234 : IVec S16 32) (k0_hw449 : k0_chk449 v234), ∀ a x, ((![v234] : Fin 1 → IVec S16 32) a x).toNat < S65536.size a := fun v234 k0_hw449 => k0_hw449

def k0_chk450 (v239 : IVec S16 32) : Prop :=
  (∀ a x, ((![v239] : Fin 1 → IVec S16 32) a x).toNat < S65536.size a)
instance k0_chk450.dec : ∀ (v239 : IVec S16 32), Decidable (k0_chk450 v239) := fun v239 => decidable_of_iff' _ (Iff.of_eq (k0_chk450.eq_1 v239))
theorem k0_idx450_inb : ∀ (v239 : IVec S16 32) (k0_hw450 : k0_chk450 v239), ∀ a x, ((![v239] : Fin 1 → IVec S16 32) a x).toNat < S65536.size a := fun v239 k0_hw450 => k0_hw450

def k0_chk451 (v244 : IVec S16 32) : Prop :=
  (∀ a x, ((![v244] : Fin 1 → IVec S16 32) a x).toNat < S65536.size a)
instance k0_chk451.dec : ∀ (v244 : IVec S16 32), Decidable (k0_chk451 v244) := fun v244 => decidable_of_iff' _ (Iff.of_eq (k0_chk451.eq_1 v244))
theorem k0_idx451_inb : ∀ (v244 : IVec S16 32) (k0_hw451 : k0_chk451 v244), ∀ a x, ((![v244] : Fin 1 → IVec S16 32) a x).toNat < S65536.size a := fun v244 k0_hw451 => k0_hw451

def k0_chk452 (v249 : IVec S16 32) : Prop :=
  (∀ a x, ((![v249] : Fin 1 → IVec S16 32) a x).toNat < S65536.size a)
instance k0_chk452.dec : ∀ (v249 : IVec S16 32), Decidable (k0_chk452 v249) := fun v249 => decidable_of_iff' _ (Iff.of_eq (k0_chk452.eq_1 v249))
theorem k0_idx452_inb : ∀ (v249 : IVec S16 32) (k0_hw452 : k0_chk452 v249), ∀ a x, ((![v249] : Fin 1 → IVec S16 32) a x).toNat < S65536.size a := fun v249 k0_hw452 => k0_hw452

def k0_chk453 (v254 : IVec S16 32) : Prop :=
  (∀ a x, ((![v254] : Fin 1 → IVec S16 32) a x).toNat < S65536.size a)
instance k0_chk453.dec : ∀ (v254 : IVec S16 32), Decidable (k0_chk453 v254) := fun v254 => decidable_of_iff' _ (Iff.of_eq (k0_chk453.eq_1 v254))
theorem k0_idx453_inb : ∀ (v254 : IVec S16 32) (k0_hw453 : k0_chk453 v254), ∀ a x, ((![v254] : Fin 1 → IVec S16 32) a x).toNat < S65536.size a := fun v254 k0_hw453 => k0_hw453

def k0_chk454 (v259 : IVec S16 32) : Prop :=
  (∀ a x, ((![v259] : Fin 1 → IVec S16 32) a x).toNat < S65536.size a)
instance k0_chk454.dec : ∀ (v259 : IVec S16 32), Decidable (k0_chk454 v259) := fun v259 => decidable_of_iff' _ (Iff.of_eq (k0_chk454.eq_1 v259))
theorem k0_idx454_inb : ∀ (v259 : IVec S16 32) (k0_hw454 : k0_chk454 v259), ∀ a x, ((![v259] : Fin 1 → IVec S16 32) a x).toNat < S65536.size a := fun v259 k0_hw454 => k0_hw454

def k0_chk455 (v264 : IVec S16 32) : Prop :=
  (∀ a x, ((![v264] : Fin 1 → IVec S16 32) a x).toNat < S65536.size a)
instance k0_chk455.dec : ∀ (v264 : IVec S16 32), Decidable (k0_chk455 v264) := fun v264 => decidable_of_iff' _ (Iff.of_eq (k0_chk455.eq_1 v264))
theorem k0_idx455_inb : ∀ (v264 : IVec S16 32) (k0_hw455 : k0_chk455 v264), ∀ a x, ((![v264] : Fin 1 → IVec S16 32) a x).toNat < S65536.size a := fun v264 k0_hw455 => k0_hw455

def k0_chk456 (v269 : IVec S16 32) : Prop :=
  (∀ a x, ((![v269] : Fin 1 → IVec S16 32) a x).toNat < S65536.size a)
instance k0_chk456.dec : ∀ (v269 : IVec S16 32), Decidable (k0_chk456 v269) := fun v269 => decidable_of_iff' _ (Iff.of_eq (k0_chk456.eq_1 v269))
theorem k0_idx456_inb : ∀ (v269 : IVec S16 32) (k0_hw456 : k0_chk456 v269), ∀ a x, ((![v269] : Fin 1 → IVec S16 32) a x).toNat < S65536.size a := fun v269 k0_hw456 => k0_hw456

def k0_chk457 (v274 : IVec S16 32) : Prop :=
  (∀ a x, ((![v274] : Fin 1 → IVec S16 32) a x).toNat < S65536.size a)
instance k0_chk457.dec : ∀ (v274 : IVec S16 32), Decidable (k0_chk457 v274) := fun v274 => decidable_of_iff' _ (Iff.of_eq (k0_chk457.eq_1 v274))
theorem k0_idx457_inb : ∀ (v274 : IVec S16 32) (k0_hw457 : k0_chk457 v274), ∀ a x, ((![v274] : Fin 1 → IVec S16 32) a x).toNat < S65536.size a := fun v274 k0_hw457 => k0_hw457

def k0_chk458 (v279 : IVec S16 32) : Prop :=
  (∀ a x, ((![v279] : Fin 1 → IVec S16 32) a x).toNat < S65536.size a)
instance k0_chk458.dec : ∀ (v279 : IVec S16 32), Decidable (k0_chk458 v279) := fun v279 => decidable_of_iff' _ (Iff.of_eq (k0_chk458.eq_1 v279))
theorem k0_idx458_inb : ∀ (v279 : IVec S16 32) (k0_hw458 : k0_chk458 v279), ∀ a x, ((![v279] : Fin 1 → IVec S16 32) a x).toNat < S65536.size a := fun v279 k0_hw458 => k0_hw458

def k0_chk459 (v284 : IVec S16 32) : Prop :=
  (∀ a x, ((![v284] : Fin 1 → IVec S16 32) a x).toNat < S65536.size a)
instance k0_chk459.dec : ∀ (v284 : IVec S16 32), Decidable (k0_chk459 v284) := fun v284 => decidable_of_iff' _ (Iff.of_eq (k0_chk459.eq_1 v284))
theorem k0_idx459_inb : ∀ (v284 : IVec S16 32) (k0_hw459 : k0_chk459 v284), ∀ a x, ((![v284] : Fin 1 → IVec S16 32) a x).toNat < S65536.size a := fun v284 k0_hw459 => k0_hw459

def k0_chk460 (v289 : IVec S16 32) : Prop :=
  (∀ a x, ((![v289] : Fin 1 → IVec S16 32) a x).toNat < S65536.size a)
instance k0_chk460.dec : ∀ (v289 : IVec S16 32), Decidable (k0_chk460 v289) := fun v289 => decidable_of_iff' _ (Iff.of_eq (k0_chk460.eq_1 v289))
theorem k0_idx460_inb : ∀ (v289 : IVec S16 32) (k0_hw460 : k0_chk460 v289), ∀ a x, ((![v289] : Fin 1 → IVec S16 32) a x).toNat < S65536.size a := fun v289 k0_hw460 => k0_hw460

def k0_chk461 (v294 : IVec S16 32) : Prop :=
  (∀ a x, ((![v294] : Fin 1 → IVec S16 32) a x).toNat < S65536.size a)
instance k0_chk461.dec : ∀ (v294 : IVec S16 32), Decidable (k0_chk461 v294) := fun v294 => decidable_of_iff' _ (Iff.of_eq (k0_chk461.eq_1 v294))
theorem k0_idx461_inb : ∀ (v294 : IVec S16 32) (k0_hw461 : k0_chk461 v294), ∀ a x, ((![v294] : Fin 1 → IVec S16 32) a x).toNat < S65536.size a := fun v294 k0_hw461 => k0_hw461

def k0_chk462 (v299 : IVec S16 32) : Prop :=
  (∀ a x, ((![v299] : Fin 1 → IVec S16 32) a x).toNat < S65536.size a)
instance k0_chk462.dec : ∀ (v299 : IVec S16 32), Decidable (k0_chk462 v299) := fun v299 => decidable_of_iff' _ (Iff.of_eq (k0_chk462.eq_1 v299))
theorem k0_idx462_inb : ∀ (v299 : IVec S16 32) (k0_hw462 : k0_chk462 v299), ∀ a x, ((![v299] : Fin 1 → IVec S16 32) a x).toNat < S65536.size a := fun v299 k0_hw462 => k0_hw462

def k0_chk463 (v304 : IVec S16 32) : Prop :=
  (∀ a x, ((![v304] : Fin 1 → IVec S16 32) a x).toNat < S65536.size a)
instance k0_chk463.dec : ∀ (v304 : IVec S16 32), Decidable (k0_chk463 v304) := fun v304 => decidable_of_iff' _ (Iff.of_eq (k0_chk463.eq_1 v304))
theorem k0_idx463_inb : ∀ (v304 : IVec S16 32) (k0_hw463 : k0_chk463 v304), ∀ a x, ((![v304] : Fin 1 → IVec S16 32) a x).toNat < S65536.size a := fun v304 k0_hw463 => k0_hw463

def k0_chk464 (v309 : IVec S16 32) : Prop :=
  (∀ a x, ((![v309] : Fin 1 → IVec S16 32) a x).toNat < S65536.size a)
instance k0_chk464.dec : ∀ (v309 : IVec S16 32), Decidable (k0_chk464 v309) := fun v309 => decidable_of_iff' _ (Iff.of_eq (k0_chk464.eq_1 v309))
theorem k0_idx464_inb : ∀ (v309 : IVec S16 32) (k0_hw464 : k0_chk464 v309), ∀ a x, ((![v309] : Fin 1 → IVec S16 32) a x).toNat < S65536.size a := fun v309 k0_hw464 => k0_hw464
@[reducible] def k0_t31_loop : Scf.Loop 32 :=
  let c0_i32_180 : BitVec 32 := 0#32
  let c64_i32_181 : BitVec 32 := 64#32
  let v221 : BitVec 32 := Scalar.addi c0_i32_180 c64_i32_181
  let c1_i32_182 : BitVec 32 := 1#32
  ⟨c0_i32_180, v221, c1_i32_182⟩
def k0_off32 (k0_t31 : Fin k0_t31_loop.trips) (c0_i32_196 : BitVec 32) : Fin 1 → Nat :=
  let c0_i32_180 : BitVec 32 := 0#32
  let c1_i32_182 : BitVec 32 := 1#32
  let arg11 : BitVec 32 := Scf.iv c0_i32_180 c1_i32_182 k0_t31
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk465 (v234 : IVec S16 32) : Prop :=
  (∀ a x, ((![v234] : Fin 1 → IVec S16 32) a x).toNat < S65536.size a)
instance k0_chk465.dec : ∀ (v234 : IVec S16 32), Decidable (k0_chk465 v234) := fun v234 => decidable_of_iff' _ (Iff.of_eq (k0_chk465.eq_1 v234))
theorem k0_idx465_inb : ∀ (v234 : IVec S16 32) (k0_hw465 : k0_chk465 v234), ∀ a x, ((![v234] : Fin 1 → IVec S16 32) a x).toNat < S65536.size a := fun v234 k0_hw465 => k0_hw465

def k0_chk466 (v239 : IVec S16 32) : Prop :=
  (∀ a x, ((![v239] : Fin 1 → IVec S16 32) a x).toNat < S65536.size a)
instance k0_chk466.dec : ∀ (v239 : IVec S16 32), Decidable (k0_chk466 v239) := fun v239 => decidable_of_iff' _ (Iff.of_eq (k0_chk466.eq_1 v239))
theorem k0_idx466_inb : ∀ (v239 : IVec S16 32) (k0_hw466 : k0_chk466 v239), ∀ a x, ((![v239] : Fin 1 → IVec S16 32) a x).toNat < S65536.size a := fun v239 k0_hw466 => k0_hw466

def k0_chk467 (v244 : IVec S16 32) : Prop :=
  (∀ a x, ((![v244] : Fin 1 → IVec S16 32) a x).toNat < S65536.size a)
instance k0_chk467.dec : ∀ (v244 : IVec S16 32), Decidable (k0_chk467 v244) := fun v244 => decidable_of_iff' _ (Iff.of_eq (k0_chk467.eq_1 v244))
theorem k0_idx467_inb : ∀ (v244 : IVec S16 32) (k0_hw467 : k0_chk467 v244), ∀ a x, ((![v244] : Fin 1 → IVec S16 32) a x).toNat < S65536.size a := fun v244 k0_hw467 => k0_hw467

def k0_chk468 (v249 : IVec S16 32) : Prop :=
  (∀ a x, ((![v249] : Fin 1 → IVec S16 32) a x).toNat < S65536.size a)
instance k0_chk468.dec : ∀ (v249 : IVec S16 32), Decidable (k0_chk468 v249) := fun v249 => decidable_of_iff' _ (Iff.of_eq (k0_chk468.eq_1 v249))
theorem k0_idx468_inb : ∀ (v249 : IVec S16 32) (k0_hw468 : k0_chk468 v249), ∀ a x, ((![v249] : Fin 1 → IVec S16 32) a x).toNat < S65536.size a := fun v249 k0_hw468 => k0_hw468

def k0_chk469 (v254 : IVec S16 32) : Prop :=
  (∀ a x, ((![v254] : Fin 1 → IVec S16 32) a x).toNat < S65536.size a)
instance k0_chk469.dec : ∀ (v254 : IVec S16 32), Decidable (k0_chk469 v254) := fun v254 => decidable_of_iff' _ (Iff.of_eq (k0_chk469.eq_1 v254))
theorem k0_idx469_inb : ∀ (v254 : IVec S16 32) (k0_hw469 : k0_chk469 v254), ∀ a x, ((![v254] : Fin 1 → IVec S16 32) a x).toNat < S65536.size a := fun v254 k0_hw469 => k0_hw469

def k0_chk470 (v259 : IVec S16 32) : Prop :=
  (∀ a x, ((![v259] : Fin 1 → IVec S16 32) a x).toNat < S65536.size a)
instance k0_chk470.dec : ∀ (v259 : IVec S16 32), Decidable (k0_chk470 v259) := fun v259 => decidable_of_iff' _ (Iff.of_eq (k0_chk470.eq_1 v259))
theorem k0_idx470_inb : ∀ (v259 : IVec S16 32) (k0_hw470 : k0_chk470 v259), ∀ a x, ((![v259] : Fin 1 → IVec S16 32) a x).toNat < S65536.size a := fun v259 k0_hw470 => k0_hw470

def k0_chk471 (v264 : IVec S16 32) : Prop :=
  (∀ a x, ((![v264] : Fin 1 → IVec S16 32) a x).toNat < S65536.size a)
instance k0_chk471.dec : ∀ (v264 : IVec S16 32), Decidable (k0_chk471 v264) := fun v264 => decidable_of_iff' _ (Iff.of_eq (k0_chk471.eq_1 v264))
theorem k0_idx471_inb : ∀ (v264 : IVec S16 32) (k0_hw471 : k0_chk471 v264), ∀ a x, ((![v264] : Fin 1 → IVec S16 32) a x).toNat < S65536.size a := fun v264 k0_hw471 => k0_hw471

def k0_chk472 (v269 : IVec S16 32) : Prop :=
  (∀ a x, ((![v269] : Fin 1 → IVec S16 32) a x).toNat < S65536.size a)
instance k0_chk472.dec : ∀ (v269 : IVec S16 32), Decidable (k0_chk472 v269) := fun v269 => decidable_of_iff' _ (Iff.of_eq (k0_chk472.eq_1 v269))
theorem k0_idx472_inb : ∀ (v269 : IVec S16 32) (k0_hw472 : k0_chk472 v269), ∀ a x, ((![v269] : Fin 1 → IVec S16 32) a x).toNat < S65536.size a := fun v269 k0_hw472 => k0_hw472

def k0_chk473 (v274 : IVec S16 32) : Prop :=
  (∀ a x, ((![v274] : Fin 1 → IVec S16 32) a x).toNat < S65536.size a)
instance k0_chk473.dec : ∀ (v274 : IVec S16 32), Decidable (k0_chk473 v274) := fun v274 => decidable_of_iff' _ (Iff.of_eq (k0_chk473.eq_1 v274))
theorem k0_idx473_inb : ∀ (v274 : IVec S16 32) (k0_hw473 : k0_chk473 v274), ∀ a x, ((![v274] : Fin 1 → IVec S16 32) a x).toNat < S65536.size a := fun v274 k0_hw473 => k0_hw473

def k0_chk474 (v279 : IVec S16 32) : Prop :=
  (∀ a x, ((![v279] : Fin 1 → IVec S16 32) a x).toNat < S65536.size a)
instance k0_chk474.dec : ∀ (v279 : IVec S16 32), Decidable (k0_chk474 v279) := fun v279 => decidable_of_iff' _ (Iff.of_eq (k0_chk474.eq_1 v279))
theorem k0_idx474_inb : ∀ (v279 : IVec S16 32) (k0_hw474 : k0_chk474 v279), ∀ a x, ((![v279] : Fin 1 → IVec S16 32) a x).toNat < S65536.size a := fun v279 k0_hw474 => k0_hw474

def k0_chk475 (v284 : IVec S16 32) : Prop :=
  (∀ a x, ((![v284] : Fin 1 → IVec S16 32) a x).toNat < S65536.size a)
instance k0_chk475.dec : ∀ (v284 : IVec S16 32), Decidable (k0_chk475 v284) := fun v284 => decidable_of_iff' _ (Iff.of_eq (k0_chk475.eq_1 v284))
theorem k0_idx475_inb : ∀ (v284 : IVec S16 32) (k0_hw475 : k0_chk475 v284), ∀ a x, ((![v284] : Fin 1 → IVec S16 32) a x).toNat < S65536.size a := fun v284 k0_hw475 => k0_hw475

def k0_chk476 (v289 : IVec S16 32) : Prop :=
  (∀ a x, ((![v289] : Fin 1 → IVec S16 32) a x).toNat < S65536.size a)
instance k0_chk476.dec : ∀ (v289 : IVec S16 32), Decidable (k0_chk476 v289) := fun v289 => decidable_of_iff' _ (Iff.of_eq (k0_chk476.eq_1 v289))
theorem k0_idx476_inb : ∀ (v289 : IVec S16 32) (k0_hw476 : k0_chk476 v289), ∀ a x, ((![v289] : Fin 1 → IVec S16 32) a x).toNat < S65536.size a := fun v289 k0_hw476 => k0_hw476

def k0_chk477 (v294 : IVec S16 32) : Prop :=
  (∀ a x, ((![v294] : Fin 1 → IVec S16 32) a x).toNat < S65536.size a)
instance k0_chk477.dec : ∀ (v294 : IVec S16 32), Decidable (k0_chk477 v294) := fun v294 => decidable_of_iff' _ (Iff.of_eq (k0_chk477.eq_1 v294))
theorem k0_idx477_inb : ∀ (v294 : IVec S16 32) (k0_hw477 : k0_chk477 v294), ∀ a x, ((![v294] : Fin 1 → IVec S16 32) a x).toNat < S65536.size a := fun v294 k0_hw477 => k0_hw477

def k0_chk478 (v299 : IVec S16 32) : Prop :=
  (∀ a x, ((![v299] : Fin 1 → IVec S16 32) a x).toNat < S65536.size a)
instance k0_chk478.dec : ∀ (v299 : IVec S16 32), Decidable (k0_chk478 v299) := fun v299 => decidable_of_iff' _ (Iff.of_eq (k0_chk478.eq_1 v299))
theorem k0_idx478_inb : ∀ (v299 : IVec S16 32) (k0_hw478 : k0_chk478 v299), ∀ a x, ((![v299] : Fin 1 → IVec S16 32) a x).toNat < S65536.size a := fun v299 k0_hw478 => k0_hw478

def k0_chk479 (v304 : IVec S16 32) : Prop :=
  (∀ a x, ((![v304] : Fin 1 → IVec S16 32) a x).toNat < S65536.size a)
instance k0_chk479.dec : ∀ (v304 : IVec S16 32), Decidable (k0_chk479 v304) := fun v304 => decidable_of_iff' _ (Iff.of_eq (k0_chk479.eq_1 v304))
theorem k0_idx479_inb : ∀ (v304 : IVec S16 32) (k0_hw479 : k0_chk479 v304), ∀ a x, ((![v304] : Fin 1 → IVec S16 32) a x).toNat < S65536.size a := fun v304 k0_hw479 => k0_hw479

def k0_chk480 (v309 : IVec S16 32) : Prop :=
  (∀ a x, ((![v309] : Fin 1 → IVec S16 32) a x).toNat < S65536.size a)
instance k0_chk480.dec : ∀ (v309 : IVec S16 32), Decidable (k0_chk480 v309) := fun v309 => decidable_of_iff' _ (Iff.of_eq (k0_chk480.eq_1 v309))
theorem k0_idx480_inb : ∀ (v309 : IVec S16 32) (k0_hw480 : k0_chk480 v309), ∀ a x, ((![v309] : Fin 1 → IVec S16 32) a x).toNat < S65536.size a := fun v309 k0_hw480 => k0_hw480
@[reducible] def k0_t32_loop : Scf.Loop 32 :=
  let c0_i32_186 : BitVec 32 := 0#32
  let c64_i32_187 : BitVec 32 := 64#32
  let v225 : BitVec 32 := Scalar.addi c0_i32_186 c64_i32_187
  let c1_i32_188 : BitVec 32 := 1#32
  ⟨c0_i32_186, v225, c1_i32_188⟩
def k0_off33 (k0_t32 : Fin k0_t32_loop.trips) (c0_i32_196 : BitVec 32) : Fin 1 → Nat :=
  let c0_i32_186 : BitVec 32 := 0#32
  let c1_i32_188 : BitVec 32 := 1#32
  let arg11 : BitVec 32 := Scf.iv c0_i32_186 c1_i32_188 k0_t32
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk481 (v234 : IVec S16 32) : Prop :=
  (∀ a x, ((![v234] : Fin 1 → IVec S16 32) a x).toNat < S65536.size a)
instance k0_chk481.dec : ∀ (v234 : IVec S16 32), Decidable (k0_chk481 v234) := fun v234 => decidable_of_iff' _ (Iff.of_eq (k0_chk481.eq_1 v234))
theorem k0_idx481_inb : ∀ (v234 : IVec S16 32) (k0_hw481 : k0_chk481 v234), ∀ a x, ((![v234] : Fin 1 → IVec S16 32) a x).toNat < S65536.size a := fun v234 k0_hw481 => k0_hw481

def k0_chk482 (v239 : IVec S16 32) : Prop :=
  (∀ a x, ((![v239] : Fin 1 → IVec S16 32) a x).toNat < S65536.size a)
instance k0_chk482.dec : ∀ (v239 : IVec S16 32), Decidable (k0_chk482 v239) := fun v239 => decidable_of_iff' _ (Iff.of_eq (k0_chk482.eq_1 v239))
theorem k0_idx482_inb : ∀ (v239 : IVec S16 32) (k0_hw482 : k0_chk482 v239), ∀ a x, ((![v239] : Fin 1 → IVec S16 32) a x).toNat < S65536.size a := fun v239 k0_hw482 => k0_hw482

def k0_chk483 (v244 : IVec S16 32) : Prop :=
  (∀ a x, ((![v244] : Fin 1 → IVec S16 32) a x).toNat < S65536.size a)
instance k0_chk483.dec : ∀ (v244 : IVec S16 32), Decidable (k0_chk483 v244) := fun v244 => decidable_of_iff' _ (Iff.of_eq (k0_chk483.eq_1 v244))
theorem k0_idx483_inb : ∀ (v244 : IVec S16 32) (k0_hw483 : k0_chk483 v244), ∀ a x, ((![v244] : Fin 1 → IVec S16 32) a x).toNat < S65536.size a := fun v244 k0_hw483 => k0_hw483

def k0_chk484 (v249 : IVec S16 32) : Prop :=
  (∀ a x, ((![v249] : Fin 1 → IVec S16 32) a x).toNat < S65536.size a)
instance k0_chk484.dec : ∀ (v249 : IVec S16 32), Decidable (k0_chk484 v249) := fun v249 => decidable_of_iff' _ (Iff.of_eq (k0_chk484.eq_1 v249))
theorem k0_idx484_inb : ∀ (v249 : IVec S16 32) (k0_hw484 : k0_chk484 v249), ∀ a x, ((![v249] : Fin 1 → IVec S16 32) a x).toNat < S65536.size a := fun v249 k0_hw484 => k0_hw484

def k0_chk485 (v254 : IVec S16 32) : Prop :=
  (∀ a x, ((![v254] : Fin 1 → IVec S16 32) a x).toNat < S65536.size a)
instance k0_chk485.dec : ∀ (v254 : IVec S16 32), Decidable (k0_chk485 v254) := fun v254 => decidable_of_iff' _ (Iff.of_eq (k0_chk485.eq_1 v254))
theorem k0_idx485_inb : ∀ (v254 : IVec S16 32) (k0_hw485 : k0_chk485 v254), ∀ a x, ((![v254] : Fin 1 → IVec S16 32) a x).toNat < S65536.size a := fun v254 k0_hw485 => k0_hw485

def k0_chk486 (v259 : IVec S16 32) : Prop :=
  (∀ a x, ((![v259] : Fin 1 → IVec S16 32) a x).toNat < S65536.size a)
instance k0_chk486.dec : ∀ (v259 : IVec S16 32), Decidable (k0_chk486 v259) := fun v259 => decidable_of_iff' _ (Iff.of_eq (k0_chk486.eq_1 v259))
theorem k0_idx486_inb : ∀ (v259 : IVec S16 32) (k0_hw486 : k0_chk486 v259), ∀ a x, ((![v259] : Fin 1 → IVec S16 32) a x).toNat < S65536.size a := fun v259 k0_hw486 => k0_hw486

def k0_chk487 (v264 : IVec S16 32) : Prop :=
  (∀ a x, ((![v264] : Fin 1 → IVec S16 32) a x).toNat < S65536.size a)
instance k0_chk487.dec : ∀ (v264 : IVec S16 32), Decidable (k0_chk487 v264) := fun v264 => decidable_of_iff' _ (Iff.of_eq (k0_chk487.eq_1 v264))
theorem k0_idx487_inb : ∀ (v264 : IVec S16 32) (k0_hw487 : k0_chk487 v264), ∀ a x, ((![v264] : Fin 1 → IVec S16 32) a x).toNat < S65536.size a := fun v264 k0_hw487 => k0_hw487

def k0_chk488 (v269 : IVec S16 32) : Prop :=
  (∀ a x, ((![v269] : Fin 1 → IVec S16 32) a x).toNat < S65536.size a)
instance k0_chk488.dec : ∀ (v269 : IVec S16 32), Decidable (k0_chk488 v269) := fun v269 => decidable_of_iff' _ (Iff.of_eq (k0_chk488.eq_1 v269))
theorem k0_idx488_inb : ∀ (v269 : IVec S16 32) (k0_hw488 : k0_chk488 v269), ∀ a x, ((![v269] : Fin 1 → IVec S16 32) a x).toNat < S65536.size a := fun v269 k0_hw488 => k0_hw488

def k0_chk489 (v274 : IVec S16 32) : Prop :=
  (∀ a x, ((![v274] : Fin 1 → IVec S16 32) a x).toNat < S65536.size a)
instance k0_chk489.dec : ∀ (v274 : IVec S16 32), Decidable (k0_chk489 v274) := fun v274 => decidable_of_iff' _ (Iff.of_eq (k0_chk489.eq_1 v274))
theorem k0_idx489_inb : ∀ (v274 : IVec S16 32) (k0_hw489 : k0_chk489 v274), ∀ a x, ((![v274] : Fin 1 → IVec S16 32) a x).toNat < S65536.size a := fun v274 k0_hw489 => k0_hw489

def k0_chk490 (v279 : IVec S16 32) : Prop :=
  (∀ a x, ((![v279] : Fin 1 → IVec S16 32) a x).toNat < S65536.size a)
instance k0_chk490.dec : ∀ (v279 : IVec S16 32), Decidable (k0_chk490 v279) := fun v279 => decidable_of_iff' _ (Iff.of_eq (k0_chk490.eq_1 v279))
theorem k0_idx490_inb : ∀ (v279 : IVec S16 32) (k0_hw490 : k0_chk490 v279), ∀ a x, ((![v279] : Fin 1 → IVec S16 32) a x).toNat < S65536.size a := fun v279 k0_hw490 => k0_hw490

def k0_chk491 (v284 : IVec S16 32) : Prop :=
  (∀ a x, ((![v284] : Fin 1 → IVec S16 32) a x).toNat < S65536.size a)
instance k0_chk491.dec : ∀ (v284 : IVec S16 32), Decidable (k0_chk491 v284) := fun v284 => decidable_of_iff' _ (Iff.of_eq (k0_chk491.eq_1 v284))
theorem k0_idx491_inb : ∀ (v284 : IVec S16 32) (k0_hw491 : k0_chk491 v284), ∀ a x, ((![v284] : Fin 1 → IVec S16 32) a x).toNat < S65536.size a := fun v284 k0_hw491 => k0_hw491

def k0_chk492 (v289 : IVec S16 32) : Prop :=
  (∀ a x, ((![v289] : Fin 1 → IVec S16 32) a x).toNat < S65536.size a)
instance k0_chk492.dec : ∀ (v289 : IVec S16 32), Decidable (k0_chk492 v289) := fun v289 => decidable_of_iff' _ (Iff.of_eq (k0_chk492.eq_1 v289))
theorem k0_idx492_inb : ∀ (v289 : IVec S16 32) (k0_hw492 : k0_chk492 v289), ∀ a x, ((![v289] : Fin 1 → IVec S16 32) a x).toNat < S65536.size a := fun v289 k0_hw492 => k0_hw492

def k0_chk493 (v294 : IVec S16 32) : Prop :=
  (∀ a x, ((![v294] : Fin 1 → IVec S16 32) a x).toNat < S65536.size a)
instance k0_chk493.dec : ∀ (v294 : IVec S16 32), Decidable (k0_chk493 v294) := fun v294 => decidable_of_iff' _ (Iff.of_eq (k0_chk493.eq_1 v294))
theorem k0_idx493_inb : ∀ (v294 : IVec S16 32) (k0_hw493 : k0_chk493 v294), ∀ a x, ((![v294] : Fin 1 → IVec S16 32) a x).toNat < S65536.size a := fun v294 k0_hw493 => k0_hw493

def k0_chk494 (v299 : IVec S16 32) : Prop :=
  (∀ a x, ((![v299] : Fin 1 → IVec S16 32) a x).toNat < S65536.size a)
instance k0_chk494.dec : ∀ (v299 : IVec S16 32), Decidable (k0_chk494 v299) := fun v299 => decidable_of_iff' _ (Iff.of_eq (k0_chk494.eq_1 v299))
theorem k0_idx494_inb : ∀ (v299 : IVec S16 32) (k0_hw494 : k0_chk494 v299), ∀ a x, ((![v299] : Fin 1 → IVec S16 32) a x).toNat < S65536.size a := fun v299 k0_hw494 => k0_hw494

def k0_chk495 (v304 : IVec S16 32) : Prop :=
  (∀ a x, ((![v304] : Fin 1 → IVec S16 32) a x).toNat < S65536.size a)
instance k0_chk495.dec : ∀ (v304 : IVec S16 32), Decidable (k0_chk495 v304) := fun v304 => decidable_of_iff' _ (Iff.of_eq (k0_chk495.eq_1 v304))
theorem k0_idx495_inb : ∀ (v304 : IVec S16 32) (k0_hw495 : k0_chk495 v304), ∀ a x, ((![v304] : Fin 1 → IVec S16 32) a x).toNat < S65536.size a := fun v304 k0_hw495 => k0_hw495

def k0_chk496 (v309 : IVec S16 32) : Prop :=
  (∀ a x, ((![v309] : Fin 1 → IVec S16 32) a x).toNat < S65536.size a)
instance k0_chk496.dec : ∀ (v309 : IVec S16 32), Decidable (k0_chk496 v309) := fun v309 => decidable_of_iff' _ (Iff.of_eq (k0_chk496.eq_1 v309))
theorem k0_idx496_inb : ∀ (v309 : IVec S16 32) (k0_hw496 : k0_chk496 v309), ∀ a x, ((![v309] : Fin 1 → IVec S16 32) a x).toNat < S65536.size a := fun v309 k0_hw496 => k0_hw496
@[reducible] def k0_t33_loop : Scf.Loop 32 :=
  let c0_i32_192 : BitVec 32 := 0#32
  let c64_i32_193 : BitVec 32 := 64#32
  let v229 : BitVec 32 := Scalar.addi c0_i32_192 c64_i32_193
  let c1_i32_194 : BitVec 32 := 1#32
  ⟨c0_i32_192, v229, c1_i32_194⟩
def k0_off34 (k0_t33 : Fin k0_t33_loop.trips) (c0_i32_196 : BitVec 32) : Fin 1 → Nat :=
  let c0_i32_192 : BitVec 32 := 0#32
  let c1_i32_194 : BitVec 32 := 1#32
  let arg11 : BitVec 32 := Scf.iv c0_i32_192 c1_i32_194 k0_t33
  let c16_i32 : BitVec 32 := 16#32
  let v230 : BitVec 32 := Scalar.muli arg11 c16_i32
  let v231 : BitVec 32 := Scalar.addi v230 c0_i32_196
  let c16_i32_197 : BitVec 32 := 16#32
  let v232 : BitVec 32 := Scalar.muli v231 c16_i32_197
  let v233 : Index := Scalar.indexCast v232
  ![v233.toNat]

def k0_chk497 (v234 : IVec S16 32) : Prop :=
  (∀ a x, ((![v234] : Fin 1 → IVec S16 32) a x).toNat < S65536.size a)
instance k0_chk497.dec : ∀ (v234 : IVec S16 32), Decidable (k0_chk497 v234) := fun v234 => decidable_of_iff' _ (Iff.of_eq (k0_chk497.eq_1 v234))
theorem k0_idx497_inb : ∀ (v234 : IVec S16 32) (k0_hw497 : k0_chk497 v234), ∀ a x, ((![v234] : Fin 1 → IVec S16 32) a x).toNat < S65536.size a := fun v234 k0_hw497 => k0_hw497

def k0_chk498 (v239 : IVec S16 32) : Prop :=
  (∀ a x, ((![v239] : Fin 1 → IVec S16 32) a x).toNat < S65536.size a)
instance k0_chk498.dec : ∀ (v239 : IVec S16 32), Decidable (k0_chk498 v239) := fun v239 => decidable_of_iff' _ (Iff.of_eq (k0_chk498.eq_1 v239))
theorem k0_idx498_inb : ∀ (v239 : IVec S16 32) (k0_hw498 : k0_chk498 v239), ∀ a x, ((![v239] : Fin 1 → IVec S16 32) a x).toNat < S65536.size a := fun v239 k0_hw498 => k0_hw498

def k0_chk499 (v244 : IVec S16 32) : Prop :=
  (∀ a x, ((![v244] : Fin 1 → IVec S16 32) a x).toNat < S65536.size a)
instance k0_chk499.dec : ∀ (v244 : IVec S16 32), Decidable (k0_chk499 v244) := fun v244 => decidable_of_iff' _ (Iff.of_eq (k0_chk499.eq_1 v244))
theorem k0_idx499_inb : ∀ (v244 : IVec S16 32) (k0_hw499 : k0_chk499 v244), ∀ a x, ((![v244] : Fin 1 → IVec S16 32) a x).toNat < S65536.size a := fun v244 k0_hw499 => k0_hw499

def k0_chk500 (v249 : IVec S16 32) : Prop :=
  (∀ a x, ((![v249] : Fin 1 → IVec S16 32) a x).toNat < S65536.size a)
instance k0_chk500.dec : ∀ (v249 : IVec S16 32), Decidable (k0_chk500 v249) := fun v249 => decidable_of_iff' _ (Iff.of_eq (k0_chk500.eq_1 v249))
theorem k0_idx500_inb : ∀ (v249 : IVec S16 32) (k0_hw500 : k0_chk500 v249), ∀ a x, ((![v249] : Fin 1 → IVec S16 32) a x).toNat < S65536.size a := fun v249 k0_hw500 => k0_hw500

def k0_chk501 (v254 : IVec S16 32) : Prop :=
  (∀ a x, ((![v254] : Fin 1 → IVec S16 32) a x).toNat < S65536.size a)
instance k0_chk501.dec : ∀ (v254 : IVec S16 32), Decidable (k0_chk501 v254) := fun v254 => decidable_of_iff' _ (Iff.of_eq (k0_chk501.eq_1 v254))
theorem k0_idx501_inb : ∀ (v254 : IVec S16 32) (k0_hw501 : k0_chk501 v254), ∀ a x, ((![v254] : Fin 1 → IVec S16 32) a x).toNat < S65536.size a := fun v254 k0_hw501 => k0_hw501

def k0_chk502 (v259 : IVec S16 32) : Prop :=
  (∀ a x, ((![v259] : Fin 1 → IVec S16 32) a x).toNat < S65536.size a)
instance k0_chk502.dec : ∀ (v259 : IVec S16 32), Decidable (k0_chk502 v259) := fun v259 => decidable_of_iff' _ (Iff.of_eq (k0_chk502.eq_1 v259))
theorem k0_idx502_inb : ∀ (v259 : IVec S16 32) (k0_hw502 : k0_chk502 v259), ∀ a x, ((![v259] : Fin 1 → IVec S16 32) a x).toNat < S65536.size a := fun v259 k0_hw502 => k0_hw502

def k0_chk503 (v264 : IVec S16 32) : Prop :=
  (∀ a x, ((![v264] : Fin 1 → IVec S16 32) a x).toNat < S65536.size a)
instance k0_chk503.dec : ∀ (v264 : IVec S16 32), Decidable (k0_chk503 v264) := fun v264 => decidable_of_iff' _ (Iff.of_eq (k0_chk503.eq_1 v264))
theorem k0_idx503_inb : ∀ (v264 : IVec S16 32) (k0_hw503 : k0_chk503 v264), ∀ a x, ((![v264] : Fin 1 → IVec S16 32) a x).toNat < S65536.size a := fun v264 k0_hw503 => k0_hw503

def k0_chk504 (v269 : IVec S16 32) : Prop :=
  (∀ a x, ((![v269] : Fin 1 → IVec S16 32) a x).toNat < S65536.size a)
instance k0_chk504.dec : ∀ (v269 : IVec S16 32), Decidable (k0_chk504 v269) := fun v269 => decidable_of_iff' _ (Iff.of_eq (k0_chk504.eq_1 v269))
theorem k0_idx504_inb : ∀ (v269 : IVec S16 32) (k0_hw504 : k0_chk504 v269), ∀ a x, ((![v269] : Fin 1 → IVec S16 32) a x).toNat < S65536.size a := fun v269 k0_hw504 => k0_hw504

def k0_chk505 (v274 : IVec S16 32) : Prop :=
  (∀ a x, ((![v274] : Fin 1 → IVec S16 32) a x).toNat < S65536.size a)
instance k0_chk505.dec : ∀ (v274 : IVec S16 32), Decidable (k0_chk505 v274) := fun v274 => decidable_of_iff' _ (Iff.of_eq (k0_chk505.eq_1 v274))
theorem k0_idx505_inb : ∀ (v274 : IVec S16 32) (k0_hw505 : k0_chk505 v274), ∀ a x, ((![v274] : Fin 1 → IVec S16 32) a x).toNat < S65536.size a := fun v274 k0_hw505 => k0_hw505

def k0_chk506 (v279 : IVec S16 32) : Prop :=
  (∀ a x, ((![v279] : Fin 1 → IVec S16 32) a x).toNat < S65536.size a)
instance k0_chk506.dec : ∀ (v279 : IVec S16 32), Decidable (k0_chk506 v279) := fun v279 => decidable_of_iff' _ (Iff.of_eq (k0_chk506.eq_1 v279))
theorem k0_idx506_inb : ∀ (v279 : IVec S16 32) (k0_hw506 : k0_chk506 v279), ∀ a x, ((![v279] : Fin 1 → IVec S16 32) a x).toNat < S65536.size a := fun v279 k0_hw506 => k0_hw506

def k0_chk507 (v284 : IVec S16 32) : Prop :=
  (∀ a x, ((![v284] : Fin 1 → IVec S16 32) a x).toNat < S65536.size a)
instance k0_chk507.dec : ∀ (v284 : IVec S16 32), Decidable (k0_chk507 v284) := fun v284 => decidable_of_iff' _ (Iff.of_eq (k0_chk507.eq_1 v284))
theorem k0_idx507_inb : ∀ (v284 : IVec S16 32) (k0_hw507 : k0_chk507 v284), ∀ a x, ((![v284] : Fin 1 → IVec S16 32) a x).toNat < S65536.size a := fun v284 k0_hw507 => k0_hw507

def k0_chk508 (v289 : IVec S16 32) : Prop :=
  (∀ a x, ((![v289] : Fin 1 → IVec S16 32) a x).toNat < S65536.size a)
instance k0_chk508.dec : ∀ (v289 : IVec S16 32), Decidable (k0_chk508 v289) := fun v289 => decidable_of_iff' _ (Iff.of_eq (k0_chk508.eq_1 v289))
theorem k0_idx508_inb : ∀ (v289 : IVec S16 32) (k0_hw508 : k0_chk508 v289), ∀ a x, ((![v289] : Fin 1 → IVec S16 32) a x).toNat < S65536.size a := fun v289 k0_hw508 => k0_hw508

def k0_chk509 (v294 : IVec S16 32) : Prop :=
  (∀ a x, ((![v294] : Fin 1 → IVec S16 32) a x).toNat < S65536.size a)
instance k0_chk509.dec : ∀ (v294 : IVec S16 32), Decidable (k0_chk509 v294) := fun v294 => decidable_of_iff' _ (Iff.of_eq (k0_chk509.eq_1 v294))
theorem k0_idx509_inb : ∀ (v294 : IVec S16 32) (k0_hw509 : k0_chk509 v294), ∀ a x, ((![v294] : Fin 1 → IVec S16 32) a x).toNat < S65536.size a := fun v294 k0_hw509 => k0_hw509

def k0_chk510 (v299 : IVec S16 32) : Prop :=
  (∀ a x, ((![v299] : Fin 1 → IVec S16 32) a x).toNat < S65536.size a)
instance k0_chk510.dec : ∀ (v299 : IVec S16 32), Decidable (k0_chk510 v299) := fun v299 => decidable_of_iff' _ (Iff.of_eq (k0_chk510.eq_1 v299))
theorem k0_idx510_inb : ∀ (v299 : IVec S16 32) (k0_hw510 : k0_chk510 v299), ∀ a x, ((![v299] : Fin 1 → IVec S16 32) a x).toNat < S65536.size a := fun v299 k0_hw510 => k0_hw510

def k0_chk511 (v304 : IVec S16 32) : Prop :=
  (∀ a x, ((![v304] : Fin 1 → IVec S16 32) a x).toNat < S65536.size a)
instance k0_chk511.dec : ∀ (v304 : IVec S16 32), Decidable (k0_chk511 v304) := fun v304 => decidable_of_iff' _ (Iff.of_eq (k0_chk511.eq_1 v304))
theorem k0_idx511_inb : ∀ (v304 : IVec S16 32) (k0_hw511 : k0_chk511 v304), ∀ a x, ((![v304] : Fin 1 → IVec S16 32) a x).toNat < S65536.size a := fun v304 k0_hw511 => k0_hw511

def k0_chk512 (v309 : IVec S16 32) : Prop :=
  (∀ a x, ((![v309] : Fin 1 → IVec S16 32) a x).toNat < S65536.size a)
instance k0_chk512.dec : ∀ (v309 : IVec S16 32), Decidable (k0_chk512 v309) := fun v309 => decidable_of_iff' _ (Iff.of_eq (k0_chk512.eq_1 v309))
theorem k0_idx512_inb : ∀ (v309 : IVec S16 32) (k0_hw512 : k0_chk512 v309), ∀ a x, ((![v309] : Fin 1 → IVec S16 32) a x).toNat < S65536.size a := fun v309 k0_hw512 => k0_hw512
def k0_off35 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_196_r0 : BitVec 32 := 0#32
  ![v1.toNat, 0]
abbrev grid1 : Pipeline.Grid := .none

abbrev stage1_0 : Fin 1 → Memref sig .tc .vmem S32x65536 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S65536 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  h_S65536 : 0 < S65536.numel
  squeezes_S1x65536_S65536 : S1x65536.Squeezes S65536
  inb_S32x65536_S32x65536_0_0 : ∀ a, (![0, 0] : Fin 2 → Nat) a + S32x65536.size a ≤ S32x65536.size a
  h_S32x65536 : 0 < S32x65536.numel
  shapeCasts_S32x65536_S32x65536 : S32x65536.ShapeCasts S32x65536
  reduces_S32x65536_S65536 : S32x65536.Reduces [0] S65536
  inb_S65536_S65536_0 : ∀ a, (![0] : Fin 1 → Nat) a + S65536.size a ≤ S65536.size a
  hcc0_scratch4 : 0 + S_.numel ≤ 6
  hcc0_scratch5 : 1 + S_.numel ≤ 6
  hcc0_scratch6 : 2 + S_.numel ≤ 6
  hcc0_scoped0 : 3 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 32), ∀ a, (k0_off1 i (BitVec.ofNat 32 (16384 * r.val))) a + S16384.size a ≤ S16777216.size a
  k0_t1_ok : k0_t1_loop.OK
  k0_off2_inb : ∀ k0_t1 : Fin k0_t1_loop.trips, ∀ (r : Fin 8), ∀ a, (k0_off2 k0_t1 (BitVec.ofNat 32 r.val)) a + S16.size a ≤ S65536.size a
  k0_t2_ok : k0_t2_loop.OK
  k0_off3_inb : ∀ k0_t2 : Fin k0_t2_loop.trips, ∀ (r : Fin 16), ∀ a, (k0_off3 k0_t2 (BitVec.ofNat 32 r.val)) a + S16.size a ≤ S16384.size a
  k0_t3_ok : k0_t3_loop.OK
  k0_off4_inb : ∀ k0_t3 : Fin k0_t3_loop.trips, ∀ (r : Fin 16), ∀ a, (k0_off4 k0_t3 (BitVec.ofNat 32 r.val)) a + S16.size a ≤ S16384.size a
  k0_t4_ok : k0_t4_loop.OK
  k0_off5_inb : ∀ k0_t4 : Fin k0_t4_loop.trips, ∀ (r : Fin 16), ∀ a, (k0_off5 k0_t4 (BitVec.ofNat 32 r.val)) a + S16.size a ≤ S16384.size a
  k0_t5_ok : k0_t5_loop.OK
  k0_off6_inb : ∀ k0_t5 : Fin k0_t5_loop.trips, ∀ (r : Fin 16), ∀ a, (k0_off6 k0_t5 (BitVec.ofNat 32 r.val)) a + S16.size a ≤ S16384.size a
  k0_t6_ok : k0_t6_loop.OK
  k0_off7_inb : ∀ k0_t6 : Fin k0_t6_loop.trips, ∀ (r : Fin 16), ∀ a, (k0_off7 k0_t6 (BitVec.ofNat 32 r.val)) a + S16.size a ≤ S16384.size a
  k0_t7_ok : k0_t7_loop.OK
  k0_off8_inb : ∀ k0_t7 : Fin k0_t7_loop.trips, ∀ (r : Fin 16), ∀ a, (k0_off8 k0_t7 (BitVec.ofNat 32 r.val)) a + S16.size a ≤ S16384.size a
  k0_t8_ok : k0_t8_loop.OK
  k0_off9_inb : ∀ k0_t8 : Fin k0_t8_loop.trips, ∀ (r : Fin 16), ∀ a, (k0_off9 k0_t8 (BitVec.ofNat 32 r.val)) a + S16.size a ≤ S16384.size a
  k0_t9_ok : k0_t9_loop.OK
  k0_off10_inb : ∀ k0_t9 : Fin k0_t9_loop.trips, ∀ (r : Fin 16), ∀ a, (k0_off10 k0_t9 (BitVec.ofNat 32 r.val)) a + S16.size a ≤ S16384.size a
  k0_t10_ok : k0_t10_loop.OK
  k0_off11_inb : ∀ k0_t10 : Fin k0_t10_loop.trips, ∀ (r : Fin 16), ∀ a, (k0_off11 k0_t10 (BitVec.ofNat 32 r.val)) a + S16.size a ≤ S16384.size a
  k0_t11_ok : k0_t11_loop.OK
  k0_off12_inb : ∀ k0_t11 : Fin k0_t11_loop.trips, ∀ (r : Fin 16), ∀ a, (k0_off12 k0_t11 (BitVec.ofNat 32 r.val)) a + S16.size a ≤ S16384.size a
  k0_t12_ok : k0_t12_loop.OK
  k0_off13_inb : ∀ k0_t12 : Fin k0_t12_loop.trips, ∀ (r : Fin 16), ∀ a, (k0_off13 k0_t12 (BitVec.ofNat 32 r.val)) a + S16.size a ≤ S16384.size a
  k0_t13_ok : k0_t13_loop.OK
  k0_off14_inb : ∀ k0_t13 : Fin k0_t13_loop.trips, ∀ (r : Fin 16), ∀ a, (k0_off14 k0_t13 (BitVec.ofNat 32 r.val)) a + S16.size a ≤ S16384.size a
  k0_t14_ok : k0_t14_loop.OK
  k0_off15_inb : ∀ k0_t14 : Fin k0_t14_loop.trips, ∀ (r : Fin 16), ∀ a, (k0_off15 k0_t14 (BitVec.ofNat 32 r.val)) a + S16.size a ≤ S16384.size a
  k0_t15_ok : k0_t15_loop.OK
  k0_off16_inb : ∀ k0_t15 : Fin k0_t15_loop.trips, ∀ (r : Fin 16), ∀ a, (k0_off16 k0_t15 (BitVec.ofNat 32 r.val)) a + S16.size a ≤ S16384.size a
  k0_t16_ok : k0_t16_loop.OK
  k0_off17_inb : ∀ k0_t16 : Fin k0_t16_loop.trips, ∀ (r : Fin 16), ∀ a, (k0_off17 k0_t16 (BitVec.ofNat 32 r.val)) a + S16.size a ≤ S16384.size a
  k0_t17_ok : k0_t17_loop.OK
  k0_off18_inb : ∀ k0_t17 : Fin k0_t17_loop.trips, ∀ (r : Fin 16), ∀ a, (k0_off18 k0_t17 (BitVec.ofNat 32 r.val)) a + S16.size a ≤ S16384.size a
  k0_t18_ok : k0_t18_loop.OK
  k0_off19_inb : ∀ k0_t18 : Fin k0_t18_loop.trips, ∀ (r : Fin 16), ∀ a, (k0_off19 k0_t18 (BitVec.ofNat 32 r.val)) a + S16.size a ≤ S16384.size a
  k0_t19_ok : k0_t19_loop.OK
  k0_off20_inb : ∀ k0_t19 : Fin k0_t19_loop.trips, ∀ (r : Fin 16), ∀ a, (k0_off20 k0_t19 (BitVec.ofNat 32 r.val)) a + S16.size a ≤ S16384.size a
  k0_t20_ok : k0_t20_loop.OK
  k0_off21_inb : ∀ k0_t20 : Fin k0_t20_loop.trips, ∀ (r : Fin 16), ∀ a, (k0_off21 k0_t20 (BitVec.ofNat 32 r.val)) a + S16.size a ≤ S16384.size a
  k0_t21_ok : k0_t21_loop.OK
  k0_off22_inb : ∀ k0_t21 : Fin k0_t21_loop.trips, ∀ (r : Fin 16), ∀ a, (k0_off22 k0_t21 (BitVec.ofNat 32 r.val)) a + S16.size a ≤ S16384.size a
  k0_t22_ok : k0_t22_loop.OK
  k0_off23_inb : ∀ k0_t22 : Fin k0_t22_loop.trips, ∀ (r : Fin 16), ∀ a, (k0_off23 k0_t22 (BitVec.ofNat 32 r.val)) a + S16.size a ≤ S16384.size a
  k0_t23_ok : k0_t23_loop.OK
  k0_off24_inb : ∀ k0_t23 : Fin k0_t23_loop.trips, ∀ (r : Fin 16), ∀ a, (k0_off24 k0_t23 (BitVec.ofNat 32 r.val)) a + S16.size a ≤ S16384.size a
  k0_t24_ok : k0_t24_loop.OK
  k0_off25_inb : ∀ k0_t24 : Fin k0_t24_loop.trips, ∀ (r : Fin 16), ∀ a, (k0_off25 k0_t24 (BitVec.ofNat 32 r.val)) a + S16.size a ≤ S16384.size a
  k0_t25_ok : k0_t25_loop.OK
  k0_off26_inb : ∀ k0_t25 : Fin k0_t25_loop.trips, ∀ (r : Fin 16), ∀ a, (k0_off26 k0_t25 (BitVec.ofNat 32 r.val)) a + S16.size a ≤ S16384.size a
  k0_t26_ok : k0_t26_loop.OK
  k0_off27_inb : ∀ k0_t26 : Fin k0_t26_loop.trips, ∀ (r : Fin 16), ∀ a, (k0_off27 k0_t26 (BitVec.ofNat 32 r.val)) a + S16.size a ≤ S16384.size a
  k0_t27_ok : k0_t27_loop.OK
  k0_off28_inb : ∀ k0_t27 : Fin k0_t27_loop.trips, ∀ (r : Fin 16), ∀ a, (k0_off28 k0_t27 (BitVec.ofNat 32 r.val)) a + S16.size a ≤ S16384.size a
  k0_t28_ok : k0_t28_loop.OK
  k0_off29_inb : ∀ k0_t28 : Fin k0_t28_loop.trips, ∀ (r : Fin 16), ∀ a, (k0_off29 k0_t28 (BitVec.ofNat 32 r.val)) a + S16.size a ≤ S16384.size a
  k0_t29_ok : k0_t29_loop.OK
  k0_off30_inb : ∀ k0_t29 : Fin k0_t29_loop.trips, ∀ (r : Fin 16), ∀ a, (k0_off30 k0_t29 (BitVec.ofNat 32 r.val)) a + S16.size a ≤ S16384.size a
  k0_t30_ok : k0_t30_loop.OK
  k0_off31_inb : ∀ k0_t30 : Fin k0_t30_loop.trips, ∀ (r : Fin 16), ∀ a, (k0_off31 k0_t30 (BitVec.ofNat 32 r.val)) a + S16.size a ≤ S16384.size a
  k0_t31_ok : k0_t31_loop.OK
  k0_off32_inb : ∀ k0_t31 : Fin k0_t31_loop.trips, ∀ (r : Fin 16), ∀ a, (k0_off32 k0_t31 (BitVec.ofNat 32 r.val)) a + S16.size a ≤ S16384.size a
  k0_t32_ok : k0_t32_loop.OK
  k0_off33_inb : ∀ k0_t32 : Fin k0_t32_loop.trips, ∀ (r : Fin 16), ∀ a, (k0_off33 k0_t32 (BitVec.ofNat 32 r.val)) a + S16.size a ≤ S16384.size a
  k0_t33_ok : k0_t33_loop.OK
  k0_off34_inb : ∀ k0_t33 : Fin k0_t33_loop.trips, ∀ (r : Fin 16), ∀ a, (k0_off34 k0_t33 (BitVec.ofNat 32 r.val)) a + S16.size a ≤ S16384.size a
  k0_off35_inb : ∀ i : grid0.Coords, ∀ a, (k0_off35 i) a + S1x65536.size a ≤ S32x65536.size a
  hstage1_0 : ∀ j, (stage1_0 j).IsWhole
  hstage1_1 : ∀ j, (stage1_1 j).IsWhole

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scoped0 : DmaSems sig S_ := SemArray.consecutive 3 S_ hcc0_scoped0

abbrev win1_0 : Pipeline.Window sig grid1 :=
  Pipeline.Window.whole (Memref.whole main_v0) false false (stage1_0 0) (sem1_0 0) (Memref.isWhole_whole _) (hstage1_0 0)

abbrev win1_1 : Pipeline.Window sig grid1 :=
  Pipeline.Window.whole (Memref.whole main_v1) true false (stage1_1 0) (sem1_1 0) (Memref.isWhole_whole _) (hstage1_1 0)

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16777216 : Shape := ⟨1, ![16777216]⟩
abbrev S_ : Shape := ⟨0, ![]⟩
abbrev S65536 : Shape := ⟨1, ![65536]⟩
abbrev S16777216x1 : Shape := ⟨2, ![16777216, 1]⟩

abbrev nBuf : Space → Nat
  | .hbm => 18
  | .vmem => 0
  | .smem => 0
  | _ => 0

abbrev bufTy : (tb : Table) → Fin (tcTables nBuf tb) → BufTy
  | .hbm, ⟨0, _⟩ => ⟨S16777216, .i32⟩
  | .hbm, ⟨1, _⟩ => ⟨S_, .i32⟩
  | .hbm, ⟨2, _⟩ => ⟨S65536, .i32⟩
  | .hbm, ⟨3, _⟩ => ⟨S_, .i32⟩
  | .hbm, ⟨4, _⟩ => ⟨S_, .i32⟩
  | .hbm, ⟨5, _⟩ => ⟨S16777216, .i32⟩
  | .hbm, ⟨6, _⟩ => ⟨S16777216, .i32⟩
  | .hbm, ⟨7, _⟩ => ⟨S_, .i32⟩
  | .hbm, ⟨8, _⟩ => ⟨S16777216, .i32⟩
  | .hbm, ⟨9, _⟩ => ⟨S16777216, .i1⟩
  | .hbm, ⟨10, _⟩ => ⟨S_, .i32⟩
  | .hbm, ⟨11, _⟩ => ⟨S16777216, .i32⟩
  | .hbm, ⟨12, _⟩ => ⟨S16777216, .i32⟩
  | .hbm, ⟨13, _⟩ => ⟨S16777216, .i32⟩
  | .hbm, ⟨14, _⟩ => ⟨S16777216x1, .i32⟩
  | .hbm, ⟨15, _⟩ => ⟨S_, .i32⟩
  | .hbm, ⟨16, _⟩ => ⟨S16777216, .i32⟩
  | .hbm, ⟨17, _⟩ => ⟨S65536, .i32⟩
  | _, _ => ⟨S16777216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_c_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_3 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  scatter_S65536_S16777216x1_S16777216_n_0_0_1_wf : ScatterDims.WF S65536 S16777216x1 S16777216 [] [0] [0] 1

variable [Facts₀]

def scatter_S65536_S16777216x1_S16777216_n_0_0_1 : ScatterDims S65536 S16777216x1 S16777216 where
  updateWindowDims := []
  insertedWindowDims := [0]
  scatterDimsToOperandDims := [0]
  indexVectorDim := 1
  wf := scatter_S65536_S16777216x1_S16777216_n_0_0_1_wf

class Facts : Prop extends Facts₀ where

variable [Facts]
-- ==== Proof.PreRange.lean ====
/-
  The input's range, from the stated domain of the inputs.

  The domain function compares every word of the input, read as a signed number, with 0 from below and with 65535 from
  above, joins the two bits, and folds the conjunction over all positions. When the result is the bit 1, every position's
  two comparisons hold, and a 32-bit word whose signed reading lies between 0 and 65535 has an unsigned reading below 65536.
-/
import proofs.«203723_g38474317038175_cont_8to1_b_298_28_alg».proof.Pre_input_domain
import proofs.«203723_g38474317038175_cont_8to1_b_298_28_alg».proof.Proof.Gen.Pre_input_domain
import Idealize.ShloMosaic.Lib.ReduceAll
import Idealize.ShloMosaic.Lib.Affine
import Idealize.ShloMosaic.Lib.ValueIdx

namespace Cert.Hist.Pre

open Idealize.ShloMosaic

/-- A 32-bit word whose signed reading is between 0 and 65535 reads, unsigned, below 65536. -/
theorem toNat_lt_of_signed (v : BitVec 32) (h0 : (0#32 : BitVec 32).toInt ≤ v.toInt)
    (h1 : v.toInt ≤ (65535#32 : BitVec 32).toInt) : v.toNat < 65536 := by
  have e0 : (0#32 : BitVec 32).toInt = 0 := by decide
  have e1 : (65535#32 : BitVec 32).toInt = 65535 := by decide
  rw [e0] at h0
  rw [e1] at h1
  have hv := BitVec.toInt_eq_toNat_cond v
  have hlt := v.isLt
  split at hv <;> omega

/-- The signed reading of such a word is its unsigned reading. -/
theorem toInt_eq_toNat_of_lt (v : BitVec 32) (h : v.toNat < 65536) : v.toInt = (v.toNat : ℤ) := by
  have hv := BitVec.toInt_eq_toNat_cond v
  split at hv <;> omega

/-- When the domain function gives the bit 1, every word of the input reads below 65536. -/
theorem in_range {F : FTy → Type} [FloatOps F] [Cert.Pre_input_domain.Facts]
    (x : IVec Cert.Pre_input_domain.S16777216 32)
    (h : Cert.Pre_input_domain.fn (F := F) x = fun _ => 1#1) : ∀ i, (x i).toNat < 65536 := by
  intro i
  have h0 := congrFun h ValueIdx.ix0
  dsimp only [Cert.Pre_input_domain.fn] at h0
  haveI : Subsingleton Cert.Pre_input_domain.S_.Idx := ⟨fun a b => funext fun d => d.elim0⟩
  have h1 := Host.reduce_andi_all _ _ _ _ _ h0 i
  have h2 : IntOp.andi (IntOp.cmpi .sge (x i) 0#32) (IntOp.cmpi .sle (x i) 65535#32) = 1#1 := h1
  obtain ⟨ha, hb⟩ := IntOp.andi_eq_one.1 h2
  exact toNat_lt_of_signed _ (IntOp.cmpi_sge.1 ha) (IntOp.cmpi_sle.1 hb)

end Cert.Hist.Pre
-- ==== Proof.Spec.lean ====
/-
  Counting for a histogram: how many positions of a stretch of the input hold a given bin, as a natural number.
  A stretch splits into its parts, so the counts over consecutive stretches of equal length add up to the count
  over their union. The 32-bit results are these numbers reduced modulo 2^32.
-/
import Idealize.ShloMosaic.PureOps.Ideal
import Idealize.ShloMosaic.Lib.ValueIdx
import Mathlib.Algebra.BigOperators.Fin

namespace Cert.Hist

open Idealize.ShloMosaic

abbrev SX : Shape := ⟨1, ![16777216]⟩
abbrev SH : Shape := ⟨1, ![65536]⟩
abbrev SP : Shape := ⟨2, ![32, 65536]⟩

/-- How many of the `n` positions `lo, lo+1, …, lo+n-1` hold the bin `j`: one position at a time. -/
def cntN (x : ℕ → ℕ) (lo : ℕ) : ℕ → ℕ → ℕ
  | 0, _ => 0
  | n + 1, j => cntN x lo n j + (if x (lo + n) = j then 1 else 0)

theorem cntN_zero (x : ℕ → ℕ) (lo j : ℕ) : cntN x lo 0 j = 0 := rfl

theorem cntN_succ (x : ℕ → ℕ) (lo n j : ℕ) :
    cntN x lo (n + 1) j = cntN x lo n j + (if x (lo + n) = j then 1 else 0) := rfl

/-- A stretch of `n + n'` positions is its first `n` and the `n'` after them. -/
theorem cntN_add (x : ℕ → ℕ) (lo n n' j : ℕ) : cntN x lo (n + n') j = cntN x lo n j + cntN x (lo + n) n' j := by
  induction n' with
  | zero => rw [Nat.add_zero, cntN_zero, Nat.add_zero]
  | succ k ih =>
    rw [← Nat.add_assoc, cntN_succ, cntN_succ, ih, Nat.add_assoc lo n k, Nat.add_assoc]

/-- The counts over `t` consecutive stretches of `n` positions add up to the count over the `t * n` positions. -/
theorem cntN_stretches (x : ℕ → ℕ) (n j : ℕ) (t : ℕ) :
    (∑ w ∈ Finset.range t, cntN x (w * n) n j) = cntN x 0 (t * n) j := by
  induction t with
  | zero => rw [Finset.range_zero, Finset.sum_empty, Nat.zero_mul, cntN_zero]
  | succ t ih =>
    rw [Finset.sum_range_succ, ih, Nat.succ_mul, cntN_add, Nat.zero_add]

/-- The input at a flat position, as a number (0 past the end). -/
def flat (x : IVec SX 32) (p : ℕ) : ℕ := if h : p < 16777216 then (x (ValueIdx.ix1 ⟨p, h⟩)).toNat else 0

/-- The histogram of the whole input: bin `j` counts the positions holding `j`, modulo 2^32. -/
def total (x : IVec SX 32) : IVec SH 32 := fun j => BitVec.ofNat 32 (cntN (flat x) 0 16777216 (j 0).val)

/-- The histogram of the `w`-th stretch of 524288 positions. -/
def tile (x : IVec SX 32) (w : ℕ) : IVec SH 32 := fun j => BitVec.ofNat 32 (cntN (flat x) (w * 524288) 524288 (j 0).val)

theorem total_eq_sum_tiles (x : IVec SX 32) (j : SH.Idx) :
    total x j = BitVec.ofNat 32 (∑ w ∈ Finset.range 32, cntN (flat x) (w * 524288) 524288 (j 0).val) := by
  unfold total; rw [cntN_stretches]

end Cert.Hist
-- ==== Proof.ScatterCount.lean ====
/-
  A scatter of ones onto zeros counts.

  The adding scatter is a left fold over the update positions in row-major order; each step adds the update's word to
  the element its index word names, or changes nothing when the index word names no element. With every update the
  word 1 and every element starting at the word 0, the element `i` ends at the word of the number of update positions
  that name it. For one index word per update position and a one-axis operand, a position names the element whose number
  is its index word read signed; so when the index words read as the numbers `v 0, …, v (N-1)`, element `i` holds the
  word of the number of positions `k < N` with `v k = i`.
-/
import proofs.«203723_g38474317038175_cont_8to1_b_298_28_alg».proof.Proof.Spec

namespace Cert.Hist.Scatter

open Idealize.ShloMosaic

/-- The dimension numbers of a scatter of `N` scalar updates into a one-axis operand of `M` elements, one index word
    per update: no window axis, the operand's axis inserted and named by the index vector's one component, the index
    vector along the second axis of the `N × 1` index array. -/
def dims (N M : ℕ) (wf : ScatterDims.WF ⟨1, ![M]⟩ ⟨2, ![N, 1]⟩ ⟨1, ![N]⟩ [] [0] [0] 1) :
    ScatterDims ⟨1, ![M]⟩ ⟨2, ![N, 1]⟩ ⟨1, ![N]⟩ where
  updateWindowDims := []
  insertedWindowDims := [0]
  scatterDimsToOperandDims := [0]
  indexVectorDim := 1
  wf := wf

variable {N M w : ℕ} (wf : ScatterDims.WF ⟨1, ![M]⟩ ⟨2, ![N, 1]⟩ ⟨1, ![N]⟩ [] [0] [0] 1)

/-- No update has a window coordinate: the operand's one axis is inserted. -/
theorem window_zero (j : (⟨1, ![N]⟩ : Shape).Idx) (a : Fin 1) : (dims N M wf).window j a = 0 := by
  unfold ScatterDims.window
  rw [dif_neg]
  show a ∉ ([] : List (Fin 1))
  exact List.not_mem_nil

/-- The index word of update position `j` sits at `(j, 0)` of the index array. -/
theorem siIdx_eq (j : (⟨1, ![N]⟩ : Shape).Idx) (c) : (dims N M wf).siIdx j c = ValueIdx.ix2 (j 0) (0 : Fin 1) := by
  funext b
  match b with
  | ⟨0, _⟩ => rfl
  | ⟨1, _⟩ =>
    apply Fin.ext
    have := c.isLt
    simp [ScatterDims.siIdx, dims] at this ⊢

/-- The start of update position `j` on the operand's axis is its index word read signed. -/
theorem start_eq (j : (⟨1, ![N]⟩ : Shape).Idx) (idx : IVec ⟨2, ![N, 1]⟩ w) (a : Fin 1) :
    (dims N M wf).start j idx a = (idx (ValueIdx.ix2 (j 0) (0 : Fin 1))).toInt := by
  unfold ScatterDims.start
  rw [dif_pos (by fin_cases a; exact List.mem_singleton_self _), siIdx_eq]
  rfl

/-- An update lands on bin `i` exactly when its index word, read signed, is the bin's number. -/
theorem resultIdx?_eq_some_iff (j : (⟨1, ![N]⟩ : Shape).Idx) (idx : IVec ⟨2, ![N, 1]⟩ w) (i : (⟨1, ![M]⟩ : Shape).Idx) :
    (dims N M wf).resultIdx? j idx = some i ↔ (idx (ValueIdx.ix2 (j 0) (0 : Fin 1))).toInt = ((i 0).val : ℤ) := by
  have key : ∀ a : Fin 1, (dims N M wf).start j idx a + ((dims N M wf).window j a : ℤ)
      = (idx (ValueIdx.ix2 (j 0) (0 : Fin 1))).toInt := by
    intro a
    rw [start_eq, window_zero]
    simp
  unfold ScatterDims.resultIdx?
  constructor
  · intro h
    split at h
    · rename_i hh
      have h' := congrFun (Option.some.inj h) 0
      have h0 := hh 0
      have hv := congrArg Fin.val h'
      simp only [] at hv
      rw [key 0] at h0
      have : ((dims N M wf).start j idx 0 + ((dims N M wf).window j 0 : ℤ)).toNat = (i 0).val := hv
      rw [key 0] at this
      omega
    · exact absurd h (by simp)
  · intro h
    have hi : (i 0).val < M := (i 0).isLt
    have hall : ∀ a : Fin 1, 0 ≤ (dims N M wf).start j idx a + ((dims N M wf).window j a : ℤ)
        ∧ (dims N M wf).start j idx a + ((dims N M wf).window j a : ℤ) < ((⟨1, ![M]⟩ : Shape).size a : ℤ) := by
      intro a
      rw [key a, h]
      fin_cases a
      constructor
      · omega
      · show ((i 0).val : ℤ) < (M : ℤ)
        omega
    rw [dif_pos hall]
    congr 1
    funext a
    fin_cases a
    apply Fin.ext
    show ((dims N M wf).start j idx 0 + ((dims N M wf).window j 0 : ℤ)).toNat = (i 0).val
    rw [key 0, h]
    simp

/-- A left fold of point updates that each add one to the element they name (or change nothing where they name none):
    an element that starts at the word of `a` ends at the word of `a` plus the number of steps naming it. -/
theorem foldl_point_add {ι κ : Type} [DecidableEq κ] (step : (κ → BitVec 32) → ι → (κ → BitVec 32)) (g : ι → Option κ)
    (hsome : ∀ r n i, g n = some i → step r n = fun i' => if i' = i then IntOp.addi (r i) 1#32 else r i')
    (hnone : ∀ r n, g n = none → step r n = r) (L : List ι) (i : κ) :
    ∀ (a : ℕ) (r : κ → BitVec 32), r i = BitVec.ofNat 32 a →
      L.foldl step r i = BitVec.ofNat 32 (a + L.countP (fun n => decide (g n = some i))) := by
  induction L with
  | nil => intro a r hr; simpa using hr
  | cons n L ih =>
    intro a r hr
    rw [List.foldl_cons, List.countP_cons]
    cases hg : g n with
    | none =>
      rw [hnone r n hg, ih a r hr]
      simp
    | some i0 =>
      rw [hsome r n i0 hg]
      by_cases hi : i = i0
      · subst hi
        rw [ih (a + 1) _ (by
          show (if i = i then IntOp.addi (r i) 1#32 else r i) = _
          rw [if_pos rfl, hr]
          exact (BitVec.ofNat_add a 1).symm)]
        simp
        congr 1
        omega
      · rw [ih a _ (by
          show (if i = i0 then IntOp.addi (r i0) 1#32 else r i) = _
          rw [if_neg hi, hr])]
        have : ¬ (some i0 = some i) := fun h => hi (Option.some.inj h).symm
        simp [this]

/-- The adding scatter of ones onto zeros, read at an element: the word of the number of update positions landing on it. -/
theorem scatter_add_ones_apply {s si u : Shape} (d : ScatterDims s si u) (idx : IVec si w) (z : s.Idx → BitVec 32)
    (o : u.Idx → BitVec 32) (hz : ∀ i, z i = 0#32) (ho : ∀ k, o k = 1#32) (i : s.Idx) :
    Host.scatter d IntOp.addi z idx o i
      = BitVec.ofNat 32 ((List.finRange u.numel).countP
          (fun n => decide (d.resultIdx? (u.rowMajor.symm n) idx = some i))) := by
  unfold Host.scatter
  rw [foldl_point_add (g := fun n => d.resultIdx? (u.rowMajor.symm n) idx) (a := 0)]
  · rw [Nat.zero_add]
  · intro r n i0 h
    simp only [h, ho]
  · intro r n h
    simp only [h]
  · exact hz i

/-- Counting over the positions `0 … K-1` in order is the count one position at a time. -/
theorem countP_finRange (v : ℕ → ℕ) (b : ℕ) (K : ℕ) :
    (List.finRange K).countP (fun n => decide (v n.val = b)) = cntN v 0 K b := by
  induction K with
  | zero => simp [cntN]
  | succ K ih =>
    rw [List.finRange_succ_last, List.countP_append, List.countP_map]
    show (List.finRange K).countP (fun n => decide (v n.val = b)) + _ = cntN v 0 K b + _
    rw [ih]
    simp

/-- A one-axis shape has as many elements as its extent. -/
theorem numel_one (K : ℕ) : (⟨1, ![K]⟩ : Shape).numel = K := by
  simp [Shape.numel]

/-- The scatter of ones onto zeros at index words that read, signed, as the numbers `v 0, …, v (N-1)`: bin `i` holds the
    word of the number of positions holding `i`. -/
theorem scatter_count (idx : IVec ⟨2, ![N, 1]⟩ w) (z : (⟨1, ![M]⟩ : Shape).Idx → BitVec 32)
    (o : (⟨1, ![N]⟩ : Shape).Idx → BitVec 32) (hz : ∀ i, z i = 0#32) (ho : ∀ k, o k = 1#32) (v : ℕ → ℕ)
    (hv : ∀ a : Fin N, (idx (ValueIdx.ix2 a (0 : Fin 1))).toInt = (v a.val : ℤ)) (i : (⟨1, ![M]⟩ : Shape).Idx) :
    Host.scatter (dims N M wf) IntOp.addi z idx o i = BitVec.ofNat 32 (cntN v 0 N (i 0).val) := by
  rw [scatter_add_ones_apply _ _ _ _ hz ho]
  congr 1
  refine Eq.trans ?_ ((countP_finRange v (i 0).val _).trans
    (congrArg (fun K => cntN v 0 K (i 0).val) (numel_one N)))
  apply List.countP_congr
  intro n _
  simp only [decide_eq_true_eq]
  have hn : (((⟨1, ![N]⟩ : Shape).rowMajor.symm n) 0).val = n.val := by
    have := Shape.rowMajor_val_one ((⟨1, ![N]⟩ : Shape).rowMajor.symm n)
    rw [Equiv.apply_symm_apply] at this
    exact this.symm
  have h2 : (idx (ValueIdx.ix2 (n0 := N) (((⟨1, ![N]⟩ : Shape).rowMajor.symm n) 0) (0 : Fin 1))).toInt = (v n.val : ℤ) :=
    (hv _).trans (congrArg (fun k : ℕ => (v k : ℤ)) hn)
  rw [resultIdx?_eq_some_iff]
  constructor
  · intro h
    exact Int.natCast_inj.1 (h2.symm.trans h)
  · intro h
    exact h2.trans (congrArg (fun k : ℕ => (k : ℤ)) h)

end Cert.Hist.Scatter
-- ==== Proof.RefValue.lean ====
/-
  The reference's result is the histogram of the whole input.

  On an input whose words all read below 65536 the clip at zero (the signed maximum with 0) and the wrap of negatives
  (adding 65536 where the word is negative) change nothing, so the index words of the scatter are the input's words;
  the scatter adds a one at the bin each word names, starting from zeros, and so leaves at bin `j` the number of
  positions holding `j`, reduced modulo 2^32.
-/
import proofs.«203723_g38474317038175_cont_8to1_b_298_28_alg».proof.Proof.Gen.ReferenceIdeal.Run
import proofs.«203723_g38474317038175_cont_8to1_b_298_28_alg».proof.Proof.Gen.ReferenceIdeal.Read
import proofs.«203723_g38474317038175_cont_8to1_b_298_28_alg».proof.Proof.Gen.Pre_input_domain
import proofs.«203723_g38474317038175_cont_8to1_b_298_28_alg».proof.Proof.Spec
import proofs.«203723_g38474317038175_cont_8to1_b_298_28_alg».proof.Proof.PreRange
import proofs.«203723_g38474317038175_cont_8to1_b_298_28_alg».proof.Proof.ScatterCount

noncomputable section

namespace Cert.ReferenceIdeal.RefValue

open Idealize.ShloMosaic Idealize.ShloMosaic.TcCoe Idealize.SL.Sem
open Cert.ReferenceIdeal Cert.ReferenceIdeal.Gen Cert.ReferenceIdeal.Read

variable {F : FTy → Type} [FloatOps F]

/-- A word that reads below 65536 is not negative as a signed number. -/
theorem slt_zero_false (v : BitVec 32) (h : v.toNat < 65536) : v.slt 0#32 = false := by
  have hv := Cert.Hist.Pre.toInt_eq_toNat_of_lt v h
  rw [BitVec.slt, decide_eq_false_iff_not, hv]
  simp

/-- On words below 65536 the clip at zero and the wrap of negatives are the identity. -/
theorem val_main_v6_eq (x : IVec S16777216 32) (hx : ∀ i, (x i).toNat < 65536) : val_main_v6 (F := F) x = x := by
  funext i
  have hmax : val_main_v1 (F := F) x i = x i := by
    rw [val_main_v1_apply]
    show (if (x i).slt 0#32 then 0#32 else x i) = x i
    rw [slt_zero_false _ (hx i)]
    rfl
  rw [val_main_v6_apply, val_main_v3_apply, hmax]
  show Scalar.select (BitVec.ofBool ((x i).slt 0#32)) _ (x i) = x i
  rw [slt_zero_false _ (hx i)]
  rfl

/-- The reference's result term is the histogram of the whole input, when every word of the input reads below 65536. -/
theorem result_eq (x : IVec S16777216 32) (hx : ∀ i, (x i).toNat < 65536) :
    val_main_v9 (F := F) x = Cert.Hist.total x := by
  funext i
  show _ = BitVec.ofNat 32 (Cert.Hist.cntN (Cert.Hist.flat x) 0 16777216 (i 0).val)
  refine Cert.Hist.Scatter.scatter_count (N := 16777216) (M := 65536)
    Facts₀.scatter_S65536_S16777216x1_S16777216_n_0_0_1_wf (val_main_v7 (F := F) x) (val_main_v0 (F := F))
    (val_main_v8 (F := F)) (fun _ => rfl) (fun _ => rfl) (Cert.Hist.flat x) ?_ i
  intro a
  rw [val_main_v7_apply, val_main_v6_eq x hx]
  have hidx : idx_main_v7 (ValueIdx.ix2 a (0 : Fin 1)) = ValueIdx.ix1 a := by
    funext b
    match b with
    | ⟨0, _⟩ => rfl
  rw [hidx, Cert.Hist.Pre.toInt_eq_toNat_of_lt _ (hx _)]
  unfold Cert.Hist.flat
  rw [dif_pos a.isLt]

/-- From the stated domain of the inputs (the domain function gives the bit 1 on every device's argument): every word of
    the reference's argument reads below 65536. -/
theorem in_range (m : (ℓ : Loc nD τ sig) → Buf (Elt Ideal) ℓ)
    (hpre : ∀ c : Dev nD,
      Cert.Pre_input_domain.fn (F := Ideal) (m ((c.tc : Thread nD τ).loc main_arg0)) = fun _ => 1#1) :
    ∀ (c : Dev nD) (i : S16777216.Idx), ((m ((c.tc : Thread nD τ).loc main_arg0) : IVec S16777216 32) i).toNat < 65536 :=
  fun c => Cert.Hist.Pre.in_range (F := Ideal) _ (hpre c)

/-- Every weakly fair execution of the reference terminates with its result the histogram of its argument and the
    argument unchanged, from any memory whose argument is in the stated domain. -/
theorem run (m : (ℓ : Loc nD τ sig) → Buf (Elt Ideal) ℓ) (ρ : Dev nD → PrngReg)
    (hpre : ∀ c : Dev nD,
      Cert.Pre_input_domain.fn (F := Ideal) (m ((c.tc : Thread nD τ).loc main_arg0)) = fun _ => 1#1) :
    θ_run (defs (F := Ideal)) (onTc (τ := τ) (main (F := Ideal))) ⟨m, fun _ => 0, ρ⟩ fun r => ∀ c : Dev nD,
      r.2.mem ((c.tc : Thread nD τ).loc main_v9) = Cert.Hist.total (m ((c.tc : Thread nD τ).loc main_arg0))
      ∧ r.2.mem ((c.tc : Thread nD τ).loc main_arg0) = m ((c.tc : Thread nD τ).loc main_arg0) :=
  (θ_run defs _ _).mono
    (fun _ h c => ⟨(h c).1.trans ((val_main_v9_eq _).trans (result_eq _ (in_range m hpre c))), (h c).2⟩)
    (Cert.ReferenceIdeal.Value.run (F := Ideal) m ρ)

end Cert.ReferenceIdeal.RefValue

end
-- ==== Proof.KI.Common.lean ====
/-
  The histogram kernel as the launch theorem of a SparseCore program sees it: the configuration, the ghost state,
  the arrays, and what the handshakes of the one SparseCore call carry.

  Tile `(c, i)` — SparseCore `c` of two, vector subcore `i` of sixteen — is worker `w = 2 i + c`. It reads its
  stretch `[524288 w, 524288 (w + 1))` of the input under a read share of the whole input (the `w`-th token of the
  full share) and owns row `w` of the 32 × 65536 array of partial histograms; it hands both back, the row holding the
  histogram of its stretch. A SparseCore's part of the call is its sixteen tiles' parts.
-/
import proofs.«203723_g38474317038175_cont_8to1_b_298_28_alg».proof.Defs
import proofs.«203723_g38474317038175_cont_8to1_b_298_28_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203723_g38474317038175_cont_8to1_b_298_28_alg».proof.Proof.Gen.KernelIdeal
import proofs.«203723_g38474317038175_cont_8to1_b_298_28_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore call's staging rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The input, the partial histograms, the result, as locations of device `d`. -/
abbrev xLoc (d : Dev nD) : Loc nD τ sig := (SparseCore.T d).loc main_arg0
abbrev pLoc (d : Dev nD) : Loc nD τ sig := (SparseCore.T d).loc main_v0
abbrev rLoc (d : Dev nD) : Loc nD τ sig := (SparseCore.T d).loc main_v1

/-- The input's launch contents as a vector of words. -/
abbrev xOf (d : Dev nD) : IVec Cert.Hist.SX 32 := m (xLoc d)

variable [FloatOps F]

abbrev xV : Memref sig .scVector .hbm S16777216 .i32 := Memref.whole main_arg0_scv
abbrev pV : Memref sig .scVector .hbm S32x65536 .i32 := Memref.whole main_v0_scv

theorem hdiv : 32 ∣ S32x65536.size 0 := ⟨1, rfl⟩
/-- Row `w` of the partial histograms. -/
abbrev row (w : Fin 32) : Rect S32x65536 := Rect.part (s := S32x65536) (a₀ := 0) hdiv w
abbrev rowSet (w : Fin 32) : Finset S32x65536.Idx := ((pV : Memref sig .scVector .hbm S32x65536 .i32).view.slice (row w)).set

/-- The worker number of tile `(c, i)`. -/
def wid (c : Fin 2) (i : Fin 16) : Fin 32 := ⟨i.val * 2 + c.val, by omega⟩

/-- Worker `w`'s read share of the whole input. -/
abbrev xTok (d : Dev nD) (w : Fin 32) : sProp 𝕄 := xLoc d ↦{Transfers.shareTokN fullShare w.val} m (xLoc d)
/-- Row `w` of the partial histograms at the contents `f`. -/
abbrev pRow (d : Dev nD) (w : Fin 32) (f : Buf (Elt F) (pLoc d)) : sProp 𝕄 := pLoc d ↦[rowSet w]{fullShare} f

/-- Row `w` of `f` is the histogram of stretch `w` of the input. -/
def RowDone (d : Dev nD) (w : Fin 32) (f : Buf (Elt F) (pLoc d)) : Prop :=
  ∀ j : Fin 65536, (f : IVec Cert.Hist.SP 32) (ValueIdx.ix2 w j) = Cert.Hist.tile (xOf m d) w.val (ValueIdx.ix1 j)

/-- What a tile is handed and what it hands back. -/
def goT (d : Dev nD) (w : Fin 32) : sProp 𝕄 := iprop(xTok m d w ∗ pRow d w (m (pLoc d)))
def tdT (d : Dev nD) (w : Fin 32) : sProp 𝕄 := iprop(xTok m d w ∗ ∃ f, ⌜RowDone m d w f⌝ ∗ pRow d w f)

/-- The one call: each tile its part, each SparseCore its sixteen tiles' parts. -/
def P : (K (F := F)).Pay (nD := nD) (Val := Elt F) (Name := ℕ) (U := UU) where
  st := fun q d c => match q with | 0 => bigSep Finset.univ fun i : Fin 16 => goT m d (wid (Fin.cast nCore_zero c) i)
  dn := fun q d c => match q with | 0 => bigSep Finset.univ fun i : Fin 16 => tdT m d (wid (Fin.cast nCore_zero c) i)
  go := fun q d c i => match q with | 0 => goT m d (wid (Fin.cast nCore_zero c) (Fin.cast nSub_zero i))
  td := fun q d c i => match q with | 0 => tdT m d (wid (Fin.cast nCore_zero c) (Fin.cast nSub_zero i))
  x := fun _ _ => iprop(emp)

instance goT_storable (d : Dev nD) (w : Fin 32) : BI.Storable (upEmb : UEmb _ 𝕄) (goT m d w) := by
  unfold goT; infer_instance
instance tdT_storable (d : Dev nD) (w : Fin 32) : BI.Storable (upEmb : UEmb _ 𝕄) (tdT m d w) := by
  unfold tdT; infer_instance

instance P_storable : (P (F := F) m).IsStorable where
  st q d c := match q with
    | 0 => (inferInstance : BI.Storable (upEmb : UEmb _ 𝕄) (bigSep Finset.univ fun i : Fin 16 => goT m d (wid (Fin.cast nCore_zero c) i)))
  dn q d c := match q with
    | 0 => (inferInstance : BI.Storable (upEmb : UEmb _ 𝕄) (bigSep Finset.univ fun i : Fin 16 => tdT m d (wid (Fin.cast nCore_zero c) i)))
  go q d c i := match q with
    | 0 => (inferInstance : BI.Storable (upEmb : UEmb _ 𝕄) (goT m d (wid (Fin.cast nCore_zero c) (Fin.cast nSub_zero i))))
  td q d c i := match q with
    | 0 => (inferInstance : BI.Storable (upEmb : UEmb _ 𝕄) (tdT m d (wid (Fin.cast nCore_zero c) (Fin.cast nSub_zero i))))

end Cert.Proof.KI

end
-- ==== Proof.KI.Inv.lean ====
/-
  A tile's thread, scratch and semaphores, and the two loop invariants of its task: the zero-fill of the histogram
  and the counting of one chunk.
-/
import proofs.«203723_g38474317038175_cont_8to1_b_298_28_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The tile's worker number. -/
abbrev wL (L : grid0.Coords) : Fin 32 := wid (Fin.cast bound_zero (L 0)) (Fin.cast bound_one (L 1))

/-- The tile's scratch: the histogram and the three chunk buffers. -/
abbrev hV : Memref sig .scVector .vmem S65536 .i32 := Memref.whole cc0_scratch0
abbrev b0V : Memref sig .scVector .vmem S16384 .i32 := Memref.whole cc0_scratch1
abbrev b1V : Memref sig .scVector .vmem S16384 .i32 := Memref.whole cc0_scratch2
abbrev b2V : Memref sig .scVector .vmem S16384 .i32 := Memref.whole cc0_scratch3

/-- The tile's four DMA semaphores: one per chunk buffer, one for the write-out. -/
abbrev c0cell (d : Dev nD) (c : Fin τ.nSC) (i : Fin τ.nSub) : GSem nD τ sig := (V d c i, .dma cc0_scratch4.sem)
abbrev c1cell (d : Dev nD) (c : Fin τ.nSC) (i : Fin τ.nSub) : GSem nD τ sig := (V d c i, .dma cc0_scratch5.sem)
abbrev c2cell (d : Dev nD) (c : Fin τ.nSC) (i : Fin τ.nSub) : GSem nD τ sig := (V d c i, .dma cc0_scratch6.sem)
abbrev c3cell (d : Dev nD) (c : Fin τ.nSC) (i : Fin τ.nSub) : GSem nD τ sig := (V d c i, .dma cc0_scoped0.sem)

/-- Before trip `k` of the zero-fill the first `128 k` bins are zero. -/
def zinv (d : Dev nD) (L : grid0.Coords) (k : ℕ) (_ : PUnit) : sProp 𝕄 :=
  iprop(∃ f, ⌜∀ j : S65536.Idx, (j 0).val < 128 * k → f j = 0#32⌝ ∗ (hV : Memref sig .scVector .vmem S65536 .i32).view.loc (V d (cV L) (jV L)) ↦{fullShare} f)

/-- Before trip `k` of a chunk's loop the histogram counts the first `n0 + 256 k` positions of the tile's stretch
    (`xs` the input by flat position, `lo` the stretch's start); the chunk's buffer `bV` holds the
    positions `lo + n0`, …, `lo + n0 + 16383`. -/
def cinv (d : Dev nD) (L : grid0.Coords) (xs : ℕ → ℕ) (lo n0 : ℕ) (bV : Memref sig .scVector .vmem S16384 .i32)
    (k : ℕ) (_ : PUnit) : sProp 𝕄 :=
  iprop((∃ h, ⌜∀ j : S65536.Idx, h j = BitVec.ofNat 32 (Cert.Hist.cntN xs lo (n0 + 256 * k) (j 0).val)⌝
      ∗ (hV : Memref sig .scVector .vmem S65536 .i32).view.loc (V d (cV L) (jV L)) ↦{fullShare} h)
    ∗ (∃ b : Buf (Elt F) (bV.view.loc (V d (cV L) (jV L))),
        ⌜∀ (p : ℕ) (hp : p < 16384), (bV.view.read (Elt F) b (ValueIdx.ix1 ⟨p, hp⟩)).toNat = xs (lo + n0 + p)⌝
      ∗ bV.view.loc (V d (cV L) (jV L)) ↦{fullShare} b))

end Cert.Proof.KI

end
-- ==== Proof.KI.Rows.lean ====
/-
  The rows of the 32 × 65536 array of partial histograms, and the read tokens of the input.

  Worker `w = 2 i + c` writes its histogram to row `w`: the rectangle the write-out's destination names is row `w`,
  and an element `j` of the destination is the element `(w, j)` of the array. The thirty-two rows are pairwise
  disjoint and cover the array, so the array's points-to is the rows' points-tos, and row-wise contents glue to one
  array's contents. The full share of the input splits into thirty-two read tokens and a remainder. A family over
  the workers regroups by SparseCore and subcore.
-/
import proofs.«203723_g38474317038175_cont_8to1_b_298_28_alg».proof.Proof.KI.Inv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-! ## The write-out's destination is the worker's row -/

/-- The write-out's destination: the row of the partial histograms at the tile's offset, one axis dropped. -/
abbrev pRowK (L : grid0.Coords) : Memref sig .scVector .hbm S65536 .i32 :=
  ((pV : Memref sig .scVector .hbm S32x65536 .i32).slice
    (Rect.unit (s := S32x65536) (k0_off35 L) S1x65536.size (k0_off35_inb L)) (fun _ => rfl)).squeeze S65536 squeezes_S1x65536_S65536

omit [FloatOps F] in
theorem rowK_eq (L : grid0.Coords) :
    Rect.unit (s := S32x65536) (k0_off35 L) S1x65536.size (k0_off35_inb L) = row (wL L) := by
  unfold row Rect.part Rect.block
  congr 1 <;> funext a
  · rw [k0_off35_eq]
    match a with
    | 0 =>
      simp [Shape.partIx, Shape.partSize, wid]
      show 2 * (L 1).val + (L 0).val = (L 1).val * 2 + (L 0).val
      omega
    | 1 => simp [Shape.partIx, Shape.partSize]
  · match a with
    | 0 => simp [Shape.partSize]
    | 1 => simp [Shape.partSize]

omit [FloatOps F] in
theorem set_pRowK (L : grid0.Coords) : (pRowK L).view.set = rowSet (wL L) := by
  show (((pV : Memref sig .scVector .hbm S32x65536 .i32).view.slice
      (Rect.unit (s := S32x65536) (k0_off35 L) S1x65536.size (k0_off35_inb L))).reshape S65536 squeezes_S1x65536_S65536.numel_eq).set
    = ((pV : Memref sig .scVector .hbm S32x65536 .i32).view.slice (row (wL L))).set
  rw [View.set_reshape]
  exact rowK_eq L ▸ rfl

omit [FloatOps F] in
theorem pts_pRowK (d : Dev nD) (L : grid0.Coords) (f : Buf (Elt F) (pLoc d)) :
    ((pRowK L).view.loc (V d (cV L) (jV L)) ↦[(pRowK L).view.set]{fullShare} f : sProp 𝕄)
      = pLoc d ↦[rowSet (wL L)]{fullShare} f := by
  rw [set_pRowK]

omit [FloatOps F] in
/-- Element `j` of the destination is element `(w, j)` of the array, `w` the tile's worker number. -/
theorem emb_pRowK (L : grid0.Coords) (j : Fin 65536) :
    (pRowK L).view.emb (ValueIdx.ix1 j) = (ValueIdx.ix2 (wL L) j : S32x65536.Idx) := by
  have hre : Shape.reshapeEquiv squeezes_S1x65536_S65536.numel_eq (ValueIdx.ix1 j : S65536.Idx)
      = (ValueIdx.ix2 (0 : Fin 1) j : S1x65536.Idx) :=
    Shape.reshapeEquiv_eq_of_rowMajor _ (by rw [Shape.rowMajor_val_two, Shape.rowMajor_val_one]; simp)
  funext a
  apply Fin.ext
  show (k0_off35 L a) + 1 * ((Shape.reshapeEquiv squeezes_S1x65536_S65536.numel_eq (ValueIdx.ix1 j : S65536.Idx)) a).val = _
  rw [hre, k0_off35_eq]
  match a with
  | ⟨0, _⟩ =>
    show 2 * (L 1).val + (L 0).val + 1 * 0 = (L 1).val * 2 + (L 0).val
    omega
  | ⟨1, _⟩ =>
    show 0 + 1 * j.val = j.val
    omega

omit [FloatOps F] in
/-- A histogram of the tile's stretch written through the destination leaves the worker's row done. -/
theorem rowDone_of_write (d : Dev nD) (L : grid0.Coords) (f : Buf (Elt F) (pLoc d)) (h : S65536.Idx → BitVec 32)
    (hh : ∀ j : Fin 65536, h (ValueIdx.ix1 j) = Cert.Hist.tile (xOf m d) (wL L).val (ValueIdx.ix1 j)) :
    RowDone m d (wL L) ((pRowK L).view.write (Elt F) f h Finset.univ) := by
  intro j
  rw [← emb_pRowK L j]
  refine ((pRowK L).view.write_emb_of_mem (Val := Elt F) f h (Finset.mem_univ _)).trans ?_
  rw [cast_eq]
  exact hh j

omit [FloatOps F] in
/-- The same for the landed write-out as a list of one whole piece whose payload is the tile's histogram read back:
    the histogram counts the tile's whole stretch, so the worker's row is done. -/
theorem rowDone_of_writes (d : Dev nD) (L : grid0.Coords) (f : Buf (Elt F) (pLoc d))
    (hc : Buf (Elt F) ((hV : Memref sig .scVector .vmem S65536 .i32).view.loc (V d (cV L) (jV L))))
    (g : S65536.Idx → BitVec 32)
    (hg : g = ReadAs.same.apply ((hV : Memref sig .scVector .vmem S65536 .i32).view.read (Elt F) hc))
    (hh : ∀ j : S65536.Idx, hc j = BitVec.ofNat 32
      (Cert.Hist.cntN (Cert.Hist.flat (xOf m d)) ((wL L).val * 524288) 524288 (j 0).val)) :
    RowDone m d (wL L) ((pRowK L).view.writes (Elt F) f [⟨Rect.whole S65536, g⟩]) := by
  intro j
  have hw : (Rect.whole S65536).emb (ValueIdx.ix1 j) = (ValueIdx.ix1 j : S65536.Idx) := by
    funext a
    apply Fin.ext
    rw [Rect.emb_apply]
    fin_cases a
    show 0 + 1 * j.val = j.val
    omega
  have hemb : ((pRowK L).view.slice (Rect.whole S65536)).emb (ValueIdx.ix1 j) = (ValueIdx.ix2 (wL L) j : S32x65536.Idx) := by
    show (pRowK L).view.emb ((Rect.whole S65536).emb (ValueIdx.ix1 j)) = _
    rw [hw, emb_pRowK]
  rw [← hemb]
  refine (((pRowK L).view.slice (Rect.whole S65536)).write_emb_of_mem (Val := Elt F) f g (Finset.mem_univ _)).trans ?_
  rw [cast_eq, hg]
  exact hh (ValueIdx.ix1 j)

/-! ## The rows tile the array -/

omit [FloatOps F] in
theorem rowSet_eq (w : Fin 32) : rowSet w = (row w).set := by
  show ((View.whole (main_v0_scv : Ref sig .scVector)).slice (row w)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
omit [FloatOps F] in
theorem rows_cover : (Finset.univ : Finset (Fin 32)).biUnion rowSet = Finset.univ :=
  (Finset.biUnion_congr rfl fun i _ => rowSet_eq i).trans (Rect.biUnion_part hdiv)

omit [FloatOps F] in
theorem pPts_rows (d : Dev nD) (f : Buf (Elt F) (pLoc d)) :
    (pLoc d ↦{fullShare} f : sProp 𝕄) = bigSep Finset.univ fun w : Fin 32 => pRow d w f := by
  rw [← pointsTo_biUnion Finset.univ (ℓ := pLoc d) rowSet rows_disjoint, rows_cover]; try rfl

omit [FloatOps F] in
/-- An index of the array lies in the row of its first coordinate. -/
theorem ix2_mem_rowSet (w : Fin 32) (j : Fin 65536) : (ValueIdx.ix2 w j : S32x65536.Idx) ∈ rowSet w := by
  rw [rowSet_eq]
  unfold row Rect.part Rect.block
  rw [Rect.mem_set_unit]
  intro a
  match a with
  | ⟨0, _⟩ => simp [Shape.partIx, Shape.partSize]
  | ⟨1, _⟩ => simp [Shape.partIx, Shape.partSize]

/-- Rows each done, at contents of their own, glue to one array's contents with every row done. -/
theorem pRows_join (d : Dev nD) :
    (bigSep Finset.univ fun w : Fin 32 => iprop(∃ f, ⌜RowDone m d w f⌝ ∗ pRow d w f))
      ⊢ (iprop(∃ g, ⌜∀ w, RowDone m d w g⌝ ∗ pLoc d ↦{fullShare} g) : sProp 𝕄) := by
  refine (bigSep_exists_pi Finset.univ
    (fun w (f : Buf (Elt F) (pLoc d)) => iprop(⌜RowDone m d w f⌝ ∗ pRow d w f))).trans ?_
  iintro ⟨%fs, H⟩
  ihave H1 := (bigSep_pure_sep Finset.univ (fun w => RowDone m d w (fs w)) (fun w => pRow d w (fs w))) $$ H
  icases H1 with ⟨%hdone, H2⟩
  ihave H' := (pointsTo_biUnion_join Finset.univ rowSet fs (fs 0) rows_disjoint) $$ H2
  icases H' with ⟨%g, %hg, Hg⟩
  rw [rows_cover]
  iexists g
  isplitr
  · ipureintro
    intro w j
    rw [hg w (Finset.mem_univ _) _ (ix2_mem_rowSet w j)]
    exact hdone w (Finset.mem_univ _) j
  · iexact Hg

/-! ## The input's read tokens -/

omit [FloatOps F] in
theorem xToks (d : Dev nD) :
    (xLoc d ↦{fullShare} m (xLoc d) : sProp 𝕄)
      ⊣⊢ iprop((xLoc d ↦{Transfers.shareDrop fullShare 32} m (xLoc d)) ∗ bigSep Finset.univ fun w : Fin 32 => xTok m d w) :=
  Transfers.pointsTo_toks fullShare 32

/-! ## What a landed chunk holds -/

/-- The source of chunk `r` of the tile's stretch: 16384 words of the input at the chunk's offset. -/
abbrev srcK (L : grid0.Coords) (r : Fin 32) : Memref sig .scVector .hbm S16384 .i32 :=
  (xV : Memref sig .scVector .hbm S16777216 .i32).slice
    (Rect.unit (s := S16777216) (k0_off1 L (BitVec.ofNat 32 (16384 * r.val))) S16384.size (k0_off1_inb L r)) (fun _ => rfl)

omit [FloatOps F] in
/-- Word `p` of chunk `r` is the input's word at position `524288 w + 16384 r + p`, `w` the tile's worker number. -/
theorem chunk_read (d : Dev nD) (L : grid0.Coords) (r : Fin 32) (p : ℕ) (hp : p < 16384) :
    ((srcK L r).view.read (Elt F) (m (xLoc d)) (ValueIdx.ix1 ⟨p, hp⟩) : BitVec 32).toNat
      = Cert.Hist.flat (xOf m d) ((wL L).val * 524288 + 16384 * r.val + p) := by
  have hin := k0_off1_inb L r 0
  rw [k0_off1_eq] at hin
  have hw : (wL L).val = (L 1).val * 2 + (L 0).val := rfl
  have hin' : 1048576 * (L 1).val + 524288 * (L 0).val + 16384 * r.val + 16384 ≤ 16777216 := hin
  have hq : (wL L).val * 524288 + 16384 * r.val + p < 16777216 := by omega
  unfold Cert.Hist.flat
  rw [dif_pos hq]
  refine congrArg BitVec.toNat (((srcK L r).view.read_apply (Val := Elt F) (m (xLoc d)) _).trans ((cast_eq _ _).trans ?_))
  refine congrArg (m (xLoc d)) ?_
  funext a
  apply Fin.ext
  match a with
  | ⟨0, _⟩ =>
    show (k0_off1 L (BitVec.ofNat 32 (16384 * r.val))) 0 + 1 * p = (wL L).val * 524288 + 16384 * r.val + p
    rw [k0_off1_eq]
    show 1048576 * (L 1).val + 524288 * (L 0).val + 16384 * r.val + 1 * p = _
    omega

omit [FloatOps F] in
/-- A chunk landed on the first chunk buffer leaves the buffer holding the chunk, whatever it held. -/
theorem chunk_lands0 (d : Dev nD) (L : grid0.Coords) (r : Fin 32) (f0 : Buf (Elt F) ((V d (cV L) (jV L)).loc cc0_scratch1)) :
    (b0V : Memref sig .scVector .vmem S16384 .i32).view.write (Elt F) f0
        (ReadAs.same.apply ((srcK L r).view.read (Elt F) (m (xLoc d)))) Finset.univ
      = (srcK L r).view.read (Elt F) (m (xLoc d)) :=
  View.write_whole_univ _ _ _
omit [FloatOps F] in
/-- The same for the second chunk buffer. -/
theorem chunk_lands1 (d : Dev nD) (L : grid0.Coords) (r : Fin 32) (f0 : Buf (Elt F) ((V d (cV L) (jV L)).loc cc0_scratch2)) :
    (b1V : Memref sig .scVector .vmem S16384 .i32).view.write (Elt F) f0
        (ReadAs.same.apply ((srcK L r).view.read (Elt F) (m (xLoc d)))) Finset.univ
      = (srcK L r).view.read (Elt F) (m (xLoc d)) :=
  View.write_whole_univ _ _ _
omit [FloatOps F] in
/-- The same for the third chunk buffer. -/
theorem chunk_lands2 (d : Dev nD) (L : grid0.Coords) (r : Fin 32) (f0 : Buf (Elt F) ((V d (cV L) (jV L)).loc cc0_scratch3)) :
    (b2V : Memref sig .scVector .vmem S16384 .i32).view.write (Elt F) f0
        (ReadAs.same.apply ((srcK L r).view.read (Elt F) (m (xLoc d)))) Finset.univ
      = (srcK L r).view.read (Elt F) (m (xLoc d)) :=
  View.write_whole_univ _ _ _

omit [FloatOps F] in
/-- Read back through any 16384-word memref on which chunk `r` has landed, word `p` is the input's word at position
    `524288 w + 16384 r + p`. -/
theorem chunk_landed (d : Dev nD) (L : grid0.Coords) (r : Fin 32) (bV : Memref sig .scVector .vmem S16384 .i32)
    (f0 : Buf (Elt F) (bV.view.loc (V d (cV L) (jV L)))) (p : ℕ) (hp : p < 16384) :
    (bV.view.read (Elt F) (bV.view.write (Elt F) f0
        (ReadAs.same.apply ((srcK L r).view.read (Elt F) (m (xLoc d)))) Finset.univ) (ValueIdx.ix1 ⟨p, hp⟩) : BitVec 32).toNat
      = Cert.Hist.flat (xOf m d) ((wL L).val * 524288 + 16384 * r.val + p) := by
  rw [View.read_write_univ]
  exact chunk_read m d L r p hp

/-! ## Workers by SparseCore and subcore -/

/-- Worker numbers are the pairs of a SparseCore and a subcore. -/
def widEquiv : Fin 2 × Fin 16 ≃ Fin 32 where
  toFun p := wid p.1 p.2
  invFun w := (⟨w.val % 2, Nat.mod_lt _ (by omega)⟩, ⟨w.val / 2, by have := w.isLt; omega⟩)
  left_inv p := by
    obtain ⟨c, i⟩ := p
    apply Prod.ext
    · apply Fin.ext; show (i.val * 2 + c.val) % 2 = c.val; have := c.isLt; omega
    · apply Fin.ext; show (i.val * 2 + c.val) / 2 = i.val; have := c.isLt; omega
  right_inv w := by
    apply Fin.ext; show w.val / 2 * 2 + w.val % 2 = w.val; omega

omit [FloatOps F] in
theorem bigSep_wid (Φ : Fin 32 → sProp 𝕄) :
    (bigSep Finset.univ fun c : Fin 2 => bigSep Finset.univ fun i : Fin 16 => Φ (wid c i)) = bigSep Finset.univ Φ := by
  rw [← bigSep_univ_prod (fun p : Fin 2 × Fin 16 => Φ (wid p.1 p.2))]
  exact (bigSep_univ_equiv widEquiv Φ).symm

end Cert.Proof.KI

end
-- ==== Proof.KI.ZeroLoop.lean ====
/-
  The zero-fill of the tile's histogram: one trip of the loop stores eight vectors of sixteen zeros at the offsets
  `128 k + 16 u`, `u = 0 … 7`, so after trip `k` the first `128 (k + 1)` bins are zero.
-/
import proofs.«203723_g38474317038175_cont_8to1_b_298_28_alg».proof.Proof.KI.Inv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid0.Coords)

omit [FloatOps F] in
/-- The offset of the `u`-th store of trip `k`. -/
theorem off2_val (k : Fin k0_t1_loop.trips) (u : Fin 8) (a : Fin 1) :
    k0_off2 k (BitVec.ofNat 32 u.val) a = 128 * k.val + 16 * u.val := by
  rw [k0_off2_eq]
  fin_cases a
  rfl

/-- The `u`-th store of trip `k`: sixteen zeros at the offset `128 k + 16 u`. -/
abbrev zpiece (k : Fin k0_t1_loop.trips) (u : Fin 8) : View.Piece (Elt F) S65536 .i32 :=
  ⟨Rect.unit (s := S65536) (k0_off2 k (BitVec.ofNat 32 u.val)) S16.size (k0_off2_inb k u), k0_pay1⟩

omit [FloatOps F] in
theorem mem_zpiece (k : Fin k0_t1_loop.trips) (u : Fin 8) (j : S65536.Idx) :
    j ∈ (zpiece (F := F) k u).1.set ↔ 128 * k.val + 16 * u.val ≤ (j 0).val ∧ (j 0).val < 128 * k.val + 16 * u.val + 16 := by
  show j ∈ (Rect.unit (s := S65536) (k0_off2 k (BitVec.ofNat 32 u.val)) S16.size (k0_off2_inb k u)).set ↔ _
  rw [Rect.mem_set_unit]
  constructor
  · intro h
    have h0 := h 0
    rw [off2_val] at h0
    exact h0
  · intro h a
    fin_cases a
    rw [off2_val]
    exact h

omit [FloatOps F] in
/-- After the eight stores of trip `k` over contents whose first `128 k` bins are zero, the first `128 (k + 1)` are. -/
theorem zero_after (d : Dev nD) (L : grid0.Coords) (k : Fin k0_t1_loop.trips)
    (f : Buf (Elt F) ((hV : Memref sig .scVector .vmem S65536 .i32).view.loc (V d (cV L) (jV L))))
    (hf : ∀ j : S65536.Idx, (j 0).val < 128 * k.val → f j = 0#32) (j : S65536.Idx) (hj : (j 0).val < 128 * (k.val + 1)) :
    (hV : Memref sig .scVector .vmem S65536 .i32).view.writes (Elt F) f
      [zpiece k 7, zpiece k 6, zpiece k 5, zpiece k 4, zpiece k 3, zpiece k 2, zpiece k 1, zpiece k 0] j = 0#32 := by
  by_cases h : (j 0).val < 128 * k.val
  · refine Eq.trans (b := f j) ?_ (hf j h)
    refine (View.read_writes_apply_of_forall_not_mem (hV : Memref sig .scVector .vmem S65536 .i32).view f j
      [zpiece k 7, zpiece k 6, zpiece k 5, zpiece k 4, zpiece k 3, zpiece k 2, zpiece k 1, zpiece k 0] ?_ :)
    intro p hp
    simp only [List.mem_cons, List.not_mem_nil, or_false] at hp
    rcases hp with rfl | rfl | rfl | rfl | rfl | rfl | rfl | rfl <;> rw [mem_zpiece] <;> omega
  · have hu : ((j 0).val - 128 * k.val) / 16 < 8 := by omega
    refine (View.read_writes_apply_of_pieces (hV : Memref sig .scVector .vmem S65536 .i32).view f (fun _ => (0#32 : BitVec 32))
      [zpiece k 7, zpiece k 6, zpiece k 5, zpiece k 4, zpiece k 3, zpiece k 2, zpiece k 1, zpiece k 0] ?_ j
      ⟨zpiece k ⟨((j 0).val - 128 * k.val) / 16, hu⟩, ?_, ?_⟩ :)
    · intro p hp x
      simp only [List.mem_cons, List.not_mem_nil, or_false] at hp
      rcases hp with rfl | rfl | rfl | rfl | rfl | rfl | rfl | rfl <;> rfl
    · generalize hq : (⟨((j 0).val - 128 * k.val) / 16, hu⟩ : Fin 8) = q
      fin_cases q <;> simp
    · rw [mem_zpiece]
      show 128 * k.val + 16 * (((j 0).val - 128 * k.val) / 16) ≤ (j 0).val ∧ (j 0).val < 128 * k.val + 16 * (((j 0).val - 128 * k.val) / 16) + 16
      omega

/-- One trip of the zero-fill keeps the invariant: from the first `128 k` bins zero to the first `128 (k + 1)`. -/
theorem zero_region (a2 : Memref sig .scVector .hbm S16777216 .i32) (h2 : a2.IsWhole)
    (a3 : Memref sig .scVector .hbm S32x65536 .i32) (h3 : a3.IsWhole)
    (a5 : Memref sig .scVector .vmem S16384 .i32) (h5 : a5.IsWhole) (a6 : Memref sig .scVector .vmem S16384 .i32) (h6 : a6.IsWhole)
    (a7 : Memref sig .scVector .vmem S16384 .i32) (h7 : a7.IsWhole) (s8 s9 s10 r0 : DmaSems sig S_)
    (k : Fin k0_t1_loop.trips) :
    zinv (F := F) d L k.val ⟨⟩ ⊢ wp frame (wpE (defs₀ (F := F)) 𝒱₀ (V d (cV L) (jV L)) none) Set.univ
      (k0_t1_body L a2 h2 a3 h3 hV (Memref.isWhole_whole _) a5 h5 a6 h6 a7 h7 s8 s9 s10 r0 k ⟨⟩)
      (fun _ => zinv (F := F) d L (k.val + 1) ⟨⟩) := by
  unfold zinv
  iintro ⟨%f, %hf, Hh⟩
  unfold k0_t1_body k0_part1
  sl_exec
  sl_step
  iexists _
  isplitr
  · ipureintro
    intro j hj
    exact zero_after d L k f hf j hj
  · iexact Hh

end Cert.Proof.KI

end
-- ==== Proof.LibStoreIdxAdd.lean ====
/-
  The indexed store of a SparseCore tile, read at an index.

  `storeIdx f idxs v mask add h` folds over the lanes of the stored vector, lowest first: a lane whose mask bit
  is set rewrites the ONE element its index vectors name — to the lane's value, or, with `add`, to the element plus
  the lane's value — and leaves every other element alone. So the result at an index `j` is a fold over the lanes
  that touches only `f j`: the lanes naming another index are skipped. That holds for every instance of the float
  operations (nothing about the add is used). At the extended reals, where the add is the sum of a commutative
  monoid, the fold with `add` is the old element plus the SUM of the lanes naming `j` — the order in which the
  lanes are applied, which decides the result of a rounding add, cannot be seen —, and a chain of such stores into
  one buffer leaves the old element plus the sum over the stores and their lanes.
-/
import Idealize.ShloMosaic.PureOps.ShapeOps
import Idealize.ShloMosaic.PureOps.Ideal
import Mathlib.Algebra.BigOperators.Fin

noncomputable section

namespace Idealize.ShloMosaic.StoreIdxAdd

open Idealize.ShloMosaic

section General

variable {F : FTy → Type} [FloatOps F] {s : Shape} {e : EltTy} {d : Fin 1 → Nat}

/-- An index of the base is the one a lane names exactly when they agree, coordinate by coordinate, as numbers. -/
theorem coords_iff (i j : s.Idx) : (∀ a, (j a).val = (i a).val) ↔ i = j :=
  ⟨fun h => funext fun a => Fin.ext (h a).symm, fun h a => by rw [h]⟩

/-- What one lane does to the element at `j`: nothing unless its mask bit is set and it names `j`; then the lane's
    value, added onto the element or put in its place. -/
def laneAt (idxs : Fin s.rank → IVec ⟨1, d⟩ 32) (v : Vec F ⟨1, d⟩ e) (mask : IVec ⟨1, d⟩ 1) (add : Bool)
    (h : ∀ a x, (idxs a x).toNat < s.size a) (j : s.Idx) (acc : Elt F e) (k : Fin (d 0)) : Elt F e :=
  if mask (Shape.ofLane k) = 1 ∧ idxAt idxs h (Shape.ofLane k) = j then
    (if add then Elt.idxAdd e acc (v (Shape.ofLane k)) else v (Shape.ofLane k))
  else acc

/-- The lanes' fold, read at one index, is the fold of what each lane does to that element. -/
theorem foldl_apply (idxs : Fin s.rank → IVec ⟨1, d⟩ 32) (v : Vec F ⟨1, d⟩ e) (mask : IVec ⟨1, d⟩ 1) (add : Bool)
    (h : ∀ a x, (idxs a x).toNat < s.size a) (j : s.Idx) (l : List (Fin (d 0))) (g : Vec F s e) :
    (l.foldl (fun g k =>
        let x := Shape.ofLane k
        if mask x = 1 then
          let i := idxAt idxs h x
          let y := if add then Elt.idxAdd e (g i) (v x) else v x
          fun j => if (∀ a, (j a).val = (i a).val) then y else g j
        else g) g) j
      = l.foldl (laneAt idxs v mask add h j) (g j) := by
  induction l generalizing g with
  | nil => rfl
  | cons k l ih =>
    rw [List.foldl_cons, List.foldl_cons, ih]
    congr 1
    unfold laneAt
    by_cases hm : mask (Shape.ofLane k) = 1
    · simp only [hm, ↓reduceIte, true_and]
      by_cases hj : idxAt idxs h (Shape.ofLane k) = j
      · rw [if_pos ((coords_iff _ _).mpr hj), if_pos hj, hj]
      · rw [if_neg (fun hc => hj ((coords_iff _ _).mp hc)), if_neg hj]
    · simp only [hm, ↓reduceIte, false_and]

/-- **The indexed store at an index**, for every instance of the float operations, any mask, with or without `add`:
    the fold over the lanes, lowest first, of what each does to that one element. -/
theorem storeIdx_apply (f : Vec F s e) (idxs : Fin s.rank → IVec ⟨1, d⟩ 32) (v : Vec F ⟨1, d⟩ e) (mask : IVec ⟨1, d⟩ 1) (add : Bool)
    (h : ∀ a x, (idxs a x).toNat < s.size a) (j : s.Idx) :
    storeIdx f idxs v mask add h j = (List.finRange (d 0)).foldl (laneAt idxs v mask add h j) (f j) := by
  unfold storeIdx
  exact foldl_apply idxs v mask add h j _ f

/-- An element no set lane names keeps its value. -/
theorem storeIdx_apply_of_not_named (f : Vec F s e) (idxs : Fin s.rank → IVec ⟨1, d⟩ 32) (v : Vec F ⟨1, d⟩ e) (mask : IVec ⟨1, d⟩ 1)
    (add : Bool) (h : ∀ a x, (idxs a x).toNat < s.size a) (j : s.Idx)
    (hj : ∀ k : Fin (d 0), mask (Shape.ofLane k) = 1 → idxAt idxs h (Shape.ofLane k) ≠ j) :
    storeIdx f idxs v mask add h j = f j := by
  rw [storeIdx_apply]
  generalize List.finRange (d 0) = l
  induction l with
  | nil => rfl
  | cons k l ih =>
    rw [List.foldl_cons]
    have : laneAt idxs v mask add h j (f j) k = f j := by
      unfold laneAt; rw [if_neg]; rintro ⟨hm, hk⟩; exact hj k hm hk
    rw [this, ih]

end General

/-! ## At the extended reals: the sum of the lanes naming the index -/

section Ideal

variable {s : Shape} {d : Fin 1 → Nat}

/-- What a lane contributes to the element at `j` under `add`: its value if its mask bit is set and it names `j`,
    nothing otherwise. -/
def contrib (idxs : Fin s.rank → IVec ⟨1, d⟩ 32) (v : Vec Ideal ⟨1, d⟩ .f32) (mask : IVec ⟨1, d⟩ 1)
    (h : ∀ a x, (idxs a x).toNat < s.size a) (j : s.Idx) (k : Fin (d 0)) : EReal :=
  if mask (Shape.ofLane k) = 1 ∧ idxAt idxs h (Shape.ofLane k) = j then v (Shape.ofLane k) else 0

theorem laneAt_add (idxs : Fin s.rank → IVec ⟨1, d⟩ 32) (v : Vec Ideal ⟨1, d⟩ .f32) (mask : IVec ⟨1, d⟩ 1)
    (h : ∀ a x, (idxs a x).toNat < s.size a) (j : s.Idx) (acc : EReal) (k : Fin (d 0)) :
    laneAt (F := Ideal) (e := .f32) idxs v mask true h j acc k = acc + contrib idxs v mask h j k := by
  unfold laneAt contrib
  split
  · rfl
  · exact (add_zero acc).symm

theorem foldl_add (w : Fin (d 0) → EReal) (l : List (Fin (d 0))) (a : EReal) :
    l.foldl (fun acc k => acc + w k) a = a + (l.map w).sum := by
  induction l generalizing a with
  | nil => simp
  | cons k l ih => rw [List.foldl_cons, ih, List.map_cons, List.sum_cons, add_assoc]

/-- **The indexed store with `add`, at an index, at the extended reals**: the old element plus the sum of the
    values of the set lanes naming that index. Lanes naming one index are added lowest first; the sum does not say so,
    and need not. -/
theorem storeIdx_add_apply (f : Vec Ideal s .f32) (idxs : Fin s.rank → IVec ⟨1, d⟩ 32) (v : Vec Ideal ⟨1, d⟩ .f32) (mask : IVec ⟨1, d⟩ 1)
    (h : ∀ a x, (idxs a x).toNat < s.size a) (j : s.Idx) :
    (storeIdx f idxs v mask true h j : EReal) = f j + ∑ k : Fin (d 0), contrib idxs v mask h j k := by
  rw [storeIdx_apply]
  have : (laneAt (F := Ideal) (e := .f32) idxs v mask true h j) = fun acc k => acc + contrib idxs v mask h j k :=
    funext fun acc => funext fun k => laneAt_add idxs v mask h j acc k
  rw [this, foldl_add, Fin.sum_univ_def]

/-- The unmasked store: every lane naming the index contributes. -/
theorem storeIdx_add_apply_unmasked (f : Vec Ideal s .f32) (idxs : Fin s.rank → IVec ⟨1, d⟩ 32) (v : Vec Ideal ⟨1, d⟩ .f32)
    (h : ∀ a x, (idxs a x).toNat < s.size a) (j : s.Idx) :
    (storeIdx f idxs v (fun _ => 1#1) true h j : EReal)
      = f j + ∑ k : Fin (d 0), if idxAt idxs h (Shape.ofLane k) = j then v (Shape.ofLane k) else 0 := by
  rw [storeIdx_add_apply]
  congr 1
  refine Finset.sum_congr rfl fun k _ => ?_
  unfold contrib
  simp

/-! ## A chain of stores with `add` into one buffer -/

/-- One store of a chain: its index vectors, its values, its mask, the indices in range. -/
structure Op (s : Shape) (d : Fin 1 → Nat) where
  idxs : Fin s.rank → IVec ⟨1, d⟩ 32
  v : Vec Ideal ⟨1, d⟩ .f32
  mask : IVec ⟨1, d⟩ 1
  h : ∀ a x, (idxs a x).toNat < s.size a

/-- The buffer after the stores of a list, first to last, each with `add`. -/
def chain (f : Vec Ideal s .f32) (ops : List (Op s d)) : Vec Ideal s .f32 :=
  ops.foldl (fun g o => storeIdx g o.idxs o.v o.mask true o.h) f

/-- **A chain of indexed stores with `add`, at an index**: the old element plus, over the stores and their lanes, the
    values of the set lanes naming that index. -/
theorem chain_apply (f : Vec Ideal s .f32) (ops : List (Op s d)) (j : s.Idx) :
    (chain f ops j : EReal) = f j + (ops.map fun o => ∑ k : Fin (d 0), contrib o.idxs o.v o.mask o.h j k).sum := by
  unfold chain
  induction ops generalizing f with
  | nil => simp
  | cons o ops ih =>
    rw [List.foldl_cons, ih, storeIdx_add_apply, List.map_cons, List.sum_cons, add_assoc]

end Ideal

end Idealize.ShloMosaic.StoreIdxAdd

end
-- ==== Proof.StoreOnes.lean ====
/-
  A histogram under indexed add-stores of ones.

  An indexed store with the add flag set, of a vector of ones, all lanes on, adds to each element of the base the number
  of lanes whose index names it. When the base holds, at every bin, the count of a stretch of a sequence `xs`
  (modulo 2^32) and the 16 lanes' indices are the next 16 entries of `xs`, the base afterwards holds the count of the
  stretch made 16 longer; and so on for any number of such stores one after another.
-/
import Idealize.ShloMosaic.PureOps.ShapeOps
import Idealize.ShloMosaic.PureOps.Ideal
import proofs.«203723_g38474317038175_cont_8to1_b_298_28_alg».proof.Proof.Spec
import proofs.«203723_g38474317038175_cont_8to1_b_298_28_alg».proof.Proof.LibStoreIdxAdd

namespace Cert.Hist

open Idealize.ShloMosaic Idealize.ShloMosaic.StoreIdxAdd

/-- The shape of a 16-lane vector. -/
abbrev S16 : Shape := ⟨1, ![16]⟩

/-- A fold over the lanes `0, …, m-1` that adds one to the accumulator at each lane whose entry `xs (base + k)` is the
    bin `jv` adds the count of the bin over these `m` entries. -/
theorem storeOnes_foldl (xs : ℕ → ℕ) (base jv : ℕ) : ∀ (m : ℕ) (f : BitVec 32 → Fin m → BitVec 32)
    (_ : ∀ acc k, f acc k = acc + BitVec.ofNat 32 (if xs (base + k.val) = jv then 1 else 0)) (c : ℕ),
    (List.finRange m).foldl f (BitVec.ofNat 32 c) = BitVec.ofNat 32 (c + cntN xs base m jv)
  | 0, f, _, c => by rw [List.finRange_zero, List.foldl_nil, cntN_zero, Nat.add_zero]
  | m + 1, f, hf, c => by
    rw [List.finRange_succ_last, List.foldl_append, List.foldl_map,
      storeOnes_foldl xs base jv m (fun acc k => f acc k.castSucc) (fun acc k => hf acc k.castSucc) c,
      List.foldl_cons, List.foldl_nil, hf, Fin.val_last, cntN_succ, ← Nat.add_assoc]
    exact (BitVec.ofNat_add _ _).symm

section
variable {F : FTy → Type} [FloatOps F]

/-- **One indexed add-store of ones**: from the counts of `n` entries to the counts of `n + 16`. -/
theorem storeOnes_step (h : Vec F SH .i32) (v : IVec S16 32)
    (hv : ∀ a x, ((![v] : Fin 1 → IVec S16 32) a x).toNat < SH.size a)
    (xs : ℕ → ℕ) (lo n : ℕ)
    (hh : ∀ j, h j = BitVec.ofNat 32 (cntN xs lo n (j 0).val))
    (hvx : ∀ l : Fin 16, (v (Shape.ofLane (d := ![16]) l)).toNat = xs (lo + n + l.val)) :
    ∀ j, storeIdx (F := F) (s := SH) (e := .i32) h ![v] (fun _ => 1#32) (fun _ => 1#1) true hv j
      = BitVec.ofNat 32 (cntN xs lo (n + 16) (j 0).val) := by
  intro j
  rw [storeIdx_apply, hh, cntN_add]
  refine storeOnes_foldl xs (lo + n) (j 0).val 16 _ (fun acc k => ?_) _
  unfold laneAt
  have hiff : idxAt (s := SH) ![v] hv (Shape.ofLane (d := ![16]) k) = j ↔ xs (lo + n + k.val) = (j 0).val := by
    rw [← hvx k]
    constructor
    · intro e; rw [← e]; rfl
    · intro e
      funext a
      have ha : a = 0 := Fin.eq_zero a
      subst ha
      exact Fin.ext e
  by_cases hx : xs (lo + n + k.val) = (j 0).val
  · rw [if_pos ⟨rfl, hiff.mpr hx⟩, if_pos hx]; rfl
  · rw [if_neg (fun hc => hx (hiff.mp hc.2)), if_neg hx]
    exact (BitVec.add_zero acc).symm

/-- **Any number of indexed add-stores of ones, one after another**: `m` stores, the `i`-th with the entries
    `16 i, …, 16 i + 15` past the `n` already counted as its lanes' indices, take the counts of `n` entries to the counts
    of `n + 16 m`. -/
theorem storeOnes_iter (xs : ℕ → ℕ) (lo n : ℕ) (h : Vec F SH .i32)
    (hh : ∀ j, h j = BitVec.ofNat 32 (cntN xs lo n (j 0).val)) :
    ∀ (m : ℕ) (u : Fin m → IVec S16 32)
      (hu : ∀ i a x, ((![u i] : Fin 1 → IVec S16 32) a x).toNat < SH.size a)
      (_ : ∀ (i : Fin m) (l : Fin 16), (u i (Shape.ofLane (d := ![16]) l)).toNat = xs (lo + n + 16 * i.val + l.val)) (j : SH.Idx),
      (List.finRange m).foldl (fun g i => storeIdx (F := F) (s := SH) (e := .i32) g ![u i] (fun _ => 1#32) (fun _ => 1#1) true (hu i)) h j
        = BitVec.ofNat 32 (cntN xs lo (n + 16 * m) (j 0).val)
  | 0, _, _, _, j => by rw [List.finRange_zero, List.foldl_nil, Nat.mul_zero, Nat.add_zero, hh]
  | m + 1, u, hu, hux, j => by
    rw [List.finRange_succ_last, List.foldl_append, List.foldl_map, List.foldl_cons, List.foldl_nil,
      Nat.mul_succ, ← Nat.add_assoc]
    refine storeOnes_step _ (u (Fin.last m)) (hu (Fin.last m)) xs lo (n + 16 * m)
      (storeOnes_iter xs lo n h hh m (fun i => u i.castSucc) (fun i => hu i.castSucc) (fun i l => hux i.castSucc l)) ?_ j
    intro l
    rw [hux (Fin.last m) l, Fin.val_last, Nat.add_assoc lo]

/-- **A trip of the loop**: sixteen indexed add-stores of ones, whose lanes' indices are the next 256 entries. -/
theorem storeOnes_trip (xs : ℕ → ℕ) (lo n : ℕ) (h : Vec F SH .i32)
    (hh : ∀ j, h j = BitVec.ofNat 32 (cntN xs lo n (j 0).val)) (u : Fin 16 → IVec S16 32)
    (hu : ∀ i a x, ((![u i] : Fin 1 → IVec S16 32) a x).toNat < SH.size a)
    (hux : ∀ (i : Fin 16) (l : Fin 16), (u i (Shape.ofLane (d := ![16]) l)).toNat = xs (lo + n + 16 * i.val + l.val)) (j : SH.Idx) :
    (List.finRange 16).foldl (fun g i => storeIdx (F := F) (s := SH) (e := .i32) g ![u i] (fun _ => 1#32) (fun _ => 1#1) true (hu i)) h j
      = BitVec.ofNat 32 (cntN xs lo (n + 256) (j 0).val) :=
  storeOnes_iter xs lo n h hh 16 u hu hux j

end

end Cert.Hist
-- ==== Proof.KI.Trip.lean ====
/-
  One trip of a chunk's loop of a tile: sixteen loads of sixteen words of the chunk's buffer, then sixteen indexed
  add-stores of ones into the histogram at those words. If, before the trip, the histogram counts the first
  `n0 + 256 t` positions of the tile's stretch and the buffer holds the 16384 positions from `n0` on, then after the
  trip the histogram counts the first `n0 + 256 (t + 1)`, the buffer unchanged.
-/
import proofs.«203723_g38474317038175_cont_8to1_b_298_28_alg».proof.Proof.KI.Common
import proofs.«203723_g38474317038175_cont_8to1_b_298_28_alg».proof.Proof.KI.Inv
import proofs.«203723_g38474317038175_cont_8to1_b_298_28_alg».proof.Proof.StoreOnes

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## What a load of sixteen words reads -/

/-- A 16-lane index is the lane of its coordinate. -/
theorem eq_ofLane (x : S16.Idx) : x = Shape.ofLane (d := ![16]) (x 0) := by
  funext a
  have ha : a = 0 := Fin.eq_zero a
  subst ha
  rfl

/-- The vector of ones the stores add is one at every lane. -/
theorem k0_pay2_eq : k0_pay2 = fun _ => 1#32 := rfl

/-! ## The indexed add-store of ones into the held histogram -/

/-- Holding the histogram outright, the store continues holding it rewritten to the scatter-add of ones. -/
theorem wp_histStore (d : Dev nD) (L : grid0.Coords) {v : IVec S16 32}
    {hv : ∀ a x, ((![v] : Fin 1 → IVec S16 32) a x).toNat < S65536.size a}
    {hs : ((hV : Memref sig .scVector .vmem S65536 .i32).access (.whole S65536)).Stores Finset.univ} {α : Type}
    {k : PUnit → Prog (TpuEff nD τ sig (Elt F) Λ₀ (.scVector (cV L) (jV L))) α}
    {f : Buf (Elt F) ((hV : Memref sig .scVector .vmem S65536 .i32).view.loc (V d (cV L) (jV L)))} {Q : α → sProp 𝕄} :
    ((hV : Memref sig .scVector .vmem S65536 .i32).view.loc (V d (cV L) (jV L)) ↦{fullShare} f)
      ⊢ iprop((((hV : Memref sig .scVector .vmem S65536 .i32).view.loc (V d (cV L) (jV L)) ↦{fullShare}
            (storeIdx (F := F) (s := S65536) (e := .i32) f ![v] k0_pay2 (fun _ => 1#1) true hv))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx hV ![v] k0_pay2 (fun _ => 1#1) true hv hs >>= k) Q) := by
  have key := SparseCore.wp_vectorStoreIdx (Ix := HIx 1) (Name := ℕ) (U := UU) (Lvl := ℕ) (defs := defs₀ (F := F)) 𝒱₀ (V d (cV L) (jV L)) none
    (Set.univ : Set ℕ) (base := hV) (idxs := ![v]) (v := k0_pay2) (mask := fun _ => 1#1) (add := true) (h := hv) (hs := hs) (k := k) (f := f) (Q := Q)
  have e1 : ∀ w, View.write (Elt F) ((hV : Memref sig .scVector .vmem S65536 .i32).access (Rect.whole S65536)) f w Finset.univ = w :=
    fun w => Memref.write_access_whole_univ (Elt F) cc0_scratch0 f w
  have e2 : View.read (Elt F) ((hV : Memref sig .scVector .vmem S65536 .i32).access (Rect.whole S65536)) f = f :=
    Memref.read_access_whole (Elt F) cc0_scratch0 f
  have e3 : ((hV : Memref sig .scVector .vmem S65536 .i32).access (Rect.whole S65536)).set = Finset.univ := Memref.set_access_whole cc0_scratch0
  rw [e1, e2, e3] at key
  exact key

/-! ## The buffer `b0V` -/

/-- A load of 16 words of the chunk buffer at the offset `off` reads, at lane `l`, the buffer's word `off + l`. -/
theorem read_lane_b0V (b : IVec S16384 32) (off : Fin 1 → ℕ) (inb : ∀ a, off a + S16.size a ≤ S16384.size a) (l : Fin 16)
    (hp : off 0 + l.val < 16384) :
    ((b0V : Memref sig .scVector .vmem S16384 .i32).view.readAt (Elt F) (Rect.unit (s := S16384) off S16.size inb).toLoadRect b : IVec S16 32)
        (Shape.ofLane (d := ![16]) l)
      = b (ValueIdx.ix1 ⟨off 0 + l.val, hp⟩) := by
  show b _ = b _
  congr 1
  funext a
  have ha : a = 0 := Fin.eq_zero a
  subst ha
  apply Fin.ext
  show off 0 + 1 * l.val = off 0 + l.val
  rw [Nat.one_mul]

/-- Words of a buffer that holds a stretch of `xs`, all below 65536, are indices into the histogram. -/
theorem chk_read_b0V (b : IVec S16384 32) (xs : ℕ → ℕ) (lo : ℕ)
    (hb : ∀ (p : ℕ) (hp : p < 16384), (b (ValueIdx.ix1 ⟨p, hp⟩)).toNat = xs (lo + p)) (hx : ∀ p, xs p < 65536)
    (off : Fin 1 → ℕ) (inb : ∀ a, off a + S16.size a ≤ S16384.size a) :
    ∀ a x, ((![((b0V : Memref sig .scVector .vmem S16384 .i32).view.readAt (Elt F) (Rect.unit (s := S16384) off S16.size inb).toLoadRect b : IVec S16 32)]
        : Fin 1 → IVec S16 32) a x).toNat < S65536.size a := by
  intro a x
  have ha : a = 0 := Fin.eq_zero a
  subst ha
  have h0 := inb 0
  have hl : off 0 + (x 0).val < 16384 := by
    have := (x 0).isLt
    change off 0 + 16 ≤ 16384 at h0
    change (x 0).val < 16 at this
    omega
  rw [eq_ofLane x]
  show (((b0V : Memref sig .scVector .vmem S16384 .i32).view.readAt (Elt F) (Rect.unit (s := S16384) off S16.size inb).toLoadRect b : IVec S16 32)
    (Shape.ofLane (d := ![16]) (x 0))).toNat < 65536
  rw [read_lane_b0V b off inb (x 0) hl, hb]
  exact hx _

/-- The `r`-th load of trip `t` reads, at lane `l`, position `256 t + 16 r + l` of the chunk. -/
theorem lane_val_b0V (b : IVec S16384 32) (xs : ℕ → ℕ) (lo : ℕ)
    (hb : ∀ (p : ℕ) (hp : p < 16384), (b (ValueIdx.ix1 ⟨p, hp⟩)).toNat = xs (lo + p))
    (t : Fin k0_t2_loop.trips) (r : Fin 16) (inb : ∀ a, k0_off3 t (BitVec.ofNat 32 r.val) a + S16.size a ≤ S16384.size a) (l : Fin 16) :
    (((b0V : Memref sig .scVector .vmem S16384 .i32).view.readAt (Elt F)
        (Rect.unit (s := S16384) (k0_off3 t (BitVec.ofNat 32 r.val)) S16.size inb).toLoadRect b : IVec S16 32) (Shape.ofLane (d := ![16]) l)).toNat
      = xs (lo + (256 * t.val + 16 * r.val + l.val)) := by
  have h0 : k0_off3 t (BitVec.ofNat 32 r.val) 0 = 256 * t.val + 16 * r.val := by rw [k0_off3_eq t r]; rfl
  have hi := inb 0
  have hl : k0_off3 t (BitVec.ofNat 32 r.val) 0 + l.val < 16384 := by
    have := l.isLt
    change k0_off3 t (BitVec.ofNat 32 r.val) 0 + 16 ≤ 16384 at hi
    omega
  rw [read_lane_b0V b _ inb l hl, hb]
  congr 2
  omega

/-- One add-store of ones of trip `t` of a chunk held in `b0V`, the `r`-th: its lanes' indices are the chunk's positions
    `256 t + 16 r, …, 256 t + 16 r + 15`; a histogram counting the `n0 + 256 t + 16 r` positions before them counts, after
    it, these sixteen more. -/
theorem wp_store_b0V (d : Dev nD) (L : grid0.Coords) (b : IVec S16384 32) (xs : ℕ → ℕ) (lo n0 : ℕ)
    (hb : ∀ (p : ℕ) (hp : p < 16384), (b (ValueIdx.ix1 ⟨p, hp⟩)).toNat = xs ((lo + n0) + p))
    (t : Fin k0_t2_loop.trips) (r : ℕ) (hr : r < 16)
    {inb : ∀ a, k0_off3 t (BitVec.ofNat 32 r) a + S16.size a ≤ S16384.size a}
    {hv : ∀ a x, ((![((b0V : Memref sig .scVector .vmem S16384 .i32).view.readAt (Elt F) (Rect.unit (s := S16384) (k0_off3 t (BitVec.ofNat 32 r)) S16.size inb).toLoadRect b : IVec S16 32)]
        : Fin 1 → IVec S16 32) a x).toNat < S65536.size a}
    {hs : ((hV : Memref sig .scVector .vmem S65536 .i32).access (.whole S65536)).Stores Finset.univ} {α : Type}
    {k : PUnit → Prog (TpuEff nD τ sig (Elt F) Λ₀ (.scVector (cV L) (jV L))) α}
    {f : Buf (Elt F) ((hV : Memref sig .scVector .vmem S65536 .i32).view.loc (V d (cV L) (jV L)))} {Q : α → sProp 𝕄}
    (hf : ∀ j : S65536.Idx, (f : IVec S65536 32) j = BitVec.ofNat 32 (Cert.Hist.cntN xs lo (n0 + 256 * t.val + 16 * r) (j 0).val)) :
    ((hV : Memref sig .scVector .vmem S65536 .i32).view.loc (V d (cV L) (jV L)) ↦{fullShare} f)
      ⊢ iprop(((∃ f' : Buf (Elt F) ((hV : Memref sig .scVector .vmem S65536 .i32).view.loc (V d (cV L) (jV L))),
            ⌜∀ j : S65536.Idx, (f' : IVec S65536 32) j = BitVec.ofNat 32 (Cert.Hist.cntN xs lo (n0 + 256 * t.val + 16 * (r + 1)) (j 0).val)⌝
            ∗ ((hV : Memref sig .scVector .vmem S65536 .i32).view.loc (V d (cV L) (jV L)) ↦{fullShare} f'))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx hV
              ![((b0V : Memref sig .scVector .vmem S16384 .i32).view.readAt (Elt F) (Rect.unit (s := S16384) (k0_off3 t (BitVec.ofNat 32 r)) S16.size inb).toLoadRect b : IVec S16 32)]
              k0_pay2 (fun _ => 1#1) true hv hs >>= k) Q) := by
  iintro Hh Hk
  iapply (wp_histStore (F := F) d L) $$ Hh
  iintro Hh
  iapply Hk
  iexists _
  isplitr
  rotate_left
  · iexact Hh
  · ipureintro
    have hn : n0 + 256 * t.val + 16 * (r + 1) = (n0 + 256 * t.val + 16 * r) + 16 := by omega
    rw [hn, k0_pay2_eq]
    refine Cert.Hist.storeOnes_step f _ hv xs lo _ hf (fun l => ?_)
    have := lane_val_b0V (F := F) b xs (lo + n0) hb t ⟨r, hr⟩ inb l
    rw [this]
    congr 1
    show lo + n0 + (256 * t.val + 16 * r + l.val) = _
    omega

/-- **One trip of the loop of a chunk held in `b0V`**: from the invariant before trip `t` to the invariant before trip
    `t + 1`. The loads read the chunk's positions `256 t, …, 256 t + 255`, every word below 65536 (so the assumed side
    conditions hold), and the sixteen add-stores of ones count them. -/
theorem chunk_reg_b0V (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (a6 : Memref sig .scVector .vmem S16384 .i32) (h6 : a6.IsWhole) (a7 : Memref sig .scVector .vmem S16384 .i32) (h7 : a7.IsWhole)
    (s8 s9 s10 r0 : DmaSems sig S_) (t : Fin k0_t2_loop.trips) :
    cinv (F := F) d L xs lo n0 b0V t.val ⟨⟩
      ⊢ wp frame (wpE (defs₀ (F := F)) 𝒱₀ (V d (cV L) (jV L)) none) Set.univ
          (k0_t2_body L a2 h2 a3 h3 hV (Memref.isWhole_whole _) b0V (Memref.isWhole_whole _) a6 h6 a7 h7 s8 s9 s10 r0 t ⟨⟩)
          (fun _ => cinv (F := F) d L xs lo n0 b0V (t.val + 1) ⟨⟩) := by
  unfold cinv
  iintro ⟨⟨%h, %hh, Hh⟩, ⟨%b, %hb, Hb⟩⟩
  have hb' : ∀ (p : ℕ) (hp : p < 16384), ((b : IVec S16384 32) (ValueIdx.ix1 ⟨p, hp⟩)).toNat = xs ((lo + n0) + p) := hb
  have hf : ∀ j : S65536.Idx, (h : IVec S65536 32) j = BitVec.ofNat 32 (Cert.Hist.cntN xs lo (n0 + 256 * t.val + 16 * 0) (j 0).val) := hh
  unfold k0_t2_body
  rw [k0_part2_eq_skeleton, k0_part3_eq_skeleton]; unfold k0_part2_skel k0_part3_skel
  sl_exec (disch := exact chk_read_b0V (F := F) b xs (lo + n0) hb' hx _ _)
  iapply (wp_store_b0V (F := F) d L b xs lo n0 hb' t 0 (by decide) hf) $$ Hh; iintro ⟨%f, %hf, Hh⟩
  iapply (wp_store_b0V (F := F) d L b xs lo n0 hb' t 1 (by decide) hf) $$ Hh; iintro ⟨%f, %hf, Hh⟩
  iapply (wp_store_b0V (F := F) d L b xs lo n0 hb' t 2 (by decide) hf) $$ Hh; iintro ⟨%f, %hf, Hh⟩
  iapply (wp_store_b0V (F := F) d L b xs lo n0 hb' t 3 (by decide) hf) $$ Hh; iintro ⟨%f, %hf, Hh⟩
  iapply (wp_store_b0V (F := F) d L b xs lo n0 hb' t 4 (by decide) hf) $$ Hh; iintro ⟨%f, %hf, Hh⟩
  iapply (wp_store_b0V (F := F) d L b xs lo n0 hb' t 5 (by decide) hf) $$ Hh; iintro ⟨%f, %hf, Hh⟩
  iapply (wp_store_b0V (F := F) d L b xs lo n0 hb' t 6 (by decide) hf) $$ Hh; iintro ⟨%f, %hf, Hh⟩
  iapply (wp_store_b0V (F := F) d L b xs lo n0 hb' t 7 (by decide) hf) $$ Hh; iintro ⟨%f, %hf, Hh⟩
  iapply (wp_store_b0V (F := F) d L b xs lo n0 hb' t 8 (by decide) hf) $$ Hh; iintro ⟨%f, %hf, Hh⟩
  iapply (wp_store_b0V (F := F) d L b xs lo n0 hb' t 9 (by decide) hf) $$ Hh; iintro ⟨%f, %hf, Hh⟩
  iapply (wp_store_b0V (F := F) d L b xs lo n0 hb' t 10 (by decide) hf) $$ Hh; iintro ⟨%f, %hf, Hh⟩
  iapply (wp_store_b0V (F := F) d L b xs lo n0 hb' t 11 (by decide) hf) $$ Hh; iintro ⟨%f, %hf, Hh⟩
  iapply (wp_store_b0V (F := F) d L b xs lo n0 hb' t 12 (by decide) hf) $$ Hh; iintro ⟨%f, %hf, Hh⟩
  iapply (wp_store_b0V (F := F) d L b xs lo n0 hb' t 13 (by decide) hf) $$ Hh; iintro ⟨%f, %hf, Hh⟩
  iapply (wp_store_b0V (F := F) d L b xs lo n0 hb' t 14 (by decide) hf) $$ Hh; iintro ⟨%f, %hf, Hh⟩
  iapply (wp_store_b0V (F := F) d L b xs lo n0 hb' t 15 (by decide) hf) $$ Hh; iintro ⟨%f, %hf, Hh⟩
  sl_step
  isplitl [Hh]
  · iexists f
    isplitr
    · ipureintro
      have hn : n0 + 256 * (t.val + 1) = n0 + 256 * t.val + 16 * (15 + 1) := by omega
      rw [hn]
      exact hf
    · iexact Hh
  · iexists b
    isplitr
    · ipureintro; exact hb
    · iexact Hb

/-! ## The buffer `b1V` -/

/-- A load of 16 words of the chunk buffer at the offset `off` reads, at lane `l`, the buffer's word `off + l`. -/
theorem read_lane_b1V (b : IVec S16384 32) (off : Fin 1 → ℕ) (inb : ∀ a, off a + S16.size a ≤ S16384.size a) (l : Fin 16)
    (hp : off 0 + l.val < 16384) :
    ((b1V : Memref sig .scVector .vmem S16384 .i32).view.readAt (Elt F) (Rect.unit (s := S16384) off S16.size inb).toLoadRect b : IVec S16 32)
        (Shape.ofLane (d := ![16]) l)
      = b (ValueIdx.ix1 ⟨off 0 + l.val, hp⟩) := by
  show b _ = b _
  congr 1
  funext a
  have ha : a = 0 := Fin.eq_zero a
  subst ha
  apply Fin.ext
  show off 0 + 1 * l.val = off 0 + l.val
  rw [Nat.one_mul]

/-- Words of a buffer that holds a stretch of `xs`, all below 65536, are indices into the histogram. -/
theorem chk_read_b1V (b : IVec S16384 32) (xs : ℕ → ℕ) (lo : ℕ)
    (hb : ∀ (p : ℕ) (hp : p < 16384), (b (ValueIdx.ix1 ⟨p, hp⟩)).toNat = xs (lo + p)) (hx : ∀ p, xs p < 65536)
    (off : Fin 1 → ℕ) (inb : ∀ a, off a + S16.size a ≤ S16384.size a) :
    ∀ a x, ((![((b1V : Memref sig .scVector .vmem S16384 .i32).view.readAt (Elt F) (Rect.unit (s := S16384) off S16.size inb).toLoadRect b : IVec S16 32)]
        : Fin 1 → IVec S16 32) a x).toNat < S65536.size a := by
  intro a x
  have ha : a = 0 := Fin.eq_zero a
  subst ha
  have h0 := inb 0
  have hl : off 0 + (x 0).val < 16384 := by
    have := (x 0).isLt
    change off 0 + 16 ≤ 16384 at h0
    change (x 0).val < 16 at this
    omega
  rw [eq_ofLane x]
  show (((b1V : Memref sig .scVector .vmem S16384 .i32).view.readAt (Elt F) (Rect.unit (s := S16384) off S16.size inb).toLoadRect b : IVec S16 32)
    (Shape.ofLane (d := ![16]) (x 0))).toNat < 65536
  rw [read_lane_b1V b off inb (x 0) hl, hb]
  exact hx _

/-- The `r`-th load of trip `t` reads, at lane `l`, position `256 t + 16 r + l` of the chunk. -/
theorem lane_val_b1V (b : IVec S16384 32) (xs : ℕ → ℕ) (lo : ℕ)
    (hb : ∀ (p : ℕ) (hp : p < 16384), (b (ValueIdx.ix1 ⟨p, hp⟩)).toNat = xs (lo + p))
    (t : Fin k0_t2_loop.trips) (r : Fin 16) (inb : ∀ a, k0_off3 t (BitVec.ofNat 32 r.val) a + S16.size a ≤ S16384.size a) (l : Fin 16) :
    (((b1V : Memref sig .scVector .vmem S16384 .i32).view.readAt (Elt F)
        (Rect.unit (s := S16384) (k0_off3 t (BitVec.ofNat 32 r.val)) S16.size inb).toLoadRect b : IVec S16 32) (Shape.ofLane (d := ![16]) l)).toNat
      = xs (lo + (256 * t.val + 16 * r.val + l.val)) := by
  have h0 : k0_off3 t (BitVec.ofNat 32 r.val) 0 = 256 * t.val + 16 * r.val := by rw [k0_off3_eq t r]; rfl
  have hi := inb 0
  have hl : k0_off3 t (BitVec.ofNat 32 r.val) 0 + l.val < 16384 := by
    have := l.isLt
    change k0_off3 t (BitVec.ofNat 32 r.val) 0 + 16 ≤ 16384 at hi
    omega
  rw [read_lane_b1V b _ inb l hl, hb]
  congr 2
  omega

/-- One add-store of ones of trip `t` of a chunk held in `b1V`, the `r`-th: its lanes' indices are the chunk's positions
    `256 t + 16 r, …, 256 t + 16 r + 15`; a histogram counting the `n0 + 256 t + 16 r` positions before them counts, after
    it, these sixteen more. -/
theorem wp_store_b1V (d : Dev nD) (L : grid0.Coords) (b : IVec S16384 32) (xs : ℕ → ℕ) (lo n0 : ℕ)
    (hb : ∀ (p : ℕ) (hp : p < 16384), (b (ValueIdx.ix1 ⟨p, hp⟩)).toNat = xs ((lo + n0) + p))
    (t : Fin k0_t2_loop.trips) (r : ℕ) (hr : r < 16)
    {inb : ∀ a, k0_off3 t (BitVec.ofNat 32 r) a + S16.size a ≤ S16384.size a}
    {hv : ∀ a x, ((![((b1V : Memref sig .scVector .vmem S16384 .i32).view.readAt (Elt F) (Rect.unit (s := S16384) (k0_off3 t (BitVec.ofNat 32 r)) S16.size inb).toLoadRect b : IVec S16 32)]
        : Fin 1 → IVec S16 32) a x).toNat < S65536.size a}
    {hs : ((hV : Memref sig .scVector .vmem S65536 .i32).access (.whole S65536)).Stores Finset.univ} {α : Type}
    {k : PUnit → Prog (TpuEff nD τ sig (Elt F) Λ₀ (.scVector (cV L) (jV L))) α}
    {f : Buf (Elt F) ((hV : Memref sig .scVector .vmem S65536 .i32).view.loc (V d (cV L) (jV L)))} {Q : α → sProp 𝕄}
    (hf : ∀ j : S65536.Idx, (f : IVec S65536 32) j = BitVec.ofNat 32 (Cert.Hist.cntN xs lo (n0 + 256 * t.val + 16 * r) (j 0).val)) :
    ((hV : Memref sig .scVector .vmem S65536 .i32).view.loc (V d (cV L) (jV L)) ↦{fullShare} f)
      ⊢ iprop(((∃ f' : Buf (Elt F) ((hV : Memref sig .scVector .vmem S65536 .i32).view.loc (V d (cV L) (jV L))),
            ⌜∀ j : S65536.Idx, (f' : IVec S65536 32) j = BitVec.ofNat 32 (Cert.Hist.cntN xs lo (n0 + 256 * t.val + 16 * (r + 1)) (j 0).val)⌝
            ∗ ((hV : Memref sig .scVector .vmem S65536 .i32).view.loc (V d (cV L) (jV L)) ↦{fullShare} f'))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx hV
              ![((b1V : Memref sig .scVector .vmem S16384 .i32).view.readAt (Elt F) (Rect.unit (s := S16384) (k0_off3 t (BitVec.ofNat 32 r)) S16.size inb).toLoadRect b : IVec S16 32)]
              k0_pay2 (fun _ => 1#1) true hv hs >>= k) Q) := by
  iintro Hh Hk
  iapply (wp_histStore (F := F) d L) $$ Hh
  iintro Hh
  iapply Hk
  iexists _
  isplitr
  rotate_left
  · iexact Hh
  · ipureintro
    have hn : n0 + 256 * t.val + 16 * (r + 1) = (n0 + 256 * t.val + 16 * r) + 16 := by omega
    rw [hn, k0_pay2_eq]
    refine Cert.Hist.storeOnes_step f _ hv xs lo _ hf (fun l => ?_)
    have := lane_val_b1V (F := F) b xs (lo + n0) hb t ⟨r, hr⟩ inb l
    rw [this]
    congr 1
    show lo + n0 + (256 * t.val + 16 * r + l.val) = _
    omega

/-- **One trip of the loop of a chunk held in `b1V`**: from the invariant before trip `t` to the invariant before trip
    `t + 1`. The loads read the chunk's positions `256 t, …, 256 t + 255`, every word below 65536 (so the assumed side
    conditions hold), and the sixteen add-stores of ones count them. -/
theorem chunk_reg_b1V (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (a6 : Memref sig .scVector .vmem S16384 .i32) (h6 : a6.IsWhole) (a7 : Memref sig .scVector .vmem S16384 .i32) (h7 : a7.IsWhole)
    (s8 s9 s10 r0 : DmaSems sig S_) (t : Fin k0_t2_loop.trips) :
    cinv (F := F) d L xs lo n0 b1V t.val ⟨⟩
      ⊢ wp frame (wpE (defs₀ (F := F)) 𝒱₀ (V d (cV L) (jV L)) none) Set.univ
          (k0_t2_body L a2 h2 a3 h3 hV (Memref.isWhole_whole _) b1V (Memref.isWhole_whole _) a6 h6 a7 h7 s8 s9 s10 r0 t ⟨⟩)
          (fun _ => cinv (F := F) d L xs lo n0 b1V (t.val + 1) ⟨⟩) := by
  unfold cinv
  iintro ⟨⟨%h, %hh, Hh⟩, ⟨%b, %hb, Hb⟩⟩
  have hb' : ∀ (p : ℕ) (hp : p < 16384), ((b : IVec S16384 32) (ValueIdx.ix1 ⟨p, hp⟩)).toNat = xs ((lo + n0) + p) := hb
  have hf : ∀ j : S65536.Idx, (h : IVec S65536 32) j = BitVec.ofNat 32 (Cert.Hist.cntN xs lo (n0 + 256 * t.val + 16 * 0) (j 0).val) := hh
  unfold k0_t2_body
  rw [k0_part2_eq_skeleton, k0_part3_eq_skeleton]; unfold k0_part2_skel k0_part3_skel
  sl_exec (disch := exact chk_read_b1V (F := F) b xs (lo + n0) hb' hx _ _)
  iapply (wp_store_b1V (F := F) d L b xs lo n0 hb' t 0 (by decide) hf) $$ Hh; iintro ⟨%f, %hf, Hh⟩
  iapply (wp_store_b1V (F := F) d L b xs lo n0 hb' t 1 (by decide) hf) $$ Hh; iintro ⟨%f, %hf, Hh⟩
  iapply (wp_store_b1V (F := F) d L b xs lo n0 hb' t 2 (by decide) hf) $$ Hh; iintro ⟨%f, %hf, Hh⟩
  iapply (wp_store_b1V (F := F) d L b xs lo n0 hb' t 3 (by decide) hf) $$ Hh; iintro ⟨%f, %hf, Hh⟩
  iapply (wp_store_b1V (F := F) d L b xs lo n0 hb' t 4 (by decide) hf) $$ Hh; iintro ⟨%f, %hf, Hh⟩
  iapply (wp_store_b1V (F := F) d L b xs lo n0 hb' t 5 (by decide) hf) $$ Hh; iintro ⟨%f, %hf, Hh⟩
  iapply (wp_store_b1V (F := F) d L b xs lo n0 hb' t 6 (by decide) hf) $$ Hh; iintro ⟨%f, %hf, Hh⟩
  iapply (wp_store_b1V (F := F) d L b xs lo n0 hb' t 7 (by decide) hf) $$ Hh; iintro ⟨%f, %hf, Hh⟩
  iapply (wp_store_b1V (F := F) d L b xs lo n0 hb' t 8 (by decide) hf) $$ Hh; iintro ⟨%f, %hf, Hh⟩
  iapply (wp_store_b1V (F := F) d L b xs lo n0 hb' t 9 (by decide) hf) $$ Hh; iintro ⟨%f, %hf, Hh⟩
  iapply (wp_store_b1V (F := F) d L b xs lo n0 hb' t 10 (by decide) hf) $$ Hh; iintro ⟨%f, %hf, Hh⟩
  iapply (wp_store_b1V (F := F) d L b xs lo n0 hb' t 11 (by decide) hf) $$ Hh; iintro ⟨%f, %hf, Hh⟩
  iapply (wp_store_b1V (F := F) d L b xs lo n0 hb' t 12 (by decide) hf) $$ Hh; iintro ⟨%f, %hf, Hh⟩
  iapply (wp_store_b1V (F := F) d L b xs lo n0 hb' t 13 (by decide) hf) $$ Hh; iintro ⟨%f, %hf, Hh⟩
  iapply (wp_store_b1V (F := F) d L b xs lo n0 hb' t 14 (by decide) hf) $$ Hh; iintro ⟨%f, %hf, Hh⟩
  iapply (wp_store_b1V (F := F) d L b xs lo n0 hb' t 15 (by decide) hf) $$ Hh; iintro ⟨%f, %hf, Hh⟩
  sl_step
  isplitl [Hh]
  · iexists f
    isplitr
    · ipureintro
      have hn : n0 + 256 * (t.val + 1) = n0 + 256 * t.val + 16 * (15 + 1) := by omega
      rw [hn]
      exact hf
    · iexact Hh
  · iexists b
    isplitr
    · ipureintro; exact hb
    · iexact Hb

/-! ## The buffer `b2V` -/

/-- A load of 16 words of the chunk buffer at the offset `off` reads, at lane `l`, the buffer's word `off + l`. -/
theorem read_lane_b2V (b : IVec S16384 32) (off : Fin 1 → ℕ) (inb : ∀ a, off a + S16.size a ≤ S16384.size a) (l : Fin 16)
    (hp : off 0 + l.val < 16384) :
    ((b2V : Memref sig .scVector .vmem S16384 .i32).view.readAt (Elt F) (Rect.unit (s := S16384) off S16.size inb).toLoadRect b : IVec S16 32)
        (Shape.ofLane (d := ![16]) l)
      = b (ValueIdx.ix1 ⟨off 0 + l.val, hp⟩) := by
  show b _ = b _
  congr 1
  funext a
  have ha : a = 0 := Fin.eq_zero a
  subst ha
  apply Fin.ext
  show off 0 + 1 * l.val = off 0 + l.val
  rw [Nat.one_mul]

/-- Words of a buffer that holds a stretch of `xs`, all below 65536, are indices into the histogram. -/
theorem chk_read_b2V (b : IVec S16384 32) (xs : ℕ → ℕ) (lo : ℕ)
    (hb : ∀ (p : ℕ) (hp : p < 16384), (b (ValueIdx.ix1 ⟨p, hp⟩)).toNat = xs (lo + p)) (hx : ∀ p, xs p < 65536)
    (off : Fin 1 → ℕ) (inb : ∀ a, off a + S16.size a ≤ S16384.size a) :
    ∀ a x, ((![((b2V : Memref sig .scVector .vmem S16384 .i32).view.readAt (Elt F) (Rect.unit (s := S16384) off S16.size inb).toLoadRect b : IVec S16 32)]
        : Fin 1 → IVec S16 32) a x).toNat < S65536.size a := by
  intro a x
  have ha : a = 0 := Fin.eq_zero a
  subst ha
  have h0 := inb 0
  have hl : off 0 + (x 0).val < 16384 := by
    have := (x 0).isLt
    change off 0 + 16 ≤ 16384 at h0
    change (x 0).val < 16 at this
    omega
  rw [eq_ofLane x]
  show (((b2V : Memref sig .scVector .vmem S16384 .i32).view.readAt (Elt F) (Rect.unit (s := S16384) off S16.size inb).toLoadRect b : IVec S16 32)
    (Shape.ofLane (d := ![16]) (x 0))).toNat < 65536
  rw [read_lane_b2V b off inb (x 0) hl, hb]
  exact hx _

/-- The `r`-th load of trip `t` reads, at lane `l`, position `256 t + 16 r + l` of the chunk. -/
theorem lane_val_b2V (b : IVec S16384 32) (xs : ℕ → ℕ) (lo : ℕ)
    (hb : ∀ (p : ℕ) (hp : p < 16384), (b (ValueIdx.ix1 ⟨p, hp⟩)).toNat = xs (lo + p))
    (t : Fin k0_t2_loop.trips) (r : Fin 16) (inb : ∀ a, k0_off3 t (BitVec.ofNat 32 r.val) a + S16.size a ≤ S16384.size a) (l : Fin 16) :
    (((b2V : Memref sig .scVector .vmem S16384 .i32).view.readAt (Elt F)
        (Rect.unit (s := S16384) (k0_off3 t (BitVec.ofNat 32 r.val)) S16.size inb).toLoadRect b : IVec S16 32) (Shape.ofLane (d := ![16]) l)).toNat
      = xs (lo + (256 * t.val + 16 * r.val + l.val)) := by
  have h0 : k0_off3 t (BitVec.ofNat 32 r.val) 0 = 256 * t.val + 16 * r.val := by rw [k0_off3_eq t r]; rfl
  have hi := inb 0
  have hl : k0_off3 t (BitVec.ofNat 32 r.val) 0 + l.val < 16384 := by
    have := l.isLt
    change k0_off3 t (BitVec.ofNat 32 r.val) 0 + 16 ≤ 16384 at hi
    omega
  rw [read_lane_b2V b _ inb l hl, hb]
  congr 2
  omega

/-- One add-store of ones of trip `t` of a chunk held in `b2V`, the `r`-th: its lanes' indices are the chunk's positions
    `256 t + 16 r, …, 256 t + 16 r + 15`; a histogram counting the `n0 + 256 t + 16 r` positions before them counts, after
    it, these sixteen more. -/
theorem wp_store_b2V (d : Dev nD) (L : grid0.Coords) (b : IVec S16384 32) (xs : ℕ → ℕ) (lo n0 : ℕ)
    (hb : ∀ (p : ℕ) (hp : p < 16384), (b (ValueIdx.ix1 ⟨p, hp⟩)).toNat = xs ((lo + n0) + p))
    (t : Fin k0_t2_loop.trips) (r : ℕ) (hr : r < 16)
    {inb : ∀ a, k0_off3 t (BitVec.ofNat 32 r) a + S16.size a ≤ S16384.size a}
    {hv : ∀ a x, ((![((b2V : Memref sig .scVector .vmem S16384 .i32).view.readAt (Elt F) (Rect.unit (s := S16384) (k0_off3 t (BitVec.ofNat 32 r)) S16.size inb).toLoadRect b : IVec S16 32)]
        : Fin 1 → IVec S16 32) a x).toNat < S65536.size a}
    {hs : ((hV : Memref sig .scVector .vmem S65536 .i32).access (.whole S65536)).Stores Finset.univ} {α : Type}
    {k : PUnit → Prog (TpuEff nD τ sig (Elt F) Λ₀ (.scVector (cV L) (jV L))) α}
    {f : Buf (Elt F) ((hV : Memref sig .scVector .vmem S65536 .i32).view.loc (V d (cV L) (jV L)))} {Q : α → sProp 𝕄}
    (hf : ∀ j : S65536.Idx, (f : IVec S65536 32) j = BitVec.ofNat 32 (Cert.Hist.cntN xs lo (n0 + 256 * t.val + 16 * r) (j 0).val)) :
    ((hV : Memref sig .scVector .vmem S65536 .i32).view.loc (V d (cV L) (jV L)) ↦{fullShare} f)
      ⊢ iprop(((∃ f' : Buf (Elt F) ((hV : Memref sig .scVector .vmem S65536 .i32).view.loc (V d (cV L) (jV L))),
            ⌜∀ j : S65536.Idx, (f' : IVec S65536 32) j = BitVec.ofNat 32 (Cert.Hist.cntN xs lo (n0 + 256 * t.val + 16 * (r + 1)) (j 0).val)⌝
            ∗ ((hV : Memref sig .scVector .vmem S65536 .i32).view.loc (V d (cV L) (jV L)) ↦{fullShare} f'))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx hV
              ![((b2V : Memref sig .scVector .vmem S16384 .i32).view.readAt (Elt F) (Rect.unit (s := S16384) (k0_off3 t (BitVec.ofNat 32 r)) S16.size inb).toLoadRect b : IVec S16 32)]
              k0_pay2 (fun _ => 1#1) true hv hs >>= k) Q) := by
  iintro Hh Hk
  iapply (wp_histStore (F := F) d L) $$ Hh
  iintro Hh
  iapply Hk
  iexists _
  isplitr
  rotate_left
  · iexact Hh
  · ipureintro
    have hn : n0 + 256 * t.val + 16 * (r + 1) = (n0 + 256 * t.val + 16 * r) + 16 := by omega
    rw [hn, k0_pay2_eq]
    refine Cert.Hist.storeOnes_step f _ hv xs lo _ hf (fun l => ?_)
    have := lane_val_b2V (F := F) b xs (lo + n0) hb t ⟨r, hr⟩ inb l
    rw [this]
    congr 1
    show lo + n0 + (256 * t.val + 16 * r + l.val) = _
    omega

/-- **One trip of the loop of a chunk held in `b2V`**: from the invariant before trip `t` to the invariant before trip
    `t + 1`. The loads read the chunk's positions `256 t, …, 256 t + 255`, every word below 65536 (so the assumed side
    conditions hold), and the sixteen add-stores of ones count them. -/
theorem chunk_reg_b2V (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (a6 : Memref sig .scVector .vmem S16384 .i32) (h6 : a6.IsWhole) (a7 : Memref sig .scVector .vmem S16384 .i32) (h7 : a7.IsWhole)
    (s8 s9 s10 r0 : DmaSems sig S_) (t : Fin k0_t2_loop.trips) :
    cinv (F := F) d L xs lo n0 b2V t.val ⟨⟩
      ⊢ wp frame (wpE (defs₀ (F := F)) 𝒱₀ (V d (cV L) (jV L)) none) Set.univ
          (k0_t2_body L a2 h2 a3 h3 hV (Memref.isWhole_whole _) b2V (Memref.isWhole_whole _) a6 h6 a7 h7 s8 s9 s10 r0 t ⟨⟩)
          (fun _ => cinv (F := F) d L xs lo n0 b2V (t.val + 1) ⟨⟩) := by
  unfold cinv
  iintro ⟨⟨%h, %hh, Hh⟩, ⟨%b, %hb, Hb⟩⟩
  have hb' : ∀ (p : ℕ) (hp : p < 16384), ((b : IVec S16384 32) (ValueIdx.ix1 ⟨p, hp⟩)).toNat = xs ((lo + n0) + p) := hb
  have hf : ∀ j : S65536.Idx, (h : IVec S65536 32) j = BitVec.ofNat 32 (Cert.Hist.cntN xs lo (n0 + 256 * t.val + 16 * 0) (j 0).val) := hh
  unfold k0_t2_body
  rw [k0_part2_eq_skeleton, k0_part3_eq_skeleton]; unfold k0_part2_skel k0_part3_skel
  sl_exec (disch := exact chk_read_b2V (F := F) b xs (lo + n0) hb' hx _ _)
  iapply (wp_store_b2V (F := F) d L b xs lo n0 hb' t 0 (by decide) hf) $$ Hh; iintro ⟨%f, %hf, Hh⟩
  iapply (wp_store_b2V (F := F) d L b xs lo n0 hb' t 1 (by decide) hf) $$ Hh; iintro ⟨%f, %hf, Hh⟩
  iapply (wp_store_b2V (F := F) d L b xs lo n0 hb' t 2 (by decide) hf) $$ Hh; iintro ⟨%f, %hf, Hh⟩
  iapply (wp_store_b2V (F := F) d L b xs lo n0 hb' t 3 (by decide) hf) $$ Hh; iintro ⟨%f, %hf, Hh⟩
  iapply (wp_store_b2V (F := F) d L b xs lo n0 hb' t 4 (by decide) hf) $$ Hh; iintro ⟨%f, %hf, Hh⟩
  iapply (wp_store_b2V (F := F) d L b xs lo n0 hb' t 5 (by decide) hf) $$ Hh; iintro ⟨%f, %hf, Hh⟩
  iapply (wp_store_b2V (F := F) d L b xs lo n0 hb' t 6 (by decide) hf) $$ Hh; iintro ⟨%f, %hf, Hh⟩
  iapply (wp_store_b2V (F := F) d L b xs lo n0 hb' t 7 (by decide) hf) $$ Hh; iintro ⟨%f, %hf, Hh⟩
  iapply (wp_store_b2V (F := F) d L b xs lo n0 hb' t 8 (by decide) hf) $$ Hh; iintro ⟨%f, %hf, Hh⟩
  iapply (wp_store_b2V (F := F) d L b xs lo n0 hb' t 9 (by decide) hf) $$ Hh; iintro ⟨%f, %hf, Hh⟩
  iapply (wp_store_b2V (F := F) d L b xs lo n0 hb' t 10 (by decide) hf) $$ Hh; iintro ⟨%f, %hf, Hh⟩
  iapply (wp_store_b2V (F := F) d L b xs lo n0 hb' t 11 (by decide) hf) $$ Hh; iintro ⟨%f, %hf, Hh⟩
  iapply (wp_store_b2V (F := F) d L b xs lo n0 hb' t 12 (by decide) hf) $$ Hh; iintro ⟨%f, %hf, Hh⟩
  iapply (wp_store_b2V (F := F) d L b xs lo n0 hb' t 13 (by decide) hf) $$ Hh; iintro ⟨%f, %hf, Hh⟩
  iapply (wp_store_b2V (F := F) d L b xs lo n0 hb' t 14 (by decide) hf) $$ Hh; iintro ⟨%f, %hf, Hh⟩
  iapply (wp_store_b2V (F := F) d L b xs lo n0 hb' t 15 (by decide) hf) $$ Hh; iintro ⟨%f, %hf, Hh⟩
  sl_step
  isplitl [Hh]
  · iexists f
    isplitr
    · ipureintro
      have hn : n0 + 256 * (t.val + 1) = n0 + 256 * t.val + 16 * (15 + 1) := by omega
      rw [hn]
      exact hf
    · iexact Hh
  · iexists b
    isplitr
    · ipureintro; exact hb
    · iexact Hb

/-! ## The other chunks' loops are the first chunk's, on their buffers -/

set_option maxRecDepth 65536 in
/-- The loop of chunk 1 is the first chunk's, on the buffer in place 1. -/
theorem t3_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t3_body (F := F) L a2 h2 a3 h3 a4 h4 a5 h5 a6 h6 a7 h7 s8 s9 s10 r0 v2 k0_pay2 0#32 1#32
      = k0_t2_body (F := F) L a2 h2 a3 h3 a4 h4 a6 h6 a5 h5 a7 h7 s8 s9 s10 r0 := rfl

set_option maxRecDepth 65536 in
/-- The loop of chunk 2 is the first chunk's, on the buffer in place 2. -/
theorem t4_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t4_body (F := F) L a2 h2 a3 h3 a4 h4 a5 h5 a6 h6 a7 h7 s8 s9 s10 r0 v2 k0_pay2 0#32 1#32
      = k0_t2_body (F := F) L a2 h2 a3 h3 a4 h4 a7 h7 a6 h6 a5 h5 s8 s9 s10 r0 := rfl

set_option maxRecDepth 65536 in
/-- The loop of chunk 3 is the first chunk's, on the buffer in place 0. -/
theorem t5_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t5_body (F := F) L a2 h2 a3 h3 a4 h4 a5 h5 a6 h6 a7 h7 s8 s9 s10 r0 v2 k0_pay2 0#32 1#32
      = k0_t2_body (F := F) L a2 h2 a3 h3 a4 h4 a5 h5 a6 h6 a7 h7 s8 s9 s10 r0 := rfl

set_option maxRecDepth 65536 in
/-- The loop of chunk 4 is the first chunk's, on the buffer in place 1. -/
theorem t6_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t6_body (F := F) L a2 h2 a3 h3 a4 h4 a5 h5 a6 h6 a7 h7 s8 s9 s10 r0 v2 k0_pay2 0#32 1#32
      = k0_t2_body (F := F) L a2 h2 a3 h3 a4 h4 a6 h6 a5 h5 a7 h7 s8 s9 s10 r0 := rfl

set_option maxRecDepth 65536 in
/-- The loop of chunk 5 is the first chunk's, on the buffer in place 2. -/
theorem t7_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t7_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 6 is the first chunk's, on the buffer in place 0. -/
theorem t8_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t8_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 7 is the first chunk's, on the buffer in place 1. -/
theorem t9_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t9_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 8 is the first chunk's, on the buffer in place 2. -/
theorem t10_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t10_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 9 is the first chunk's, on the buffer in place 0. -/
theorem t11_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t11_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 10 is the first chunk's, on the buffer in place 1. -/
theorem t12_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t12_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 11 is the first chunk's, on the buffer in place 2. -/
theorem t13_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t13_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 12 is the first chunk's, on the buffer in place 0. -/
theorem t14_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t14_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 13 is the first chunk's, on the buffer in place 1. -/
theorem t15_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t15_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 14 is the first chunk's, on the buffer in place 2. -/
theorem t16_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t16_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 15 is the first chunk's, on the buffer in place 0. -/
theorem t17_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t17_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 16 is the first chunk's, on the buffer in place 1. -/
theorem t18_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t18_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 17 is the first chunk's, on the buffer in place 2. -/
theorem t19_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t19_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 18 is the first chunk's, on the buffer in place 0. -/
theorem t20_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t20_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 19 is the first chunk's, on the buffer in place 1. -/
theorem t21_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t21_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 20 is the first chunk's, on the buffer in place 2. -/
theorem t22_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t22_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 21 is the first chunk's, on the buffer in place 0. -/
theorem t23_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t23_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 22 is the first chunk's, on the buffer in place 1. -/
theorem t24_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t24_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 23 is the first chunk's, on the buffer in place 2. -/
theorem t25_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 c : BitVec 32) :
    k0_t25_body (F := F) L a2 h2 a3 h3 a4 h4 a5 h5 a6 h6 a7 h7 s8 s9 s10 r0 v2 k0_pay2 c
      = k0_t2_body (F := F) L a2 h2 a3 h3 a4 h4 a7 h7 a6 h6 a5 h5 s8 s9 s10 r0 := rfl

set_option maxRecDepth 65536 in
/-- The loop of chunk 24 is the first chunk's, on the buffer in place 0. -/
theorem t26_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 c : BitVec 32) :
    k0_t26_body (F := F) L a2 h2 a3 h3 a4 h4 a5 h5 a6 h6 a7 h7 s8 s9 s10 r0 v2 k0_pay2 c
      = k0_t2_body (F := F) L a2 h2 a3 h3 a4 h4 a5 h5 a6 h6 a7 h7 s8 s9 s10 r0 := rfl

set_option maxRecDepth 65536 in
/-- The loop of chunk 25 is the first chunk's, on the buffer in place 1. -/
theorem t27_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 c : BitVec 32) :
    k0_t27_body (F := F) L a2 h2 a3 h3 a4 h4 a5 h5 a6 h6 a7 h7 s8 s9 s10 r0 v2 k0_pay2 c
      = k0_t2_body (F := F) L a2 h2 a3 h3 a4 h4 a6 h6 a5 h5 a7 h7 s8 s9 s10 r0 := rfl

set_option maxRecDepth 65536 in
/-- The loop of chunk 26 is the first chunk's, on the buffer in place 2. -/
theorem t28_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t28_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 27 is the first chunk's, on the buffer in place 0. -/
theorem t29_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t29_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 28 is the first chunk's, on the buffer in place 1. -/
theorem t30_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t30_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 29 is the first chunk's, on the buffer in place 2. -/
theorem t31_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t31_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 30 is the first chunk's, on the buffer in place 0. -/
theorem t32_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) :
    k0_t32_body (F := F) L a2 h2 a3 h3 a4 h4 a5 h5 a6 h6 a7 h7 s8 s9 s10 r0 k0_pay2
      = k0_t2_body (F := F) L a2 h2 a3 h3 a4 h4 a5 h5 a6 h6 a7 h7 s8 s9 s10 r0 := rfl

set_option maxRecDepth 65536 in
/-- The loop of chunk 31 is the first chunk's, on the buffer in place 1. -/
theorem t33_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) :
    k0_t33_body (F := F) L a2 h2 a3 h3 a4 h4 a5 h5 a6 h6 a7 h7 s8 s9 s10 r0 k0_pay2
      = k0_t2_body (F := F) L a2 h2 a3 h3 a4 h4 a6 h6 a5 h5 a7 h7 s8 s9 s10 r0 := rfl

/-! ## The region of each chunk's loop -/

/-- The region of the loop of chunk 0 (buffer `b0V`). -/
theorem chunk_reg_0 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) :
    ∀ k : Fin k0_t2_loop.trips, cinv (F := F) d L xs lo n0 b0V k.val ⟨⟩
      ⊢ wp frame (wpE (defs₀ (F := F)) 𝒱₀ (V d (cV L) (jV L)) none) Set.univ
          (k0_t2_body L a2 h2 a3 h3 hV (Memref.isWhole_whole _) b0V (Memref.isWhole_whole _) b1V (Memref.isWhole_whole _) b2V (Memref.isWhole_whole _)
            s8 s9 s10 r0 k ⟨⟩)
          (fun _ => cinv (F := F) d L xs lo n0 b0V (k.val + 1) ⟨⟩) := by
  intro k
  exact chunk_reg_b0V (F := F) d L xs lo n0 hx a2 h2 a3 h3 b1V (Memref.isWhole_whole _) b2V (Memref.isWhole_whole _) s8 s9 s10 r0 k

/-- The region of the loop of chunk 1 (buffer `b1V`). -/
theorem chunk_reg_1 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t3_loop.trips, cinv (F := F) d L xs lo n0 b1V k.val ⟨⟩
      ⊢ wp frame (wpE (defs₀ (F := F)) 𝒱₀ (V d (cV L) (jV L)) none) Set.univ
          (k0_t3_body L a2 h2 a3 h3 hV (Memref.isWhole_whole _) b0V (Memref.isWhole_whole _) b1V (Memref.isWhole_whole _) b2V (Memref.isWhole_whole _)
            s8 s9 s10 r0 v2 k0_pay2 0#32 1#32 k ⟨⟩)
          (fun _ => cinv (F := F) d L xs lo n0 b1V (k.val + 1) ⟨⟩) := by
  intro k
  rw [t3_eq]
  exact chunk_reg_b1V (F := F) d L xs lo n0 hx a2 h2 a3 h3 b0V (Memref.isWhole_whole _) b2V (Memref.isWhole_whole _) s8 s9 s10 r0 k

/-- The region of the loop of chunk 2 (buffer `b2V`). -/
theorem chunk_reg_2 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t4_loop.trips, cinv (F := F) d L xs lo n0 b2V k.val ⟨⟩
      ⊢ wp frame (wpE (defs₀ (F := F)) 𝒱₀ (V d (cV L) (jV L)) none) Set.univ
          (k0_t4_body L a2 h2 a3 h3 hV (Memref.isWhole_whole _) b0V (Memref.isWhole_whole _) b1V (Memref.isWhole_whole _) b2V (Memref.isWhole_whole _)
            s8 s9 s10 r0 v2 k0_pay2 0#32 1#32 k ⟨⟩)
          (fun _ => cinv (F := F) d L xs lo n0 b2V (k.val + 1) ⟨⟩) := by
  intro k
  rw [t4_eq]
  exact chunk_reg_b2V (F := F) d L xs lo n0 hx a2 h2 a3 h3 b1V (Memref.isWhole_whole _) b0V (Memref.isWhole_whole _) s8 s9 s10 r0 k

/-- The region of the loop of chunk 3 (buffer `b0V`). -/
theorem chunk_reg_3 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t5_loop.trips, cinv (F := F) d L xs lo n0 b0V k.val ⟨⟩
      ⊢ wp frame (wpE (defs₀ (F := F)) 𝒱₀ (V d (cV L) (jV L)) none) Set.univ
          (k0_t5_body L a2 h2 a3 h3 hV (Memref.isWhole_whole _) b0V (Memref.isWhole_whole _) b1V (Memref.isWhole_whole _) b2V (Memref.isWhole_whole _)
            s8 s9 s10 r0 v2 k0_pay2 0#32 1#32 k ⟨⟩)
          (fun _ => cinv (F := F) d L xs lo n0 b0V (k.val + 1) ⟨⟩) := by
  intro k
  rw [t5_eq]
  exact chunk_reg_b0V (F := F) d L xs lo n0 hx a2 h2 a3 h3 b1V (Memref.isWhole_whole _) b2V (Memref.isWhole_whole _) s8 s9 s10 r0 k

/-- The region of the loop of chunk 4 (buffer `b1V`). -/
theorem chunk_reg_4 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t6_loop.trips, cinv (F := F) d L xs lo n0 b1V k.val ⟨⟩
      ⊢ wp frame (wpE (defs₀ (F := F)) 𝒱₀ (V d (cV L) (jV L)) none) Set.univ
          (k0_t6_body L a2 h2 a3 h3 hV (Memref.isWhole_whole _) b0V (Memref.isWhole_whole _) b1V (Memref.isWhole_whole _) b2V (Memref.isWhole_whole _)
            s8 s9 s10 r0 v2 k0_pay2 0#32 1#32 k ⟨⟩)
          (fun _ => cinv (F := F) d L xs lo n0 b1V (k.val + 1) ⟨⟩) := by
  intro k
  rw [t6_eq]
  exact chunk_reg_b1V (F := F) d L xs lo n0 hx a2 h2 a3 h3 b0V (Memref.isWhole_whole _) b2V (Memref.isWhole_whole _) s8 s9 s10 r0 k

/-- The region of the loop of chunk 5 (buffer `b2V`). -/
theorem chunk_reg_5 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t7_loop.trips, cinv (F := F) d L xs lo n0 b2V k.val ⟨⟩
      ⊢ wp frame (wpE (defs₀ (F := F)) 𝒱₀ (V d (cV L) (jV L)) none) Set.univ
          (k0_t7_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t7_eq]
  exact chunk_reg_b2V (F := F) d L xs lo n0 hx a2 h2 a3 h3 b1V (Memref.isWhole_whole _) b0V (Memref.isWhole_whole _) s8 s9 s10 r0 k

/-- The region of the loop of chunk 6 (buffer `b0V`). -/
theorem chunk_reg_6 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t8_loop.trips, cinv (F := F) d L xs lo n0 b0V k.val ⟨⟩
      ⊢ wp frame (wpE (defs₀ (F := F)) 𝒱₀ (V d (cV L) (jV L)) none) Set.univ
          (k0_t8_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t8_eq]
  exact chunk_reg_b0V (F := F) d L xs lo n0 hx a2 h2 a3 h3 b1V (Memref.isWhole_whole _) b2V (Memref.isWhole_whole _) s8 s9 s10 r0 k

/-- The region of the loop of chunk 7 (buffer `b1V`). -/
theorem chunk_reg_7 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t9_loop.trips, cinv (F := F) d L xs lo n0 b1V k.val ⟨⟩
      ⊢ wp frame (wpE (defs₀ (F := F)) 𝒱₀ (V d (cV L) (jV L)) none) Set.univ
          (k0_t9_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t9_eq]
  exact chunk_reg_b1V (F := F) d L xs lo n0 hx a2 h2 a3 h3 b0V (Memref.isWhole_whole _) b2V (Memref.isWhole_whole _) s8 s9 s10 r0 k

/-- The region of the loop of chunk 8 (buffer `b2V`). -/
theorem chunk_reg_8 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t10_loop.trips, cinv (F := F) d L xs lo n0 b2V k.val ⟨⟩
      ⊢ wp frame (wpE (defs₀ (F := F)) 𝒱₀ (V d (cV L) (jV L)) none) Set.univ
          (k0_t10_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t10_eq]
  exact chunk_reg_b2V (F := F) d L xs lo n0 hx a2 h2 a3 h3 b1V (Memref.isWhole_whole _) b0V (Memref.isWhole_whole _) s8 s9 s10 r0 k

/-- The region of the loop of chunk 9 (buffer `b0V`). -/
theorem chunk_reg_9 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t11_loop.trips, cinv (F := F) d L xs lo n0 b0V k.val ⟨⟩
      ⊢ wp frame (wpE (defs₀ (F := F)) 𝒱₀ (V d (cV L) (jV L)) none) Set.univ
          (k0_t11_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t11_eq]
  exact chunk_reg_b0V (F := F) d L xs lo n0 hx a2 h2 a3 h3 b1V (Memref.isWhole_whole _) b2V (Memref.isWhole_whole _) s8 s9 s10 r0 k

/-- The region of the loop of chunk 10 (buffer `b1V`). -/
theorem chunk_reg_10 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t12_loop.trips, cinv (F := F) d L xs lo n0 b1V k.val ⟨⟩
      ⊢ wp frame (wpE (defs₀ (F := F)) 𝒱₀ (V d (cV L) (jV L)) none) Set.univ
          (k0_t12_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t12_eq]
  exact chunk_reg_b1V (F := F) d L xs lo n0 hx a2 h2 a3 h3 b0V (Memref.isWhole_whole _) b2V (Memref.isWhole_whole _) s8 s9 s10 r0 k

/-- The region of the loop of chunk 11 (buffer `b2V`). -/
theorem chunk_reg_11 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t13_loop.trips, cinv (F := F) d L xs lo n0 b2V k.val ⟨⟩
      ⊢ wp frame (wpE (defs₀ (F := F)) 𝒱₀ (V d (cV L) (jV L)) none) Set.univ
          (k0_t13_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t13_eq]
  exact chunk_reg_b2V (F := F) d L xs lo n0 hx a2 h2 a3 h3 b1V (Memref.isWhole_whole _) b0V (Memref.isWhole_whole _) s8 s9 s10 r0 k

/-- The region of the loop of chunk 12 (buffer `b0V`). -/
theorem chunk_reg_12 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t14_loop.trips, cinv (F := F) d L xs lo n0 b0V k.val ⟨⟩
      ⊢ wp frame (wpE (defs₀ (F := F)) 𝒱₀ (V d (cV L) (jV L)) none) Set.univ
          (k0_t14_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t14_eq]
  exact chunk_reg_b0V (F := F) d L xs lo n0 hx a2 h2 a3 h3 b1V (Memref.isWhole_whole _) b2V (Memref.isWhole_whole _) s8 s9 s10 r0 k

/-- The region of the loop of chunk 13 (buffer `b1V`). -/
theorem chunk_reg_13 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t15_loop.trips, cinv (F := F) d L xs lo n0 b1V k.val ⟨⟩
      ⊢ wp frame (wpE (defs₀ (F := F)) 𝒱₀ (V d (cV L) (jV L)) none) Set.univ
          (k0_t15_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t15_eq]
  exact chunk_reg_b1V (F := F) d L xs lo n0 hx a2 h2 a3 h3 b0V (Memref.isWhole_whole _) b2V (Memref.isWhole_whole _) s8 s9 s10 r0 k

/-- The region of the loop of chunk 14 (buffer `b2V`). -/
theorem chunk_reg_14 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t16_loop.trips, cinv (F := F) d L xs lo n0 b2V k.val ⟨⟩
      ⊢ wp frame (wpE (defs₀ (F := F)) 𝒱₀ (V d (cV L) (jV L)) none) Set.univ
          (k0_t16_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t16_eq]
  exact chunk_reg_b2V (F := F) d L xs lo n0 hx a2 h2 a3 h3 b1V (Memref.isWhole_whole _) b0V (Memref.isWhole_whole _) s8 s9 s10 r0 k

/-- The region of the loop of chunk 15 (buffer `b0V`). -/
theorem chunk_reg_15 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t17_loop.trips, cinv (F := F) d L xs lo n0 b0V k.val ⟨⟩
      ⊢ wp frame (wpE (defs₀ (F := F)) 𝒱₀ (V d (cV L) (jV L)) none) Set.univ
          (k0_t17_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t17_eq]
  exact chunk_reg_b0V (F := F) d L xs lo n0 hx a2 h2 a3 h3 b1V (Memref.isWhole_whole _) b2V (Memref.isWhole_whole _) s8 s9 s10 r0 k

/-- The region of the loop of chunk 16 (buffer `b1V`). -/
theorem chunk_reg_16 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t18_loop.trips, cinv (F := F) d L xs lo n0 b1V k.val ⟨⟩
      ⊢ wp frame (wpE (defs₀ (F := F)) 𝒱₀ (V d (cV L) (jV L)) none) Set.univ
          (k0_t18_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t18_eq]
  exact chunk_reg_b1V (F := F) d L xs lo n0 hx a2 h2 a3 h3 b0V (Memref.isWhole_whole _) b2V (Memref.isWhole_whole _) s8 s9 s10 r0 k

/-- The region of the loop of chunk 17 (buffer `b2V`). -/
theorem chunk_reg_17 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t19_loop.trips, cinv (F := F) d L xs lo n0 b2V k.val ⟨⟩
      ⊢ wp frame (wpE (defs₀ (F := F)) 𝒱₀ (V d (cV L) (jV L)) none) Set.univ
          (k0_t19_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t19_eq]
  exact chunk_reg_b2V (F := F) d L xs lo n0 hx a2 h2 a3 h3 b1V (Memref.isWhole_whole _) b0V (Memref.isWhole_whole _) s8 s9 s10 r0 k

/-- The region of the loop of chunk 18 (buffer `b0V`). -/
theorem chunk_reg_18 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t20_loop.trips, cinv (F := F) d L xs lo n0 b0V k.val ⟨⟩
      ⊢ wp frame (wpE (defs₀ (F := F)) 𝒱₀ (V d (cV L) (jV L)) none) Set.univ
          (k0_t20_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t20_eq]
  exact chunk_reg_b0V (F := F) d L xs lo n0 hx a2 h2 a3 h3 b1V (Memref.isWhole_whole _) b2V (Memref.isWhole_whole _) s8 s9 s10 r0 k

/-- The region of the loop of chunk 19 (buffer `b1V`). -/
theorem chunk_reg_19 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t21_loop.trips, cinv (F := F) d L xs lo n0 b1V k.val ⟨⟩
      ⊢ wp frame (wpE (defs₀ (F := F)) 𝒱₀ (V d (cV L) (jV L)) none) Set.univ
          (k0_t21_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t21_eq]
  exact chunk_reg_b1V (F := F) d L xs lo n0 hx a2 h2 a3 h3 b0V (Memref.isWhole_whole _) b2V (Memref.isWhole_whole _) s8 s9 s10 r0 k

/-- The region of the loop of chunk 20 (buffer `b2V`). -/
theorem chunk_reg_20 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t22_loop.trips, cinv (F := F) d L xs lo n0 b2V k.val ⟨⟩
      ⊢ wp frame (wpE (defs₀ (F := F)) 𝒱₀ (V d (cV L) (jV L)) none) Set.univ
          (k0_t22_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t22_eq]
  exact chunk_reg_b2V (F := F) d L xs lo n0 hx a2 h2 a3 h3 b1V (Memref.isWhole_whole _) b0V (Memref.isWhole_whole _) s8 s9 s10 r0 k

/-- The region of the loop of chunk 21 (buffer `b0V`). -/
theorem chunk_reg_21 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t23_loop.trips, cinv (F := F) d L xs lo n0 b0V k.val ⟨⟩
      ⊢ wp frame (wpE (defs₀ (F := F)) 𝒱₀ (V d (cV L) (jV L)) none) Set.univ
          (k0_t23_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t23_eq]
  exact chunk_reg_b0V (F := F) d L xs lo n0 hx a2 h2 a3 h3 b1V (Memref.isWhole_whole _) b2V (Memref.isWhole_whole _) s8 s9 s10 r0 k

/-- The region of the loop of chunk 22 (buffer `b1V`). -/
theorem chunk_reg_22 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t24_loop.trips, cinv (F := F) d L xs lo n0 b1V k.val ⟨⟩
      ⊢ wp frame (wpE (defs₀ (F := F)) 𝒱₀ (V d (cV L) (jV L)) none) Set.univ
          (k0_t24_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t24_eq]
  exact chunk_reg_b1V (F := F) d L xs lo n0 hx a2 h2 a3 h3 b0V (Memref.isWhole_whole _) b2V (Memref.isWhole_whole _) s8 s9 s10 r0 k

/-- The region of the loop of chunk 23 (buffer `b2V`). -/
theorem chunk_reg_23 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 c : BitVec 32) :
    ∀ k : Fin k0_t25_loop.trips, cinv (F := F) d L xs lo n0 b2V k.val ⟨⟩
      ⊢ wp frame (wpE (defs₀ (F := F)) 𝒱₀ (V d (cV L) (jV L)) none) Set.univ
          (k0_t25_body L a2 h2 a3 h3 hV (Memref.isWhole_whole _) b0V (Memref.isWhole_whole _) b1V (Memref.isWhole_whole _) b2V (Memref.isWhole_whole _)
            s8 s9 s10 r0 v2 k0_pay2 c k ⟨⟩)
          (fun _ => cinv (F := F) d L xs lo n0 b2V (k.val + 1) ⟨⟩) := by
  intro k
  rw [t25_eq]
  exact chunk_reg_b2V (F := F) d L xs lo n0 hx a2 h2 a3 h3 b1V (Memref.isWhole_whole _) b0V (Memref.isWhole_whole _) s8 s9 s10 r0 k

/-- The region of the loop of chunk 24 (buffer `b0V`). -/
theorem chunk_reg_24 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 c : BitVec 32) :
    ∀ k : Fin k0_t26_loop.trips, cinv (F := F) d L xs lo n0 b0V k.val ⟨⟩
      ⊢ wp frame (wpE (defs₀ (F := F)) 𝒱₀ (V d (cV L) (jV L)) none) Set.univ
          (k0_t26_body L a2 h2 a3 h3 hV (Memref.isWhole_whole _) b0V (Memref.isWhole_whole _) b1V (Memref.isWhole_whole _) b2V (Memref.isWhole_whole _)
            s8 s9 s10 r0 v2 k0_pay2 c k ⟨⟩)
          (fun _ => cinv (F := F) d L xs lo n0 b0V (k.val + 1) ⟨⟩) := by
  intro k
  rw [t26_eq]
  exact chunk_reg_b0V (F := F) d L xs lo n0 hx a2 h2 a3 h3 b1V (Memref.isWhole_whole _) b2V (Memref.isWhole_whole _) s8 s9 s10 r0 k

/-- The region of the loop of chunk 25 (buffer `b1V`). -/
theorem chunk_reg_25 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 c : BitVec 32) :
    ∀ k : Fin k0_t27_loop.trips, cinv (F := F) d L xs lo n0 b1V k.val ⟨⟩
      ⊢ wp frame (wpE (defs₀ (F := F)) 𝒱₀ (V d (cV L) (jV L)) none) Set.univ
          (k0_t27_body L a2 h2 a3 h3 hV (Memref.isWhole_whole _) b0V (Memref.isWhole_whole _) b1V (Memref.isWhole_whole _) b2V (Memref.isWhole_whole _)
            s8 s9 s10 r0 v2 k0_pay2 c k ⟨⟩)
          (fun _ => cinv (F := F) d L xs lo n0 b1V (k.val + 1) ⟨⟩) := by
  intro k
  rw [t27_eq]
  exact chunk_reg_b1V (F := F) d L xs lo n0 hx a2 h2 a3 h3 b0V (Memref.isWhole_whole _) b2V (Memref.isWhole_whole _) s8 s9 s10 r0 k

/-- The region of the loop of chunk 26 (buffer `b2V`). -/
theorem chunk_reg_26 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t28_loop.trips, cinv (F := F) d L xs lo n0 b2V k.val ⟨⟩
      ⊢ wp frame (wpE (defs₀ (F := F)) 𝒱₀ (V d (cV L) (jV L)) none) Set.univ
          (k0_t28_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t28_eq]
  exact chunk_reg_b2V (F := F) d L xs lo n0 hx a2 h2 a3 h3 b1V (Memref.isWhole_whole _) b0V (Memref.isWhole_whole _) s8 s9 s10 r0 k

/-- The region of the loop of chunk 27 (buffer `b0V`). -/
theorem chunk_reg_27 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t29_loop.trips, cinv (F := F) d L xs lo n0 b0V k.val ⟨⟩
      ⊢ wp frame (wpE (defs₀ (F := F)) 𝒱₀ (V d (cV L) (jV L)) none) Set.univ
          (k0_t29_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t29_eq]
  exact chunk_reg_b0V (F := F) d L xs lo n0 hx a2 h2 a3 h3 b1V (Memref.isWhole_whole _) b2V (Memref.isWhole_whole _) s8 s9 s10 r0 k

/-- The region of the loop of chunk 28 (buffer `b1V`). -/
theorem chunk_reg_28 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t30_loop.trips, cinv (F := F) d L xs lo n0 b1V k.val ⟨⟩
      ⊢ wp frame (wpE (defs₀ (F := F)) 𝒱₀ (V d (cV L) (jV L)) none) Set.univ
          (k0_t30_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t30_eq]
  exact chunk_reg_b1V (F := F) d L xs lo n0 hx a2 h2 a3 h3 b0V (Memref.isWhole_whole _) b2V (Memref.isWhole_whole _) s8 s9 s10 r0 k

/-- The region of the loop of chunk 29 (buffer `b2V`). -/
theorem chunk_reg_29 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t31_loop.trips, cinv (F := F) d L xs lo n0 b2V k.val ⟨⟩
      ⊢ wp frame (wpE (defs₀ (F := F)) 𝒱₀ (V d (cV L) (jV L)) none) Set.univ
          (k0_t31_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t31_eq]
  exact chunk_reg_b2V (F := F) d L xs lo n0 hx a2 h2 a3 h3 b1V (Memref.isWhole_whole _) b0V (Memref.isWhole_whole _) s8 s9 s10 r0 k

/-- The region of the loop of chunk 30 (buffer `b0V`). -/
theorem chunk_reg_30 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) :
    ∀ k : Fin k0_t32_loop.trips, cinv (F := F) d L xs lo n0 b0V k.val ⟨⟩
      ⊢ wp frame (wpE (defs₀ (F := F)) 𝒱₀ (V d (cV L) (jV L)) none) Set.univ
          (k0_t32_body L a2 h2 a3 h3 hV (Memref.isWhole_whole _) b0V (Memref.isWhole_whole _) b1V (Memref.isWhole_whole _) b2V (Memref.isWhole_whole _)
            s8 s9 s10 r0 k0_pay2 k ⟨⟩)
          (fun _ => cinv (F := F) d L xs lo n0 b0V (k.val + 1) ⟨⟩) := by
  intro k
  rw [t32_eq]
  exact chunk_reg_b0V (F := F) d L xs lo n0 hx a2 h2 a3 h3 b1V (Memref.isWhole_whole _) b2V (Memref.isWhole_whole _) s8 s9 s10 r0 k

/-- The region of the loop of chunk 31 (buffer `b1V`). -/
theorem chunk_reg_31 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) :
    ∀ k : Fin k0_t33_loop.trips, cinv (F := F) d L xs lo n0 b1V k.val ⟨⟩
      ⊢ wp frame (wpE (defs₀ (F := F)) 𝒱₀ (V d (cV L) (jV L)) none) Set.univ
          (k0_t33_body L a2 h2 a3 h3 hV (Memref.isWhole_whole _) b0V (Memref.isWhole_whole _) b1V (Memref.isWhole_whole _) b2V (Memref.isWhole_whole _)
            s8 s9 s10 r0 k0_pay2 k ⟨⟩)
          (fun _ => cinv (F := F) d L xs lo n0 b1V (k.val + 1) ⟨⟩) := by
  intro k
  rw [t33_eq]
  exact chunk_reg_b1V (F := F) d L xs lo n0 hx a2 h2 a3 h3 b0V (Memref.isWhole_whole _) b2V (Memref.isWhole_whole _) s8 s9 s10 r0 k

end Cert.Proof.KI
-- ==== Proof.KI.Tile.lean ====
/-
  One tile's task: the three chunk buffers' ring, the histogram zeroed, thirty-two chunks counted, the histogram
  written out to the tile's row.
-/
import proofs.«203723_g38474317038175_cont_8to1_b_298_28_alg».proof.Proof.KI.Rows
import proofs.«203723_g38474317038175_cont_8to1_b_298_28_alg».proof.Proof.KI.ZeroLoop
import proofs.«203723_g38474317038175_cont_8to1_b_298_28_alg».proof.Proof.KI.Trip
import Idealize.ShloMosaic.Lib.Ring

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

omit [FloatOps F] in
theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0 ∗ semVal (c3cell d (cV L) (jV L)) 0
          ∗ bigSep (((((ownCells (V d (cV L) (jV L))).erase (c0cell d (cV L) (jV L))).erase (c1cell d (cV L) (jV L))).erase (c2cell d (cV L) (jV L))).erase (c3cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scratch4.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scratch5.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scratch6.sem : SemLoc sig).isScoped .scVector = true; decide⟩⟩⟩),
    SparseCore.bigSep_erase' (Finset.mem_erase.mpr ⟨by simp [c2cell, c3cell]; decide, Finset.mem_erase.mpr ⟨by simp [c1cell, c3cell]; decide,
      Finset.mem_erase.mpr ⟨by simp [c0cell, c3cell]; decide,
      (mem_ownCells (g := c3cell d (cV L) (jV L))).mpr ⟨rfl, by show (SemLoc.dma cc0_scoped0.sem : SemLoc sig).isScoped .scVector = true; decide⟩⟩⟩⟩)]

omit [FloatOps F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
/-- The input as the tile's memref addresses it is the TensorCore's array. -/
theorem pts_x (q : PosShare TreeShare) (f : Buf (Elt F) (xLoc d)) :
    ((xV : Memref sig .scVector .hbm S16777216 .i32).view.loc (V d (cV L) (jV L)) ↦{q} f : sProp 𝕄) = xLoc d ↦{q} f := by
  simp only [Memref.view_whole, View.set_whole]

/-- Two counts of the same stretch are the same word. -/
theorem cnt_congr {xs : ℕ → ℕ} {lo j A B : ℕ} (h : A = B) :
    BitVec.ofNat 32 (Cert.Hist.cntN xs lo A j) = BitVec.ofNat 32 (Cert.Hist.cntN xs lo B j) := by rw [h]

omit [FloatOps F] in
/-- A wait recorded at no call's index keeps the record within the allowed ones. -/
theorem ins_ok {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

theorem tile_body (hF : (K (F := F)).Facts) (hpre : ∀ i, (xOf m d i).toNat < 65536)
    (O : CellTallies nD τ sig (HIx 1)) (W : Waits sig (HIx 1)) (hO : ∀ g, O g none = 0) :
    iprop(levAts (K (F := F)).L (K (F := F)).lev ∗ emp ∗ goT m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L xV (Memref.isWhole_whole _) pV (Memref.isWhole_whole _) hV (Memref.isWhole_whole _)
            b0V (Memref.isWhole_whole _) b1V (Memref.isWhole_whole _) b2V (Memref.isWhole_whole _)
            cc0_scratch4 cc0_scratch5 cc0_scratch6 cc0_scoped0)
          fun _ => iprop(tdT m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  unfold goT
  iintro ⟨#Hlv, -, ⟨Hx, Hp⟩, ⟨⟨%fh, Hh⟩, ⟨%f0, Hb0⟩, ⟨%f1, Hb1⟩, ⟨%f2, Hb2⟩, Hbufs⟩, ⟨Hs0, Hs1, Hs2, Hs3, Hsems⟩, HO⟩
  have hxs : ∀ p, Cert.Hist.flat (xOf m d) p < 65536 := fun p => by
    unfold Cert.Hist.flat
    split
    · exact hpre _
    · decide
  ihave Hmw := ((K (F := F)).mayWaits_none (thr := V d (cV L) (jV L)) hO) $$ Hlv
  ihave Hx' := (Entails.of_eq (pts_x (F := F) d L _ _).symm) $$ Hx
  ihave Hx3 := ((Transfers.pointsTo_toks_split (Ix := HIx 1) (Name := ℕ) (U := UU) (Lvl := ℕ) (Transfers.shareTokN fullShare (wL L).val) 3).trans
    (Entails.of_eq (by rw [Idealize.ShloMosaic.Ring.bigSep_fin3]))) $$ Hx'
  icases Hx3 with ⟨Hxr, Hx0, Hx1, Hx2⟩
  ihave Hh' := (Entails.of_eq (show ((hV : Memref sig .scVector .vmem S65536 .i32).view.loc (V d (cV L) (jV L)) ↦{fullShare} fh : sProp 𝕄) = _ from rfl).symm) $$ Hh
  ihave Hb0' := (Entails.of_eq (show ((b0V : Memref sig .scVector .vmem S16384 .i32).view.loc (V d (cV L) (jV L)) ↦{fullShare} f0 : sProp 𝕄) = _ from rfl).symm) $$ Hb0
  ihave Hb1' := (Entails.of_eq (show ((b1V : Memref sig .scVector .vmem S16384 .i32).view.loc (V d (cV L) (jV L)) ↦{fullShare} f1 : sProp 𝕄) = _ from rfl).symm) $$ Hb1
  ihave Hb2' := (Entails.of_eq (show ((b2V : Memref sig .scVector .vmem S16384 .i32).view.loc (V d (cV L) (jV L)) ↦{fullShare} f2 : sProp 𝕄) = _ from rfl).symm) $$ Hb2
  sl_exec
  sl_for (zinv (F := F) d L) $$ [Hh']
  case region =>
    intro k _
    exact zero_region (F := F) d L _ _ _ _ _ _ _ _ _ _ _ _ _ _ k
  · unfold zinv
    iexists fh; isplitr
    · ipureintro; intro j hj; omega
    · iexact Hh'
  iintro %_ HI
  unfold zinv
  icases HI with ⟨%hc, %hz, Hh⟩
  sl_exec
  -- the histogram starts at zero: no position counted yet
  have hfact : ∀ j : S65536.Idx, hc j = BitVec.ofNat 32 (Cert.Hist.cntN (Cert.Hist.flat (xOf m d)) ((wL L).val * 524288) (16384 * 0 + 256 * 0) (j 0).val) :=
    fun j => hz j (by have hj : (j 0).val < 65536 := (j 0).isLt; show (j 0).val < 128 * 512; omega)
  -- chunk 0: its loop on the buffer that holds it, then that buffer's refill and the wait for the next chunk
  have hstart : ∀ j : S65536.Idx, hc j = BitVec.ofNat 32 (Cert.Hist.cntN (Cert.Hist.flat (xOf m d)) ((wL L).val * 524288) (16384 * 0 + 256 * 0) (j 0).val) :=
    fun j => (hfact j).trans (cnt_congr (by decide))
  sl_for (cinv (F := F) d L (Cert.Hist.flat (xOf m d)) ((wL L).val * 524288) (16384 * 0) b0V) $$ [Hh Hb0']
  case region => intro k _; exact chunk_reg_0 (F := F) d L _ _ _ hxs _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 0 b0V _ p hp
  clear hstart hfact
  iintro %_ HI
  unfold cinv
  icases HI with ⟨⟨%hc, %hfact, Hh⟩, ⟨%bb, -, Hb0'⟩⟩
  sl_exec
  -- chunk 1: its loop on the buffer that holds it, then that buffer's refill and the wait for the next chunk
  have hstart : ∀ j : S65536.Idx, hc j = BitVec.ofNat 32 (Cert.Hist.cntN (Cert.Hist.flat (xOf m d)) ((wL L).val * 524288) (16384 * 1 + 256 * 0) (j 0).val) :=
    fun j => (hfact j).trans (cnt_congr (by decide))
  sl_for (cinv (F := F) d L (Cert.Hist.flat (xOf m d)) ((wL L).val * 524288) (16384 * 1) b1V) $$ [Hh Hb1']
  case region => intro k _; exact chunk_reg_1 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 1 b1V _ p hp
  clear hstart hfact
  iintro %_ HI
  unfold cinv
  icases HI with ⟨⟨%hc, %hfact, Hh⟩, ⟨%bb, -, Hb1'⟩⟩
  sl_exec
  -- chunk 2: its loop on the buffer that holds it, then that buffer's refill and the wait for the next chunk
  have hstart : ∀ j : S65536.Idx, hc j = BitVec.ofNat 32 (Cert.Hist.cntN (Cert.Hist.flat (xOf m d)) ((wL L).val * 524288) (16384 * 2 + 256 * 0) (j 0).val) :=
    fun j => (hfact j).trans (cnt_congr (by decide))
  sl_for (cinv (F := F) d L (Cert.Hist.flat (xOf m d)) ((wL L).val * 524288) (16384 * 2) b2V) $$ [Hh Hb2']
  case region => intro k _; exact chunk_reg_2 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 2 b2V _ p hp
  clear hstart hfact
  iintro %_ HI
  unfold cinv
  icases HI with ⟨⟨%hc, %hfact, Hh⟩, ⟨%bb, -, Hb2'⟩⟩
  sl_exec
  -- chunk 3: its loop on the buffer that holds it, then that buffer's refill and the wait for the next chunk
  have hstart : ∀ j : S65536.Idx, hc j = BitVec.ofNat 32 (Cert.Hist.cntN (Cert.Hist.flat (xOf m d)) ((wL L).val * 524288) (16384 * 3 + 256 * 0) (j 0).val) :=
    fun j => (hfact j).trans (cnt_congr (by decide))
  sl_for (cinv (F := F) d L (Cert.Hist.flat (xOf m d)) ((wL L).val * 524288) (16384 * 3) b0V) $$ [Hh Hb0']
  case region => intro k _; exact chunk_reg_3 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 3 b0V _ p hp
  clear hstart hfact
  iintro %_ HI
  unfold cinv
  icases HI with ⟨⟨%hc, %hfact, Hh⟩, ⟨%bb, -, Hb0'⟩⟩
  sl_exec
  -- chunk 4: its loop on the buffer that holds it, then that buffer's refill and the wait for the next chunk
  have hstart : ∀ j : S65536.Idx, hc j = BitVec.ofNat 32 (Cert.Hist.cntN (Cert.Hist.flat (xOf m d)) ((wL L).val * 524288) (16384 * 4 + 256 * 0) (j 0).val) :=
    fun j => (hfact j).trans (cnt_congr (by decide))
  sl_for (cinv (F := F) d L (Cert.Hist.flat (xOf m d)) ((wL L).val * 524288) (16384 * 4) b1V) $$ [Hh Hb1']
  case region => intro k _; exact chunk_reg_4 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 4 b1V _ p hp
  clear hstart hfact
  iintro %_ HI
  unfold cinv
  icases HI with ⟨⟨%hc, %hfact, Hh⟩, ⟨%bb, -, Hb1'⟩⟩
  sl_exec
  -- chunk 5: its loop on the buffer that holds it, then that buffer's refill and the wait for the next chunk
  have hstart : ∀ j : S65536.Idx, hc j = BitVec.ofNat 32 (Cert.Hist.cntN (Cert.Hist.flat (xOf m d)) ((wL L).val * 524288) (16384 * 5 + 256 * 0) (j 0).val) :=
    fun j => (hfact j).trans (cnt_congr (by decide))
  sl_for (cinv (F := F) d L (Cert.Hist.flat (xOf m d)) ((wL L).val * 524288) (16384 * 5) b2V) $$ [Hh Hb2']
  case region => intro k _; exact chunk_reg_5 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 5 b2V _ p hp
  clear hstart hfact
  iintro %_ HI
  unfold cinv
  icases HI with ⟨⟨%hc, %hfact, Hh⟩, ⟨%bb, -, Hb2'⟩⟩
  sl_exec
  -- chunk 6: its loop on the buffer that holds it, then that buffer's refill and the wait for the next chunk
  have hstart : ∀ j : S65536.Idx, hc j = BitVec.ofNat 32 (Cert.Hist.cntN (Cert.Hist.flat (xOf m d)) ((wL L).val * 524288) (16384 * 6 + 256 * 0) (j 0).val) :=
    fun j => (hfact j).trans (cnt_congr (by decide))
  sl_for (cinv (F := F) d L (Cert.Hist.flat (xOf m d)) ((wL L).val * 524288) (16384 * 6) b0V) $$ [Hh Hb0']
  case region => intro k _; exact chunk_reg_6 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 6 b0V _ p hp
  clear hstart hfact
  iintro %_ HI
  unfold cinv
  icases HI with ⟨⟨%hc, %hfact, Hh⟩, ⟨%bb, -, Hb0'⟩⟩
  sl_exec
  -- chunk 7: its loop on the buffer that holds it, then that buffer's refill and the wait for the next chunk
  have hstart : ∀ j : S65536.Idx, hc j = BitVec.ofNat 32 (Cert.Hist.cntN (Cert.Hist.flat (xOf m d)) ((wL L).val * 524288) (16384 * 7 + 256 * 0) (j 0).val) :=
    fun j => (hfact j).trans (cnt_congr (by decide))
  sl_for (cinv (F := F) d L (Cert.Hist.flat (xOf m d)) ((wL L).val * 524288) (16384 * 7) b1V) $$ [Hh Hb1']
  case region => intro k _; exact chunk_reg_7 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 7 b1V _ p hp
  clear hstart hfact
  iintro %_ HI
  unfold cinv
  icases HI with ⟨⟨%hc, %hfact, Hh⟩, ⟨%bb, -, Hb1'⟩⟩
  sl_exec
  -- chunk 8: its loop on the buffer that holds it, then that buffer's refill and the wait for the next chunk
  have hstart : ∀ j : S65536.Idx, hc j = BitVec.ofNat 32 (Cert.Hist.cntN (Cert.Hist.flat (xOf m d)) ((wL L).val * 524288) (16384 * 8 + 256 * 0) (j 0).val) :=
    fun j => (hfact j).trans (cnt_congr (by decide))
  sl_for (cinv (F := F) d L (Cert.Hist.flat (xOf m d)) ((wL L).val * 524288) (16384 * 8) b2V) $$ [Hh Hb2']
  case region => intro k _; exact chunk_reg_8 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 8 b2V _ p hp
  clear hstart hfact
  iintro %_ HI
  unfold cinv
  icases HI with ⟨⟨%hc, %hfact, Hh⟩, ⟨%bb, -, Hb2'⟩⟩
  sl_exec
  -- chunk 9: its loop on the buffer that holds it, then that buffer's refill and the wait for the next chunk
  have hstart : ∀ j : S65536.Idx, hc j = BitVec.ofNat 32 (Cert.Hist.cntN (Cert.Hist.flat (xOf m d)) ((wL L).val * 524288) (16384 * 9 + 256 * 0) (j 0).val) :=
    fun j => (hfact j).trans (cnt_congr (by decide))
  sl_for (cinv (F := F) d L (Cert.Hist.flat (xOf m d)) ((wL L).val * 524288) (16384 * 9) b0V) $$ [Hh Hb0']
  case region => intro k _; exact chunk_reg_9 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 9 b0V _ p hp
  clear hstart hfact
  iintro %_ HI
  unfold cinv
  icases HI with ⟨⟨%hc, %hfact, Hh⟩, ⟨%bb, -, Hb0'⟩⟩
  sl_exec
  -- chunk 10: its loop on the buffer that holds it, then that buffer's refill and the wait for the next chunk
  have hstart : ∀ j : S65536.Idx, hc j = BitVec.ofNat 32 (Cert.Hist.cntN (Cert.Hist.flat (xOf m d)) ((wL L).val * 524288) (16384 * 10 + 256 * 0) (j 0).val) :=
    fun j => (hfact j).trans (cnt_congr (by decide))
  sl_for (cinv (F := F) d L (Cert.Hist.flat (xOf m d)) ((wL L).val * 524288) (16384 * 10) b1V) $$ [Hh Hb1']
  case region => intro k _; exact chunk_reg_10 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 10 b1V _ p hp
  clear hstart hfact
  iintro %_ HI
  unfold cinv
  icases HI with ⟨⟨%hc, %hfact, Hh⟩, ⟨%bb, -, Hb1'⟩⟩
  sl_exec
  -- chunk 11: its loop on the buffer that holds it, then that buffer's refill and the wait for the next chunk
  have hstart : ∀ j : S65536.Idx, hc j = BitVec.ofNat 32 (Cert.Hist.cntN (Cert.Hist.flat (xOf m d)) ((wL L).val * 524288) (16384 * 11 + 256 * 0) (j 0).val) :=
    fun j => (hfact j).trans (cnt_congr (by decide))
  sl_for (cinv (F := F) d L (Cert.Hist.flat (xOf m d)) ((wL L).val * 524288) (16384 * 11) b2V) $$ [Hh Hb2']
  case region => intro k _; exact chunk_reg_11 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 11 b2V _ p hp
  clear hstart hfact
  iintro %_ HI
  unfold cinv
  icases HI with ⟨⟨%hc, %hfact, Hh⟩, ⟨%bb, -, Hb2'⟩⟩
  sl_exec
  -- chunk 12: its loop on the buffer that holds it, then that buffer's refill and the wait for the next chunk
  have hstart : ∀ j : S65536.Idx, hc j = BitVec.ofNat 32 (Cert.Hist.cntN (Cert.Hist.flat (xOf m d)) ((wL L).val * 524288) (16384 * 12 + 256 * 0) (j 0).val) :=
    fun j => (hfact j).trans (cnt_congr (by decide))
  sl_for (cinv (F := F) d L (Cert.Hist.flat (xOf m d)) ((wL L).val * 524288) (16384 * 12) b0V) $$ [Hh Hb0']
  case region => intro k _; exact chunk_reg_12 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 12 b0V _ p hp
  clear hstart hfact
  iintro %_ HI
  unfold cinv
  icases HI with ⟨⟨%hc, %hfact, Hh⟩, ⟨%bb, -, Hb0'⟩⟩
  sl_exec
  -- chunk 13: its loop on the buffer that holds it, then that buffer's refill and the wait for the next chunk
  have hstart : ∀ j : S65536.Idx, hc j = BitVec.ofNat 32 (Cert.Hist.cntN (Cert.Hist.flat (xOf m d)) ((wL L).val * 524288) (16384 * 13 + 256 * 0) (j 0).val) :=
    fun j => (hfact j).trans (cnt_congr (by decide))
  sl_for (cinv (F := F) d L (Cert.Hist.flat (xOf m d)) ((wL L).val * 524288) (16384 * 13) b1V) $$ [Hh Hb1']
  case region => intro k _; exact chunk_reg_13 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 13 b1V _ p hp
  clear hstart hfact
  iintro %_ HI
  unfold cinv
  icases HI with ⟨⟨%hc, %hfact, Hh⟩, ⟨%bb, -, Hb1'⟩⟩
  sl_exec
  -- chunk 14: its loop on the buffer that holds it, then that buffer's refill and the wait for the next chunk
  have hstart : ∀ j : S65536.Idx, hc j = BitVec.ofNat 32 (Cert.Hist.cntN (Cert.Hist.flat (xOf m d)) ((wL L).val * 524288) (16384 * 14 + 256 * 0) (j 0).val) :=
    fun j => (hfact j).trans (cnt_congr (by decide))
  sl_for (cinv (F := F) d L (Cert.Hist.flat (xOf m d)) ((wL L).val * 524288) (16384 * 14) b2V) $$ [Hh Hb2']
  case region => intro k _; exact chunk_reg_14 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 14 b2V _ p hp
  clear hstart hfact
  iintro %_ HI
  unfold cinv
  icases HI with ⟨⟨%hc, %hfact, Hh⟩, ⟨%bb, -, Hb2'⟩⟩
  sl_exec
  -- chunk 15: its loop on the buffer that holds it, then that buffer's refill and the wait for the next chunk
  have hstart : ∀ j : S65536.Idx, hc j = BitVec.ofNat 32 (Cert.Hist.cntN (Cert.Hist.flat (xOf m d)) ((wL L).val * 524288) (16384 * 15 + 256 * 0) (j 0).val) :=
    fun j => (hfact j).trans (cnt_congr (by decide))
  sl_for (cinv (F := F) d L (Cert.Hist.flat (xOf m d)) ((wL L).val * 524288) (16384 * 15) b0V) $$ [Hh Hb0']
  case region => intro k _; exact chunk_reg_15 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 15 b0V _ p hp
  clear hstart hfact
  iintro %_ HI
  unfold cinv
  icases HI with ⟨⟨%hc, %hfact, Hh⟩, ⟨%bb, -, Hb0'⟩⟩
  sl_exec
  -- chunk 16: its loop on the buffer that holds it, then that buffer's refill and the wait for the next chunk
  have hstart : ∀ j : S65536.Idx, hc j = BitVec.ofNat 32 (Cert.Hist.cntN (Cert.Hist.flat (xOf m d)) ((wL L).val * 524288) (16384 * 16 + 256 * 0) (j 0).val) :=
    fun j => (hfact j).trans (cnt_congr (by decide))
  sl_for (cinv (F := F) d L (Cert.Hist.flat (xOf m d)) ((wL L).val * 524288) (16384 * 16) b1V) $$ [Hh Hb1']
  case region => intro k _; exact chunk_reg_16 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 16 b1V _ p hp
  clear hstart hfact
  iintro %_ HI
  unfold cinv
  icases HI with ⟨⟨%hc, %hfact, Hh⟩, ⟨%bb, -, Hb1'⟩⟩
  sl_exec
  -- chunk 17: its loop on the buffer that holds it, then that buffer's refill and the wait for the next chunk
  have hstart : ∀ j : S65536.Idx, hc j = BitVec.ofNat 32 (Cert.Hist.cntN (Cert.Hist.flat (xOf m d)) ((wL L).val * 524288) (16384 * 17 + 256 * 0) (j 0).val) :=
    fun j => (hfact j).trans (cnt_congr (by decide))
  sl_for (cinv (F := F) d L (Cert.Hist.flat (xOf m d)) ((wL L).val * 524288) (16384 * 17) b2V) $$ [Hh Hb2']
  case region => intro k _; exact chunk_reg_17 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 17 b2V _ p hp
  clear hstart hfact
  iintro %_ HI
  unfold cinv
  icases HI with ⟨⟨%hc, %hfact, Hh⟩, ⟨%bb, -, Hb2'⟩⟩
  sl_exec
  -- chunk 18: its loop on the buffer that holds it, then that buffer's refill and the wait for the next chunk
  have hstart : ∀ j : S65536.Idx, hc j = BitVec.ofNat 32 (Cert.Hist.cntN (Cert.Hist.flat (xOf m d)) ((wL L).val * 524288) (16384 * 18 + 256 * 0) (j 0).val) :=
    fun j => (hfact j).trans (cnt_congr (by decide))
  sl_for (cinv (F := F) d L (Cert.Hist.flat (xOf m d)) ((wL L).val * 524288) (16384 * 18) b0V) $$ [Hh Hb0']
  case region => intro k _; exact chunk_reg_18 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 18 b0V _ p hp
  clear hstart hfact
  iintro %_ HI
  unfold cinv
  icases HI with ⟨⟨%hc, %hfact, Hh⟩, ⟨%bb, -, Hb0'⟩⟩
  sl_exec
  -- chunk 19: its loop on the buffer that holds it, then that buffer's refill and the wait for the next chunk
  have hstart : ∀ j : S65536.Idx, hc j = BitVec.ofNat 32 (Cert.Hist.cntN (Cert.Hist.flat (xOf m d)) ((wL L).val * 524288) (16384 * 19 + 256 * 0) (j 0).val) :=
    fun j => (hfact j).trans (cnt_congr (by decide))
  sl_for (cinv (F := F) d L (Cert.Hist.flat (xOf m d)) ((wL L).val * 524288) (16384 * 19) b1V) $$ [Hh Hb1']
  case region => intro k _; exact chunk_reg_19 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 19 b1V _ p hp
  clear hstart hfact
  iintro %_ HI
  unfold cinv
  icases HI with ⟨⟨%hc, %hfact, Hh⟩, ⟨%bb, -, Hb1'⟩⟩
  sl_exec
  -- chunk 20: its loop on the buffer that holds it, then that buffer's refill and the wait for the next chunk
  have hstart : ∀ j : S65536.Idx, hc j = BitVec.ofNat 32 (Cert.Hist.cntN (Cert.Hist.flat (xOf m d)) ((wL L).val * 524288) (16384 * 20 + 256 * 0) (j 0).val) :=
    fun j => (hfact j).trans (cnt_congr (by decide))
  sl_for (cinv (F := F) d L (Cert.Hist.flat (xOf m d)) ((wL L).val * 524288) (16384 * 20) b2V) $$ [Hh Hb2']
  case region => intro k _; exact chunk_reg_20 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 20 b2V _ p hp
  clear hstart hfact
  iintro %_ HI
  unfold cinv
  icases HI with ⟨⟨%hc, %hfact, Hh⟩, ⟨%bb, -, Hb2'⟩⟩
  sl_exec
  -- chunk 21: its loop on the buffer that holds it, then that buffer's refill and the wait for the next chunk
  have hstart : ∀ j : S65536.Idx, hc j = BitVec.ofNat 32 (Cert.Hist.cntN (Cert.Hist.flat (xOf m d)) ((wL L).val * 524288) (16384 * 21 + 256 * 0) (j 0).val) :=
    fun j => (hfact j).trans (cnt_congr (by decide))
  sl_for (cinv (F := F) d L (Cert.Hist.flat (xOf m d)) ((wL L).val * 524288) (16384 * 21) b0V) $$ [Hh Hb0']
  case region => intro k _; exact chunk_reg_21 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 21 b0V _ p hp
  clear hstart hfact
  iintro %_ HI
  unfold cinv
  icases HI with ⟨⟨%hc, %hfact, Hh⟩, ⟨%bb, -, Hb0'⟩⟩
  sl_exec
  -- chunk 22: its loop on the buffer that holds it, then that buffer's refill and the wait for the next chunk
  have hstart : ∀ j : S65536.Idx, hc j = BitVec.ofNat 32 (Cert.Hist.cntN (Cert.Hist.flat (xOf m d)) ((wL L).val * 524288) (16384 * 22 + 256 * 0) (j 0).val) :=
    fun j => (hfact j).trans (cnt_congr (by decide))
  sl_for (cinv (F := F) d L (Cert.Hist.flat (xOf m d)) ((wL L).val * 524288) (16384 * 22) b1V) $$ [Hh Hb1']
  case region => intro k _; exact chunk_reg_22 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 22 b1V _ p hp
  clear hstart hfact
  iintro %_ HI
  unfold cinv
  icases HI with ⟨⟨%hc, %hfact, Hh⟩, ⟨%bb, -, Hb1'⟩⟩
  sl_exec
  -- chunk 23: its loop on the buffer that holds it, then that buffer's refill and the wait for the next chunk
  have hstart : ∀ j : S65536.Idx, hc j = BitVec.ofNat 32 (Cert.Hist.cntN (Cert.Hist.flat (xOf m d)) ((wL L).val * 524288) (16384 * 23 + 256 * 0) (j 0).val) :=
    fun j => (hfact j).trans (cnt_congr (by decide))
  sl_for (cinv (F := F) d L (Cert.Hist.flat (xOf m d)) ((wL L).val * 524288) (16384 * 23) b2V) $$ [Hh Hb2']
  case region => intro k _; exact chunk_reg_23 (F := F) d L _ _ _ hxs _ _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 23 b2V _ p hp
  clear hstart hfact
  iintro %_ HI
  unfold cinv
  icases HI with ⟨⟨%hc, %hfact, Hh⟩, ⟨%bb, -, Hb2'⟩⟩
  sl_exec
  -- chunk 24: its loop on the buffer that holds it, then that buffer's refill and the wait for the next chunk
  have hstart : ∀ j : S65536.Idx, hc j = BitVec.ofNat 32 (Cert.Hist.cntN (Cert.Hist.flat (xOf m d)) ((wL L).val * 524288) (16384 * 24 + 256 * 0) (j 0).val) :=
    fun j => (hfact j).trans (cnt_congr (by decide))
  sl_for (cinv (F := F) d L (Cert.Hist.flat (xOf m d)) ((wL L).val * 524288) (16384 * 24) b0V) $$ [Hh Hb0']
  case region => intro k _; exact chunk_reg_24 (F := F) d L _ _ _ hxs _ _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 24 b0V _ p hp
  clear hstart hfact
  iintro %_ HI
  unfold cinv
  icases HI with ⟨⟨%hc, %hfact, Hh⟩, ⟨%bb, -, Hb0'⟩⟩
  sl_exec
  -- chunk 25: its loop on the buffer that holds it, then that buffer's refill and the wait for the next chunk
  have hstart : ∀ j : S65536.Idx, hc j = BitVec.ofNat 32 (Cert.Hist.cntN (Cert.Hist.flat (xOf m d)) ((wL L).val * 524288) (16384 * 25 + 256 * 0) (j 0).val) :=
    fun j => (hfact j).trans (cnt_congr (by decide))
  sl_for (cinv (F := F) d L (Cert.Hist.flat (xOf m d)) ((wL L).val * 524288) (16384 * 25) b1V) $$ [Hh Hb1']
  case region => intro k _; exact chunk_reg_25 (F := F) d L _ _ _ hxs _ _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 25 b1V _ p hp
  clear hstart hfact
  iintro %_ HI
  unfold cinv
  icases HI with ⟨⟨%hc, %hfact, Hh⟩, ⟨%bb, -, Hb1'⟩⟩
  sl_exec
  -- chunk 26: its loop on the buffer that holds it, then that buffer's refill and the wait for the next chunk
  have hstart : ∀ j : S65536.Idx, hc j = BitVec.ofNat 32 (Cert.Hist.cntN (Cert.Hist.flat (xOf m d)) ((wL L).val * 524288) (16384 * 26 + 256 * 0) (j 0).val) :=
    fun j => (hfact j).trans (cnt_congr (by decide))
  sl_for (cinv (F := F) d L (Cert.Hist.flat (xOf m d)) ((wL L).val * 524288) (16384 * 26) b2V) $$ [Hh Hb2']
  case region => intro k _; exact chunk_reg_26 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 26 b2V _ p hp
  clear hstart hfact
  iintro %_ HI
  unfold cinv
  icases HI with ⟨⟨%hc, %hfact, Hh⟩, ⟨%bb, -, Hb2'⟩⟩
  sl_exec
  -- chunk 27: its loop on the buffer that holds it, then that buffer's refill and the wait for the next chunk
  have hstart : ∀ j : S65536.Idx, hc j = BitVec.ofNat 32 (Cert.Hist.cntN (Cert.Hist.flat (xOf m d)) ((wL L).val * 524288) (16384 * 27 + 256 * 0) (j 0).val) :=
    fun j => (hfact j).trans (cnt_congr (by decide))
  sl_for (cinv (F := F) d L (Cert.Hist.flat (xOf m d)) ((wL L).val * 524288) (16384 * 27) b0V) $$ [Hh Hb0']
  case region => intro k _; exact chunk_reg_27 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 27 b0V _ p hp
  clear hstart hfact
  iintro %_ HI
  unfold cinv
  icases HI with ⟨⟨%hc, %hfact, Hh⟩, ⟨%bb, -, Hb0'⟩⟩
  sl_exec
  -- chunk 28: its loop on the buffer that holds it, then that buffer's refill and the wait for the next chunk
  have hstart : ∀ j : S65536.Idx, hc j = BitVec.ofNat 32 (Cert.Hist.cntN (Cert.Hist.flat (xOf m d)) ((wL L).val * 524288) (16384 * 28 + 256 * 0) (j 0).val) :=
    fun j => (hfact j).trans (cnt_congr (by decide))
  sl_for (cinv (F := F) d L (Cert.Hist.flat (xOf m d)) ((wL L).val * 524288) (16384 * 28) b1V) $$ [Hh Hb1']
  case region => intro k _; exact chunk_reg_28 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 28 b1V _ p hp
  clear hstart hfact
  iintro %_ HI
  unfold cinv
  icases HI with ⟨⟨%hc, %hfact, Hh⟩, ⟨%bb, -, Hb1'⟩⟩
  sl_exec
  -- chunk 29: its loop on the buffer that holds it, then that buffer's refill and the wait for the next chunk
  have hstart : ∀ j : S65536.Idx, hc j = BitVec.ofNat 32 (Cert.Hist.cntN (Cert.Hist.flat (xOf m d)) ((wL L).val * 524288) (16384 * 29 + 256 * 0) (j 0).val) :=
    fun j => (hfact j).trans (cnt_congr (by decide))
  sl_for (cinv (F := F) d L (Cert.Hist.flat (xOf m d)) ((wL L).val * 524288) (16384 * 29) b2V) $$ [Hh Hb2']
  case region => intro k _; exact chunk_reg_29 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 29 b2V _ p hp
  clear hstart hfact
  iintro %_ HI
  unfold cinv
  icases HI with ⟨⟨%hc, %hfact, Hh⟩, ⟨%bb, -, Hb2'⟩⟩
  sl_exec
  -- chunk 30: its loop on the buffer that holds it, then that buffer's refill and the wait for the next chunk
  have hstart : ∀ j : S65536.Idx, hc j = BitVec.ofNat 32 (Cert.Hist.cntN (Cert.Hist.flat (xOf m d)) ((wL L).val * 524288) (16384 * 30 + 256 * 0) (j 0).val) :=
    fun j => (hfact j).trans (cnt_congr (by decide))
  sl_for (cinv (F := F) d L (Cert.Hist.flat (xOf m d)) ((wL L).val * 524288) (16384 * 30) b0V) $$ [Hh Hb0']
  case region => intro k _; exact chunk_reg_30 (F := F) d L _ _ _ hxs _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 30 b0V _ p hp
  clear hstart hfact
  iintro %_ HI
  unfold cinv
  icases HI with ⟨⟨%hc, %hfact, Hh⟩, ⟨%bb, -, Hb0'⟩⟩
  sl_exec
  -- chunk 31: its loop on the buffer that holds it, then that buffer's refill and the wait for the next chunk
  have hstart : ∀ j : S65536.Idx, hc j = BitVec.ofNat 32 (Cert.Hist.cntN (Cert.Hist.flat (xOf m d)) ((wL L).val * 524288) (16384 * 31 + 256 * 0) (j 0).val) :=
    fun j => (hfact j).trans (cnt_congr (by decide))
  sl_for (cinv (F := F) d L (Cert.Hist.flat (xOf m d)) ((wL L).val * 524288) (16384 * 31) b1V) $$ [Hh Hb1']
  case region => intro k _; exact chunk_reg_31 (F := F) d L _ _ _ hxs _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 31 b1V _ p hp
  clear hstart hfact
  iintro %_ HI
  unfold cinv
  icases HI with ⟨⟨%hc, %hfact, Hh⟩, ⟨%bb, -, Hb1'⟩⟩
  sl_exec
  -- the write-out: the histogram into the tile's row
  ihave Hp' := (Entails.of_eq (pts_pRowK (F := F) d L _).symm) $$ Hp
  sl_exec
  sl_step
  unfold tdT
  isplitl [Hxr Hx0 Hx1 Hx2 Hp']
  · isplitl [Hxr Hx0 Hx1 Hx2]
    · -- the three read tokens and the remainder are the tile's share of the input again
      iapply (Entails.of_eq (pts_x (F := F) d L _ _))
      iapply ((show (iprop(((xV : Memref sig .scVector .hbm S16777216 .i32).view.loc (V d (cV L) (jV L)) ↦{Transfers.shareDrop (Transfers.shareTokN fullShare (wL L).val) 3} m (xLoc d)) ∗ ((xV : Memref sig .scVector .hbm S16777216 .i32).view.loc (V d (cV L) (jV L)) ↦{Transfers.shareTok (Transfers.shareTokN fullShare (wL L).val) 3 0} m (xLoc d))
            ∗ ((xV : Memref sig .scVector .hbm S16777216 .i32).view.loc (V d (cV L) (jV L)) ↦{Transfers.shareTok (Transfers.shareTokN fullShare (wL L).val) 3 1} m (xLoc d)) ∗ ((xV : Memref sig .scVector .hbm S16777216 .i32).view.loc (V d (cV L) (jV L)) ↦{Transfers.shareTok (Transfers.shareTokN fullShare (wL L).val) 3 2} m (xLoc d))) : sProp 𝕄)
          ⊢ iprop(((xV : Memref sig .scVector .hbm S16777216 .i32).view.loc (V d (cV L) (jV L)) ↦{Transfers.shareDrop (Transfers.shareTokN fullShare (wL L).val) 3} m (xLoc d))
            ∗ bigSep Finset.univ fun i : Fin 3 => ((xV : Memref sig .scVector .hbm S16777216 .i32).view.loc (V d (cV L) (jV L)) ↦{Transfers.shareTok (Transfers.shareTokN fullShare (wL L).val) 3 i} m (xLoc d)))
          from Entails.of_eq (by rw [Idealize.ShloMosaic.Ring.bigSep_fin3])).trans
        (Transfers.pointsTo_toks_join (Ix := HIx 1) (Name := ℕ) (U := UU) (Lvl := ℕ) (Transfers.shareTokN fullShare (wL L).val) 3))
      isplitl [Hxr]; · iexact Hxr
      isplitl [Hx0]; · iexact Hx0
      isplitl [Hx1]; · iexact Hx1
      iexact Hx2
    · iexists _; isplitr
      swap
      · iapply (Entails.of_eq (pts_pRowK (F := F) d L _)); iexact Hp'
      · ipureintro
        exact rowDone_of_writes m d L _ hc _ rfl (fun j => (hfact j).trans (cnt_congr (by decide)))
  isplitl [Hh Hb0' Hb1' Hb2' Hbufs]
  · isplitl [Hh]; · iexists _; iexact Hh
    isplitl [Hb0']; · iexists _; iexact Hb0'
    isplitl [Hb1']; · iexists _; iexact Hb1'
    isplitl [Hb2']; · iexists _; iexact Hb2'
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap
  · iexact HO
  · ipureintro
    iterate 33 refine ins_ok ?_
    exact fun p hp => Or.inl hp

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          xV (Memref.isWhole_whole _) pV (Memref.isWhole_whole _) hV (Memref.isWhole_whole _)
          b0V (Memref.isWhole_whole _) b1V (Memref.isWhole_whole _) b2V (Memref.isWhole_whole _)
          cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of every tile of the call. -/
theorem tileObl (hF : (K (F := F)).Facts) (hpre : ∀ d i, (xOf m d i).toNat < 65536) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hpre d) O W hO).trans (wp_mono frame _ _ fun _ => obl_post)

/-- A SparseCore's part of the call is its tiles' parts, both ways. -/
theorem vecSplit : (K (F := F)).VecSplit' (P m) 0 := by
  intro d c
  show (bigSep Finset.univ fun i : Fin 16 => goT m d (wid (Fin.cast nCore_zero c) i)) ⊢ |={Set.univ}=> iprop(
      (bigSep Finset.univ fun i : Fin ((K (F := F)).nSub 0) => goT m d (wid (Fin.cast nCore_zero c) (Fin.cast nSub_zero i)))
      ∗ ((bigSep Finset.univ fun i : Fin ((K (F := F)).nSub 0) => tdT m d (wid (Fin.cast nCore_zero c) (Fin.cast nSub_zero i)))
          -∗ bigSep Finset.univ fun i : Fin 16 => tdT m d (wid (Fin.cast nCore_zero c) i)))
  iintro H; imodintro
  isplitl [H]; · iexact H
  iintro H; iexact H

end Cert.Proof.KI

end
-- ==== Proof.SumTiles.lean ====
/-
  The sum of the thirty-two per-stretch histograms is the histogram of the whole input.

  A reduction by addition over the leading axis of a 32 x 65536 array of 32-bit words is, at each column, the left fold of
  the word addition down the column from zero. When the row w of the array is the histogram of the w-th stretch, every
  word of the column is a natural number reduced modulo 2^32, the fold is the sum of the thirty-two numbers reduced
  modulo 2^32, and the sum of the counts over the consecutive stretches is the count over all positions.
-/
import proofs.«203723_g38474317038175_cont_8to1_b_298_28_alg».proof.Proof.Spec
import Idealize.ShloMosaic.PureOps.Reduce
import Idealize.ShloMosaic.Lib.Pipeline.Value

namespace Cert.Hist

open Idealize.ShloMosaic

/-- A left fold of word additions of natural numbers reduced modulo 2^32, from such a word, is the word of the sum. -/
theorem foldl_addi_ofNat {ι : Type} (c : ι → ℕ) (l : List ι) (a : ℕ) :
    l.foldl (fun acc r => IntOp.addi acc (BitVec.ofNat 32 (c r))) (BitVec.ofNat 32 a)
      = BitVec.ofNat 32 (a + (l.map c).sum) := by
  induction l generalizing a with
  | nil => simp
  | cons r l ih =>
    rw [List.foldl_cons, show IntOp.addi (BitVec.ofNat 32 a) (BitVec.ofNat 32 (c r)) = BitVec.ofNat 32 (a + c r) from
      (BitVec.ofNat_add a (c r)).symm, ih, List.map_cons, List.sum_cons, Nat.add_assoc]

/-- The left fold over the `n` row numbers in order is the sum over `Finset.range n`. -/
theorem foldl_addi_ofNat_finRange (n : ℕ) (c : ℕ → ℕ) :
    (List.finRange n).foldl (fun acc (r : Fin n) => IntOp.addi acc (BitVec.ofNat 32 (c r.val))) 0#32
      = BitVec.ofNat 32 (∑ w ∈ Finset.range n, c w) := by
  have h := foldl_addi_ofNat (fun r : Fin n => c r.val) (List.finRange n) 0
  rw [Nat.zero_add, ← Fin.sum_univ_def, Fin.sum_univ_eq_sum_range] at h
  exact h

/-- A reduction by addition over the leading axis of a two-axis array, at a column whose words are natural numbers
    reduced modulo 2^32: the word of the sum of the numbers down the column. -/
theorem reduceFold_rows_ofNat {d : Fin 2 → ℕ} {t : Shape} (h : (⟨2, d⟩ : Shape).Reduces [0] t)
    (p : (⟨2, d⟩ : Shape).Idx → BitVec 32) (c : ℕ → ℕ) (j : t.Idx)
    (hp : ∀ r : Fin (d 0), p (Shape.pair r (h.col j)) = BitVec.ofNat 32 (c r.val)) :
    reduceFold h IntOp.addi 0#32 p j = BitVec.ofNat 32 (∑ w ∈ Finset.range (d 0), c w) := by
  rw [reduceFold_rows, ← foldl_addi_ofNat_finRange]
  congr 1
  funext acc r
  rw [hp]

/-- The reduction over the tile axis of the array whose row `w` is the histogram of the `w`-th stretch is the
    histogram of the whole input. -/
theorem reduce_rows (p : IVec SP 32) (x : IVec SX 32)
    (hp : ∀ (w : Fin 32) (j : Fin 65536), p (ValueIdx.ix2 w j) = tile x w.val (ValueIdx.ix1 j))
    (h : SP.Reduces [0] SH) : multiReductionI .add [0] SH p 0#32 h rfl = total x := by
  funext j
  rw [total_eq_sum_tiles]
  refine (reduceFold_rows_ofNat h p (fun w => cntN (flat x) (w * 524288) 524288 (j 0).val) j ?_).trans rfl
  intro r
  have hidx : (Shape.pair r (h.col j) : SP.Idx) = ValueIdx.ix2 (n0 := 32) (n1 := 65536) r (j 0) := by
    funext b
    match b with
    | ⟨0, _⟩ => rfl
    | ⟨1, _⟩ => rfl
  rw [hidx]
  exact hp r (j 0)

/-- The same through a shape cast of the array to its own shape, which is the identity. -/
theorem reduce_rows_shapeCast (p : IVec SP 32) (x : IVec SX 32)
    (hp : ∀ (w : Fin 32) (j : Fin 65536), p (ValueIdx.ix2 w j) = tile x w.val (ValueIdx.ix1 j))
    (h' : SP.ShapeCasts SP) (h : SP.Reduces [0] SH) :
    multiReductionI .add [0] SH (shapeCast SP p h') 0#32 h rfl = total x := by
  rw [shapeCast_self]
  exact reduce_rows p x hp h

end Cert.Hist
-- ==== Proof.KI.Main.lean ====
/-
  @main of the histogram program on the TensorCore, and the launch.

  @main is two lines. The first is the SparseCore call: the input's full share is split into thirty-two read
  shares, one per tile, and the 32 × 65536 array of partial histograms into its thirty-two rows; each tile gets its
  share and its row and hands them back, the row holding the histogram of the tile's stretch of the input. The rows
  join into the whole array at one contents whose row w is the histogram of stretch w. The second line is a
  TensorCore kernel of one grid point: the array is staged whole, the body stores its sum over the leading axis, the
  result is written back; that sum is the histogram of the whole input. The input is never written.
-/
import proofs.«203723_g38474317038175_cont_8to1_b_298_28_alg».proof.Proof.KI.Common
import proofs.«203723_g38474317038175_cont_8to1_b_298_28_alg».proof.Proof.KI.Rows
import proofs.«203723_g38474317038175_cont_8to1_b_298_28_alg».proof.Proof.Gen.KernelIdeal.Launch
import proofs.«203723_g38474317038175_cont_8to1_b_298_28_alg».proof.Proof.Gen.KernelIdeal.Points
import Idealize.ShloMosaic.Lib.Pipeline.Regions
import proofs.«203723_g38474317038175_cont_8to1_b_298_28_alg».proof.Proof.SumTiles

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The staging rounds' place in the ghost state -/

/-- The TensorCore kernel's staging rounds: the left factor of the right factor. -/
abbrev ER : Emb UR (MT nD τ sig (HIx 1) (Elt F) ℕ UU ℕ) :=
  (Emb.inl : Emb UR (UR × Counters)).trans (embR : Emb (UR × Counters) (MT nD τ sig (HIx 1) (Elt F) ℕ UU ℕ))

instance ER_landsIn : (ER (F := F)).LandsIn (upEmb : UEmb _ 𝕄) := by
  unfold ER embR; infer_instance

variable (m : (ℓ : Loc nD τ sig) → Buf (Elt F) ℓ) (ρ : Dev nD → PrngReg)

variable [FloatOps F]

/-- The admissible tables of the one pipeline: it prefetches none. -/
abbrev adm : (p : Fin 1) → (pcfgs (F := F) p).Adm := fun p => (cfgs p).toPCfg_adm

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What the launch element hands @main on device `d`: the staging cells' ghost state and duty tokens. -/
def G (d : Dev nD) : sProp 𝕄 :=
  iprop((bigSep Finset.univ fun p : Fin 1 => Pipeline.cellsGhost (Pipeline.pin (pcfgs (F := F)) adm) ER p d)
    ∗ bigSep Finset.univ fun p : Fin 1 => Pipeline.toksInit (Pipeline.pin (pcfgs (F := F)) adm) ER p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcfgs (F := F)) adm) (ER (F := F)) cellOf_inj) $$ HP with ⟨Hg, Ht⟩
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves the claim -/

/-- The input at its launch contents, the result at the histogram of the whole input. -/
abbrev FIN (d : Dev nD) : sProp 𝕄 :=
  iprop((xLoc d ↦{fullShare} m (xLoc d)) ∗ rLoc d ↦{fullShare} (Cert.Hist.total (xOf m d) : Buf (Elt F) (rLoc d)))

def fq (d : Dev nD) (s' : Phys nD τ sig (Elt F)) : Prop :=
  s'.mem.mem (rLoc d) = Cert.Hist.total (xOf m d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hr⟩, HSI⟩
  icombine HSI Hx gives %hx
  icombine HSI Hr gives %hr
  ipureintro; exact ⟨funext fun i => hr i (Finset.mem_univ i), funext fun i => hx i (Finset.mem_univ i)⟩

/-! ## The TensorCore kernel: the sum of the partial histograms over the tiles -/

open Idealize.ShloMosaic.TcCoe
open Idealize.ShloMosaic.Pipeline (Dat)

section Region

variable (gs : (c : Dev nD) → Buf (Elt F) (pLoc c))

/-- The staged array: the partial histograms read through the window's one block. -/
abbrev stg (c : Dev nD) : (cfg1.win 0).block.Idx → Elt F (cfg1.win 0).elt :=
  ((cfg1.win 0).blk t1_0).view.read (Elt F) (gs c)

/-- The kernel body on whole staging memrefs: the operand's at `x0`, the result's at anything, to the operand's as it was
    and the result's at the sum of `x0` over its leading axis. -/
theorem sound_kernel [∀ e, Nonempty (Elt F e)] (c : Dev nD) (E : Set ℕ) (arg0 : Memref sig .tc .vmem S32x65536 .i32) (harg0 : arg0.IsWhole)
    (arg1 : Memref sig .tc .vmem S65536 .i32) (harg1 : arg1.IsWhole) (x0 : Vec F S32x65536 .i32) (Kp : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (k1_pay1 x0)) -∗ Kp ⟨⟩))
      ⊢ wp frame (wpE (defs₀ (F := F)) Variants.none c none) E (cc1__tc_reduce_body arg0 harg0 arg1 harg1) Kp := by
  simp only [cc1__tc_reduce_body_eq_skeleton]; unfold cc1__tc_reduce_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  have hz1 : (![0] : Fin S65536.rank → Nat) = fun _ => 0 := funext fun a => by fin_cases a <;> rfl
  have hz0 : (![0, 0] : Fin S32x65536.rank → Nat) = fun _ => 0 := funext fun a => by fin_cases a <;> rfl
  rw [View.read_writes_eq_canon _ _ _ (View.cover_of_tiled _ S65536.size (by rfl)), View.canon_unit_zero hz1]
  exact congrArg k1_pay1 (View.ld_unit_zero hz0 _ (View.read (Elt F) arg0.view f0))

/-- The proof data of the one pipeline on core `c`: the partial histograms at `gs c` and the result's array as launched;
    after the body the operand's buffer as staged and the result's at the sum; the scoped rest as invariant; nothing
    owed; the pairs recorded before the region all at or below the level of the first call's end. -/
def dats (_ : Fin 1) (c : Dev nD) : Dat τ (Elt F) (HIx 1) ℕ UU ℕ cfg1 c where
  A w := match w with
    | ⟨0, _⟩ => gs c
    | ⟨1, _⟩ => m (rLoc c)
  after w _ := match w with
    | ⟨0, _⟩ => stg gs c
    | ⟨1, _⟩ => k1_pay1 (stg gs c)
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ 8 * 1}

theorem after1_0 (c : Dev nD) (t : Fin cfg1.N) : (dats m gs 0 c).after 0 t = stg gs c := by dsimp only [dats]
theorem after1_1 (c : Dev nD) (t : Fin cfg1.N) : (dats m gs 0 c).after 1 t = k1_pay1 (stg gs c) := by dsimp only [dats]

/-- The fetched window's buffer holds the array's block when the body runs. -/
theorem before1_0 (c : Dev nD) (d : (cfg1.win 0).block.Idx → Elt F (cfg1.win 0).elt) :
    (dats m gs 0 c).before 0 t1_0 d = stg gs c := by
  unfold Dat.before; rw [if_pos (by decide)]; rfl

theorem sound_body [∀ e, Nonempty (Elt F e)] (c : Dev nD) :
    iprop((dats m gs 0 c).Φ t1_0.castSucc ∗ (dats m gs 0 c).owesAt none t1_0.castSucc
        ∗ (∃ d, owns (c : Thread nD τ) (st1_0 t1_0) fullShare ((dats m gs 0 c).before 0 t1_0 d))
        ∗ (∃ d, owns (c : Thread nD τ) (st1_1 t1_0) fullShare ((dats m gs 0 c).before 1 t1_0 d)))
      ⊢ wp frame (wpE (defs₀ (F := F)) Variants.none c none) Set.univ (bodyAt1 t1_0) (fun _ =>
          iprop((dats m gs 0 c).Φ t1_0.succ ∗ (dats m gs 0 c).owesAt none t1_0.succ
            ∗ owns (c : Thread nD τ) (st1_0 t1_0) fullShare ((dats m gs 0 c).after 0 t1_0)
            ∗ owns (c : Thread nD τ) (st1_1 t1_0) fullShare ((dats m gs 0 c).after 1 t1_0))) := by
  unfold bodyAt1
  simp only [before1_0]
  rw [show (dats m gs 0 c).Φ t1_0.succ = (dats m gs 0 c).Φ t1_0.castSucc from rfl,
    show (dats m gs 0 c).owesAt none t1_0.succ = (dats m gs 0 c).owesAt none t1_0.castSucc from rfl,
    after1_0, after1_1]
  iintro ⟨HΦ, Ho, ⟨%d0, H0⟩, ⟨%d1, H1⟩⟩
  iapply (sound_kernel c Set.univ _ _ _ _ (stg gs c) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation [∀ e, Nonempty (Elt F e)] (c : Dev nD) :
    Pipeline.BodyObligation (dats m gs 0 c) (defs₀ (F := F)) Variants.none none Set.univ := fun t => by
  obtain rfl := fin_N1 t
  rw [bigSep_W1, bigSep_W1]
  exact sound_body m gs c

end Region

section Region2

variable (gs : (c : Dev nD) → Buf (Elt F) (pLoc c))

/-- The result's array after the region: the sum over the tiles of the partial histograms, which is the histogram of the
    whole input when every row of `gs c` is its stretch's. -/
theorem final_value [∀ e, Nonempty (Elt F e)] (c : Dev nD) (hg : ∀ w, RowDone m c w (gs c)) :
    (dats m gs 0 c).arrAt 1 cfg1.N = (Cert.Hist.total (xOf m c) : Buf (Elt F) (rLoc c)) := by
  have ho : ((cfg1.win 1).blk t1_0).view.read (Elt F) ((dats m gs 0 c).arrAt 1 cfg1.N) = (dats m gs 0 c).flushed 1 t1_0 := by
    rw [show cfg1.N = (t1_0 : Fin cfg1.N).val + 1 from rfl, (dats m gs 0 c).arrAt_succ 1 t1_0]
    rw [show (cfg1.win 1).flush t1_0 = true from by decide, if_pos rfl]
    exact View.read_write_univ _ _
  have hz1 : (fun a => (win1_1.index t1_0) a * main_v1.ty.shape.size a) = fun _ => 0 := funext fun a => by fin_cases a <;> decide
  have hr1 := fun f => Memref.read_access_unit_zero (Elt F) main_v1 hz1 (fun a => by fin_cases a <;> decide) f
  have hz0 : (fun a => (win1_0.index t1_0) a * main_v0.ty.shape.size a) = fun _ => 0 := funext fun a => by fin_cases a <;> decide
  have hr0 := fun f => Memref.read_access_unit_zero (Elt F) main_v0 hz0 (fun a => by fin_cases a <;> decide) f
  rw [hr1] at ho
  rw [ho]
  show (cfg1.win 1).cut _ ((dats m gs 0 c).after 1 t1_0) = _
  rw [after1_1]
  unfold stg
  rw [hr0]
  exact Eq.trans rfl (Cert.Hist.reduce_rows_shapeCast (gs c) (xOf m c) (fun w j => hg w j) shapeCasts_S32x65536_S32x65536 reduces_S32x65536_S65536)

/-- What the TensorCore owes after the one SparseCore call: nothing, every recorded pair at or below the call's end. -/
abbrev Rtc (c : Dev nD) : sProp 𝕄 :=
  iprop(∃ W, ⌜(K (F := F)).WBelow (SparseCore.T c) W (8 * 1)⌝ ∗ owes (SparseCore.T c) (0 : CellTallies nD τ sig (HIx 1)) W)

set_option backward.isDefEq.respectTransparency.types false in
/-- THE REGION: entered with the partial histograms at `gs c`, row by row the stretches' histograms, the result's array
    as launched and the input bypassing; left with the result at the histogram of the whole input. -/
def reg1 [∀ e, Nonempty (Elt F e)] : Pipeline.RegionSeg (pcfgs (F := F)) adm (dats m gs) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation m gs c).loose
  hwaits := Pipeline.hwaits_of_owed_zero _ _ _ _ (K (F := F)).L (K (F := F)).lev 0 fun _ _ => rfl
  pre c := iprop(⌜∀ w, RowDone m c w (gs c)⌝ ∗ (xLoc c ↦{fullShare} m (xLoc c)) ∗ (pLoc c ↦{fullShare} gs c) ∗ (rLoc c ↦{fullShare} m (rLoc c)) ∗ Rtc c)
  post c := iprop((xLoc c ↦{fullShare} m (xLoc c)) ∗ (rLoc c ↦{fullShare} (Cert.Hist.total (xOf m c) : Buf (Elt F) (rLoc c))) ∗ Rtc c)
  X c := iprop(emp)
  Y c := iprop(emp)
  Z c := iprop(⌜∀ w, RowDone m c w (gs c)⌝ ∗ xLoc c ↦{fullShare} m (xLoc c))
  hentry c := by
    rw [Pipeline.arrays_eq (Pipeline.pin (pcfgs (F := F)) adm) (dats m gs) 0 c launch1.arr_whole ((dats m gs 0 c).share_full fun _ => rfl), bigSep_W1]
    iintro ⟨⟨%hg, Hx, Hp, Hr, ⟨%W, %hW, HO⟩⟩, -, -⟩
    imodintro
    isplitl [Hp Hr]
    · isplitl [Hp]; · iexact Hp
      iexact Hr
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitr; · iempintro
    isplitr; · ipureintro; exact hg
    iexact Hx
  hin c := by
    rw [show (dats m gs 0 c).Φ 0 = Pipeline.scopedRest (Pipeline.pin (pcfgs (F := F)) adm 0).spec c from rfl]
    iintro ⟨-, -, Hr⟩; iexact Hr
  hout c := by
    rw [Pipeline.ownSems0_none, show (dats m gs 0 c).Φ (Fin.last (Pipeline.pin (pcfgs (F := F)) adm 0).N) = Pipeline.scopedRest (Pipeline.pin (pcfgs (F := F)) adm 0).spec c from rfl]
    iintro Hr; isplitr; · iempintro
    isplitr; · iempintro
    iexact Hr
  hexit c := by
    rw [Pipeline.arrays_eq (Pipeline.pin (pcfgs (F := F)) adm) (dats m gs) 0 c launch1.arr_whole ((dats m gs 0 c).share_full fun _ => rfl), bigSep_W1]
    iintro ⟨⟨-, Hr⟩, HO, -, ⟨%hg, Hx⟩⟩
    imodintro
    isplitl [Hx]; · iexact Hx
    isplitl [Hr]
    · iapply (Entails.of_eq (congrArg (fun f => (rLoc c ↦{fullShare} f : sProp 𝕄)) (final_value m gs c hg))); iexact Hr
    unfold Pipeline.Dat.owesAt Pipeline.owesWithin
    icases HO with ⟨%W, %hW, HO⟩
    iexists W; isplitr
    · ipureintro; intro p hp
      rcases hW (Finset.mem_coe.mpr hp) with h | ⟨w, s, rfl⟩
      · exact h
      · exact Nat.zero_le _
    iexact HO

end Region2

omit [FloatOps F] in
/-- The second line of @main is the pipeline's region entry, lifted to the launch's labels. -/
theorem tc_prog : (Prog.lift (.customCall (SparseCore.inner (Pipeline.entry (0 : Fin 1))) ()) : Prog (TpuEff nD τ sig (Elt F) (SparseCore.Sig (ΛP (F := F)) 1) .tc) PUnit)
    = SparseCore.liftProg (.op (.customCall (Pipeline.entry (0 : Fin 1)) ()) fun _ => .ret ⟨⟩) := rfl

section Region3

variable (gs : (c : Dev nD) → Buf (Elt F) (pLoc c))

set_option backward.isDefEq.respectTransparency.types false in
/-- The second line of @main on device `d`: the TensorCore kernel's region, from the region boundary, the three arrays,
    what the TensorCore owes and the staging cells' ghost state, to the continuation's assertion. -/
theorem tc_region [∀ e, Nonempty (Elt F e)] (d : Dev nD) (Φ : PUnit → sProp 𝕄) :
    iprop((iprop(boundary (SparseCore.T d) ∗ (xLoc d ↦{fullShare} m (xLoc d)) ∗ (rLoc d ↦{fullShare} (Cert.Hist.total (xOf m d) : Buf (Elt F) (rLoc d))) ∗ Rtc (F := F) d)
            -∗ wp frame (wpE (D (F := F)) 𝒱 (SparseCore.T d) none) Set.univ (.ret ⟨⟩) Φ)
        ∗ boundary (SparseCore.T d)
        ∗ iprop(⌜∀ w, RowDone m d w (gs d)⌝ ∗ (xLoc d ↦{fullShare} m (xLoc d)) ∗ (pLoc d ↦{fullShare} gs d) ∗ (rLoc d ↦{fullShare} m (rLoc d)) ∗ Rtc (F := F) d)
        ∗ levAts (K (F := F)).L (K (F := F)).lev
        ∗ Pipeline.cellsGhost (Pipeline.pin (pcfgs (F := F)) adm) (ER (F := F)) 0 d ∗ Pipeline.toksInit (Pipeline.pin (pcfgs (F := F)) adm) (ER (F := F)) 0 d)
      ⊢ wp frame (wpE ((K (F := F)).defs (D (F := F))) 𝒱 (SparseCore.T d) none) Set.univ
          (Prog.lift (.customCall (SparseCore.inner (Pipeline.entry (0 : Fin 1))) ())) Φ := by
  rw [tc_prog]
  refine BI.Entails.trans ?_ ((K (F := F)).wp_liftProg (D (F := F)) 𝒱 (SparseCore.T d) Set.univ none _ Φ)
  exact Pipeline.RegionSeg.wp (pcfgs (F := F)) adm (dats m gs) none cellOf_inj (ER (F := F)) defs₀ 𝒱₀ (K (F := F)).L (K (F := F)).lev
    (reg1 m gs) d none (by intro u hu; cases hu) (fun _ => .ret ⟨⟩) Φ

end Region3

/-! ## @main on the TensorCore -/

omit [FloatOps F] in
/-- The TensorCore's arrays, all unscoped: the input, the partial histograms, the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- What the call takes for the two SparseCores, and what it hands back: every tile's part. -/
theorem st0_eq (d : Dev nD) : (bigSep Finset.univ fun c : Fin ((K (F := F)).nCore 0) => (P m).st 0 d c)
    = iprop((bigSep Finset.univ fun w : Fin 32 => xTok m d w) ∗ bigSep Finset.univ fun w : Fin 32 => pRow d w (m (pLoc d))) := by
  show (bigSep (Finset.univ : Finset (Fin 2)) fun c => bigSep Finset.univ fun i : Fin 16 => goT m d (wid c i)) = _
  rw [bigSep_wid (fun w => goT m d w)]; unfold goT; rw [bigSep_sep']
theorem dn0_eq (d : Dev nD) : (bigSep Finset.univ fun c : Fin ((K (F := F)).nCore 0) => (P m).dn 0 d c)
    = iprop((bigSep Finset.univ fun w : Fin 32 => xTok m d w) ∗ bigSep Finset.univ fun w : Fin 32 => iprop(∃ f, ⌜RowDone m d w f⌝ ∗ pRow d w f)) := by
  show (bigSep (Finset.univ : Finset (Fin 2)) fun c => bigSep Finset.univ fun i : Fin 16 => tdT m d (wid c i)) = _
  rw [bigSep_wid (fun w => tdT m d w)]; unfold tdT; rw [bigSep_sep']

/-- After the one call the TensorCore owes nothing: its state is that and the rest. -/
theorem tcSt_one (d : Dev nD) : ∃ R : sProp 𝕄, (K (F := F)).tcSt EH d 1 = iprop(Rtc (F := F) d ∗ R) := by
  unfold SparseCore.Cfg.tcSt Rtc; rw [(K (F := F)).Otc_end d le_rfl]; exact ⟨_, rfl⟩

set_option backward.isDefEq.respectTransparency.types false in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_one (F := F) d
  rw [hR]
  unfold SparseCore.Cfg.tcRes G
  rw [unscopedBufs_eq, bigSep_univ_of_subsingleton (0 : Fin 1), bigSep_univ_of_subsingleton (0 : Fin 1)]
  simp only [main, wp_bind, wp_pure]
  iintro ⟨#Hctx, Hst, ⟨Hb, ⟨Hx, Hp, Hr⟩, -, -⟩, ⟨Hcg, Htk⟩⟩
  -- the input's full share into the tiles' read shares, the partial histograms into their rows
  ihave Hx' := (xToks m d).1 $$ Hx
  icases Hx' with ⟨Hxd, Hxt⟩
  ihave Hp' := (Entails.of_eq (pPts_rows d _)) $$ Hp
  -- the call
  iapply ((K (F := F)).wp_run (D (F := F)) 𝒱 (EH := EH) (P := P m) κ d 0) $$ [Hst Hxt Hp' Hb Hr Hxd Hcg Htk]
  isplitr; · iexact Hctx
  isplitl [Hst]; · iexact Hst
  isplitl [Hxt Hp']
  · rw [st0_eq]
    isplitl [Hxt]; · iexact Hxt
    iexact Hp'
  iintro ⟨Hst, Hdn⟩
  ihave Hdn' := (Entails.of_eq (dn0_eq m d)) $$ Hdn
  icases Hdn' with ⟨Hxt, Hrows⟩
  ihave Hx := (xToks m d).2 $$ [Hxd Hxt]
  · isplitl [Hxd]; · iexact Hxd
    iexact Hxt
  ihave Hp := (pRows_join m d) $$ Hrows
  icases Hp with ⟨%g, %hg, Hp⟩
  -- the partial histograms of every device, this device's at what the call left
  obtain ⟨gs, hgs⟩ : ∃ gs : (c : Dev nD) → Buf (Elt F) (pLoc c), gs d = g :=
    ⟨Function.update (fun c => m (pLoc c)) d g, Function.update_self _ _ _⟩
  subst hgs
  have hR' : (K (F := F)).tcSt EH d ((0 : Fin 1).val + 1) = iprop(Rtc (F := F) d ∗ R) := hR
  ihave Hst' := (Entails.of_eq hR') $$ Hst
  icases Hst' with ⟨HO, Hkeep⟩
  ihave Hlev := (SparseCore.Cfg.ctx_levAts (K := K (F := F)) (EH := EH) (P := P m) κ) $$ Hctx
  -- the TensorCore kernel's region
  iapply (tc_region m gs d _) $$ [Hb Hx Hp Hr HO Hcg Htk Hkeep Hlev]
  isplitl [Hkeep]
  · iintro ⟨-, Hx, Hr, HO⟩
    rw [wp_ret]; imodintro; imodintro
    isplitl [HO Hkeep]
    · isplitl [HO]; · iexact HO
      iexact Hkeep
    isplitl [Hx]; · iexact Hx
    iexact Hr
  isplitl [Hb]; · iexact Hb
  isplitl [Hx Hp Hr HO]
  · isplitr; · ipureintro; exact hg
    isplitl [Hx]; · iexact Hx
    isplitl [Hp]; · iexact Hp
    isplitl [Hr]; · iexact Hr
    iexact HO
  isplitl [Hlev]; · iexact Hlev
  isplitl [Hcg]; · iexact Hcg
  iexact Htk

/-! ## The program's run -/

def QC : PUnit × MemSt nD τ sig (Elt F) → Prop := fun r =>
  ∀ c : Dev nD, r.2.mem (rLoc c) = Cert.Hist.total (xOf m c) ∧ r.2.mem (xLoc c) = m (xLoc c)

theorem run_main [∀ e, Nonempty (Elt F e)] (hT : (K (F := F)).TileObl (D (F := F)) 𝒱 (P m) v₀ 0) (hS : (K (F := F)).VecSplit' (P m) 0) :
    θ_run (Cert.KernelIdeal.defs (F := F)) (Cert.KernelIdeal.threads (F := F)) ⟨m, fun _ => 0, ρ⟩
      (fun r => ∀ c : Dev nD, r.2.mem (rLoc c) = Cert.Hist.total (xOf m c) ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain hS)
    m ρ main (G (F := F)) (FIN m) (u₀ (F := F)) (sep_elim_left.trans (hu₀ m)) (hmain m ρ) (fq m) (hfin m) (QC m) (fun _ h => h)

end Cert.Proof.KI

end
-- ==== Proof.KB.Common.lean ====
/-
  The histogram kernel as the launch theorem of a SparseCore program sees it: the configuration, the ghost state,
  the arrays, and what the handshakes of the one SparseCore call carry.

  Tile `(c, i)` — SparseCore `c` of two, vector subcore `i` of sixteen — is worker `w = 2 i + c`. It reads its
  stretch `[524288 w, 524288 (w + 1))` of the input under a read share of the whole input (the `w`-th token of the
  full share) and owns row `w` of the 32 × 65536 array of partial histograms; it hands both back, the row holding the
  histogram of its stretch. A SparseCore's part of the call is its sixteen tiles' parts.
-/
import proofs.«203723_g38474317038175_cont_8to1_b_298_28_alg».proof.Defs
import proofs.«203723_g38474317038175_cont_8to1_b_298_28_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203723_g38474317038175_cont_8to1_b_298_28_alg».proof.Proof.Gen.Kernel
import proofs.«203723_g38474317038175_cont_8to1_b_298_28_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore call's staging rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The input, the partial histograms, the result, as locations of device `d`. -/
abbrev xLoc (d : Dev nD) : Loc nD τ sig := (SparseCore.T d).loc main_arg0
abbrev pLoc (d : Dev nD) : Loc nD τ sig := (SparseCore.T d).loc main_v0
abbrev rLoc (d : Dev nD) : Loc nD τ sig := (SparseCore.T d).loc main_v1

/-- The input's launch contents as a vector of words. -/
abbrev xOf (d : Dev nD) : IVec Cert.Hist.SX 32 := m (xLoc d)

variable [FloatOps F]

abbrev xV : Memref sig .scVector .hbm S16777216 .i32 := Memref.whole main_arg0_scv
abbrev pV : Memref sig .scVector .hbm S32x65536 .i32 := Memref.whole main_v0_scv

theorem hdiv : 32 ∣ S32x65536.size 0 := ⟨1, rfl⟩
/-- Row `w` of the partial histograms. -/
abbrev row (w : Fin 32) : Rect S32x65536 := Rect.part (s := S32x65536) (a₀ := 0) hdiv w
abbrev rowSet (w : Fin 32) : Finset S32x65536.Idx := ((pV : Memref sig .scVector .hbm S32x65536 .i32).view.slice (row w)).set

/-- The worker number of tile `(c, i)`. -/
def wid (c : Fin 2) (i : Fin 16) : Fin 32 := ⟨i.val * 2 + c.val, by omega⟩

/-- Worker `w`'s read share of the whole input. -/
abbrev xTok (d : Dev nD) (w : Fin 32) : sProp 𝕄 := xLoc d ↦{Transfers.shareTokN fullShare w.val} m (xLoc d)
/-- Row `w` of the partial histograms at the contents `f`. -/
abbrev pRow (d : Dev nD) (w : Fin 32) (f : Buf (Elt F) (pLoc d)) : sProp 𝕄 := pLoc d ↦[rowSet w]{fullShare} f

/-- Row `w` of `f` is the histogram of stretch `w` of the input. -/
def RowDone (d : Dev nD) (w : Fin 32) (f : Buf (Elt F) (pLoc d)) : Prop :=
  ∀ j : Fin 65536, (f : IVec Cert.Hist.SP 32) (ValueIdx.ix2 w j) = Cert.Hist.tile (xOf m d) w.val (ValueIdx.ix1 j)

/-- What a tile is handed and what it hands back. -/
def goT (d : Dev nD) (w : Fin 32) : sProp 𝕄 := iprop(xTok m d w ∗ pRow d w (m (pLoc d)))
def tdT (d : Dev nD) (w : Fin 32) : sProp 𝕄 := iprop(xTok m d w ∗ ∃ f, ⌜RowDone m d w f⌝ ∗ pRow d w f)

/-- The one call: each tile its part, each SparseCore its sixteen tiles' parts. -/
def P : (K (F := F)).Pay (nD := nD) (Val := Elt F) (Name := ℕ) (U := UU) where
  st := fun q d c => match q with | 0 => bigSep Finset.univ fun i : Fin 16 => goT m d (wid (Fin.cast nCore_zero c) i)
  dn := fun q d c => match q with | 0 => bigSep Finset.univ fun i : Fin 16 => tdT m d (wid (Fin.cast nCore_zero c) i)
  go := fun q d c i => match q with | 0 => goT m d (wid (Fin.cast nCore_zero c) (Fin.cast nSub_zero i))
  td := fun q d c i => match q with | 0 => tdT m d (wid (Fin.cast nCore_zero c) (Fin.cast nSub_zero i))
  x := fun _ _ => iprop(emp)

instance goT_storable (d : Dev nD) (w : Fin 32) : BI.Storable (upEmb : UEmb _ 𝕄) (goT m d w) := by
  unfold goT; infer_instance
instance tdT_storable (d : Dev nD) (w : Fin 32) : BI.Storable (upEmb : UEmb _ 𝕄) (tdT m d w) := by
  unfold tdT; infer_instance

instance P_storable : (P (F := F) m).IsStorable where
  st q d c := match q with
    | 0 => (inferInstance : BI.Storable (upEmb : UEmb _ 𝕄) (bigSep Finset.univ fun i : Fin 16 => goT m d (wid (Fin.cast nCore_zero c) i)))
  dn q d c := match q with
    | 0 => (inferInstance : BI.Storable (upEmb : UEmb _ 𝕄) (bigSep Finset.univ fun i : Fin 16 => tdT m d (wid (Fin.cast nCore_zero c) i)))
  go q d c i := match q with
    | 0 => (inferInstance : BI.Storable (upEmb : UEmb _ 𝕄) (goT m d (wid (Fin.cast nCore_zero c) (Fin.cast nSub_zero i))))
  td q d c i := match q with
    | 0 => (inferInstance : BI.Storable (upEmb : UEmb _ 𝕄) (tdT m d (wid (Fin.cast nCore_zero c) (Fin.cast nSub_zero i))))

end Cert.Proof.KB

end
-- ==== Proof.KB.Inv.lean ====
/-
  A tile's thread, scratch and semaphores, and the two loop invariants of its task: the zero-fill of the histogram
  and the counting of one chunk.
-/
import proofs.«203723_g38474317038175_cont_8to1_b_298_28_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The tile's worker number. -/
abbrev wL (L : grid0.Coords) : Fin 32 := wid (Fin.cast bound_zero (L 0)) (Fin.cast bound_one (L 1))

/-- The tile's scratch: the histogram and the three chunk buffers. -/
abbrev hV : Memref sig .scVector .vmem S65536 .i32 := Memref.whole cc0_scratch0
abbrev b0V : Memref sig .scVector .vmem S16384 .i32 := Memref.whole cc0_scratch1
abbrev b1V : Memref sig .scVector .vmem S16384 .i32 := Memref.whole cc0_scratch2
abbrev b2V : Memref sig .scVector .vmem S16384 .i32 := Memref.whole cc0_scratch3

/-- The tile's four DMA semaphores: one per chunk buffer, one for the write-out. -/
abbrev c0cell (d : Dev nD) (c : Fin τ.nSC) (i : Fin τ.nSub) : GSem nD τ sig := (V d c i, .dma cc0_scratch4.sem)
abbrev c1cell (d : Dev nD) (c : Fin τ.nSC) (i : Fin τ.nSub) : GSem nD τ sig := (V d c i, .dma cc0_scratch5.sem)
abbrev c2cell (d : Dev nD) (c : Fin τ.nSC) (i : Fin τ.nSub) : GSem nD τ sig := (V d c i, .dma cc0_scratch6.sem)
abbrev c3cell (d : Dev nD) (c : Fin τ.nSC) (i : Fin τ.nSub) : GSem nD τ sig := (V d c i, .dma cc0_scoped0.sem)

/-- Before trip `k` of the zero-fill the first `128 k` bins are zero. -/
def zinv (d : Dev nD) (L : grid0.Coords) (k : ℕ) (_ : PUnit) : sProp 𝕄 :=
  iprop(∃ f, ⌜∀ j : S65536.Idx, (j 0).val < 128 * k → f j = 0#32⌝ ∗ (hV : Memref sig .scVector .vmem S65536 .i32).view.loc (V d (cV L) (jV L)) ↦{fullShare} f)

/-- Before trip `k` of a chunk's loop the histogram counts the first `n0 + 256 k` positions of the tile's stretch
    (`xs` the input by flat position, `lo` the stretch's start); the chunk's buffer `bV` holds the
    positions `lo + n0`, …, `lo + n0 + 16383`. -/
def cinv (d : Dev nD) (L : grid0.Coords) (xs : ℕ → ℕ) (lo n0 : ℕ) (bV : Memref sig .scVector .vmem S16384 .i32)
    (k : ℕ) (_ : PUnit) : sProp 𝕄 :=
  iprop((∃ h, ⌜∀ j : S65536.Idx, h j = BitVec.ofNat 32 (Cert.Hist.cntN xs lo (n0 + 256 * k) (j 0).val)⌝
      ∗ (hV : Memref sig .scVector .vmem S65536 .i32).view.loc (V d (cV L) (jV L)) ↦{fullShare} h)
    ∗ (∃ b : Buf (Elt F) (bV.view.loc (V d (cV L) (jV L))),
        ⌜∀ (p : ℕ) (hp : p < 16384), (bV.view.read (Elt F) b (ValueIdx.ix1 ⟨p, hp⟩)).toNat = xs (lo + n0 + p)⌝
      ∗ bV.view.loc (V d (cV L) (jV L)) ↦{fullShare} b))

end Cert.Proof.KB

end
-- ==== Proof.KB.Rows.lean ====
/-
  The rows of the 32 × 65536 array of partial histograms, and the read tokens of the input.

  Worker `w = 2 i + c` writes its histogram to row `w`: the rectangle the write-out's destination names is row `w`,
  and an element `j` of the destination is the element `(w, j)` of the array. The thirty-two rows are pairwise
  disjoint and cover the array, so the array's points-to is the rows' points-tos, and row-wise contents glue to one
  array's contents. The full share of the input splits into thirty-two read tokens and a remainder. A family over
  the workers regroups by SparseCore and subcore.
-/
import proofs.«203723_g38474317038175_cont_8to1_b_298_28_alg».proof.Proof.KB.Inv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-! ## The write-out's destination is the worker's row -/

/-- The write-out's destination: the row of the partial histograms at the tile's offset, one axis dropped. -/
abbrev pRowK (L : grid0.Coords) : Memref sig .scVector .hbm S65536 .i32 :=
  ((pV : Memref sig .scVector .hbm S32x65536 .i32).slice
    (Rect.unit (s := S32x65536) (k0_off35 L) S1x65536.size (k0_off35_inb L)) (fun _ => rfl)).squeeze S65536 squeezes_S1x65536_S65536

omit [FloatOps F] in
theorem rowK_eq (L : grid0.Coords) :
    Rect.unit (s := S32x65536) (k0_off35 L) S1x65536.size (k0_off35_inb L) = row (wL L) := by
  unfold row Rect.part Rect.block
  congr 1 <;> funext a
  · rw [k0_off35_eq]
    match a with
    | 0 =>
      simp [Shape.partIx, Shape.partSize, wid]
      show 2 * (L 1).val + (L 0).val = (L 1).val * 2 + (L 0).val
      omega
    | 1 => simp [Shape.partIx, Shape.partSize]
  · match a with
    | 0 => simp [Shape.partSize]
    | 1 => simp [Shape.partSize]

omit [FloatOps F] in
theorem set_pRowK (L : grid0.Coords) : (pRowK L).view.set = rowSet (wL L) := by
  show (((pV : Memref sig .scVector .hbm S32x65536 .i32).view.slice
      (Rect.unit (s := S32x65536) (k0_off35 L) S1x65536.size (k0_off35_inb L))).reshape S65536 squeezes_S1x65536_S65536.numel_eq).set
    = ((pV : Memref sig .scVector .hbm S32x65536 .i32).view.slice (row (wL L))).set
  rw [View.set_reshape]
  exact rowK_eq L ▸ rfl

omit [FloatOps F] in
theorem pts_pRowK (d : Dev nD) (L : grid0.Coords) (f : Buf (Elt F) (pLoc d)) :
    ((pRowK L).view.loc (V d (cV L) (jV L)) ↦[(pRowK L).view.set]{fullShare} f : sProp 𝕄)
      = pLoc d ↦[rowSet (wL L)]{fullShare} f := by
  rw [set_pRowK]

omit [FloatOps F] in
/-- Element `j` of the destination is element `(w, j)` of the array, `w` the tile's worker number. -/
theorem emb_pRowK (L : grid0.Coords) (j : Fin 65536) :
    (pRowK L).view.emb (ValueIdx.ix1 j) = (ValueIdx.ix2 (wL L) j : S32x65536.Idx) := by
  have hre : Shape.reshapeEquiv squeezes_S1x65536_S65536.numel_eq (ValueIdx.ix1 j : S65536.Idx)
      = (ValueIdx.ix2 (0 : Fin 1) j : S1x65536.Idx) :=
    Shape.reshapeEquiv_eq_of_rowMajor _ (by rw [Shape.rowMajor_val_two, Shape.rowMajor_val_one]; simp)
  funext a
  apply Fin.ext
  show (k0_off35 L a) + 1 * ((Shape.reshapeEquiv squeezes_S1x65536_S65536.numel_eq (ValueIdx.ix1 j : S65536.Idx)) a).val = _
  rw [hre, k0_off35_eq]
  match a with
  | ⟨0, _⟩ =>
    show 2 * (L 1).val + (L 0).val + 1 * 0 = (L 1).val * 2 + (L 0).val
    omega
  | ⟨1, _⟩ =>
    show 0 + 1 * j.val = j.val
    omega

omit [FloatOps F] in
/-- A histogram of the tile's stretch written through the destination leaves the worker's row done. -/
theorem rowDone_of_write (d : Dev nD) (L : grid0.Coords) (f : Buf (Elt F) (pLoc d)) (h : S65536.Idx → BitVec 32)
    (hh : ∀ j : Fin 65536, h (ValueIdx.ix1 j) = Cert.Hist.tile (xOf m d) (wL L).val (ValueIdx.ix1 j)) :
    RowDone m d (wL L) ((pRowK L).view.write (Elt F) f h Finset.univ) := by
  intro j
  rw [← emb_pRowK L j]
  refine ((pRowK L).view.write_emb_of_mem (Val := Elt F) f h (Finset.mem_univ _)).trans ?_
  rw [cast_eq]
  exact hh j

omit [FloatOps F] in
/-- The same for the landed write-out as a list of one whole piece whose payload is the tile's histogram read back:
    the histogram counts the tile's whole stretch, so the worker's row is done. -/
theorem rowDone_of_writes (d : Dev nD) (L : grid0.Coords) (f : Buf (Elt F) (pLoc d))
    (hc : Buf (Elt F) ((hV : Memref sig .scVector .vmem S65536 .i32).view.loc (V d (cV L) (jV L))))
    (g : S65536.Idx → BitVec 32)
    (hg : g = ReadAs.same.apply ((hV : Memref sig .scVector .vmem S65536 .i32).view.read (Elt F) hc))
    (hh : ∀ j : S65536.Idx, hc j = BitVec.ofNat 32
      (Cert.Hist.cntN (Cert.Hist.flat (xOf m d)) ((wL L).val * 524288) 524288 (j 0).val)) :
    RowDone m d (wL L) ((pRowK L).view.writes (Elt F) f [⟨Rect.whole S65536, g⟩]) := by
  intro j
  have hw : (Rect.whole S65536).emb (ValueIdx.ix1 j) = (ValueIdx.ix1 j : S65536.Idx) := by
    funext a
    apply Fin.ext
    rw [Rect.emb_apply]
    fin_cases a
    show 0 + 1 * j.val = j.val
    omega
  have hemb : ((pRowK L).view.slice (Rect.whole S65536)).emb (ValueIdx.ix1 j) = (ValueIdx.ix2 (wL L) j : S32x65536.Idx) := by
    show (pRowK L).view.emb ((Rect.whole S65536).emb (ValueIdx.ix1 j)) = _
    rw [hw, emb_pRowK]
  rw [← hemb]
  refine (((pRowK L).view.slice (Rect.whole S65536)).write_emb_of_mem (Val := Elt F) f g (Finset.mem_univ _)).trans ?_
  rw [cast_eq, hg]
  exact hh (ValueIdx.ix1 j)

/-! ## The rows tile the array -/

omit [FloatOps F] in
theorem rowSet_eq (w : Fin 32) : rowSet w = (row w).set := by
  show ((View.whole (main_v0_scv : Ref sig .scVector)).slice (row w)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
omit [FloatOps F] in
theorem rows_cover : (Finset.univ : Finset (Fin 32)).biUnion rowSet = Finset.univ :=
  (Finset.biUnion_congr rfl fun i _ => rowSet_eq i).trans (Rect.biUnion_part hdiv)

omit [FloatOps F] in
theorem pPts_rows (d : Dev nD) (f : Buf (Elt F) (pLoc d)) :
    (pLoc d ↦{fullShare} f : sProp 𝕄) = bigSep Finset.univ fun w : Fin 32 => pRow d w f := by
  rw [← pointsTo_biUnion Finset.univ (ℓ := pLoc d) rowSet rows_disjoint, rows_cover]; try rfl

omit [FloatOps F] in
/-- An index of the array lies in the row of its first coordinate. -/
theorem ix2_mem_rowSet (w : Fin 32) (j : Fin 65536) : (ValueIdx.ix2 w j : S32x65536.Idx) ∈ rowSet w := by
  rw [rowSet_eq]
  unfold row Rect.part Rect.block
  rw [Rect.mem_set_unit]
  intro a
  match a with
  | ⟨0, _⟩ => simp [Shape.partIx, Shape.partSize]
  | ⟨1, _⟩ => simp [Shape.partIx, Shape.partSize]

/-- Rows each done, at contents of their own, glue to one array's contents with every row done. -/
theorem pRows_join (d : Dev nD) :
    (bigSep Finset.univ fun w : Fin 32 => iprop(∃ f, ⌜RowDone m d w f⌝ ∗ pRow d w f))
      ⊢ (iprop(∃ g, ⌜∀ w, RowDone m d w g⌝ ∗ pLoc d ↦{fullShare} g) : sProp 𝕄) := by
  refine (bigSep_exists_pi Finset.univ
    (fun w (f : Buf (Elt F) (pLoc d)) => iprop(⌜RowDone m d w f⌝ ∗ pRow d w f))).trans ?_
  iintro ⟨%fs, H⟩
  ihave H1 := (bigSep_pure_sep Finset.univ (fun w => RowDone m d w (fs w)) (fun w => pRow d w (fs w))) $$ H
  icases H1 with ⟨%hdone, H2⟩
  ihave H' := (pointsTo_biUnion_join Finset.univ rowSet fs (fs 0) rows_disjoint) $$ H2
  icases H' with ⟨%g, %hg, Hg⟩
  rw [rows_cover]
  iexists g
  isplitr
  · ipureintro
    intro w j
    rw [hg w (Finset.mem_univ _) _ (ix2_mem_rowSet w j)]
    exact hdone w (Finset.mem_univ _) j
  · iexact Hg

/-! ## The input's read tokens -/

omit [FloatOps F] in
theorem xToks (d : Dev nD) :
    (xLoc d ↦{fullShare} m (xLoc d) : sProp 𝕄)
      ⊣⊢ iprop((xLoc d ↦{Transfers.shareDrop fullShare 32} m (xLoc d)) ∗ bigSep Finset.univ fun w : Fin 32 => xTok m d w) :=
  Transfers.pointsTo_toks fullShare 32

/-! ## What a landed chunk holds -/

/-- The source of chunk `r` of the tile's stretch: 16384 words of the input at the chunk's offset. -/
abbrev srcK (L : grid0.Coords) (r : Fin 32) : Memref sig .scVector .hbm S16384 .i32 :=
  (xV : Memref sig .scVector .hbm S16777216 .i32).slice
    (Rect.unit (s := S16777216) (k0_off1 L (BitVec.ofNat 32 (16384 * r.val))) S16384.size (k0_off1_inb L r)) (fun _ => rfl)

omit [FloatOps F] in
/-- Word `p` of chunk `r` is the input's word at position `524288 w + 16384 r + p`, `w` the tile's worker number. -/
theorem chunk_read (d : Dev nD) (L : grid0.Coords) (r : Fin 32) (p : ℕ) (hp : p < 16384) :
    ((srcK L r).view.read (Elt F) (m (xLoc d)) (ValueIdx.ix1 ⟨p, hp⟩) : BitVec 32).toNat
      = Cert.Hist.flat (xOf m d) ((wL L).val * 524288 + 16384 * r.val + p) := by
  have hin := k0_off1_inb L r 0
  rw [k0_off1_eq] at hin
  have hw : (wL L).val = (L 1).val * 2 + (L 0).val := rfl
  have hin' : 1048576 * (L 1).val + 524288 * (L 0).val + 16384 * r.val + 16384 ≤ 16777216 := hin
  have hq : (wL L).val * 524288 + 16384 * r.val + p < 16777216 := by omega
  unfold Cert.Hist.flat
  rw [dif_pos hq]
  refine congrArg BitVec.toNat (((srcK L r).view.read_apply (Val := Elt F) (m (xLoc d)) _).trans ((cast_eq _ _).trans ?_))
  refine congrArg (m (xLoc d)) ?_
  funext a
  apply Fin.ext
  match a with
  | ⟨0, _⟩ =>
    show (k0_off1 L (BitVec.ofNat 32 (16384 * r.val))) 0 + 1 * p = (wL L).val * 524288 + 16384 * r.val + p
    rw [k0_off1_eq]
    show 1048576 * (L 1).val + 524288 * (L 0).val + 16384 * r.val + 1 * p = _
    omega

omit [FloatOps F] in
/-- A chunk landed on the first chunk buffer leaves the buffer holding the chunk, whatever it held. -/
theorem chunk_lands0 (d : Dev nD) (L : grid0.Coords) (r : Fin 32) (f0 : Buf (Elt F) ((V d (cV L) (jV L)).loc cc0_scratch1)) :
    (b0V : Memref sig .scVector .vmem S16384 .i32).view.write (Elt F) f0
        (ReadAs.same.apply ((srcK L r).view.read (Elt F) (m (xLoc d)))) Finset.univ
      = (srcK L r).view.read (Elt F) (m (xLoc d)) :=
  View.write_whole_univ _ _ _
omit [FloatOps F] in
/-- The same for the second chunk buffer. -/
theorem chunk_lands1 (d : Dev nD) (L : grid0.Coords) (r : Fin 32) (f0 : Buf (Elt F) ((V d (cV L) (jV L)).loc cc0_scratch2)) :
    (b1V : Memref sig .scVector .vmem S16384 .i32).view.write (Elt F) f0
        (ReadAs.same.apply ((srcK L r).view.read (Elt F) (m (xLoc d)))) Finset.univ
      = (srcK L r).view.read (Elt F) (m (xLoc d)) :=
  View.write_whole_univ _ _ _
omit [FloatOps F] in
/-- The same for the third chunk buffer. -/
theorem chunk_lands2 (d : Dev nD) (L : grid0.Coords) (r : Fin 32) (f0 : Buf (Elt F) ((V d (cV L) (jV L)).loc cc0_scratch3)) :
    (b2V : Memref sig .scVector .vmem S16384 .i32).view.write (Elt F) f0
        (ReadAs.same.apply ((srcK L r).view.read (Elt F) (m (xLoc d)))) Finset.univ
      = (srcK L r).view.read (Elt F) (m (xLoc d)) :=
  View.write_whole_univ _ _ _

omit [FloatOps F] in
/-- Read back through any 16384-word memref on which chunk `r` has landed, word `p` is the input's word at position
    `524288 w + 16384 r + p`. -/
theorem chunk_landed (d : Dev nD) (L : grid0.Coords) (r : Fin 32) (bV : Memref sig .scVector .vmem S16384 .i32)
    (f0 : Buf (Elt F) (bV.view.loc (V d (cV L) (jV L)))) (p : ℕ) (hp : p < 16384) :
    (bV.view.read (Elt F) (bV.view.write (Elt F) f0
        (ReadAs.same.apply ((srcK L r).view.read (Elt F) (m (xLoc d)))) Finset.univ) (ValueIdx.ix1 ⟨p, hp⟩) : BitVec 32).toNat
      = Cert.Hist.flat (xOf m d) ((wL L).val * 524288 + 16384 * r.val + p) := by
  rw [View.read_write_univ]
  exact chunk_read m d L r p hp

/-! ## Workers by SparseCore and subcore -/

/-- Worker numbers are the pairs of a SparseCore and a subcore. -/
def widEquiv : Fin 2 × Fin 16 ≃ Fin 32 where
  toFun p := wid p.1 p.2
  invFun w := (⟨w.val % 2, Nat.mod_lt _ (by omega)⟩, ⟨w.val / 2, by have := w.isLt; omega⟩)
  left_inv p := by
    obtain ⟨c, i⟩ := p
    apply Prod.ext
    · apply Fin.ext; show (i.val * 2 + c.val) % 2 = c.val; have := c.isLt; omega
    · apply Fin.ext; show (i.val * 2 + c.val) / 2 = i.val; have := c.isLt; omega
  right_inv w := by
    apply Fin.ext; show w.val / 2 * 2 + w.val % 2 = w.val; omega

omit [FloatOps F] in
theorem bigSep_wid (Φ : Fin 32 → sProp 𝕄) :
    (bigSep Finset.univ fun c : Fin 2 => bigSep Finset.univ fun i : Fin 16 => Φ (wid c i)) = bigSep Finset.univ Φ := by
  rw [← bigSep_univ_prod (fun p : Fin 2 × Fin 16 => Φ (wid p.1 p.2))]
  exact (bigSep_univ_equiv widEquiv Φ).symm

end Cert.Proof.KB

end
-- ==== Proof.KB.ZeroLoop.lean ====
/-
  The zero-fill of the tile's histogram: one trip of the loop stores eight vectors of sixteen zeros at the offsets
  `128 k + 16 u`, `u = 0 … 7`, so after trip `k` the first `128 (k + 1)` bins are zero.
-/
import proofs.«203723_g38474317038175_cont_8to1_b_298_28_alg».proof.Proof.KB.Inv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid0.Coords)

omit [FloatOps F] in
/-- The offset of the `u`-th store of trip `k`. -/
theorem off2_val (k : Fin k0_t1_loop.trips) (u : Fin 8) (a : Fin 1) :
    k0_off2 k (BitVec.ofNat 32 u.val) a = 128 * k.val + 16 * u.val := by
  rw [k0_off2_eq]
  fin_cases a
  rfl

/-- The `u`-th store of trip `k`: sixteen zeros at the offset `128 k + 16 u`. -/
abbrev zpiece (k : Fin k0_t1_loop.trips) (u : Fin 8) : View.Piece (Elt F) S65536 .i32 :=
  ⟨Rect.unit (s := S65536) (k0_off2 k (BitVec.ofNat 32 u.val)) S16.size (k0_off2_inb k u), k0_pay1⟩

omit [FloatOps F] in
theorem mem_zpiece (k : Fin k0_t1_loop.trips) (u : Fin 8) (j : S65536.Idx) :
    j ∈ (zpiece (F := F) k u).1.set ↔ 128 * k.val + 16 * u.val ≤ (j 0).val ∧ (j 0).val < 128 * k.val + 16 * u.val + 16 := by
  show j ∈ (Rect.unit (s := S65536) (k0_off2 k (BitVec.ofNat 32 u.val)) S16.size (k0_off2_inb k u)).set ↔ _
  rw [Rect.mem_set_unit]
  constructor
  · intro h
    have h0 := h 0
    rw [off2_val] at h0
    exact h0
  · intro h a
    fin_cases a
    rw [off2_val]
    exact h

omit [FloatOps F] in
/-- After the eight stores of trip `k` over contents whose first `128 k` bins are zero, the first `128 (k + 1)` are. -/
theorem zero_after (d : Dev nD) (L : grid0.Coords) (k : Fin k0_t1_loop.trips)
    (f : Buf (Elt F) ((hV : Memref sig .scVector .vmem S65536 .i32).view.loc (V d (cV L) (jV L))))
    (hf : ∀ j : S65536.Idx, (j 0).val < 128 * k.val → f j = 0#32) (j : S65536.Idx) (hj : (j 0).val < 128 * (k.val + 1)) :
    (hV : Memref sig .scVector .vmem S65536 .i32).view.writes (Elt F) f
      [zpiece k 7, zpiece k 6, zpiece k 5, zpiece k 4, zpiece k 3, zpiece k 2, zpiece k 1, zpiece k 0] j = 0#32 := by
  by_cases h : (j 0).val < 128 * k.val
  · refine Eq.trans (b := f j) ?_ (hf j h)
    refine (View.read_writes_apply_of_forall_not_mem (hV : Memref sig .scVector .vmem S65536 .i32).view f j
      [zpiece k 7, zpiece k 6, zpiece k 5, zpiece k 4, zpiece k 3, zpiece k 2, zpiece k 1, zpiece k 0] ?_ :)
    intro p hp
    simp only [List.mem_cons, List.not_mem_nil, or_false] at hp
    rcases hp with rfl | rfl | rfl | rfl | rfl | rfl | rfl | rfl <;> rw [mem_zpiece] <;> omega
  · have hu : ((j 0).val - 128 * k.val) / 16 < 8 := by omega
    refine (View.read_writes_apply_of_pieces (hV : Memref sig .scVector .vmem S65536 .i32).view f (fun _ => (0#32 : BitVec 32))
      [zpiece k 7, zpiece k 6, zpiece k 5, zpiece k 4, zpiece k 3, zpiece k 2, zpiece k 1, zpiece k 0] ?_ j
      ⟨zpiece k ⟨((j 0).val - 128 * k.val) / 16, hu⟩, ?_, ?_⟩ :)
    · intro p hp x
      simp only [List.mem_cons, List.not_mem_nil, or_false] at hp
      rcases hp with rfl | rfl | rfl | rfl | rfl | rfl | rfl | rfl <;> rfl
    · generalize hq : (⟨((j 0).val - 128 * k.val) / 16, hu⟩ : Fin 8) = q
      fin_cases q <;> simp
    · rw [mem_zpiece]
      show 128 * k.val + 16 * (((j 0).val - 128 * k.val) / 16) ≤ (j 0).val ∧ (j 0).val < 128 * k.val + 16 * (((j 0).val - 128 * k.val) / 16) + 16
      omega

/-- One trip of the zero-fill keeps the invariant: from the first `128 k` bins zero to the first `128 (k + 1)`. -/
theorem zero_region (a2 : Memref sig .scVector .hbm S16777216 .i32) (h2 : a2.IsWhole)
    (a3 : Memref sig .scVector .hbm S32x65536 .i32) (h3 : a3.IsWhole)
    (a5 : Memref sig .scVector .vmem S16384 .i32) (h5 : a5.IsWhole) (a6 : Memref sig .scVector .vmem S16384 .i32) (h6 : a6.IsWhole)
    (a7 : Memref sig .scVector .vmem S16384 .i32) (h7 : a7.IsWhole) (s8 s9 s10 r0 : DmaSems sig S_)
    (k : Fin k0_t1_loop.trips) :
    zinv (F := F) d L k.val ⟨⟩ ⊢ wp frame (wpE (defs₀ (F := F)) 𝒱₀ (V d (cV L) (jV L)) none) Set.univ
      (k0_t1_body L a2 h2 a3 h3 hV (Memref.isWhole_whole _) a5 h5 a6 h6 a7 h7 s8 s9 s10 r0 k ⟨⟩)
      (fun _ => zinv (F := F) d L (k.val + 1) ⟨⟩) := by
  unfold zinv
  iintro ⟨%f, %hf, Hh⟩
  unfold k0_t1_body k0_part1
  sl_exec
  sl_step
  iexists _
  isplitr
  · ipureintro
    intro j hj
    exact zero_after d L k f hf j hj
  · iexact Hh

end Cert.Proof.KB

end
-- ==== Proof.KB.Trip.lean ====
/-
  One trip of a chunk's loop of a tile: sixteen loads of sixteen words of the chunk's buffer, then sixteen indexed
  add-stores of ones into the histogram at those words. If, before the trip, the histogram counts the first
  `n0 + 256 t` positions of the tile's stretch and the buffer holds the 16384 positions from `n0` on, then after the
  trip the histogram counts the first `n0 + 256 (t + 1)`, the buffer unchanged.
-/
import proofs.«203723_g38474317038175_cont_8to1_b_298_28_alg».proof.Proof.KB.Common
import proofs.«203723_g38474317038175_cont_8to1_b_298_28_alg».proof.Proof.KB.Inv
import proofs.«203723_g38474317038175_cont_8to1_b_298_28_alg».proof.Proof.StoreOnes

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## What a load of sixteen words reads -/

/-- A 16-lane index is the lane of its coordinate. -/
theorem eq_ofLane (x : S16.Idx) : x = Shape.ofLane (d := ![16]) (x 0) := by
  funext a
  have ha : a = 0 := Fin.eq_zero a
  subst ha
  rfl

/-- The vector of ones the stores add is one at every lane. -/
theorem k0_pay2_eq : k0_pay2 = fun _ => 1#32 := rfl

/-! ## The indexed add-store of ones into the held histogram -/

/-- Holding the histogram outright, the store continues holding it rewritten to the scatter-add of ones. -/
theorem wp_histStore (d : Dev nD) (L : grid0.Coords) {v : IVec S16 32}
    {hv : ∀ a x, ((![v] : Fin 1 → IVec S16 32) a x).toNat < S65536.size a}
    {hs : ((hV : Memref sig .scVector .vmem S65536 .i32).access (.whole S65536)).Stores Finset.univ} {α : Type}
    {k : PUnit → Prog (TpuEff nD τ sig (Elt F) Λ₀ (.scVector (cV L) (jV L))) α}
    {f : Buf (Elt F) ((hV : Memref sig .scVector .vmem S65536 .i32).view.loc (V d (cV L) (jV L)))} {Q : α → sProp 𝕄} :
    ((hV : Memref sig .scVector .vmem S65536 .i32).view.loc (V d (cV L) (jV L)) ↦{fullShare} f)
      ⊢ iprop((((hV : Memref sig .scVector .vmem S65536 .i32).view.loc (V d (cV L) (jV L)) ↦{fullShare}
            (storeIdx (F := F) (s := S65536) (e := .i32) f ![v] k0_pay2 (fun _ => 1#1) true hv))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx hV ![v] k0_pay2 (fun _ => 1#1) true hv hs >>= k) Q) := by
  have key := SparseCore.wp_vectorStoreIdx (Ix := HIx 1) (Name := ℕ) (U := UU) (Lvl := ℕ) (defs := defs₀ (F := F)) 𝒱₀ (V d (cV L) (jV L)) none
    (Set.univ : Set ℕ) (base := hV) (idxs := ![v]) (v := k0_pay2) (mask := fun _ => 1#1) (add := true) (h := hv) (hs := hs) (k := k) (f := f) (Q := Q)
  have e1 : ∀ w, View.write (Elt F) ((hV : Memref sig .scVector .vmem S65536 .i32).access (Rect.whole S65536)) f w Finset.univ = w :=
    fun w => Memref.write_access_whole_univ (Elt F) cc0_scratch0 f w
  have e2 : View.read (Elt F) ((hV : Memref sig .scVector .vmem S65536 .i32).access (Rect.whole S65536)) f = f :=
    Memref.read_access_whole (Elt F) cc0_scratch0 f
  have e3 : ((hV : Memref sig .scVector .vmem S65536 .i32).access (Rect.whole S65536)).set = Finset.univ := Memref.set_access_whole cc0_scratch0
  rw [e1, e2, e3] at key
  exact key

/-! ## The buffer `b0V` -/

/-- A load of 16 words of the chunk buffer at the offset `off` reads, at lane `l`, the buffer's word `off + l`. -/
theorem read_lane_b0V (b : IVec S16384 32) (off : Fin 1 → ℕ) (inb : ∀ a, off a + S16.size a ≤ S16384.size a) (l : Fin 16)
    (hp : off 0 + l.val < 16384) :
    ((b0V : Memref sig .scVector .vmem S16384 .i32).view.readAt (Elt F) (Rect.unit (s := S16384) off S16.size inb).toLoadRect b : IVec S16 32)
        (Shape.ofLane (d := ![16]) l)
      = b (ValueIdx.ix1 ⟨off 0 + l.val, hp⟩) := by
  show b _ = b _
  congr 1
  funext a
  have ha : a = 0 := Fin.eq_zero a
  subst ha
  apply Fin.ext
  show off 0 + 1 * l.val = off 0 + l.val
  rw [Nat.one_mul]

/-- Words of a buffer that holds a stretch of `xs`, all below 65536, are indices into the histogram. -/
theorem chk_read_b0V (b : IVec S16384 32) (xs : ℕ → ℕ) (lo : ℕ)
    (hb : ∀ (p : ℕ) (hp : p < 16384), (b (ValueIdx.ix1 ⟨p, hp⟩)).toNat = xs (lo + p)) (hx : ∀ p, xs p < 65536)
    (off : Fin 1 → ℕ) (inb : ∀ a, off a + S16.size a ≤ S16384.size a) :
    ∀ a x, ((![((b0V : Memref sig .scVector .vmem S16384 .i32).view.readAt (Elt F) (Rect.unit (s := S16384) off S16.size inb).toLoadRect b : IVec S16 32)]
        : Fin 1 → IVec S16 32) a x).toNat < S65536.size a := by
  intro a x
  have ha : a = 0 := Fin.eq_zero a
  subst ha
  have h0 := inb 0
  have hl : off 0 + (x 0).val < 16384 := by
    have := (x 0).isLt
    change off 0 + 16 ≤ 16384 at h0
    change (x 0).val < 16 at this
    omega
  rw [eq_ofLane x]
  show (((b0V : Memref sig .scVector .vmem S16384 .i32).view.readAt (Elt F) (Rect.unit (s := S16384) off S16.size inb).toLoadRect b : IVec S16 32)
    (Shape.ofLane (d := ![16]) (x 0))).toNat < 65536
  rw [read_lane_b0V b off inb (x 0) hl, hb]
  exact hx _

/-- The `r`-th load of trip `t` reads, at lane `l`, position `256 t + 16 r + l` of the chunk. -/
theorem lane_val_b0V (b : IVec S16384 32) (xs : ℕ → ℕ) (lo : ℕ)
    (hb : ∀ (p : ℕ) (hp : p < 16384), (b (ValueIdx.ix1 ⟨p, hp⟩)).toNat = xs (lo + p))
    (t : Fin k0_t2_loop.trips) (r : Fin 16) (inb : ∀ a, k0_off3 t (BitVec.ofNat 32 r.val) a + S16.size a ≤ S16384.size a) (l : Fin 16) :
    (((b0V : Memref sig .scVector .vmem S16384 .i32).view.readAt (Elt F)
        (Rect.unit (s := S16384) (k0_off3 t (BitVec.ofNat 32 r.val)) S16.size inb).toLoadRect b : IVec S16 32) (Shape.ofLane (d := ![16]) l)).toNat
      = xs (lo + (256 * t.val + 16 * r.val + l.val)) := by
  have h0 : k0_off3 t (BitVec.ofNat 32 r.val) 0 = 256 * t.val + 16 * r.val := by rw [k0_off3_eq t r]; rfl
  have hi := inb 0
  have hl : k0_off3 t (BitVec.ofNat 32 r.val) 0 + l.val < 16384 := by
    have := l.isLt
    change k0_off3 t (BitVec.ofNat 32 r.val) 0 + 16 ≤ 16384 at hi
    omega
  rw [read_lane_b0V b _ inb l hl, hb]
  congr 2
  omega

/-- One add-store of ones of trip `t` of a chunk held in `b0V`, the `r`-th: its lanes' indices are the chunk's positions
    `256 t + 16 r, …, 256 t + 16 r + 15`; a histogram counting the `n0 + 256 t + 16 r` positions before them counts, after
    it, these sixteen more. -/
theorem wp_store_b0V (d : Dev nD) (L : grid0.Coords) (b : IVec S16384 32) (xs : ℕ → ℕ) (lo n0 : ℕ)
    (hb : ∀ (p : ℕ) (hp : p < 16384), (b (ValueIdx.ix1 ⟨p, hp⟩)).toNat = xs ((lo + n0) + p))
    (t : Fin k0_t2_loop.trips) (r : ℕ) (hr : r < 16)
    {inb : ∀ a, k0_off3 t (BitVec.ofNat 32 r) a + S16.size a ≤ S16384.size a}
    {hv : ∀ a x, ((![((b0V : Memref sig .scVector .vmem S16384 .i32).view.readAt (Elt F) (Rect.unit (s := S16384) (k0_off3 t (BitVec.ofNat 32 r)) S16.size inb).toLoadRect b : IVec S16 32)]
        : Fin 1 → IVec S16 32) a x).toNat < S65536.size a}
    {hs : ((hV : Memref sig .scVector .vmem S65536 .i32).access (.whole S65536)).Stores Finset.univ} {α : Type}
    {k : PUnit → Prog (TpuEff nD τ sig (Elt F) Λ₀ (.scVector (cV L) (jV L))) α}
    {f : Buf (Elt F) ((hV : Memref sig .scVector .vmem S65536 .i32).view.loc (V d (cV L) (jV L)))} {Q : α → sProp 𝕄}
    (hf : ∀ j : S65536.Idx, (f : IVec S65536 32) j = BitVec.ofNat 32 (Cert.Hist.cntN xs lo (n0 + 256 * t.val + 16 * r) (j 0).val)) :
    ((hV : Memref sig .scVector .vmem S65536 .i32).view.loc (V d (cV L) (jV L)) ↦{fullShare} f)
      ⊢ iprop(((∃ f' : Buf (Elt F) ((hV : Memref sig .scVector .vmem S65536 .i32).view.loc (V d (cV L) (jV L))),
            ⌜∀ j : S65536.Idx, (f' : IVec S65536 32) j = BitVec.ofNat 32 (Cert.Hist.cntN xs lo (n0 + 256 * t.val + 16 * (r + 1)) (j 0).val)⌝
            ∗ ((hV : Memref sig .scVector .vmem S65536 .i32).view.loc (V d (cV L) (jV L)) ↦{fullShare} f'))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx hV
              ![((b0V : Memref sig .scVector .vmem S16384 .i32).view.readAt (Elt F) (Rect.unit (s := S16384) (k0_off3 t (BitVec.ofNat 32 r)) S16.size inb).toLoadRect b : IVec S16 32)]
              k0_pay2 (fun _ => 1#1) true hv hs >>= k) Q) := by
  iintro Hh Hk
  iapply (wp_histStore (F := F) d L) $$ Hh
  iintro Hh
  iapply Hk
  iexists _
  isplitr
  rotate_left
  · iexact Hh
  · ipureintro
    have hn : n0 + 256 * t.val + 16 * (r + 1) = (n0 + 256 * t.val + 16 * r) + 16 := by omega
    rw [hn, k0_pay2_eq]
    refine Cert.Hist.storeOnes_step f _ hv xs lo _ hf (fun l => ?_)
    have := lane_val_b0V (F := F) b xs (lo + n0) hb t ⟨r, hr⟩ inb l
    rw [this]
    congr 1
    show lo + n0 + (256 * t.val + 16 * r + l.val) = _
    omega

/-- **One trip of the loop of a chunk held in `b0V`**: from the invariant before trip `t` to the invariant before trip
    `t + 1`. The loads read the chunk's positions `256 t, …, 256 t + 255`, every word below 65536 (so the assumed side
    conditions hold), and the sixteen add-stores of ones count them. -/
theorem chunk_reg_b0V (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (a6 : Memref sig .scVector .vmem S16384 .i32) (h6 : a6.IsWhole) (a7 : Memref sig .scVector .vmem S16384 .i32) (h7 : a7.IsWhole)
    (s8 s9 s10 r0 : DmaSems sig S_) (t : Fin k0_t2_loop.trips) :
    cinv (F := F) d L xs lo n0 b0V t.val ⟨⟩
      ⊢ wp frame (wpE (defs₀ (F := F)) 𝒱₀ (V d (cV L) (jV L)) none) Set.univ
          (k0_t2_body L a2 h2 a3 h3 hV (Memref.isWhole_whole _) b0V (Memref.isWhole_whole _) a6 h6 a7 h7 s8 s9 s10 r0 t ⟨⟩)
          (fun _ => cinv (F := F) d L xs lo n0 b0V (t.val + 1) ⟨⟩) := by
  unfold cinv
  iintro ⟨⟨%h, %hh, Hh⟩, ⟨%b, %hb, Hb⟩⟩
  have hb' : ∀ (p : ℕ) (hp : p < 16384), ((b : IVec S16384 32) (ValueIdx.ix1 ⟨p, hp⟩)).toNat = xs ((lo + n0) + p) := hb
  have hf : ∀ j : S65536.Idx, (h : IVec S65536 32) j = BitVec.ofNat 32 (Cert.Hist.cntN xs lo (n0 + 256 * t.val + 16 * 0) (j 0).val) := hh
  unfold k0_t2_body
  rw [k0_part2_eq_skeleton, k0_part3_eq_skeleton]; unfold k0_part2_skel k0_part3_skel
  sl_exec (disch := exact chk_read_b0V (F := F) b xs (lo + n0) hb' hx _ _)
  iapply (wp_store_b0V (F := F) d L b xs lo n0 hb' t 0 (by decide) hf) $$ Hh; iintro ⟨%f, %hf, Hh⟩
  iapply (wp_store_b0V (F := F) d L b xs lo n0 hb' t 1 (by decide) hf) $$ Hh; iintro ⟨%f, %hf, Hh⟩
  iapply (wp_store_b0V (F := F) d L b xs lo n0 hb' t 2 (by decide) hf) $$ Hh; iintro ⟨%f, %hf, Hh⟩
  iapply (wp_store_b0V (F := F) d L b xs lo n0 hb' t 3 (by decide) hf) $$ Hh; iintro ⟨%f, %hf, Hh⟩
  iapply (wp_store_b0V (F := F) d L b xs lo n0 hb' t 4 (by decide) hf) $$ Hh; iintro ⟨%f, %hf, Hh⟩
  iapply (wp_store_b0V (F := F) d L b xs lo n0 hb' t 5 (by decide) hf) $$ Hh; iintro ⟨%f, %hf, Hh⟩
  iapply (wp_store_b0V (F := F) d L b xs lo n0 hb' t 6 (by decide) hf) $$ Hh; iintro ⟨%f, %hf, Hh⟩
  iapply (wp_store_b0V (F := F) d L b xs lo n0 hb' t 7 (by decide) hf) $$ Hh; iintro ⟨%f, %hf, Hh⟩
  iapply (wp_store_b0V (F := F) d L b xs lo n0 hb' t 8 (by decide) hf) $$ Hh; iintro ⟨%f, %hf, Hh⟩
  iapply (wp_store_b0V (F := F) d L b xs lo n0 hb' t 9 (by decide) hf) $$ Hh; iintro ⟨%f, %hf, Hh⟩
  iapply (wp_store_b0V (F := F) d L b xs lo n0 hb' t 10 (by decide) hf) $$ Hh; iintro ⟨%f, %hf, Hh⟩
  iapply (wp_store_b0V (F := F) d L b xs lo n0 hb' t 11 (by decide) hf) $$ Hh; iintro ⟨%f, %hf, Hh⟩
  iapply (wp_store_b0V (F := F) d L b xs lo n0 hb' t 12 (by decide) hf) $$ Hh; iintro ⟨%f, %hf, Hh⟩
  iapply (wp_store_b0V (F := F) d L b xs lo n0 hb' t 13 (by decide) hf) $$ Hh; iintro ⟨%f, %hf, Hh⟩
  iapply (wp_store_b0V (F := F) d L b xs lo n0 hb' t 14 (by decide) hf) $$ Hh; iintro ⟨%f, %hf, Hh⟩
  iapply (wp_store_b0V (F := F) d L b xs lo n0 hb' t 15 (by decide) hf) $$ Hh; iintro ⟨%f, %hf, Hh⟩
  sl_step
  isplitl [Hh]
  · iexists f
    isplitr
    · ipureintro
      have hn : n0 + 256 * (t.val + 1) = n0 + 256 * t.val + 16 * (15 + 1) := by omega
      rw [hn]
      exact hf
    · iexact Hh
  · iexists b
    isplitr
    · ipureintro; exact hb
    · iexact Hb

/-! ## The buffer `b1V` -/

/-- A load of 16 words of the chunk buffer at the offset `off` reads, at lane `l`, the buffer's word `off + l`. -/
theorem read_lane_b1V (b : IVec S16384 32) (off : Fin 1 → ℕ) (inb : ∀ a, off a + S16.size a ≤ S16384.size a) (l : Fin 16)
    (hp : off 0 + l.val < 16384) :
    ((b1V : Memref sig .scVector .vmem S16384 .i32).view.readAt (Elt F) (Rect.unit (s := S16384) off S16.size inb).toLoadRect b : IVec S16 32)
        (Shape.ofLane (d := ![16]) l)
      = b (ValueIdx.ix1 ⟨off 0 + l.val, hp⟩) := by
  show b _ = b _
  congr 1
  funext a
  have ha : a = 0 := Fin.eq_zero a
  subst ha
  apply Fin.ext
  show off 0 + 1 * l.val = off 0 + l.val
  rw [Nat.one_mul]

/-- Words of a buffer that holds a stretch of `xs`, all below 65536, are indices into the histogram. -/
theorem chk_read_b1V (b : IVec S16384 32) (xs : ℕ → ℕ) (lo : ℕ)
    (hb : ∀ (p : ℕ) (hp : p < 16384), (b (ValueIdx.ix1 ⟨p, hp⟩)).toNat = xs (lo + p)) (hx : ∀ p, xs p < 65536)
    (off : Fin 1 → ℕ) (inb : ∀ a, off a + S16.size a ≤ S16384.size a) :
    ∀ a x, ((![((b1V : Memref sig .scVector .vmem S16384 .i32).view.readAt (Elt F) (Rect.unit (s := S16384) off S16.size inb).toLoadRect b : IVec S16 32)]
        : Fin 1 → IVec S16 32) a x).toNat < S65536.size a := by
  intro a x
  have ha : a = 0 := Fin.eq_zero a
  subst ha
  have h0 := inb 0
  have hl : off 0 + (x 0).val < 16384 := by
    have := (x 0).isLt
    change off 0 + 16 ≤ 16384 at h0
    change (x 0).val < 16 at this
    omega
  rw [eq_ofLane x]
  show (((b1V : Memref sig .scVector .vmem S16384 .i32).view.readAt (Elt F) (Rect.unit (s := S16384) off S16.size inb).toLoadRect b : IVec S16 32)
    (Shape.ofLane (d := ![16]) (x 0))).toNat < 65536
  rw [read_lane_b1V b off inb (x 0) hl, hb]
  exact hx _

/-- The `r`-th load of trip `t` reads, at lane `l`, position `256 t + 16 r + l` of the chunk. -/
theorem lane_val_b1V (b : IVec S16384 32) (xs : ℕ → ℕ) (lo : ℕ)
    (hb : ∀ (p : ℕ) (hp : p < 16384), (b (ValueIdx.ix1 ⟨p, hp⟩)).toNat = xs (lo + p))
    (t : Fin k0_t2_loop.trips) (r : Fin 16) (inb : ∀ a, k0_off3 t (BitVec.ofNat 32 r.val) a + S16.size a ≤ S16384.size a) (l : Fin 16) :
    (((b1V : Memref sig .scVector .vmem S16384 .i32).view.readAt (Elt F)
        (Rect.unit (s := S16384) (k0_off3 t (BitVec.ofNat 32 r.val)) S16.size inb).toLoadRect b : IVec S16 32) (Shape.ofLane (d := ![16]) l)).toNat
      = xs (lo + (256 * t.val + 16 * r.val + l.val)) := by
  have h0 : k0_off3 t (BitVec.ofNat 32 r.val) 0 = 256 * t.val + 16 * r.val := by rw [k0_off3_eq t r]; rfl
  have hi := inb 0
  have hl : k0_off3 t (BitVec.ofNat 32 r.val) 0 + l.val < 16384 := by
    have := l.isLt
    change k0_off3 t (BitVec.ofNat 32 r.val) 0 + 16 ≤ 16384 at hi
    omega
  rw [read_lane_b1V b _ inb l hl, hb]
  congr 2
  omega

/-- One add-store of ones of trip `t` of a chunk held in `b1V`, the `r`-th: its lanes' indices are the chunk's positions
    `256 t + 16 r, …, 256 t + 16 r + 15`; a histogram counting the `n0 + 256 t + 16 r` positions before them counts, after
    it, these sixteen more. -/
theorem wp_store_b1V (d : Dev nD) (L : grid0.Coords) (b : IVec S16384 32) (xs : ℕ → ℕ) (lo n0 : ℕ)
    (hb : ∀ (p : ℕ) (hp : p < 16384), (b (ValueIdx.ix1 ⟨p, hp⟩)).toNat = xs ((lo + n0) + p))
    (t : Fin k0_t2_loop.trips) (r : ℕ) (hr : r < 16)
    {inb : ∀ a, k0_off3 t (BitVec.ofNat 32 r) a + S16.size a ≤ S16384.size a}
    {hv : ∀ a x, ((![((b1V : Memref sig .scVector .vmem S16384 .i32).view.readAt (Elt F) (Rect.unit (s := S16384) (k0_off3 t (BitVec.ofNat 32 r)) S16.size inb).toLoadRect b : IVec S16 32)]
        : Fin 1 → IVec S16 32) a x).toNat < S65536.size a}
    {hs : ((hV : Memref sig .scVector .vmem S65536 .i32).access (.whole S65536)).Stores Finset.univ} {α : Type}
    {k : PUnit → Prog (TpuEff nD τ sig (Elt F) Λ₀ (.scVector (cV L) (jV L))) α}
    {f : Buf (Elt F) ((hV : Memref sig .scVector .vmem S65536 .i32).view.loc (V d (cV L) (jV L)))} {Q : α → sProp 𝕄}
    (hf : ∀ j : S65536.Idx, (f : IVec S65536 32) j = BitVec.ofNat 32 (Cert.Hist.cntN xs lo (n0 + 256 * t.val + 16 * r) (j 0).val)) :
    ((hV : Memref sig .scVector .vmem S65536 .i32).view.loc (V d (cV L) (jV L)) ↦{fullShare} f)
      ⊢ iprop(((∃ f' : Buf (Elt F) ((hV : Memref sig .scVector .vmem S65536 .i32).view.loc (V d (cV L) (jV L))),
            ⌜∀ j : S65536.Idx, (f' : IVec S65536 32) j = BitVec.ofNat 32 (Cert.Hist.cntN xs lo (n0 + 256 * t.val + 16 * (r + 1)) (j 0).val)⌝
            ∗ ((hV : Memref sig .scVector .vmem S65536 .i32).view.loc (V d (cV L) (jV L)) ↦{fullShare} f'))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx hV
              ![((b1V : Memref sig .scVector .vmem S16384 .i32).view.readAt (Elt F) (Rect.unit (s := S16384) (k0_off3 t (BitVec.ofNat 32 r)) S16.size inb).toLoadRect b : IVec S16 32)]
              k0_pay2 (fun _ => 1#1) true hv hs >>= k) Q) := by
  iintro Hh Hk
  iapply (wp_histStore (F := F) d L) $$ Hh
  iintro Hh
  iapply Hk
  iexists _
  isplitr
  rotate_left
  · iexact Hh
  · ipureintro
    have hn : n0 + 256 * t.val + 16 * (r + 1) = (n0 + 256 * t.val + 16 * r) + 16 := by omega
    rw [hn, k0_pay2_eq]
    refine Cert.Hist.storeOnes_step f _ hv xs lo _ hf (fun l => ?_)
    have := lane_val_b1V (F := F) b xs (lo + n0) hb t ⟨r, hr⟩ inb l
    rw [this]
    congr 1
    show lo + n0 + (256 * t.val + 16 * r + l.val) = _
    omega

/-- **One trip of the loop of a chunk held in `b1V`**: from the invariant before trip `t` to the invariant before trip
    `t + 1`. The loads read the chunk's positions `256 t, …, 256 t + 255`, every word below 65536 (so the assumed side
    conditions hold), and the sixteen add-stores of ones count them. -/
theorem chunk_reg_b1V (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (a6 : Memref sig .scVector .vmem S16384 .i32) (h6 : a6.IsWhole) (a7 : Memref sig .scVector .vmem S16384 .i32) (h7 : a7.IsWhole)
    (s8 s9 s10 r0 : DmaSems sig S_) (t : Fin k0_t2_loop.trips) :
    cinv (F := F) d L xs lo n0 b1V t.val ⟨⟩
      ⊢ wp frame (wpE (defs₀ (F := F)) 𝒱₀ (V d (cV L) (jV L)) none) Set.univ
          (k0_t2_body L a2 h2 a3 h3 hV (Memref.isWhole_whole _) b1V (Memref.isWhole_whole _) a6 h6 a7 h7 s8 s9 s10 r0 t ⟨⟩)
          (fun _ => cinv (F := F) d L xs lo n0 b1V (t.val + 1) ⟨⟩) := by
  unfold cinv
  iintro ⟨⟨%h, %hh, Hh⟩, ⟨%b, %hb, Hb⟩⟩
  have hb' : ∀ (p : ℕ) (hp : p < 16384), ((b : IVec S16384 32) (ValueIdx.ix1 ⟨p, hp⟩)).toNat = xs ((lo + n0) + p) := hb
  have hf : ∀ j : S65536.Idx, (h : IVec S65536 32) j = BitVec.ofNat 32 (Cert.Hist.cntN xs lo (n0 + 256 * t.val + 16 * 0) (j 0).val) := hh
  unfold k0_t2_body
  rw [k0_part2_eq_skeleton, k0_part3_eq_skeleton]; unfold k0_part2_skel k0_part3_skel
  sl_exec (disch := exact chk_read_b1V (F := F) b xs (lo + n0) hb' hx _ _)
  iapply (wp_store_b1V (F := F) d L b xs lo n0 hb' t 0 (by decide) hf) $$ Hh; iintro ⟨%f, %hf, Hh⟩
  iapply (wp_store_b1V (F := F) d L b xs lo n0 hb' t 1 (by decide) hf) $$ Hh; iintro ⟨%f, %hf, Hh⟩
  iapply (wp_store_b1V (F := F) d L b xs lo n0 hb' t 2 (by decide) hf) $$ Hh; iintro ⟨%f, %hf, Hh⟩
  iapply (wp_store_b1V (F := F) d L b xs lo n0 hb' t 3 (by decide) hf) $$ Hh; iintro ⟨%f, %hf, Hh⟩
  iapply (wp_store_b1V (F := F) d L b xs lo n0 hb' t 4 (by decide) hf) $$ Hh; iintro ⟨%f, %hf, Hh⟩
  iapply (wp_store_b1V (F := F) d L b xs lo n0 hb' t 5 (by decide) hf) $$ Hh; iintro ⟨%f, %hf, Hh⟩
  iapply (wp_store_b1V (F := F) d L b xs lo n0 hb' t 6 (by decide) hf) $$ Hh; iintro ⟨%f, %hf, Hh⟩
  iapply (wp_store_b1V (F := F) d L b xs lo n0 hb' t 7 (by decide) hf) $$ Hh; iintro ⟨%f, %hf, Hh⟩
  iapply (wp_store_b1V (F := F) d L b xs lo n0 hb' t 8 (by decide) hf) $$ Hh; iintro ⟨%f, %hf, Hh⟩
  iapply (wp_store_b1V (F := F) d L b xs lo n0 hb' t 9 (by decide) hf) $$ Hh; iintro ⟨%f, %hf, Hh⟩
  iapply (wp_store_b1V (F := F) d L b xs lo n0 hb' t 10 (by decide) hf) $$ Hh; iintro ⟨%f, %hf, Hh⟩
  iapply (wp_store_b1V (F := F) d L b xs lo n0 hb' t 11 (by decide) hf) $$ Hh; iintro ⟨%f, %hf, Hh⟩
  iapply (wp_store_b1V (F := F) d L b xs lo n0 hb' t 12 (by decide) hf) $$ Hh; iintro ⟨%f, %hf, Hh⟩
  iapply (wp_store_b1V (F := F) d L b xs lo n0 hb' t 13 (by decide) hf) $$ Hh; iintro ⟨%f, %hf, Hh⟩
  iapply (wp_store_b1V (F := F) d L b xs lo n0 hb' t 14 (by decide) hf) $$ Hh; iintro ⟨%f, %hf, Hh⟩
  iapply (wp_store_b1V (F := F) d L b xs lo n0 hb' t 15 (by decide) hf) $$ Hh; iintro ⟨%f, %hf, Hh⟩
  sl_step
  isplitl [Hh]
  · iexists f
    isplitr
    · ipureintro
      have hn : n0 + 256 * (t.val + 1) = n0 + 256 * t.val + 16 * (15 + 1) := by omega
      rw [hn]
      exact hf
    · iexact Hh
  · iexists b
    isplitr
    · ipureintro; exact hb
    · iexact Hb

/-! ## The buffer `b2V` -/

/-- A load of 16 words of the chunk buffer at the offset `off` reads, at lane `l`, the buffer's word `off + l`. -/
theorem read_lane_b2V (b : IVec S16384 32) (off : Fin 1 → ℕ) (inb : ∀ a, off a + S16.size a ≤ S16384.size a) (l : Fin 16)
    (hp : off 0 + l.val < 16384) :
    ((b2V : Memref sig .scVector .vmem S16384 .i32).view.readAt (Elt F) (Rect.unit (s := S16384) off S16.size inb).toLoadRect b : IVec S16 32)
        (Shape.ofLane (d := ![16]) l)
      = b (ValueIdx.ix1 ⟨off 0 + l.val, hp⟩) := by
  show b _ = b _
  congr 1
  funext a
  have ha : a = 0 := Fin.eq_zero a
  subst ha
  apply Fin.ext
  show off 0 + 1 * l.val = off 0 + l.val
  rw [Nat.one_mul]

/-- Words of a buffer that holds a stretch of `xs`, all below 65536, are indices into the histogram. -/
theorem chk_read_b2V (b : IVec S16384 32) (xs : ℕ → ℕ) (lo : ℕ)
    (hb : ∀ (p : ℕ) (hp : p < 16384), (b (ValueIdx.ix1 ⟨p, hp⟩)).toNat = xs (lo + p)) (hx : ∀ p, xs p < 65536)
    (off : Fin 1 → ℕ) (inb : ∀ a, off a + S16.size a ≤ S16384.size a) :
    ∀ a x, ((![((b2V : Memref sig .scVector .vmem S16384 .i32).view.readAt (Elt F) (Rect.unit (s := S16384) off S16.size inb).toLoadRect b : IVec S16 32)]
        : Fin 1 → IVec S16 32) a x).toNat < S65536.size a := by
  intro a x
  have ha : a = 0 := Fin.eq_zero a
  subst ha
  have h0 := inb 0
  have hl : off 0 + (x 0).val < 16384 := by
    have := (x 0).isLt
    change off 0 + 16 ≤ 16384 at h0
    change (x 0).val < 16 at this
    omega
  rw [eq_ofLane x]
  show (((b2V : Memref sig .scVector .vmem S16384 .i32).view.readAt (Elt F) (Rect.unit (s := S16384) off S16.size inb).toLoadRect b : IVec S16 32)
    (Shape.ofLane (d := ![16]) (x 0))).toNat < 65536
  rw [read_lane_b2V b off inb (x 0) hl, hb]
  exact hx _

/-- The `r`-th load of trip `t` reads, at lane `l`, position `256 t + 16 r + l` of the chunk. -/
theorem lane_val_b2V (b : IVec S16384 32) (xs : ℕ → ℕ) (lo : ℕ)
    (hb : ∀ (p : ℕ) (hp : p < 16384), (b (ValueIdx.ix1 ⟨p, hp⟩)).toNat = xs (lo + p))
    (t : Fin k0_t2_loop.trips) (r : Fin 16) (inb : ∀ a, k0_off3 t (BitVec.ofNat 32 r.val) a + S16.size a ≤ S16384.size a) (l : Fin 16) :
    (((b2V : Memref sig .scVector .vmem S16384 .i32).view.readAt (Elt F)
        (Rect.unit (s := S16384) (k0_off3 t (BitVec.ofNat 32 r.val)) S16.size inb).toLoadRect b : IVec S16 32) (Shape.ofLane (d := ![16]) l)).toNat
      = xs (lo + (256 * t.val + 16 * r.val + l.val)) := by
  have h0 : k0_off3 t (BitVec.ofNat 32 r.val) 0 = 256 * t.val + 16 * r.val := by rw [k0_off3_eq t r]; rfl
  have hi := inb 0
  have hl : k0_off3 t (BitVec.ofNat 32 r.val) 0 + l.val < 16384 := by
    have := l.isLt
    change k0_off3 t (BitVec.ofNat 32 r.val) 0 + 16 ≤ 16384 at hi
    omega
  rw [read_lane_b2V b _ inb l hl, hb]
  congr 2
  omega

/-- One add-store of ones of trip `t` of a chunk held in `b2V`, the `r`-th: its lanes' indices are the chunk's positions
    `256 t + 16 r, …, 256 t + 16 r + 15`; a histogram counting the `n0 + 256 t + 16 r` positions before them counts, after
    it, these sixteen more. -/
theorem wp_store_b2V (d : Dev nD) (L : grid0.Coords) (b : IVec S16384 32) (xs : ℕ → ℕ) (lo n0 : ℕ)
    (hb : ∀ (p : ℕ) (hp : p < 16384), (b (ValueIdx.ix1 ⟨p, hp⟩)).toNat = xs ((lo + n0) + p))
    (t : Fin k0_t2_loop.trips) (r : ℕ) (hr : r < 16)
    {inb : ∀ a, k0_off3 t (BitVec.ofNat 32 r) a + S16.size a ≤ S16384.size a}
    {hv : ∀ a x, ((![((b2V : Memref sig .scVector .vmem S16384 .i32).view.readAt (Elt F) (Rect.unit (s := S16384) (k0_off3 t (BitVec.ofNat 32 r)) S16.size inb).toLoadRect b : IVec S16 32)]
        : Fin 1 → IVec S16 32) a x).toNat < S65536.size a}
    {hs : ((hV : Memref sig .scVector .vmem S65536 .i32).access (.whole S65536)).Stores Finset.univ} {α : Type}
    {k : PUnit → Prog (TpuEff nD τ sig (Elt F) Λ₀ (.scVector (cV L) (jV L))) α}
    {f : Buf (Elt F) ((hV : Memref sig .scVector .vmem S65536 .i32).view.loc (V d (cV L) (jV L)))} {Q : α → sProp 𝕄}
    (hf : ∀ j : S65536.Idx, (f : IVec S65536 32) j = BitVec.ofNat 32 (Cert.Hist.cntN xs lo (n0 + 256 * t.val + 16 * r) (j 0).val)) :
    ((hV : Memref sig .scVector .vmem S65536 .i32).view.loc (V d (cV L) (jV L)) ↦{fullShare} f)
      ⊢ iprop(((∃ f' : Buf (Elt F) ((hV : Memref sig .scVector .vmem S65536 .i32).view.loc (V d (cV L) (jV L))),
            ⌜∀ j : S65536.Idx, (f' : IVec S65536 32) j = BitVec.ofNat 32 (Cert.Hist.cntN xs lo (n0 + 256 * t.val + 16 * (r + 1)) (j 0).val)⌝
            ∗ ((hV : Memref sig .scVector .vmem S65536 .i32).view.loc (V d (cV L) (jV L)) ↦{fullShare} f'))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx hV
              ![((b2V : Memref sig .scVector .vmem S16384 .i32).view.readAt (Elt F) (Rect.unit (s := S16384) (k0_off3 t (BitVec.ofNat 32 r)) S16.size inb).toLoadRect b : IVec S16 32)]
              k0_pay2 (fun _ => 1#1) true hv hs >>= k) Q) := by
  iintro Hh Hk
  iapply (wp_histStore (F := F) d L) $$ Hh
  iintro Hh
  iapply Hk
  iexists _
  isplitr
  rotate_left
  · iexact Hh
  · ipureintro
    have hn : n0 + 256 * t.val + 16 * (r + 1) = (n0 + 256 * t.val + 16 * r) + 16 := by omega
    rw [hn, k0_pay2_eq]
    refine Cert.Hist.storeOnes_step f _ hv xs lo _ hf (fun l => ?_)
    have := lane_val_b2V (F := F) b xs (lo + n0) hb t ⟨r, hr⟩ inb l
    rw [this]
    congr 1
    show lo + n0 + (256 * t.val + 16 * r + l.val) = _
    omega

/-- **One trip of the loop of a chunk held in `b2V`**: from the invariant before trip `t` to the invariant before trip
    `t + 1`. The loads read the chunk's positions `256 t, …, 256 t + 255`, every word below 65536 (so the assumed side
    conditions hold), and the sixteen add-stores of ones count them. -/
theorem chunk_reg_b2V (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (a6 : Memref sig .scVector .vmem S16384 .i32) (h6 : a6.IsWhole) (a7 : Memref sig .scVector .vmem S16384 .i32) (h7 : a7.IsWhole)
    (s8 s9 s10 r0 : DmaSems sig S_) (t : Fin k0_t2_loop.trips) :
    cinv (F := F) d L xs lo n0 b2V t.val ⟨⟩
      ⊢ wp frame (wpE (defs₀ (F := F)) 𝒱₀ (V d (cV L) (jV L)) none) Set.univ
          (k0_t2_body L a2 h2 a3 h3 hV (Memref.isWhole_whole _) b2V (Memref.isWhole_whole _) a6 h6 a7 h7 s8 s9 s10 r0 t ⟨⟩)
          (fun _ => cinv (F := F) d L xs lo n0 b2V (t.val + 1) ⟨⟩) := by
  unfold cinv
  iintro ⟨⟨%h, %hh, Hh⟩, ⟨%b, %hb, Hb⟩⟩
  have hb' : ∀ (p : ℕ) (hp : p < 16384), ((b : IVec S16384 32) (ValueIdx.ix1 ⟨p, hp⟩)).toNat = xs ((lo + n0) + p) := hb
  have hf : ∀ j : S65536.Idx, (h : IVec S65536 32) j = BitVec.ofNat 32 (Cert.Hist.cntN xs lo (n0 + 256 * t.val + 16 * 0) (j 0).val) := hh
  unfold k0_t2_body
  rw [k0_part2_eq_skeleton, k0_part3_eq_skeleton]; unfold k0_part2_skel k0_part3_skel
  sl_exec (disch := exact chk_read_b2V (F := F) b xs (lo + n0) hb' hx _ _)
  iapply (wp_store_b2V (F := F) d L b xs lo n0 hb' t 0 (by decide) hf) $$ Hh; iintro ⟨%f, %hf, Hh⟩
  iapply (wp_store_b2V (F := F) d L b xs lo n0 hb' t 1 (by decide) hf) $$ Hh; iintro ⟨%f, %hf, Hh⟩
  iapply (wp_store_b2V (F := F) d L b xs lo n0 hb' t 2 (by decide) hf) $$ Hh; iintro ⟨%f, %hf, Hh⟩
  iapply (wp_store_b2V (F := F) d L b xs lo n0 hb' t 3 (by decide) hf) $$ Hh; iintro ⟨%f, %hf, Hh⟩
  iapply (wp_store_b2V (F := F) d L b xs lo n0 hb' t 4 (by decide) hf) $$ Hh; iintro ⟨%f, %hf, Hh⟩
  iapply (wp_store_b2V (F := F) d L b xs lo n0 hb' t 5 (by decide) hf) $$ Hh; iintro ⟨%f, %hf, Hh⟩
  iapply (wp_store_b2V (F := F) d L b xs lo n0 hb' t 6 (by decide) hf) $$ Hh; iintro ⟨%f, %hf, Hh⟩
  iapply (wp_store_b2V (F := F) d L b xs lo n0 hb' t 7 (by decide) hf) $$ Hh; iintro ⟨%f, %hf, Hh⟩
  iapply (wp_store_b2V (F := F) d L b xs lo n0 hb' t 8 (by decide) hf) $$ Hh; iintro ⟨%f, %hf, Hh⟩
  iapply (wp_store_b2V (F := F) d L b xs lo n0 hb' t 9 (by decide) hf) $$ Hh; iintro ⟨%f, %hf, Hh⟩
  iapply (wp_store_b2V (F := F) d L b xs lo n0 hb' t 10 (by decide) hf) $$ Hh; iintro ⟨%f, %hf, Hh⟩
  iapply (wp_store_b2V (F := F) d L b xs lo n0 hb' t 11 (by decide) hf) $$ Hh; iintro ⟨%f, %hf, Hh⟩
  iapply (wp_store_b2V (F := F) d L b xs lo n0 hb' t 12 (by decide) hf) $$ Hh; iintro ⟨%f, %hf, Hh⟩
  iapply (wp_store_b2V (F := F) d L b xs lo n0 hb' t 13 (by decide) hf) $$ Hh; iintro ⟨%f, %hf, Hh⟩
  iapply (wp_store_b2V (F := F) d L b xs lo n0 hb' t 14 (by decide) hf) $$ Hh; iintro ⟨%f, %hf, Hh⟩
  iapply (wp_store_b2V (F := F) d L b xs lo n0 hb' t 15 (by decide) hf) $$ Hh; iintro ⟨%f, %hf, Hh⟩
  sl_step
  isplitl [Hh]
  · iexists f
    isplitr
    · ipureintro
      have hn : n0 + 256 * (t.val + 1) = n0 + 256 * t.val + 16 * (15 + 1) := by omega
      rw [hn]
      exact hf
    · iexact Hh
  · iexists b
    isplitr
    · ipureintro; exact hb
    · iexact Hb

/-! ## The other chunks' loops are the first chunk's, on their buffers -/

set_option maxRecDepth 65536 in
/-- The loop of chunk 1 is the first chunk's, on the buffer in place 1. -/
theorem t3_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t3_body (F := F) L a2 h2 a3 h3 a4 h4 a5 h5 a6 h6 a7 h7 s8 s9 s10 r0 v2 k0_pay2 0#32 1#32
      = k0_t2_body (F := F) L a2 h2 a3 h3 a4 h4 a6 h6 a5 h5 a7 h7 s8 s9 s10 r0 := rfl

set_option maxRecDepth 65536 in
/-- The loop of chunk 2 is the first chunk's, on the buffer in place 2. -/
theorem t4_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t4_body (F := F) L a2 h2 a3 h3 a4 h4 a5 h5 a6 h6 a7 h7 s8 s9 s10 r0 v2 k0_pay2 0#32 1#32
      = k0_t2_body (F := F) L a2 h2 a3 h3 a4 h4 a7 h7 a6 h6 a5 h5 s8 s9 s10 r0 := rfl

set_option maxRecDepth 65536 in
/-- The loop of chunk 3 is the first chunk's, on the buffer in place 0. -/
theorem t5_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t5_body (F := F) L a2 h2 a3 h3 a4 h4 a5 h5 a6 h6 a7 h7 s8 s9 s10 r0 v2 k0_pay2 0#32 1#32
      = k0_t2_body (F := F) L a2 h2 a3 h3 a4 h4 a5 h5 a6 h6 a7 h7 s8 s9 s10 r0 := rfl

set_option maxRecDepth 65536 in
/-- The loop of chunk 4 is the first chunk's, on the buffer in place 1. -/
theorem t6_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t6_body (F := F) L a2 h2 a3 h3 a4 h4 a5 h5 a6 h6 a7 h7 s8 s9 s10 r0 v2 k0_pay2 0#32 1#32
      = k0_t2_body (F := F) L a2 h2 a3 h3 a4 h4 a6 h6 a5 h5 a7 h7 s8 s9 s10 r0 := rfl

set_option maxRecDepth 65536 in
/-- The loop of chunk 5 is the first chunk's, on the buffer in place 2. -/
theorem t7_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t7_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 6 is the first chunk's, on the buffer in place 0. -/
theorem t8_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t8_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 7 is the first chunk's, on the buffer in place 1. -/
theorem t9_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t9_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 8 is the first chunk's, on the buffer in place 2. -/
theorem t10_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t10_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 9 is the first chunk's, on the buffer in place 0. -/
theorem t11_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t11_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 10 is the first chunk's, on the buffer in place 1. -/
theorem t12_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t12_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 11 is the first chunk's, on the buffer in place 2. -/
theorem t13_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t13_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 12 is the first chunk's, on the buffer in place 0. -/
theorem t14_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t14_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 13 is the first chunk's, on the buffer in place 1. -/
theorem t15_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t15_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 14 is the first chunk's, on the buffer in place 2. -/
theorem t16_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t16_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 15 is the first chunk's, on the buffer in place 0. -/
theorem t17_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t17_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 16 is the first chunk's, on the buffer in place 1. -/
theorem t18_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t18_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 17 is the first chunk's, on the buffer in place 2. -/
theorem t19_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t19_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 18 is the first chunk's, on the buffer in place 0. -/
theorem t20_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t20_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 19 is the first chunk's, on the buffer in place 1. -/
theorem t21_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t21_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 20 is the first chunk's, on the buffer in place 2. -/
theorem t22_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t22_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 21 is the first chunk's, on the buffer in place 0. -/
theorem t23_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t23_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 22 is the first chunk's, on the buffer in place 1. -/
theorem t24_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t24_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 23 is the first chunk's, on the buffer in place 2. -/
theorem t25_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 c : BitVec 32) :
    k0_t25_body (F := F) L a2 h2 a3 h3 a4 h4 a5 h5 a6 h6 a7 h7 s8 s9 s10 r0 v2 k0_pay2 c
      = k0_t2_body (F := F) L a2 h2 a3 h3 a4 h4 a7 h7 a6 h6 a5 h5 s8 s9 s10 r0 := rfl

set_option maxRecDepth 65536 in
/-- The loop of chunk 24 is the first chunk's, on the buffer in place 0. -/
theorem t26_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 c : BitVec 32) :
    k0_t26_body (F := F) L a2 h2 a3 h3 a4 h4 a5 h5 a6 h6 a7 h7 s8 s9 s10 r0 v2 k0_pay2 c
      = k0_t2_body (F := F) L a2 h2 a3 h3 a4 h4 a5 h5 a6 h6 a7 h7 s8 s9 s10 r0 := rfl

set_option maxRecDepth 65536 in
/-- The loop of chunk 25 is the first chunk's, on the buffer in place 1. -/
theorem t27_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 c : BitVec 32) :
    k0_t27_body (F := F) L a2 h2 a3 h3 a4 h4 a5 h5 a6 h6 a7 h7 s8 s9 s10 r0 v2 k0_pay2 c
      = k0_t2_body (F := F) L a2 h2 a3 h3 a4 h4 a6 h6 a5 h5 a7 h7 s8 s9 s10 r0 := rfl

set_option maxRecDepth 65536 in
/-- The loop of chunk 26 is the first chunk's, on the buffer in place 2. -/
theorem t28_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t28_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 27 is the first chunk's, on the buffer in place 0. -/
theorem t29_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t29_body (F := F) L a2 h2 a3 h3 a4 h4 a5 h5 a6 h6 a7 h7 s8 s9 s10 r0 v2 k0_pay2
      = k0_t2_body (F := F) L a2 h2 a3 h3 a4 h4 a5 h5 a6 h6 a7 h7 s8 s9 s10 r0 := rfl

set_option maxRecDepth 65536 in
/-- The loop of chunk 28 is the first chunk's, on the buffer in place 1. -/
theorem t30_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t30_body (F := F) L a2 h2 a3 h3 a4 h4 a5 h5 a6 h6 a7 h7 s8 s9 s10 r0 v2 k0_pay2
      = k0_t2_body (F := F) L a2 h2 a3 h3 a4 h4 a6 h6 a5 h5 a7 h7 s8 s9 s10 r0 := rfl

set_option maxRecDepth 65536 in
/-- The loop of chunk 29 is the first chunk's, on the buffer in place 2. -/
theorem t31_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) (v2 : BitVec 32) :
    k0_t31_body (F := F) L a2 h2 a3 h3 a4 h4 a5 h5 a6 h6 a7 h7 s8 s9 s10 r0 v2 k0_pay2
      = k0_t2_body (F := F) L a2 h2 a3 h3 a4 h4 a7 h7 a6 h6 a5 h5 s8 s9 s10 r0 := rfl

set_option maxRecDepth 65536 in
/-- The loop of chunk 30 is the first chunk's, on the buffer in place 0. -/
theorem t32_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) :
    k0_t32_body (F := F) L a2 h2 a3 h3 a4 h4 a5 h5 a6 h6 a7 h7 s8 s9 s10 r0 k0_pay2
      = k0_t2_body (F := F) L a2 h2 a3 h3 a4 h4 a5 h5 a6 h6 a7 h7 s8 s9 s10 r0 := rfl

set_option maxRecDepth 65536 in
/-- The loop of chunk 31 is the first chunk's, on the buffer in place 1. -/
theorem t33_eq (L : grid0.Coords)
    (a2 : Memref sig .scVector .hbm S16777216 .i32) (h2 : a2.IsWhole) (a3 : Memref sig .scVector .hbm S32x65536 .i32) (h3 : a3.IsWhole)
    (a4 : Memref sig .scVector .vmem S65536 .i32) (h4 : a4.IsWhole) (a5 : Memref sig .scVector .vmem S16384 .i32) (h5 : a5.IsWhole)
    (a6 : Memref sig .scVector .vmem S16384 .i32) (h6 : a6.IsWhole) (a7 : Memref sig .scVector .vmem S16384 .i32) (h7 : a7.IsWhole)
    (s8 s9 s10 r0 : DmaSems sig S_) :
    k0_t33_body (F := F) L a2 h2 a3 h3 a4 h4 a5 h5 a6 h6 a7 h7 s8 s9 s10 r0 k0_pay2
      = k0_t2_body (F := F) L a2 h2 a3 h3 a4 h4 a6 h6 a5 h5 a7 h7 s8 s9 s10 r0 := rfl

/-! ## The region of each chunk's loop -/

/-- The region of the loop of chunk 0 (buffer `b0V`). -/
theorem chunk_reg_0 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) :
    ∀ k : Fin k0_t2_loop.trips, cinv (F := F) d L xs lo n0 b0V k.val ⟨⟩
      ⊢ wp frame (wpE (defs₀ (F := F)) 𝒱₀ (V d (cV L) (jV L)) none) Set.univ
          (k0_t2_body L a2 h2 a3 h3 hV (Memref.isWhole_whole _) b0V (Memref.isWhole_whole _) b1V (Memref.isWhole_whole _) b2V (Memref.isWhole_whole _)
            s8 s9 s10 r0 k ⟨⟩)
          (fun _ => cinv (F := F) d L xs lo n0 b0V (k.val + 1) ⟨⟩) := by
  intro k
  exact chunk_reg_b0V (F := F) d L xs lo n0 hx a2 h2 a3 h3 b1V (Memref.isWhole_whole _) b2V (Memref.isWhole_whole _) s8 s9 s10 r0 k

/-- The region of the loop of chunk 1 (buffer `b1V`). -/
theorem chunk_reg_1 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t3_loop.trips, cinv (F := F) d L xs lo n0 b1V k.val ⟨⟩
      ⊢ wp frame (wpE (defs₀ (F := F)) 𝒱₀ (V d (cV L) (jV L)) none) Set.univ
          (k0_t3_body L a2 h2 a3 h3 hV (Memref.isWhole_whole _) b0V (Memref.isWhole_whole _) b1V (Memref.isWhole_whole _) b2V (Memref.isWhole_whole _)
            s8 s9 s10 r0 v2 k0_pay2 0#32 1#32 k ⟨⟩)
          (fun _ => cinv (F := F) d L xs lo n0 b1V (k.val + 1) ⟨⟩) := by
  intro k
  rw [t3_eq]
  exact chunk_reg_b1V (F := F) d L xs lo n0 hx a2 h2 a3 h3 b0V (Memref.isWhole_whole _) b2V (Memref.isWhole_whole _) s8 s9 s10 r0 k

/-- The region of the loop of chunk 2 (buffer `b2V`). -/
theorem chunk_reg_2 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t4_loop.trips, cinv (F := F) d L xs lo n0 b2V k.val ⟨⟩
      ⊢ wp frame (wpE (defs₀ (F := F)) 𝒱₀ (V d (cV L) (jV L)) none) Set.univ
          (k0_t4_body L a2 h2 a3 h3 hV (Memref.isWhole_whole _) b0V (Memref.isWhole_whole _) b1V (Memref.isWhole_whole _) b2V (Memref.isWhole_whole _)
            s8 s9 s10 r0 v2 k0_pay2 0#32 1#32 k ⟨⟩)
          (fun _ => cinv (F := F) d L xs lo n0 b2V (k.val + 1) ⟨⟩) := by
  intro k
  rw [t4_eq]
  exact chunk_reg_b2V (F := F) d L xs lo n0 hx a2 h2 a3 h3 b1V (Memref.isWhole_whole _) b0V (Memref.isWhole_whole _) s8 s9 s10 r0 k

/-- The region of the loop of chunk 3 (buffer `b0V`). -/
theorem chunk_reg_3 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t5_loop.trips, cinv (F := F) d L xs lo n0 b0V k.val ⟨⟩
      ⊢ wp frame (wpE (defs₀ (F := F)) 𝒱₀ (V d (cV L) (jV L)) none) Set.univ
          (k0_t5_body L a2 h2 a3 h3 hV (Memref.isWhole_whole _) b0V (Memref.isWhole_whole _) b1V (Memref.isWhole_whole _) b2V (Memref.isWhole_whole _)
            s8 s9 s10 r0 v2 k0_pay2 0#32 1#32 k ⟨⟩)
          (fun _ => cinv (F := F) d L xs lo n0 b0V (k.val + 1) ⟨⟩) := by
  intro k
  rw [t5_eq]
  exact chunk_reg_b0V (F := F) d L xs lo n0 hx a2 h2 a3 h3 b1V (Memref.isWhole_whole _) b2V (Memref.isWhole_whole _) s8 s9 s10 r0 k

/-- The region of the loop of chunk 4 (buffer `b1V`). -/
theorem chunk_reg_4 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t6_loop.trips, cinv (F := F) d L xs lo n0 b1V k.val ⟨⟩
      ⊢ wp frame (wpE (defs₀ (F := F)) 𝒱₀ (V d (cV L) (jV L)) none) Set.univ
          (k0_t6_body L a2 h2 a3 h3 hV (Memref.isWhole_whole _) b0V (Memref.isWhole_whole _) b1V (Memref.isWhole_whole _) b2V (Memref.isWhole_whole _)
            s8 s9 s10 r0 v2 k0_pay2 0#32 1#32 k ⟨⟩)
          (fun _ => cinv (F := F) d L xs lo n0 b1V (k.val + 1) ⟨⟩) := by
  intro k
  rw [t6_eq]
  exact chunk_reg_b1V (F := F) d L xs lo n0 hx a2 h2 a3 h3 b0V (Memref.isWhole_whole _) b2V (Memref.isWhole_whole _) s8 s9 s10 r0 k

/-- The region of the loop of chunk 5 (buffer `b2V`). -/
theorem chunk_reg_5 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t7_loop.trips, cinv (F := F) d L xs lo n0 b2V k.val ⟨⟩
      ⊢ wp frame (wpE (defs₀ (F := F)) 𝒱₀ (V d (cV L) (jV L)) none) Set.univ
          (k0_t7_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t7_eq]
  exact chunk_reg_b2V (F := F) d L xs lo n0 hx a2 h2 a3 h3 b1V (Memref.isWhole_whole _) b0V (Memref.isWhole_whole _) s8 s9 s10 r0 k

/-- The region of the loop of chunk 6 (buffer `b0V`). -/
theorem chunk_reg_6 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t8_loop.trips, cinv (F := F) d L xs lo n0 b0V k.val ⟨⟩
      ⊢ wp frame (wpE (defs₀ (F := F)) 𝒱₀ (V d (cV L) (jV L)) none) Set.univ
          (k0_t8_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t8_eq]
  exact chunk_reg_b0V (F := F) d L xs lo n0 hx a2 h2 a3 h3 b1V (Memref.isWhole_whole _) b2V (Memref.isWhole_whole _) s8 s9 s10 r0 k

/-- The region of the loop of chunk 7 (buffer `b1V`). -/
theorem chunk_reg_7 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t9_loop.trips, cinv (F := F) d L xs lo n0 b1V k.val ⟨⟩
      ⊢ wp frame (wpE (defs₀ (F := F)) 𝒱₀ (V d (cV L) (jV L)) none) Set.univ
          (k0_t9_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t9_eq]
  exact chunk_reg_b1V (F := F) d L xs lo n0 hx a2 h2 a3 h3 b0V (Memref.isWhole_whole _) b2V (Memref.isWhole_whole _) s8 s9 s10 r0 k

/-- The region of the loop of chunk 8 (buffer `b2V`). -/
theorem chunk_reg_8 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t10_loop.trips, cinv (F := F) d L xs lo n0 b2V k.val ⟨⟩
      ⊢ wp frame (wpE (defs₀ (F := F)) 𝒱₀ (V d (cV L) (jV L)) none) Set.univ
          (k0_t10_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t10_eq]
  exact chunk_reg_b2V (F := F) d L xs lo n0 hx a2 h2 a3 h3 b1V (Memref.isWhole_whole _) b0V (Memref.isWhole_whole _) s8 s9 s10 r0 k

/-- The region of the loop of chunk 9 (buffer `b0V`). -/
theorem chunk_reg_9 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t11_loop.trips, cinv (F := F) d L xs lo n0 b0V k.val ⟨⟩
      ⊢ wp frame (wpE (defs₀ (F := F)) 𝒱₀ (V d (cV L) (jV L)) none) Set.univ
          (k0_t11_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t11_eq]
  exact chunk_reg_b0V (F := F) d L xs lo n0 hx a2 h2 a3 h3 b1V (Memref.isWhole_whole _) b2V (Memref.isWhole_whole _) s8 s9 s10 r0 k

/-- The region of the loop of chunk 10 (buffer `b1V`). -/
theorem chunk_reg_10 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t12_loop.trips, cinv (F := F) d L xs lo n0 b1V k.val ⟨⟩
      ⊢ wp frame (wpE (defs₀ (F := F)) 𝒱₀ (V d (cV L) (jV L)) none) Set.univ
          (k0_t12_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t12_eq]
  exact chunk_reg_b1V (F := F) d L xs lo n0 hx a2 h2 a3 h3 b0V (Memref.isWhole_whole _) b2V (Memref.isWhole_whole _) s8 s9 s10 r0 k

/-- The region of the loop of chunk 11 (buffer `b2V`). -/
theorem chunk_reg_11 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t13_loop.trips, cinv (F := F) d L xs lo n0 b2V k.val ⟨⟩
      ⊢ wp frame (wpE (defs₀ (F := F)) 𝒱₀ (V d (cV L) (jV L)) none) Set.univ
          (k0_t13_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t13_eq]
  exact chunk_reg_b2V (F := F) d L xs lo n0 hx a2 h2 a3 h3 b1V (Memref.isWhole_whole _) b0V (Memref.isWhole_whole _) s8 s9 s10 r0 k

/-- The region of the loop of chunk 12 (buffer `b0V`). -/
theorem chunk_reg_12 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t14_loop.trips, cinv (F := F) d L xs lo n0 b0V k.val ⟨⟩
      ⊢ wp frame (wpE (defs₀ (F := F)) 𝒱₀ (V d (cV L) (jV L)) none) Set.univ
          (k0_t14_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t14_eq]
  exact chunk_reg_b0V (F := F) d L xs lo n0 hx a2 h2 a3 h3 b1V (Memref.isWhole_whole _) b2V (Memref.isWhole_whole _) s8 s9 s10 r0 k

/-- The region of the loop of chunk 13 (buffer `b1V`). -/
theorem chunk_reg_13 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t15_loop.trips, cinv (F := F) d L xs lo n0 b1V k.val ⟨⟩
      ⊢ wp frame (wpE (defs₀ (F := F)) 𝒱₀ (V d (cV L) (jV L)) none) Set.univ
          (k0_t15_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t15_eq]
  exact chunk_reg_b1V (F := F) d L xs lo n0 hx a2 h2 a3 h3 b0V (Memref.isWhole_whole _) b2V (Memref.isWhole_whole _) s8 s9 s10 r0 k

/-- The region of the loop of chunk 14 (buffer `b2V`). -/
theorem chunk_reg_14 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t16_loop.trips, cinv (F := F) d L xs lo n0 b2V k.val ⟨⟩
      ⊢ wp frame (wpE (defs₀ (F := F)) 𝒱₀ (V d (cV L) (jV L)) none) Set.univ
          (k0_t16_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t16_eq]
  exact chunk_reg_b2V (F := F) d L xs lo n0 hx a2 h2 a3 h3 b1V (Memref.isWhole_whole _) b0V (Memref.isWhole_whole _) s8 s9 s10 r0 k

/-- The region of the loop of chunk 15 (buffer `b0V`). -/
theorem chunk_reg_15 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t17_loop.trips, cinv (F := F) d L xs lo n0 b0V k.val ⟨⟩
      ⊢ wp frame (wpE (defs₀ (F := F)) 𝒱₀ (V d (cV L) (jV L)) none) Set.univ
          (k0_t17_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t17_eq]
  exact chunk_reg_b0V (F := F) d L xs lo n0 hx a2 h2 a3 h3 b1V (Memref.isWhole_whole _) b2V (Memref.isWhole_whole _) s8 s9 s10 r0 k

/-- The region of the loop of chunk 16 (buffer `b1V`). -/
theorem chunk_reg_16 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t18_loop.trips, cinv (F := F) d L xs lo n0 b1V k.val ⟨⟩
      ⊢ wp frame (wpE (defs₀ (F := F)) 𝒱₀ (V d (cV L) (jV L)) none) Set.univ
          (k0_t18_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t18_eq]
  exact chunk_reg_b1V (F := F) d L xs lo n0 hx a2 h2 a3 h3 b0V (Memref.isWhole_whole _) b2V (Memref.isWhole_whole _) s8 s9 s10 r0 k

/-- The region of the loop of chunk 17 (buffer `b2V`). -/
theorem chunk_reg_17 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t19_loop.trips, cinv (F := F) d L xs lo n0 b2V k.val ⟨⟩
      ⊢ wp frame (wpE (defs₀ (F := F)) 𝒱₀ (V d (cV L) (jV L)) none) Set.univ
          (k0_t19_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t19_eq]
  exact chunk_reg_b2V (F := F) d L xs lo n0 hx a2 h2 a3 h3 b1V (Memref.isWhole_whole _) b0V (Memref.isWhole_whole _) s8 s9 s10 r0 k

/-- The region of the loop of chunk 18 (buffer `b0V`). -/
theorem chunk_reg_18 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t20_loop.trips, cinv (F := F) d L xs lo n0 b0V k.val ⟨⟩
      ⊢ wp frame (wpE (defs₀ (F := F)) 𝒱₀ (V d (cV L) (jV L)) none) Set.univ
          (k0_t20_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t20_eq]
  exact chunk_reg_b0V (F := F) d L xs lo n0 hx a2 h2 a3 h3 b1V (Memref.isWhole_whole _) b2V (Memref.isWhole_whole _) s8 s9 s10 r0 k

/-- The region of the loop of chunk 19 (buffer `b1V`). -/
theorem chunk_reg_19 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t21_loop.trips, cinv (F := F) d L xs lo n0 b1V k.val ⟨⟩
      ⊢ wp frame (wpE (defs₀ (F := F)) 𝒱₀ (V d (cV L) (jV L)) none) Set.univ
          (k0_t21_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t21_eq]
  exact chunk_reg_b1V (F := F) d L xs lo n0 hx a2 h2 a3 h3 b0V (Memref.isWhole_whole _) b2V (Memref.isWhole_whole _) s8 s9 s10 r0 k

/-- The region of the loop of chunk 20 (buffer `b2V`). -/
theorem chunk_reg_20 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t22_loop.trips, cinv (F := F) d L xs lo n0 b2V k.val ⟨⟩
      ⊢ wp frame (wpE (defs₀ (F := F)) 𝒱₀ (V d (cV L) (jV L)) none) Set.univ
          (k0_t22_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t22_eq]
  exact chunk_reg_b2V (F := F) d L xs lo n0 hx a2 h2 a3 h3 b1V (Memref.isWhole_whole _) b0V (Memref.isWhole_whole _) s8 s9 s10 r0 k

/-- The region of the loop of chunk 21 (buffer `b0V`). -/
theorem chunk_reg_21 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t23_loop.trips, cinv (F := F) d L xs lo n0 b0V k.val ⟨⟩
      ⊢ wp frame (wpE (defs₀ (F := F)) 𝒱₀ (V d (cV L) (jV L)) none) Set.univ
          (k0_t23_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t23_eq]
  exact chunk_reg_b0V (F := F) d L xs lo n0 hx a2 h2 a3 h3 b1V (Memref.isWhole_whole _) b2V (Memref.isWhole_whole _) s8 s9 s10 r0 k

/-- The region of the loop of chunk 22 (buffer `b1V`). -/
theorem chunk_reg_22 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t24_loop.trips, cinv (F := F) d L xs lo n0 b1V k.val ⟨⟩
      ⊢ wp frame (wpE (defs₀ (F := F)) 𝒱₀ (V d (cV L) (jV L)) none) Set.univ
          (k0_t24_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t24_eq]
  exact chunk_reg_b1V (F := F) d L xs lo n0 hx a2 h2 a3 h3 b0V (Memref.isWhole_whole _) b2V (Memref.isWhole_whole _) s8 s9 s10 r0 k

/-- The region of the loop of chunk 23 (buffer `b2V`). -/
theorem chunk_reg_23 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 c : BitVec 32) :
    ∀ k : Fin k0_t25_loop.trips, cinv (F := F) d L xs lo n0 b2V k.val ⟨⟩
      ⊢ wp frame (wpE (defs₀ (F := F)) 𝒱₀ (V d (cV L) (jV L)) none) Set.univ
          (k0_t25_body L a2 h2 a3 h3 hV (Memref.isWhole_whole _) b0V (Memref.isWhole_whole _) b1V (Memref.isWhole_whole _) b2V (Memref.isWhole_whole _)
            s8 s9 s10 r0 v2 k0_pay2 c k ⟨⟩)
          (fun _ => cinv (F := F) d L xs lo n0 b2V (k.val + 1) ⟨⟩) := by
  intro k
  rw [t25_eq]
  exact chunk_reg_b2V (F := F) d L xs lo n0 hx a2 h2 a3 h3 b1V (Memref.isWhole_whole _) b0V (Memref.isWhole_whole _) s8 s9 s10 r0 k

/-- The region of the loop of chunk 24 (buffer `b0V`). -/
theorem chunk_reg_24 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 c : BitVec 32) :
    ∀ k : Fin k0_t26_loop.trips, cinv (F := F) d L xs lo n0 b0V k.val ⟨⟩
      ⊢ wp frame (wpE (defs₀ (F := F)) 𝒱₀ (V d (cV L) (jV L)) none) Set.univ
          (k0_t26_body L a2 h2 a3 h3 hV (Memref.isWhole_whole _) b0V (Memref.isWhole_whole _) b1V (Memref.isWhole_whole _) b2V (Memref.isWhole_whole _)
            s8 s9 s10 r0 v2 k0_pay2 c k ⟨⟩)
          (fun _ => cinv (F := F) d L xs lo n0 b0V (k.val + 1) ⟨⟩) := by
  intro k
  rw [t26_eq]
  exact chunk_reg_b0V (F := F) d L xs lo n0 hx a2 h2 a3 h3 b1V (Memref.isWhole_whole _) b2V (Memref.isWhole_whole _) s8 s9 s10 r0 k

/-- The region of the loop of chunk 25 (buffer `b1V`). -/
theorem chunk_reg_25 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 c : BitVec 32) :
    ∀ k : Fin k0_t27_loop.trips, cinv (F := F) d L xs lo n0 b1V k.val ⟨⟩
      ⊢ wp frame (wpE (defs₀ (F := F)) 𝒱₀ (V d (cV L) (jV L)) none) Set.univ
          (k0_t27_body L a2 h2 a3 h3 hV (Memref.isWhole_whole _) b0V (Memref.isWhole_whole _) b1V (Memref.isWhole_whole _) b2V (Memref.isWhole_whole _)
            s8 s9 s10 r0 v2 k0_pay2 c k ⟨⟩)
          (fun _ => cinv (F := F) d L xs lo n0 b1V (k.val + 1) ⟨⟩) := by
  intro k
  rw [t27_eq]
  exact chunk_reg_b1V (F := F) d L xs lo n0 hx a2 h2 a3 h3 b0V (Memref.isWhole_whole _) b2V (Memref.isWhole_whole _) s8 s9 s10 r0 k

/-- The region of the loop of chunk 26 (buffer `b2V`). -/
theorem chunk_reg_26 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t28_loop.trips, cinv (F := F) d L xs lo n0 b2V k.val ⟨⟩
      ⊢ wp frame (wpE (defs₀ (F := F)) 𝒱₀ (V d (cV L) (jV L)) none) Set.univ
          (k0_t28_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t28_eq]
  exact chunk_reg_b2V (F := F) d L xs lo n0 hx a2 h2 a3 h3 b1V (Memref.isWhole_whole _) b0V (Memref.isWhole_whole _) s8 s9 s10 r0 k

/-- The region of the loop of chunk 27 (buffer `b0V`). -/
theorem chunk_reg_27 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t29_loop.trips, cinv (F := F) d L xs lo n0 b0V k.val ⟨⟩
      ⊢ wp frame (wpE (defs₀ (F := F)) 𝒱₀ (V d (cV L) (jV L)) none) Set.univ
          (k0_t29_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b0V (k.val + 1) ⟨⟩) := by
  intro k
  rw [t29_eq]
  exact chunk_reg_b0V (F := F) d L xs lo n0 hx a2 h2 a3 h3 b1V (Memref.isWhole_whole _) b2V (Memref.isWhole_whole _) s8 s9 s10 r0 k

/-- The region of the loop of chunk 28 (buffer `b1V`). -/
theorem chunk_reg_28 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t30_loop.trips, cinv (F := F) d L xs lo n0 b1V k.val ⟨⟩
      ⊢ wp frame (wpE (defs₀ (F := F)) 𝒱₀ (V d (cV L) (jV L)) none) Set.univ
          (k0_t30_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b1V (k.val + 1) ⟨⟩) := by
  intro k
  rw [t30_eq]
  exact chunk_reg_b1V (F := F) d L xs lo n0 hx a2 h2 a3 h3 b0V (Memref.isWhole_whole _) b2V (Memref.isWhole_whole _) s8 s9 s10 r0 k

/-- The region of the loop of chunk 29 (buffer `b2V`). -/
theorem chunk_reg_29 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) (v2 : BitVec 32) :
    ∀ k : Fin k0_t31_loop.trips, cinv (F := F) d L xs lo n0 b2V k.val ⟨⟩
      ⊢ wp frame (wpE (defs₀ (F := F)) 𝒱₀ (V d (cV L) (jV L)) none) Set.univ
          (k0_t31_body L a2 h2 a3 h3 hV (Memref.isWhole_whole _) b0V (Memref.isWhole_whole _) b1V (Memref.isWhole_whole _) b2V (Memref.isWhole_whole _)
            s8 s9 s10 r0 v2 k0_pay2 k ⟨⟩)
          (fun _ => cinv (F := F) d L xs lo n0 b2V (k.val + 1) ⟨⟩) := by
  intro k
  rw [t31_eq]
  exact chunk_reg_b2V (F := F) d L xs lo n0 hx a2 h2 a3 h3 b1V (Memref.isWhole_whole _) b0V (Memref.isWhole_whole _) s8 s9 s10 r0 k

/-- The region of the loop of chunk 30 (buffer `b0V`). -/
theorem chunk_reg_30 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) :
    ∀ k : Fin k0_t32_loop.trips, cinv (F := F) d L xs lo n0 b0V k.val ⟨⟩
      ⊢ wp frame (wpE (defs₀ (F := F)) 𝒱₀ (V d (cV L) (jV L)) none) Set.univ
          (k0_t32_body L a2 h2 a3 h3 hV (Memref.isWhole_whole _) b0V (Memref.isWhole_whole _) b1V (Memref.isWhole_whole _) b2V (Memref.isWhole_whole _)
            s8 s9 s10 r0 k0_pay2 k ⟨⟩)
          (fun _ => cinv (F := F) d L xs lo n0 b0V (k.val + 1) ⟨⟩) := by
  intro k
  rw [t32_eq]
  exact chunk_reg_b0V (F := F) d L xs lo n0 hx a2 h2 a3 h3 b1V (Memref.isWhole_whole _) b2V (Memref.isWhole_whole _) s8 s9 s10 r0 k

/-- The region of the loop of chunk 31 (buffer `b1V`). -/
theorem chunk_reg_31 (d : Dev nD) (L : grid0.Coords) (xs : ℕ → ℕ) (lo n0 : ℕ) (hx : ∀ p, xs p < 65536)
    (a2 : Memref sig .scVector .hbm S16777216 .i32) (h2 : a2.IsWhole) (a3 : Memref sig .scVector .hbm S32x65536 .i32) (h3 : a3.IsWhole)
    (s8 s9 s10 r0 : DmaSems sig S_) :
    ∀ k : Fin k0_t33_loop.trips, cinv (F := F) d L xs lo n0 b1V k.val ⟨⟩
      ⊢ wp frame (wpE (defs₀ (F := F)) 𝒱₀ (V d (cV L) (jV L)) none) Set.univ
          (k0_t33_body L a2 h2 a3 h3 hV (Memref.isWhole_whole _) b0V (Memref.isWhole_whole _) b1V (Memref.isWhole_whole _) b2V (Memref.isWhole_whole _)
            s8 s9 s10 r0 k0_pay2 k ⟨⟩)
          (fun _ => cinv (F := F) d L xs lo n0 b1V (k.val + 1) ⟨⟩) := by
  intro k
  rw [t33_eq]
  exact chunk_reg_b1V (F := F) d L xs lo n0 hx a2 h2 a3 h3 b0V (Memref.isWhole_whole _) b2V (Memref.isWhole_whole _) s8 s9 s10 r0 k

end Cert.Proof.KB
-- ==== Proof.KB.Tile.lean ====
/-
  One tile's task: the three chunk buffers' ring, the histogram zeroed, thirty-two chunks counted, the histogram
  written out to the tile's row.
-/
import proofs.«203723_g38474317038175_cont_8to1_b_298_28_alg».proof.Proof.KB.Rows
import proofs.«203723_g38474317038175_cont_8to1_b_298_28_alg».proof.Proof.KB.ZeroLoop
import proofs.«203723_g38474317038175_cont_8to1_b_298_28_alg».proof.Proof.KB.Trip
import Idealize.ShloMosaic.Lib.Ring

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

omit [FloatOps F] in
theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0 ∗ semVal (c3cell d (cV L) (jV L)) 0
          ∗ bigSep (((((ownCells (V d (cV L) (jV L))).erase (c0cell d (cV L) (jV L))).erase (c1cell d (cV L) (jV L))).erase (c2cell d (cV L) (jV L))).erase (c3cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scratch4.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scratch5.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scratch6.sem : SemLoc sig).isScoped .scVector = true; decide⟩⟩⟩),
    SparseCore.bigSep_erase' (Finset.mem_erase.mpr ⟨by simp [c2cell, c3cell]; decide, Finset.mem_erase.mpr ⟨by simp [c1cell, c3cell]; decide,
      Finset.mem_erase.mpr ⟨by simp [c0cell, c3cell]; decide,
      (mem_ownCells (g := c3cell d (cV L) (jV L))).mpr ⟨rfl, by show (SemLoc.dma cc0_scoped0.sem : SemLoc sig).isScoped .scVector = true; decide⟩⟩⟩⟩)]

omit [FloatOps F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
/-- The input as the tile's memref addresses it is the TensorCore's array. -/
theorem pts_x (q : PosShare TreeShare) (f : Buf (Elt F) (xLoc d)) :
    ((xV : Memref sig .scVector .hbm S16777216 .i32).view.loc (V d (cV L) (jV L)) ↦{q} f : sProp 𝕄) = xLoc d ↦{q} f := by
  simp only [Memref.view_whole, View.set_whole]

/-- Two counts of the same stretch are the same word. -/
theorem cnt_congr {xs : ℕ → ℕ} {lo j A B : ℕ} (h : A = B) :
    BitVec.ofNat 32 (Cert.Hist.cntN xs lo A j) = BitVec.ofNat 32 (Cert.Hist.cntN xs lo B j) := by rw [h]

omit [FloatOps F] in
/-- A wait recorded at no call's index keeps the record within the allowed ones. -/
theorem ins_ok {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

theorem tile_body (hF : (K (F := F)).Facts) (hpre : ∀ i, (xOf m d i).toNat < 65536)
    (O : CellTallies nD τ sig (HIx 1)) (W : Waits sig (HIx 1)) (hO : ∀ g, O g none = 0) :
    iprop(levAts (K (F := F)).L (K (F := F)).lev ∗ emp ∗ goT m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L xV (Memref.isWhole_whole _) pV (Memref.isWhole_whole _) hV (Memref.isWhole_whole _)
            b0V (Memref.isWhole_whole _) b1V (Memref.isWhole_whole _) b2V (Memref.isWhole_whole _)
            cc0_scratch4 cc0_scratch5 cc0_scratch6 cc0_scoped0)
          fun _ => iprop(tdT m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  unfold goT
  iintro ⟨#Hlv, -, ⟨Hx, Hp⟩, ⟨⟨%fh, Hh⟩, ⟨%f0, Hb0⟩, ⟨%f1, Hb1⟩, ⟨%f2, Hb2⟩, Hbufs⟩, ⟨Hs0, Hs1, Hs2, Hs3, Hsems⟩, HO⟩
  have hxs : ∀ p, Cert.Hist.flat (xOf m d) p < 65536 := fun p => by
    unfold Cert.Hist.flat
    split
    · exact hpre _
    · decide
  ihave Hmw := ((K (F := F)).mayWaits_none (thr := V d (cV L) (jV L)) hO) $$ Hlv
  ihave Hx' := (Entails.of_eq (pts_x (F := F) d L _ _).symm) $$ Hx
  ihave Hx3 := ((Transfers.pointsTo_toks_split (Ix := HIx 1) (Name := ℕ) (U := UU) (Lvl := ℕ) (Transfers.shareTokN fullShare (wL L).val) 3).trans
    (Entails.of_eq (by rw [Idealize.ShloMosaic.Ring.bigSep_fin3]))) $$ Hx'
  icases Hx3 with ⟨Hxr, Hx0, Hx1, Hx2⟩
  ihave Hh' := (Entails.of_eq (show ((hV : Memref sig .scVector .vmem S65536 .i32).view.loc (V d (cV L) (jV L)) ↦{fullShare} fh : sProp 𝕄) = _ from rfl).symm) $$ Hh
  ihave Hb0' := (Entails.of_eq (show ((b0V : Memref sig .scVector .vmem S16384 .i32).view.loc (V d (cV L) (jV L)) ↦{fullShare} f0 : sProp 𝕄) = _ from rfl).symm) $$ Hb0
  ihave Hb1' := (Entails.of_eq (show ((b1V : Memref sig .scVector .vmem S16384 .i32).view.loc (V d (cV L) (jV L)) ↦{fullShare} f1 : sProp 𝕄) = _ from rfl).symm) $$ Hb1
  ihave Hb2' := (Entails.of_eq (show ((b2V : Memref sig .scVector .vmem S16384 .i32).view.loc (V d (cV L) (jV L)) ↦{fullShare} f2 : sProp 𝕄) = _ from rfl).symm) $$ Hb2
  sl_exec
  sl_for (zinv (F := F) d L) $$ [Hh']
  case region =>
    intro k _
    exact zero_region (F := F) d L _ _ _ _ _ _ _ _ _ _ _ _ _ _ k
  · unfold zinv
    iexists fh; isplitr
    · ipureintro; intro j hj; omega
    · iexact Hh'
  iintro %_ HI
  unfold zinv
  icases HI with ⟨%hc, %hz, Hh⟩
  sl_exec
  -- the histogram starts at zero: no position counted yet
  have hfact : ∀ j : S65536.Idx, hc j = BitVec.ofNat 32 (Cert.Hist.cntN (Cert.Hist.flat (xOf m d)) ((wL L).val * 524288) (16384 * 0 + 256 * 0) (j 0).val) :=
    fun j => hz j (by have hj : (j 0).val < 65536 := (j 0).isLt; show (j 0).val < 128 * 512; omega)
  -- chunk 0: its loop on the buffer that holds it, then that buffer's refill and the wait for the next chunk
  have hstart : ∀ j : S65536.Idx, hc j = BitVec.ofNat 32 (Cert.Hist.cntN (Cert.Hist.flat (xOf m d)) ((wL L).val * 524288) (16384 * 0 + 256 * 0) (j 0).val) :=
    fun j => (hfact j).trans (cnt_congr (by decide))
  sl_for (cinv (F := F) d L (Cert.Hist.flat (xOf m d)) ((wL L).val * 524288) (16384 * 0) b0V) $$ [Hh Hb0']
  case region => intro k _; exact chunk_reg_0 (F := F) d L _ _ _ hxs _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 0 b0V _ p hp
  clear hstart hfact
  iintro %_ HI
  unfold cinv
  icases HI with ⟨⟨%hc, %hfact, Hh⟩, ⟨%bb, -, Hb0'⟩⟩
  sl_exec
  -- chunk 1: its loop on the buffer that holds it, then that buffer's refill and the wait for the next chunk
  have hstart : ∀ j : S65536.Idx, hc j = BitVec.ofNat 32 (Cert.Hist.cntN (Cert.Hist.flat (xOf m d)) ((wL L).val * 524288) (16384 * 1 + 256 * 0) (j 0).val) :=
    fun j => (hfact j).trans (cnt_congr (by decide))
  sl_for (cinv (F := F) d L (Cert.Hist.flat (xOf m d)) ((wL L).val * 524288) (16384 * 1) b1V) $$ [Hh Hb1']
  case region => intro k _; exact chunk_reg_1 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 1 b1V _ p hp
  clear hstart hfact
  iintro %_ HI
  unfold cinv
  icases HI with ⟨⟨%hc, %hfact, Hh⟩, ⟨%bb, -, Hb1'⟩⟩
  sl_exec
  -- chunk 2: its loop on the buffer that holds it, then that buffer's refill and the wait for the next chunk
  have hstart : ∀ j : S65536.Idx, hc j = BitVec.ofNat 32 (Cert.Hist.cntN (Cert.Hist.flat (xOf m d)) ((wL L).val * 524288) (16384 * 2 + 256 * 0) (j 0).val) :=
    fun j => (hfact j).trans (cnt_congr (by decide))
  sl_for (cinv (F := F) d L (Cert.Hist.flat (xOf m d)) ((wL L).val * 524288) (16384 * 2) b2V) $$ [Hh Hb2']
  case region => intro k _; exact chunk_reg_2 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 2 b2V _ p hp
  clear hstart hfact
  iintro %_ HI
  unfold cinv
  icases HI with ⟨⟨%hc, %hfact, Hh⟩, ⟨%bb, -, Hb2'⟩⟩
  sl_exec
  -- chunk 3: its loop on the buffer that holds it, then that buffer's refill and the wait for the next chunk
  have hstart : ∀ j : S65536.Idx, hc j = BitVec.ofNat 32 (Cert.Hist.cntN (Cert.Hist.flat (xOf m d)) ((wL L).val * 524288) (16384 * 3 + 256 * 0) (j 0).val) :=
    fun j => (hfact j).trans (cnt_congr (by decide))
  sl_for (cinv (F := F) d L (Cert.Hist.flat (xOf m d)) ((wL L).val * 524288) (16384 * 3) b0V) $$ [Hh Hb0']
  case region => intro k _; exact chunk_reg_3 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 3 b0V _ p hp
  clear hstart hfact
  iintro %_ HI
  unfold cinv
  icases HI with ⟨⟨%hc, %hfact, Hh⟩, ⟨%bb, -, Hb0'⟩⟩
  sl_exec
  -- chunk 4: its loop on the buffer that holds it, then that buffer's refill and the wait for the next chunk
  have hstart : ∀ j : S65536.Idx, hc j = BitVec.ofNat 32 (Cert.Hist.cntN (Cert.Hist.flat (xOf m d)) ((wL L).val * 524288) (16384 * 4 + 256 * 0) (j 0).val) :=
    fun j => (hfact j).trans (cnt_congr (by decide))
  sl_for (cinv (F := F) d L (Cert.Hist.flat (xOf m d)) ((wL L).val * 524288) (16384 * 4) b1V) $$ [Hh Hb1']
  case region => intro k _; exact chunk_reg_4 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 4 b1V _ p hp
  clear hstart hfact
  iintro %_ HI
  unfold cinv
  icases HI with ⟨⟨%hc, %hfact, Hh⟩, ⟨%bb, -, Hb1'⟩⟩
  sl_exec
  -- chunk 5: its loop on the buffer that holds it, then that buffer's refill and the wait for the next chunk
  have hstart : ∀ j : S65536.Idx, hc j = BitVec.ofNat 32 (Cert.Hist.cntN (Cert.Hist.flat (xOf m d)) ((wL L).val * 524288) (16384 * 5 + 256 * 0) (j 0).val) :=
    fun j => (hfact j).trans (cnt_congr (by decide))
  sl_for (cinv (F := F) d L (Cert.Hist.flat (xOf m d)) ((wL L).val * 524288) (16384 * 5) b2V) $$ [Hh Hb2']
  case region => intro k _; exact chunk_reg_5 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 5 b2V _ p hp
  clear hstart hfact
  iintro %_ HI
  unfold cinv
  icases HI with ⟨⟨%hc, %hfact, Hh⟩, ⟨%bb, -, Hb2'⟩⟩
  sl_exec
  -- chunk 6: its loop on the buffer that holds it, then that buffer's refill and the wait for the next chunk
  have hstart : ∀ j : S65536.Idx, hc j = BitVec.ofNat 32 (Cert.Hist.cntN (Cert.Hist.flat (xOf m d)) ((wL L).val * 524288) (16384 * 6 + 256 * 0) (j 0).val) :=
    fun j => (hfact j).trans (cnt_congr (by decide))
  sl_for (cinv (F := F) d L (Cert.Hist.flat (xOf m d)) ((wL L).val * 524288) (16384 * 6) b0V) $$ [Hh Hb0']
  case region => intro k _; exact chunk_reg_6 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 6 b0V _ p hp
  clear hstart hfact
  iintro %_ HI
  unfold cinv
  icases HI with ⟨⟨%hc, %hfact, Hh⟩, ⟨%bb, -, Hb0'⟩⟩
  sl_exec
  -- chunk 7: its loop on the buffer that holds it, then that buffer's refill and the wait for the next chunk
  have hstart : ∀ j : S65536.Idx, hc j = BitVec.ofNat 32 (Cert.Hist.cntN (Cert.Hist.flat (xOf m d)) ((wL L).val * 524288) (16384 * 7 + 256 * 0) (j 0).val) :=
    fun j => (hfact j).trans (cnt_congr (by decide))
  sl_for (cinv (F := F) d L (Cert.Hist.flat (xOf m d)) ((wL L).val * 524288) (16384 * 7) b1V) $$ [Hh Hb1']
  case region => intro k _; exact chunk_reg_7 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 7 b1V _ p hp
  clear hstart hfact
  iintro %_ HI
  unfold cinv
  icases HI with ⟨⟨%hc, %hfact, Hh⟩, ⟨%bb, -, Hb1'⟩⟩
  sl_exec
  -- chunk 8: its loop on the buffer that holds it, then that buffer's refill and the wait for the next chunk
  have hstart : ∀ j : S65536.Idx, hc j = BitVec.ofNat 32 (Cert.Hist.cntN (Cert.Hist.flat (xOf m d)) ((wL L).val * 524288) (16384 * 8 + 256 * 0) (j 0).val) :=
    fun j => (hfact j).trans (cnt_congr (by decide))
  sl_for (cinv (F := F) d L (Cert.Hist.flat (xOf m d)) ((wL L).val * 524288) (16384 * 8) b2V) $$ [Hh Hb2']
  case region => intro k _; exact chunk_reg_8 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 8 b2V _ p hp
  clear hstart hfact
  iintro %_ HI
  unfold cinv
  icases HI with ⟨⟨%hc, %hfact, Hh⟩, ⟨%bb, -, Hb2'⟩⟩
  sl_exec
  -- chunk 9: its loop on the buffer that holds it, then that buffer's refill and the wait for the next chunk
  have hstart : ∀ j : S65536.Idx, hc j = BitVec.ofNat 32 (Cert.Hist.cntN (Cert.Hist.flat (xOf m d)) ((wL L).val * 524288) (16384 * 9 + 256 * 0) (j 0).val) :=
    fun j => (hfact j).trans (cnt_congr (by decide))
  sl_for (cinv (F := F) d L (Cert.Hist.flat (xOf m d)) ((wL L).val * 524288) (16384 * 9) b0V) $$ [Hh Hb0']
  case region => intro k _; exact chunk_reg_9 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 9 b0V _ p hp
  clear hstart hfact
  iintro %_ HI
  unfold cinv
  icases HI with ⟨⟨%hc, %hfact, Hh⟩, ⟨%bb, -, Hb0'⟩⟩
  sl_exec
  -- chunk 10: its loop on the buffer that holds it, then that buffer's refill and the wait for the next chunk
  have hstart : ∀ j : S65536.Idx, hc j = BitVec.ofNat 32 (Cert.Hist.cntN (Cert.Hist.flat (xOf m d)) ((wL L).val * 524288) (16384 * 10 + 256 * 0) (j 0).val) :=
    fun j => (hfact j).trans (cnt_congr (by decide))
  sl_for (cinv (F := F) d L (Cert.Hist.flat (xOf m d)) ((wL L).val * 524288) (16384 * 10) b1V) $$ [Hh Hb1']
  case region => intro k _; exact chunk_reg_10 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 10 b1V _ p hp
  clear hstart hfact
  iintro %_ HI
  unfold cinv
  icases HI with ⟨⟨%hc, %hfact, Hh⟩, ⟨%bb, -, Hb1'⟩⟩
  sl_exec
  -- chunk 11: its loop on the buffer that holds it, then that buffer's refill and the wait for the next chunk
  have hstart : ∀ j : S65536.Idx, hc j = BitVec.ofNat 32 (Cert.Hist.cntN (Cert.Hist.flat (xOf m d)) ((wL L).val * 524288) (16384 * 11 + 256 * 0) (j 0).val) :=
    fun j => (hfact j).trans (cnt_congr (by decide))
  sl_for (cinv (F := F) d L (Cert.Hist.flat (xOf m d)) ((wL L).val * 524288) (16384 * 11) b2V) $$ [Hh Hb2']
  case region => intro k _; exact chunk_reg_11 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 11 b2V _ p hp
  clear hstart hfact
  iintro %_ HI
  unfold cinv
  icases HI with ⟨⟨%hc, %hfact, Hh⟩, ⟨%bb, -, Hb2'⟩⟩
  sl_exec
  -- chunk 12: its loop on the buffer that holds it, then that buffer's refill and the wait for the next chunk
  have hstart : ∀ j : S65536.Idx, hc j = BitVec.ofNat 32 (Cert.Hist.cntN (Cert.Hist.flat (xOf m d)) ((wL L).val * 524288) (16384 * 12 + 256 * 0) (j 0).val) :=
    fun j => (hfact j).trans (cnt_congr (by decide))
  sl_for (cinv (F := F) d L (Cert.Hist.flat (xOf m d)) ((wL L).val * 524288) (16384 * 12) b0V) $$ [Hh Hb0']
  case region => intro k _; exact chunk_reg_12 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 12 b0V _ p hp
  clear hstart hfact
  iintro %_ HI
  unfold cinv
  icases HI with ⟨⟨%hc, %hfact, Hh⟩, ⟨%bb, -, Hb0'⟩⟩
  sl_exec
  -- chunk 13: its loop on the buffer that holds it, then that buffer's refill and the wait for the next chunk
  have hstart : ∀ j : S65536.Idx, hc j = BitVec.ofNat 32 (Cert.Hist.cntN (Cert.Hist.flat (xOf m d)) ((wL L).val * 524288) (16384 * 13 + 256 * 0) (j 0).val) :=
    fun j => (hfact j).trans (cnt_congr (by decide))
  sl_for (cinv (F := F) d L (Cert.Hist.flat (xOf m d)) ((wL L).val * 524288) (16384 * 13) b1V) $$ [Hh Hb1']
  case region => intro k _; exact chunk_reg_13 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 13 b1V _ p hp
  clear hstart hfact
  iintro %_ HI
  unfold cinv
  icases HI with ⟨⟨%hc, %hfact, Hh⟩, ⟨%bb, -, Hb1'⟩⟩
  sl_exec
  -- chunk 14: its loop on the buffer that holds it, then that buffer's refill and the wait for the next chunk
  have hstart : ∀ j : S65536.Idx, hc j = BitVec.ofNat 32 (Cert.Hist.cntN (Cert.Hist.flat (xOf m d)) ((wL L).val * 524288) (16384 * 14 + 256 * 0) (j 0).val) :=
    fun j => (hfact j).trans (cnt_congr (by decide))
  sl_for (cinv (F := F) d L (Cert.Hist.flat (xOf m d)) ((wL L).val * 524288) (16384 * 14) b2V) $$ [Hh Hb2']
  case region => intro k _; exact chunk_reg_14 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 14 b2V _ p hp
  clear hstart hfact
  iintro %_ HI
  unfold cinv
  icases HI with ⟨⟨%hc, %hfact, Hh⟩, ⟨%bb, -, Hb2'⟩⟩
  sl_exec
  -- chunk 15: its loop on the buffer that holds it, then that buffer's refill and the wait for the next chunk
  have hstart : ∀ j : S65536.Idx, hc j = BitVec.ofNat 32 (Cert.Hist.cntN (Cert.Hist.flat (xOf m d)) ((wL L).val * 524288) (16384 * 15 + 256 * 0) (j 0).val) :=
    fun j => (hfact j).trans (cnt_congr (by decide))
  sl_for (cinv (F := F) d L (Cert.Hist.flat (xOf m d)) ((wL L).val * 524288) (16384 * 15) b0V) $$ [Hh Hb0']
  case region => intro k _; exact chunk_reg_15 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 15 b0V _ p hp
  clear hstart hfact
  iintro %_ HI
  unfold cinv
  icases HI with ⟨⟨%hc, %hfact, Hh⟩, ⟨%bb, -, Hb0'⟩⟩
  sl_exec
  -- chunk 16: its loop on the buffer that holds it, then that buffer's refill and the wait for the next chunk
  have hstart : ∀ j : S65536.Idx, hc j = BitVec.ofNat 32 (Cert.Hist.cntN (Cert.Hist.flat (xOf m d)) ((wL L).val * 524288) (16384 * 16 + 256 * 0) (j 0).val) :=
    fun j => (hfact j).trans (cnt_congr (by decide))
  sl_for (cinv (F := F) d L (Cert.Hist.flat (xOf m d)) ((wL L).val * 524288) (16384 * 16) b1V) $$ [Hh Hb1']
  case region => intro k _; exact chunk_reg_16 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 16 b1V _ p hp
  clear hstart hfact
  iintro %_ HI
  unfold cinv
  icases HI with ⟨⟨%hc, %hfact, Hh⟩, ⟨%bb, -, Hb1'⟩⟩
  sl_exec
  -- chunk 17: its loop on the buffer that holds it, then that buffer's refill and the wait for the next chunk
  have hstart : ∀ j : S65536.Idx, hc j = BitVec.ofNat 32 (Cert.Hist.cntN (Cert.Hist.flat (xOf m d)) ((wL L).val * 524288) (16384 * 17 + 256 * 0) (j 0).val) :=
    fun j => (hfact j).trans (cnt_congr (by decide))
  sl_for (cinv (F := F) d L (Cert.Hist.flat (xOf m d)) ((wL L).val * 524288) (16384 * 17) b2V) $$ [Hh Hb2']
  case region => intro k _; exact chunk_reg_17 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 17 b2V _ p hp
  clear hstart hfact
  iintro %_ HI
  unfold cinv
  icases HI with ⟨⟨%hc, %hfact, Hh⟩, ⟨%bb, -, Hb2'⟩⟩
  sl_exec
  -- chunk 18: its loop on the buffer that holds it, then that buffer's refill and the wait for the next chunk
  have hstart : ∀ j : S65536.Idx, hc j = BitVec.ofNat 32 (Cert.Hist.cntN (Cert.Hist.flat (xOf m d)) ((wL L).val * 524288) (16384 * 18 + 256 * 0) (j 0).val) :=
    fun j => (hfact j).trans (cnt_congr (by decide))
  sl_for (cinv (F := F) d L (Cert.Hist.flat (xOf m d)) ((wL L).val * 524288) (16384 * 18) b0V) $$ [Hh Hb0']
  case region => intro k _; exact chunk_reg_18 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 18 b0V _ p hp
  clear hstart hfact
  iintro %_ HI
  unfold cinv
  icases HI with ⟨⟨%hc, %hfact, Hh⟩, ⟨%bb, -, Hb0'⟩⟩
  sl_exec
  -- chunk 19: its loop on the buffer that holds it, then that buffer's refill and the wait for the next chunk
  have hstart : ∀ j : S65536.Idx, hc j = BitVec.ofNat 32 (Cert.Hist.cntN (Cert.Hist.flat (xOf m d)) ((wL L).val * 524288) (16384 * 19 + 256 * 0) (j 0).val) :=
    fun j => (hfact j).trans (cnt_congr (by decide))
  sl_for (cinv (F := F) d L (Cert.Hist.flat (xOf m d)) ((wL L).val * 524288) (16384 * 19) b1V) $$ [Hh Hb1']
  case region => intro k _; exact chunk_reg_19 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 19 b1V _ p hp
  clear hstart hfact
  iintro %_ HI
  unfold cinv
  icases HI with ⟨⟨%hc, %hfact, Hh⟩, ⟨%bb, -, Hb1'⟩⟩
  sl_exec
  -- chunk 20: its loop on the buffer that holds it, then that buffer's refill and the wait for the next chunk
  have hstart : ∀ j : S65536.Idx, hc j = BitVec.ofNat 32 (Cert.Hist.cntN (Cert.Hist.flat (xOf m d)) ((wL L).val * 524288) (16384 * 20 + 256 * 0) (j 0).val) :=
    fun j => (hfact j).trans (cnt_congr (by decide))
  sl_for (cinv (F := F) d L (Cert.Hist.flat (xOf m d)) ((wL L).val * 524288) (16384 * 20) b2V) $$ [Hh Hb2']
  case region => intro k _; exact chunk_reg_20 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 20 b2V _ p hp
  clear hstart hfact
  iintro %_ HI
  unfold cinv
  icases HI with ⟨⟨%hc, %hfact, Hh⟩, ⟨%bb, -, Hb2'⟩⟩
  sl_exec
  -- chunk 21: its loop on the buffer that holds it, then that buffer's refill and the wait for the next chunk
  have hstart : ∀ j : S65536.Idx, hc j = BitVec.ofNat 32 (Cert.Hist.cntN (Cert.Hist.flat (xOf m d)) ((wL L).val * 524288) (16384 * 21 + 256 * 0) (j 0).val) :=
    fun j => (hfact j).trans (cnt_congr (by decide))
  sl_for (cinv (F := F) d L (Cert.Hist.flat (xOf m d)) ((wL L).val * 524288) (16384 * 21) b0V) $$ [Hh Hb0']
  case region => intro k _; exact chunk_reg_21 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 21 b0V _ p hp
  clear hstart hfact
  iintro %_ HI
  unfold cinv
  icases HI with ⟨⟨%hc, %hfact, Hh⟩, ⟨%bb, -, Hb0'⟩⟩
  sl_exec
  -- chunk 22: its loop on the buffer that holds it, then that buffer's refill and the wait for the next chunk
  have hstart : ∀ j : S65536.Idx, hc j = BitVec.ofNat 32 (Cert.Hist.cntN (Cert.Hist.flat (xOf m d)) ((wL L).val * 524288) (16384 * 22 + 256 * 0) (j 0).val) :=
    fun j => (hfact j).trans (cnt_congr (by decide))
  sl_for (cinv (F := F) d L (Cert.Hist.flat (xOf m d)) ((wL L).val * 524288) (16384 * 22) b1V) $$ [Hh Hb1']
  case region => intro k _; exact chunk_reg_22 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 22 b1V _ p hp
  clear hstart hfact
  iintro %_ HI
  unfold cinv
  icases HI with ⟨⟨%hc, %hfact, Hh⟩, ⟨%bb, -, Hb1'⟩⟩
  sl_exec
  -- chunk 23: its loop on the buffer that holds it, then that buffer's refill and the wait for the next chunk
  have hstart : ∀ j : S65536.Idx, hc j = BitVec.ofNat 32 (Cert.Hist.cntN (Cert.Hist.flat (xOf m d)) ((wL L).val * 524288) (16384 * 23 + 256 * 0) (j 0).val) :=
    fun j => (hfact j).trans (cnt_congr (by decide))
  sl_for (cinv (F := F) d L (Cert.Hist.flat (xOf m d)) ((wL L).val * 524288) (16384 * 23) b2V) $$ [Hh Hb2']
  case region => intro k _; exact chunk_reg_23 (F := F) d L _ _ _ hxs _ _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 23 b2V _ p hp
  clear hstart hfact
  iintro %_ HI
  unfold cinv
  icases HI with ⟨⟨%hc, %hfact, Hh⟩, ⟨%bb, -, Hb2'⟩⟩
  sl_exec
  -- chunk 24: its loop on the buffer that holds it, then that buffer's refill and the wait for the next chunk
  have hstart : ∀ j : S65536.Idx, hc j = BitVec.ofNat 32 (Cert.Hist.cntN (Cert.Hist.flat (xOf m d)) ((wL L).val * 524288) (16384 * 24 + 256 * 0) (j 0).val) :=
    fun j => (hfact j).trans (cnt_congr (by decide))
  sl_for (cinv (F := F) d L (Cert.Hist.flat (xOf m d)) ((wL L).val * 524288) (16384 * 24) b0V) $$ [Hh Hb0']
  case region => intro k _; exact chunk_reg_24 (F := F) d L _ _ _ hxs _ _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 24 b0V _ p hp
  clear hstart hfact
  iintro %_ HI
  unfold cinv
  icases HI with ⟨⟨%hc, %hfact, Hh⟩, ⟨%bb, -, Hb0'⟩⟩
  sl_exec
  -- chunk 25: its loop on the buffer that holds it, then that buffer's refill and the wait for the next chunk
  have hstart : ∀ j : S65536.Idx, hc j = BitVec.ofNat 32 (Cert.Hist.cntN (Cert.Hist.flat (xOf m d)) ((wL L).val * 524288) (16384 * 25 + 256 * 0) (j 0).val) :=
    fun j => (hfact j).trans (cnt_congr (by decide))
  sl_for (cinv (F := F) d L (Cert.Hist.flat (xOf m d)) ((wL L).val * 524288) (16384 * 25) b1V) $$ [Hh Hb1']
  case region => intro k _; exact chunk_reg_25 (F := F) d L _ _ _ hxs _ _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 25 b1V _ p hp
  clear hstart hfact
  iintro %_ HI
  unfold cinv
  icases HI with ⟨⟨%hc, %hfact, Hh⟩, ⟨%bb, -, Hb1'⟩⟩
  sl_exec
  -- chunk 26: its loop on the buffer that holds it, then that buffer's refill and the wait for the next chunk
  have hstart : ∀ j : S65536.Idx, hc j = BitVec.ofNat 32 (Cert.Hist.cntN (Cert.Hist.flat (xOf m d)) ((wL L).val * 524288) (16384 * 26 + 256 * 0) (j 0).val) :=
    fun j => (hfact j).trans (cnt_congr (by decide))
  sl_for (cinv (F := F) d L (Cert.Hist.flat (xOf m d)) ((wL L).val * 524288) (16384 * 26) b2V) $$ [Hh Hb2']
  case region => intro k _; exact chunk_reg_26 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 26 b2V _ p hp
  clear hstart hfact
  iintro %_ HI
  unfold cinv
  icases HI with ⟨⟨%hc, %hfact, Hh⟩, ⟨%bb, -, Hb2'⟩⟩
  sl_exec
  -- chunk 27: its loop on the buffer that holds it, then that buffer's refill and the wait for the next chunk
  have hstart : ∀ j : S65536.Idx, hc j = BitVec.ofNat 32 (Cert.Hist.cntN (Cert.Hist.flat (xOf m d)) ((wL L).val * 524288) (16384 * 27 + 256 * 0) (j 0).val) :=
    fun j => (hfact j).trans (cnt_congr (by decide))
  sl_for (cinv (F := F) d L (Cert.Hist.flat (xOf m d)) ((wL L).val * 524288) (16384 * 27) b0V) $$ [Hh Hb0']
  case region => intro k _; exact chunk_reg_27 (F := F) d L _ _ _ hxs _ _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 27 b0V _ p hp
  clear hstart hfact
  iintro %_ HI
  unfold cinv
  icases HI with ⟨⟨%hc, %hfact, Hh⟩, ⟨%bb, -, Hb0'⟩⟩
  sl_exec
  -- chunk 28: its loop on the buffer that holds it, then that buffer's refill and the wait for the next chunk
  have hstart : ∀ j : S65536.Idx, hc j = BitVec.ofNat 32 (Cert.Hist.cntN (Cert.Hist.flat (xOf m d)) ((wL L).val * 524288) (16384 * 28 + 256 * 0) (j 0).val) :=
    fun j => (hfact j).trans (cnt_congr (by decide))
  sl_for (cinv (F := F) d L (Cert.Hist.flat (xOf m d)) ((wL L).val * 524288) (16384 * 28) b1V) $$ [Hh Hb1']
  case region => intro k _; exact chunk_reg_28 (F := F) d L _ _ _ hxs _ _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 28 b1V _ p hp
  clear hstart hfact
  iintro %_ HI
  unfold cinv
  icases HI with ⟨⟨%hc, %hfact, Hh⟩, ⟨%bb, -, Hb1'⟩⟩
  sl_exec
  -- chunk 29: its loop on the buffer that holds it, then that buffer's refill and the wait for the next chunk
  have hstart : ∀ j : S65536.Idx, hc j = BitVec.ofNat 32 (Cert.Hist.cntN (Cert.Hist.flat (xOf m d)) ((wL L).val * 524288) (16384 * 29 + 256 * 0) (j 0).val) :=
    fun j => (hfact j).trans (cnt_congr (by decide))
  sl_for (cinv (F := F) d L (Cert.Hist.flat (xOf m d)) ((wL L).val * 524288) (16384 * 29) b2V) $$ [Hh Hb2']
  case region => intro k _; exact chunk_reg_29 (F := F) d L _ _ _ hxs _ _ _ _ _ _ _ _ _ k
  · unfold cinv
    isplitl [Hh]
    · iexists hc; isplitr
      · ipureintro; exact hstart
      · iexact Hh
    · iexists _; isplitr
      swap
      · iexact Hb2'
      · ipureintro; exact fun p hp => chunk_landed m d L 29 b2V _ p hp
  clear hstart hfact
  iintro %_ HI
  unfold cinv
  icases HI with ⟨⟨%hc, %hfact, Hh⟩, ⟨%bb, -, Hb2'⟩⟩
  sl_exec
  -- chunk 30: its loop on the buffer that holds it, then that buffer's refill and the wait for the next chunk
  have hstart : ∀ j : S65536.Idx, hc j = BitVec.ofNat 32 (Cert.Hist.cntN (Cert.Hist.flat (xOf m d)) ((wL L).val * 524288) (16384 * 30 + 256 * 0) (j 0).val) :=
    fun j => (hfact j).trans (cnt_congr (by decide))
  sl_for (cinv (F := F) d L (Cert.Hist.flat (xOf m d)) ((wL L).val * 524288) (16384 * 30) b0V) $$ [Hh Hb0']
  case region => intro k _; exact chunk_reg_30 (F := F) d L _ _ _ hxs _ _ _ _ _ _ _ _ k
  · unfold cinv
    isplitl [Hh]
    · iexists hc; isplitr
      · ipureintro; exact hstart
      · iexact Hh
    · iexists _; isplitr
      swap
      · iexact Hb0'
      · ipureintro; exact fun p hp => chunk_landed m d L 30 b0V _ p hp
  clear hstart hfact
  iintro %_ HI
  unfold cinv
  icases HI with ⟨⟨%hc, %hfact, Hh⟩, ⟨%bb, -, Hb0'⟩⟩
  sl_exec
  -- chunk 31: its loop on the buffer that holds it, then that buffer's refill and the wait for the next chunk
  have hstart : ∀ j : S65536.Idx, hc j = BitVec.ofNat 32 (Cert.Hist.cntN (Cert.Hist.flat (xOf m d)) ((wL L).val * 524288) (16384 * 31 + 256 * 0) (j 0).val) :=
    fun j => (hfact j).trans (cnt_congr (by decide))
  sl_for (cinv (F := F) d L (Cert.Hist.flat (xOf m d)) ((wL L).val * 524288) (16384 * 31) b1V) $$ [Hh Hb1']
  case region => intro k _; exact chunk_reg_31 (F := F) d L _ _ _ hxs _ _ _ _ _ _ _ _ k
  · unfold cinv
    isplitl [Hh]
    · iexists hc; isplitr
      · ipureintro; exact hstart
      · iexact Hh
    · iexists _; isplitr
      swap
      · iexact Hb1'
      · ipureintro; exact fun p hp => chunk_landed m d L 31 b1V _ p hp
  clear hstart hfact
  iintro %_ HI
  unfold cinv
  icases HI with ⟨⟨%hc, %hfact, Hh⟩, ⟨%bb, -, Hb1'⟩⟩
  sl_exec
  -- the write-out: the histogram into the tile's row
  ihave Hp' := (Entails.of_eq (pts_pRowK (F := F) d L _).symm) $$ Hp
  sl_exec
  sl_step
  unfold tdT
  isplitl [Hxr Hx0 Hx1 Hx2 Hp']
  · isplitl [Hxr Hx0 Hx1 Hx2]
    · -- the three read tokens and the remainder are the tile's share of the input again
      iapply (Entails.of_eq (pts_x (F := F) d L _ _))
      iapply ((show (iprop(((xV : Memref sig .scVector .hbm S16777216 .i32).view.loc (V d (cV L) (jV L)) ↦{Transfers.shareDrop (Transfers.shareTokN fullShare (wL L).val) 3} m (xLoc d)) ∗ ((xV : Memref sig .scVector .hbm S16777216 .i32).view.loc (V d (cV L) (jV L)) ↦{Transfers.shareTok (Transfers.shareTokN fullShare (wL L).val) 3 0} m (xLoc d))
            ∗ ((xV : Memref sig .scVector .hbm S16777216 .i32).view.loc (V d (cV L) (jV L)) ↦{Transfers.shareTok (Transfers.shareTokN fullShare (wL L).val) 3 1} m (xLoc d)) ∗ ((xV : Memref sig .scVector .hbm S16777216 .i32).view.loc (V d (cV L) (jV L)) ↦{Transfers.shareTok (Transfers.shareTokN fullShare (wL L).val) 3 2} m (xLoc d))) : sProp 𝕄)
          ⊢ iprop(((xV : Memref sig .scVector .hbm S16777216 .i32).view.loc (V d (cV L) (jV L)) ↦{Transfers.shareDrop (Transfers.shareTokN fullShare (wL L).val) 3} m (xLoc d))
            ∗ bigSep Finset.univ fun i : Fin 3 => ((xV : Memref sig .scVector .hbm S16777216 .i32).view.loc (V d (cV L) (jV L)) ↦{Transfers.shareTok (Transfers.shareTokN fullShare (wL L).val) 3 i} m (xLoc d)))
          from Entails.of_eq (by rw [Idealize.ShloMosaic.Ring.bigSep_fin3])).trans
        (Transfers.pointsTo_toks_join (Ix := HIx 1) (Name := ℕ) (U := UU) (Lvl := ℕ) (Transfers.shareTokN fullShare (wL L).val) 3))
      isplitl [Hxr]; · iexact Hxr
      isplitl [Hx0]; · iexact Hx0
      isplitl [Hx1]; · iexact Hx1
      iexact Hx2
    · iexists _; isplitr
      swap
      · iapply (Entails.of_eq (pts_pRowK (F := F) d L _)); iexact Hp'
      · ipureintro
        exact rowDone_of_writes m d L _ hc _ rfl (fun j => (hfact j).trans (cnt_congr (by decide)))
  isplitl [Hh Hb0' Hb1' Hb2' Hbufs]
  · isplitl [Hh]; · iexists _; iexact Hh
    isplitl [Hb0']; · iexists _; iexact Hb0'
    isplitl [Hb1']; · iexists _; iexact Hb1'
    isplitl [Hb2']; · iexists _; iexact Hb2'
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap
  · iexact HO
  · ipureintro
    iterate 33 refine ins_ok ?_
    exact fun p hp => Or.inl hp

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          xV (Memref.isWhole_whole _) pV (Memref.isWhole_whole _) hV (Memref.isWhole_whole _)
          b0V (Memref.isWhole_whole _) b1V (Memref.isWhole_whole _) b2V (Memref.isWhole_whole _)
          cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of every tile of the call. -/
theorem tileObl (hF : (K (F := F)).Facts) (hpre : ∀ d i, (xOf m d i).toNat < 65536) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hpre d) O W hO).trans (wp_mono frame _ _ fun _ => obl_post)

/-- A SparseCore's part of the call is its tiles' parts, both ways. -/
theorem vecSplit : (K (F := F)).VecSplit' (P m) 0 := by
  intro d c
  show (bigSep Finset.univ fun i : Fin 16 => goT m d (wid (Fin.cast nCore_zero c) i)) ⊢ |={Set.univ}=> iprop(
      (bigSep Finset.univ fun i : Fin ((K (F := F)).nSub 0) => goT m d (wid (Fin.cast nCore_zero c) (Fin.cast nSub_zero i)))
      ∗ ((bigSep Finset.univ fun i : Fin ((K (F := F)).nSub 0) => tdT m d (wid (Fin.cast nCore_zero c) (Fin.cast nSub_zero i)))
          -∗ bigSep Finset.univ fun i : Fin 16 => tdT m d (wid (Fin.cast nCore_zero c) i)))
  iintro H; imodintro
  isplitl [H]; · iexact H
  iintro H; iexact H

end Cert.Proof.KB

end
-- ==== Proof.KB.Main.lean ====
/-
  @main of the histogram program on the TensorCore, and the launch.

  @main is two lines. The first is the SparseCore call: the input's full share is split into thirty-two read
  shares, one per tile, and the 32 × 65536 array of partial histograms into its thirty-two rows; each tile gets its
  share and its row and hands them back, the row holding the histogram of the tile's stretch of the input. The rows
  join into the whole array at one contents whose row w is the histogram of stretch w. The second line is a
  TensorCore kernel of one grid point: the array is staged whole, the body stores its sum over the leading axis, the
  result is written back; that sum is the histogram of the whole input. The input is never written.
-/
import proofs.«203723_g38474317038175_cont_8to1_b_298_28_alg».proof.Proof.KB.Common
import proofs.«203723_g38474317038175_cont_8to1_b_298_28_alg».proof.Proof.KB.Rows
import proofs.«203723_g38474317038175_cont_8to1_b_298_28_alg».proof.Proof.Gen.Kernel.Launch
import proofs.«203723_g38474317038175_cont_8to1_b_298_28_alg».proof.Proof.Gen.Kernel.Points
import Idealize.ShloMosaic.Lib.Pipeline.Regions
import proofs.«203723_g38474317038175_cont_8to1_b_298_28_alg».proof.Proof.SumTiles

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The staging rounds' place in the ghost state -/

/-- The TensorCore kernel's staging rounds: the left factor of the right factor. -/
abbrev ER : Emb UR (MT nD τ sig (HIx 1) (Elt F) ℕ UU ℕ) :=
  (Emb.inl : Emb UR (UR × Counters)).trans (embR : Emb (UR × Counters) (MT nD τ sig (HIx 1) (Elt F) ℕ UU ℕ))

instance ER_landsIn : (ER (F := F)).LandsIn (upEmb : UEmb _ 𝕄) := by
  unfold ER embR; infer_instance

variable (m : (ℓ : Loc nD τ sig) → Buf (Elt F) ℓ) (ρ : Dev nD → PrngReg)

variable [FloatOps F]

/-- The admissible tables of the one pipeline: it prefetches none. -/
abbrev adm : (p : Fin 1) → (pcfgs (F := F) p).Adm := fun p => (cfgs p).toPCfg_adm

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What the launch element hands @main on device `d`: the staging cells' ghost state and duty tokens. -/
def G (d : Dev nD) : sProp 𝕄 :=
  iprop((bigSep Finset.univ fun p : Fin 1 => Pipeline.cellsGhost (Pipeline.pin (pcfgs (F := F)) adm) ER p d)
    ∗ bigSep Finset.univ fun p : Fin 1 => Pipeline.toksInit (Pipeline.pin (pcfgs (F := F)) adm) ER p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcfgs (F := F)) adm) (ER (F := F)) cellOf_inj) $$ HP with ⟨Hg, Ht⟩
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves the claim -/

/-- The input at its launch contents, the result at the histogram of the whole input. -/
abbrev FIN (d : Dev nD) : sProp 𝕄 :=
  iprop((xLoc d ↦{fullShare} m (xLoc d)) ∗ rLoc d ↦{fullShare} (Cert.Hist.total (xOf m d) : Buf (Elt F) (rLoc d)))

def fq (d : Dev nD) (s' : Phys nD τ sig (Elt F)) : Prop :=
  s'.mem.mem (rLoc d) = Cert.Hist.total (xOf m d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hr⟩, HSI⟩
  icombine HSI Hx gives %hx
  icombine HSI Hr gives %hr
  ipureintro; exact ⟨funext fun i => hr i (Finset.mem_univ i), funext fun i => hx i (Finset.mem_univ i)⟩

/-! ## The TensorCore kernel: the sum of the partial histograms over the tiles -/

open Idealize.ShloMosaic.TcCoe
open Idealize.ShloMosaic.Pipeline (Dat)

section Region

variable (gs : (c : Dev nD) → Buf (Elt F) (pLoc c))

/-- The staged array: the partial histograms read through the window's one block. -/
abbrev stg (c : Dev nD) : (cfg1.win 0).block.Idx → Elt F (cfg1.win 0).elt :=
  ((cfg1.win 0).blk t1_0).view.read (Elt F) (gs c)

/-- The kernel body on whole staging memrefs: the operand's at `x0`, the result's at anything, to the operand's as it was
    and the result's at the sum of `x0` over its leading axis. -/
theorem sound_kernel [∀ e, Nonempty (Elt F e)] (c : Dev nD) (E : Set ℕ) (arg0 : Memref sig .tc .vmem S32x65536 .i32) (harg0 : arg0.IsWhole)
    (arg1 : Memref sig .tc .vmem S65536 .i32) (harg1 : arg1.IsWhole) (x0 : Vec F S32x65536 .i32) (Kp : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (k1_pay1 x0)) -∗ Kp ⟨⟩))
      ⊢ wp frame (wpE (defs₀ (F := F)) Variants.none c none) E (cc1__tc_reduce_body arg0 harg0 arg1 harg1) Kp := by
  simp only [cc1__tc_reduce_body_eq_skeleton]; unfold cc1__tc_reduce_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  have hz1 : (![0] : Fin S65536.rank → Nat) = fun _ => 0 := funext fun a => by fin_cases a <;> rfl
  have hz0 : (![0, 0] : Fin S32x65536.rank → Nat) = fun _ => 0 := funext fun a => by fin_cases a <;> rfl
  rw [View.read_writes_eq_canon _ _ _ (View.cover_of_tiled _ S65536.size (by rfl)), View.canon_unit_zero hz1]
  exact congrArg k1_pay1 (View.ld_unit_zero hz0 _ (View.read (Elt F) arg0.view f0))

/-- The proof data of the one pipeline on core `c`: the partial histograms at `gs c` and the result's array as launched;
    after the body the operand's buffer as staged and the result's at the sum; the scoped rest as invariant; nothing
    owed; the pairs recorded before the region all at or below the level of the first call's end. -/
def dats (_ : Fin 1) (c : Dev nD) : Dat τ (Elt F) (HIx 1) ℕ UU ℕ cfg1 c where
  A w := match w with
    | ⟨0, _⟩ => gs c
    | ⟨1, _⟩ => m (rLoc c)
  after w _ := match w with
    | ⟨0, _⟩ => stg gs c
    | ⟨1, _⟩ => k1_pay1 (stg gs c)
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ 8 * 1}

theorem after1_0 (c : Dev nD) (t : Fin cfg1.N) : (dats m gs 0 c).after 0 t = stg gs c := by dsimp only [dats]
theorem after1_1 (c : Dev nD) (t : Fin cfg1.N) : (dats m gs 0 c).after 1 t = k1_pay1 (stg gs c) := by dsimp only [dats]

/-- The fetched window's buffer holds the array's block when the body runs. -/
theorem before1_0 (c : Dev nD) (d : (cfg1.win 0).block.Idx → Elt F (cfg1.win 0).elt) :
    (dats m gs 0 c).before 0 t1_0 d = stg gs c := by
  unfold Dat.before; rw [if_pos (by decide)]; rfl

theorem sound_body [∀ e, Nonempty (Elt F e)] (c : Dev nD) :
    iprop((dats m gs 0 c).Φ t1_0.castSucc ∗ (dats m gs 0 c).owesAt none t1_0.castSucc
        ∗ (∃ d, owns (c : Thread nD τ) (st1_0 t1_0) fullShare ((dats m gs 0 c).before 0 t1_0 d))
        ∗ (∃ d, owns (c : Thread nD τ) (st1_1 t1_0) fullShare ((dats m gs 0 c).before 1 t1_0 d)))
      ⊢ wp frame (wpE (defs₀ (F := F)) Variants.none c none) Set.univ (bodyAt1 t1_0) (fun _ =>
          iprop((dats m gs 0 c).Φ t1_0.succ ∗ (dats m gs 0 c).owesAt none t1_0.succ
            ∗ owns (c : Thread nD τ) (st1_0 t1_0) fullShare ((dats m gs 0 c).after 0 t1_0)
            ∗ owns (c : Thread nD τ) (st1_1 t1_0) fullShare ((dats m gs 0 c).after 1 t1_0))) := by
  unfold bodyAt1
  simp only [before1_0]
  rw [show (dats m gs 0 c).Φ t1_0.succ = (dats m gs 0 c).Φ t1_0.castSucc from rfl,
    show (dats m gs 0 c).owesAt none t1_0.succ = (dats m gs 0 c).owesAt none t1_0.castSucc from rfl,
    after1_0, after1_1]
  iintro ⟨HΦ, Ho, ⟨%d0, H0⟩, ⟨%d1, H1⟩⟩
  iapply (sound_kernel c Set.univ _ _ _ _ (stg gs c) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation [∀ e, Nonempty (Elt F e)] (c : Dev nD) :
    Pipeline.BodyObligation (dats m gs 0 c) (defs₀ (F := F)) Variants.none none Set.univ := fun t => by
  obtain rfl := fin_N1 t
  rw [bigSep_W1, bigSep_W1]
  exact sound_body m gs c

end Region

section Region2

variable (gs : (c : Dev nD) → Buf (Elt F) (pLoc c))

/-- The result's array after the region: the sum over the tiles of the partial histograms, which is the histogram of the
    whole input when every row of `gs c` is its stretch's. -/
theorem final_value [∀ e, Nonempty (Elt F e)] (c : Dev nD) (hg : ∀ w, RowDone m c w (gs c)) :
    (dats m gs 0 c).arrAt 1 cfg1.N = (Cert.Hist.total (xOf m c) : Buf (Elt F) (rLoc c)) := by
  have ho : ((cfg1.win 1).blk t1_0).view.read (Elt F) ((dats m gs 0 c).arrAt 1 cfg1.N) = (dats m gs 0 c).flushed 1 t1_0 := by
    rw [show cfg1.N = (t1_0 : Fin cfg1.N).val + 1 from rfl, (dats m gs 0 c).arrAt_succ 1 t1_0]
    rw [show (cfg1.win 1).flush t1_0 = true from by decide, if_pos rfl]
    exact View.read_write_univ _ _
  have hz1 : (fun a => (win1_1.index t1_0) a * main_v1.ty.shape.size a) = fun _ => 0 := funext fun a => by fin_cases a <;> decide
  have hr1 := fun f => Memref.read_access_unit_zero (Elt F) main_v1 hz1 (fun a => by fin_cases a <;> decide) f
  have hz0 : (fun a => (win1_0.index t1_0) a * main_v0.ty.shape.size a) = fun _ => 0 := funext fun a => by fin_cases a <;> decide
  have hr0 := fun f => Memref.read_access_unit_zero (Elt F) main_v0 hz0 (fun a => by fin_cases a <;> decide) f
  rw [hr1] at ho
  rw [ho]
  show (cfg1.win 1).cut _ ((dats m gs 0 c).after 1 t1_0) = _
  rw [after1_1]
  unfold stg
  rw [hr0]
  exact Eq.trans rfl (Cert.Hist.reduce_rows_shapeCast (gs c) (xOf m c) (fun w j => hg w j) shapeCasts_S32x65536_S32x65536 reduces_S32x65536_S65536)

/-- What the TensorCore owes after the one SparseCore call: nothing, every recorded pair at or below the call's end. -/
abbrev Rtc (c : Dev nD) : sProp 𝕄 :=
  iprop(∃ W, ⌜(K (F := F)).WBelow (SparseCore.T c) W (8 * 1)⌝ ∗ owes (SparseCore.T c) (0 : CellTallies nD τ sig (HIx 1)) W)

set_option backward.isDefEq.respectTransparency.types false in
/-- THE REGION: entered with the partial histograms at `gs c`, row by row the stretches' histograms, the result's array
    as launched and the input bypassing; left with the result at the histogram of the whole input. -/
def reg1 [∀ e, Nonempty (Elt F e)] : Pipeline.RegionSeg (pcfgs (F := F)) adm (dats m gs) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation m gs c).loose
  hwaits := Pipeline.hwaits_of_owed_zero _ _ _ _ (K (F := F)).L (K (F := F)).lev 0 fun _ _ => rfl
  pre c := iprop(⌜∀ w, RowDone m c w (gs c)⌝ ∗ (xLoc c ↦{fullShare} m (xLoc c)) ∗ (pLoc c ↦{fullShare} gs c) ∗ (rLoc c ↦{fullShare} m (rLoc c)) ∗ Rtc c)
  post c := iprop((xLoc c ↦{fullShare} m (xLoc c)) ∗ (rLoc c ↦{fullShare} (Cert.Hist.total (xOf m c) : Buf (Elt F) (rLoc c))) ∗ Rtc c)
  X c := iprop(emp)
  Y c := iprop(emp)
  Z c := iprop(⌜∀ w, RowDone m c w (gs c)⌝ ∗ xLoc c ↦{fullShare} m (xLoc c))
  hentry c := by
    rw [Pipeline.arrays_eq (Pipeline.pin (pcfgs (F := F)) adm) (dats m gs) 0 c launch1.arr_whole ((dats m gs 0 c).share_full fun _ => rfl), bigSep_W1]
    iintro ⟨⟨%hg, Hx, Hp, Hr, ⟨%W, %hW, HO⟩⟩, -, -⟩
    imodintro
    isplitl [Hp Hr]
    · isplitl [Hp]; · iexact Hp
      iexact Hr
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitr; · iempintro
    isplitr; · ipureintro; exact hg
    iexact Hx
  hin c := by
    rw [show (dats m gs 0 c).Φ 0 = Pipeline.scopedRest (Pipeline.pin (pcfgs (F := F)) adm 0).spec c from rfl]
    iintro ⟨-, -, Hr⟩; iexact Hr
  hout c := by
    rw [Pipeline.ownSems0_none, show (dats m gs 0 c).Φ (Fin.last (Pipeline.pin (pcfgs (F := F)) adm 0).N) = Pipeline.scopedRest (Pipeline.pin (pcfgs (F := F)) adm 0).spec c from rfl]
    iintro Hr; isplitr; · iempintro
    isplitr; · iempintro
    iexact Hr
  hexit c := by
    rw [Pipeline.arrays_eq (Pipeline.pin (pcfgs (F := F)) adm) (dats m gs) 0 c launch1.arr_whole ((dats m gs 0 c).share_full fun _ => rfl), bigSep_W1]
    iintro ⟨⟨-, Hr⟩, HO, -, ⟨%hg, Hx⟩⟩
    imodintro
    isplitl [Hx]; · iexact Hx
    isplitl [Hr]
    · iapply (Entails.of_eq (congrArg (fun f => (rLoc c ↦{fullShare} f : sProp 𝕄)) (final_value m gs c hg))); iexact Hr
    unfold Pipeline.Dat.owesAt Pipeline.owesWithin
    icases HO with ⟨%W, %hW, HO⟩
    iexists W; isplitr
    · ipureintro; intro p hp
      rcases hW (Finset.mem_coe.mpr hp) with h | ⟨w, s, rfl⟩
      · exact h
      · exact Nat.zero_le _
    iexact HO

end Region2

omit [FloatOps F] in
/-- The second line of @main is the pipeline's region entry, lifted to the launch's labels. -/
theorem tc_prog : (Prog.lift (.customCall (SparseCore.inner (Pipeline.entry (0 : Fin 1))) ()) : Prog (TpuEff nD τ sig (Elt F) (SparseCore.Sig (ΛP (F := F)) 1) .tc) PUnit)
    = SparseCore.liftProg (.op (.customCall (Pipeline.entry (0 : Fin 1)) ()) fun _ => .ret ⟨⟩) := rfl

section Region3

variable (gs : (c : Dev nD) → Buf (Elt F) (pLoc c))

set_option backward.isDefEq.respectTransparency.types false in
/-- The second line of @main on device `d`: the TensorCore kernel's region, from the region boundary, the three arrays,
    what the TensorCore owes and the staging cells' ghost state, to the continuation's assertion. -/
theorem tc_region [∀ e, Nonempty (Elt F e)] (d : Dev nD) (Φ : PUnit → sProp 𝕄) :
    iprop((iprop(boundary (SparseCore.T d) ∗ (xLoc d ↦{fullShare} m (xLoc d)) ∗ (rLoc d ↦{fullShare} (Cert.Hist.total (xOf m d) : Buf (Elt F) (rLoc d))) ∗ Rtc (F := F) d)
            -∗ wp frame (wpE (D (F := F)) 𝒱 (SparseCore.T d) none) Set.univ (.ret ⟨⟩) Φ)
        ∗ boundary (SparseCore.T d)
        ∗ iprop(⌜∀ w, RowDone m d w (gs d)⌝ ∗ (xLoc d ↦{fullShare} m (xLoc d)) ∗ (pLoc d ↦{fullShare} gs d) ∗ (rLoc d ↦{fullShare} m (rLoc d)) ∗ Rtc (F := F) d)
        ∗ levAts (K (F := F)).L (K (F := F)).lev
        ∗ Pipeline.cellsGhost (Pipeline.pin (pcfgs (F := F)) adm) (ER (F := F)) 0 d ∗ Pipeline.toksInit (Pipeline.pin (pcfgs (F := F)) adm) (ER (F := F)) 0 d)
      ⊢ wp frame (wpE ((K (F := F)).defs (D (F := F))) 𝒱 (SparseCore.T d) none) Set.univ
          (Prog.lift (.customCall (SparseCore.inner (Pipeline.entry (0 : Fin 1))) ())) Φ := by
  rw [tc_prog]
  refine BI.Entails.trans ?_ ((K (F := F)).wp_liftProg (D (F := F)) 𝒱 (SparseCore.T d) Set.univ none _ Φ)
  exact Pipeline.RegionSeg.wp (pcfgs (F := F)) adm (dats m gs) none cellOf_inj (ER (F := F)) defs₀ 𝒱₀ (K (F := F)).L (K (F := F)).lev
    (reg1 m gs) d none (by intro u hu; cases hu) (fun _ => .ret ⟨⟩) Φ

end Region3

/-! ## @main on the TensorCore -/

omit [FloatOps F] in
/-- The TensorCore's arrays, all unscoped: the input, the partial histograms, the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- What the call takes for the two SparseCores, and what it hands back: every tile's part. -/
theorem st0_eq (d : Dev nD) : (bigSep Finset.univ fun c : Fin ((K (F := F)).nCore 0) => (P m).st 0 d c)
    = iprop((bigSep Finset.univ fun w : Fin 32 => xTok m d w) ∗ bigSep Finset.univ fun w : Fin 32 => pRow d w (m (pLoc d))) := by
  show (bigSep (Finset.univ : Finset (Fin 2)) fun c => bigSep Finset.univ fun i : Fin 16 => goT m d (wid c i)) = _
  rw [bigSep_wid (fun w => goT m d w)]; unfold goT; rw [bigSep_sep']
theorem dn0_eq (d : Dev nD) : (bigSep Finset.univ fun c : Fin ((K (F := F)).nCore 0) => (P m).dn 0 d c)
    = iprop((bigSep Finset.univ fun w : Fin 32 => xTok m d w) ∗ bigSep Finset.univ fun w : Fin 32 => iprop(∃ f, ⌜RowDone m d w f⌝ ∗ pRow d w f)) := by
  show (bigSep (Finset.univ : Finset (Fin 2)) fun c => bigSep Finset.univ fun i : Fin 16 => tdT m d (wid c i)) = _
  rw [bigSep_wid (fun w => tdT m d w)]; unfold tdT; rw [bigSep_sep']

/-- After the one call the TensorCore owes nothing: its state is that and the rest. -/
theorem tcSt_one (d : Dev nD) : ∃ R : sProp 𝕄, (K (F := F)).tcSt EH d 1 = iprop(Rtc (F := F) d ∗ R) := by
  unfold SparseCore.Cfg.tcSt Rtc; rw [(K (F := F)).Otc_end d le_rfl]; exact ⟨_, rfl⟩

set_option backward.isDefEq.respectTransparency.types false in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_one (F := F) d
  rw [hR]
  unfold SparseCore.Cfg.tcRes G
  rw [unscopedBufs_eq, bigSep_univ_of_subsingleton (0 : Fin 1), bigSep_univ_of_subsingleton (0 : Fin 1)]
  simp only [main, wp_bind, wp_pure]
  iintro ⟨#Hctx, Hst, ⟨Hb, ⟨Hx, Hp, Hr⟩, -, -⟩, ⟨Hcg, Htk⟩⟩
  -- the input's full share into the tiles' read shares, the partial histograms into their rows
  ihave Hx' := (xToks m d).1 $$ Hx
  icases Hx' with ⟨Hxd, Hxt⟩
  ihave Hp' := (Entails.of_eq (pPts_rows d _)) $$ Hp
  -- the call
  iapply ((K (F := F)).wp_run (D (F := F)) 𝒱 (EH := EH) (P := P m) κ d 0) $$ [Hst Hxt Hp' Hb Hr Hxd Hcg Htk]
  isplitr; · iexact Hctx
  isplitl [Hst]; · iexact Hst
  isplitl [Hxt Hp']
  · rw [st0_eq]
    isplitl [Hxt]; · iexact Hxt
    iexact Hp'
  iintro ⟨Hst, Hdn⟩
  ihave Hdn' := (Entails.of_eq (dn0_eq m d)) $$ Hdn
  icases Hdn' with ⟨Hxt, Hrows⟩
  ihave Hx := (xToks m d).2 $$ [Hxd Hxt]
  · isplitl [Hxd]; · iexact Hxd
    iexact Hxt
  ihave Hp := (pRows_join m d) $$ Hrows
  icases Hp with ⟨%g, %hg, Hp⟩
  -- the partial histograms of every device, this device's at what the call left
  obtain ⟨gs, hgs⟩ : ∃ gs : (c : Dev nD) → Buf (Elt F) (pLoc c), gs d = g :=
    ⟨Function.update (fun c => m (pLoc c)) d g, Function.update_self _ _ _⟩
  subst hgs
  have hR' : (K (F := F)).tcSt EH d ((0 : Fin 1).val + 1) = iprop(Rtc (F := F) d ∗ R) := hR
  ihave Hst' := (Entails.of_eq hR') $$ Hst
  icases Hst' with ⟨HO, Hkeep⟩
  ihave Hlev := (SparseCore.Cfg.ctx_levAts (K := K (F := F)) (EH := EH) (P := P m) κ) $$ Hctx
  -- the TensorCore kernel's region
  iapply (tc_region m gs d _) $$ [Hb Hx Hp Hr HO Hcg Htk Hkeep Hlev]
  isplitl [Hkeep]
  · iintro ⟨-, Hx, Hr, HO⟩
    rw [wp_ret]; imodintro; imodintro
    isplitl [HO Hkeep]
    · isplitl [HO]; · iexact HO
      iexact Hkeep
    isplitl [Hx]; · iexact Hx
    iexact Hr
  isplitl [Hb]; · iexact Hb
  isplitl [Hx Hp Hr HO]
  · isplitr; · ipureintro; exact hg
    isplitl [Hx]; · iexact Hx
    isplitl [Hp]; · iexact Hp
    isplitl [Hr]; · iexact Hr
    iexact HO
  isplitl [Hlev]; · iexact Hlev
  isplitl [Hcg]; · iexact Hcg
  iexact Htk

/-! ## The program's run -/

def QC : PUnit × MemSt nD τ sig (Elt F) → Prop := fun r =>
  ∀ c : Dev nD, r.2.mem (rLoc c) = Cert.Hist.total (xOf m c) ∧ r.2.mem (xLoc c) = m (xLoc c)

theorem run_main [∀ e, Nonempty (Elt F e)] (hT : (K (F := F)).TileObl (D (F := F)) 𝒱 (P m) v₀ 0) (hS : (K (F := F)).VecSplit' (P m) 0) :
    θ_run (Cert.Kernel.defs (F := F)) (Cert.Kernel.threads (F := F)) ⟨m, fun _ => 0, ρ⟩
      (fun r => ∀ c : Dev nD, r.2.mem (rLoc c) = Cert.Hist.total (xOf m c) ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain hS)
    m ρ main (G (F := F)) (FIN m) (u₀ (F := F)) (sep_elim_left.trans (hu₀ m)) (hmain m ρ) (fq m) (hfin m) (QC m) (fun _ h => h)

end Cert.Proof.KB

end
-- ==== Proof.lean ====
/-
  A histogram of 16777216 words with 65536 bins, computed on the SparseCores and summed on the TensorCore, against
  a scatter-add of ones on the host.

  The kernel: thirty-two tiles — tile `w = 2 i + c`, SparseCore `c` of two, vector subcore `i` of sixteen — each
  count their stretch `[524288 w, 524288 (w + 1))` of the input into a private histogram: three buffers of 16384 words
  filled in turn by copies that each complete on a semaphore of their own, the histogram zeroed first, then per chunk
  sixty-four trips of sixteen indexed add-stores of sixteen ones, and the histogram written to row `w` of a 32 × 65536
  array; a TensorCore kernel then adds the thirty-two rows. The reference clips at zero, wraps negative indices and
  scatter-adds a one per position. On an input whose words all lie in `[0, 65535]` the clip and the wrap are the
  identity, the scatter leaves in bin `j` the number of positions holding `j` (modulo 2^32), each tile's row holds that
  number over its stretch, and the counts over the thirty-two consecutive stretches add up to the count over the whole
  input: both programs end at `Cert.Hist.total` of the input, the input unchanged. The same run at the word-level
  instance gives the printed kernel's frame; the idealization rewrote nothing, so `preserves` is trivial.
-/
import proofs.«203723_g38474317038175_cont_8to1_b_298_28_alg».proof.Defs
import proofs.«203723_g38474317038175_cont_8to1_b_298_28_alg».proof.Proof.Gen.Kernel
import proofs.«203723_g38474317038175_cont_8to1_b_298_28_alg».proof.Proof.Gen.KernelIdeal
import proofs.«203723_g38474317038175_cont_8to1_b_298_28_alg».proof.Proof.Gen.ReferenceIdeal
import proofs.«203723_g38474317038175_cont_8to1_b_298_28_alg».proof.Proof.Gen.Pre_input_domain
import proofs.«203723_g38474317038175_cont_8to1_b_298_28_alg».proof.Proof.PreRange
import proofs.«203723_g38474317038175_cont_8to1_b_298_28_alg».proof.Proof.RefValue
import proofs.«203723_g38474317038175_cont_8to1_b_298_28_alg».proof.Proof.KI.Tile
import proofs.«203723_g38474317038175_cont_8to1_b_298_28_alg».proof.Proof.KI.Main
import proofs.«203723_g38474317038175_cont_8to1_b_298_28_alg».proof.Proof.KB.Tile
import proofs.«203723_g38474317038175_cont_8to1_b_298_28_alg».proof.Proof.KB.Main
import Idealize.ShloMosaic.Adequacy
import Idealize.ShloMosaic.Init

noncomputable section

namespace Cert.Proof

open Idealize.ShloMosaic Idealize.ShloMosaic.TcCoe Idealize.SL.Sem

/-- The certificate's claim, from the run of the kernel at each instance: on an input whose words all read below
    65536 every weakly fair execution terminates with the result the histogram of the input and the input unchanged. -/
theorem claim_of_runs
    (hKB : ∀ (m : (ℓ : Loc Cert.Kernel.nD Cert.Kernel.τ Cert.Kernel.sig) → Buf (Elt Bits) ℓ) (ρ : Dev Cert.Kernel.nD → PrngReg),
      (∀ (d : Dev Cert.Kernel.nD) (i : Cert.Hist.SX.Idx),
        ((m ((d.tc : Thread Cert.Kernel.nD Cert.Kernel.τ).loc Cert.Kernel.main_arg0) : IVec Cert.Hist.SX 32) i).toNat < 65536) →
      θ_run (Cert.Kernel.defs (F := Bits)) (Cert.Kernel.threads (F := Bits)) ⟨m, fun _ => 0, ρ⟩ (fun r => ∀ c : Dev Cert.Kernel.nD,
        r.2.mem ((c.tc : Thread Cert.Kernel.nD Cert.Kernel.τ).loc Cert.Kernel.main_v1)
            = Cert.Hist.total (m ((c.tc : Thread Cert.Kernel.nD Cert.Kernel.τ).loc Cert.Kernel.main_arg0))
          ∧ r.2.mem ((c.tc : Thread Cert.Kernel.nD Cert.Kernel.τ).loc Cert.Kernel.main_arg0)
            = m ((c.tc : Thread Cert.Kernel.nD Cert.Kernel.τ).loc Cert.Kernel.main_arg0)))
    (hKI : ∀ (m : (ℓ : Loc Cert.KernelIdeal.nD Cert.KernelIdeal.τ Cert.KernelIdeal.sig) → Buf (Elt Ideal) ℓ) (ρ : Dev Cert.KernelIdeal.nD → PrngReg),
      (∀ (d : Dev Cert.KernelIdeal.nD) (i : Cert.Hist.SX.Idx),
        ((m ((d.tc : Thread Cert.KernelIdeal.nD Cert.KernelIdeal.τ).loc Cert.KernelIdeal.main_arg0) : IVec Cert.Hist.SX 32) i).toNat < 65536) →
      θ_run (Cert.KernelIdeal.defs (F := Ideal)) (Cert.KernelIdeal.threads (F := Ideal)) ⟨m, fun _ => 0, ρ⟩ (fun r => ∀ c : Dev Cert.KernelIdeal.nD,
        r.2.mem ((c.tc : Thread Cert.KernelIdeal.nD Cert.KernelIdeal.τ).loc Cert.KernelIdeal.main_v1)
            = Cert.Hist.total (m ((c.tc : Thread Cert.KernelIdeal.nD Cert.KernelIdeal.τ).loc Cert.KernelIdeal.main_arg0))
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))) :
    Cert.Claim := by
  refine ⟨Cert.Kernel.Gen.facts, Cert.KernelIdeal.Gen.facts, Cert.ReferenceIdeal.Gen.facts, Cert.Pre_input_domain.Gen.facts,
    ?_, ?_, ?_, trivial, ?_⟩
  · -- the kernel as printed: its run with the result dropped
    intro m g hpre
    exact (θ_run (Cert.Kernel.defs (F := Bits)) _ _).mono (fun _ h c => (h c).2)
      (hKB m g fun d => Cert.Hist.Pre.in_range (F := Bits) _ (hpre d))
  · -- the kernel at the ideal instance
    intro m g hpre
    exact (θ_run (Cert.KernelIdeal.defs (F := Ideal)) _ _).mono (fun _ h c => (h c).2)
      (hKI m g fun d => Cert.Hist.Pre.in_range (F := Ideal) _ (hpre d))
  · -- the reference: its run with the result dropped
    intro m g hpre
    exact (θ_run (Cert.ReferenceIdeal.defs (F := Ideal)) _ _).mono (fun _ h c => (h c).2)
      (Cert.ReferenceIdeal.RefValue.run m g hpre)
  · -- both end at the histogram of the common input
    intro m g m' g' hpre hagree
    refine ⟨fun c => Cert.Hist.total (m ((c.tc : Thread Cert.KernelIdeal.nD Cert.KernelIdeal.τ).loc Cert.KernelIdeal.main_arg0)),
      hKI m g (fun d => Cert.Hist.Pre.in_range (F := Ideal) _ (hpre d)), ?_⟩
    have hpre' : ∀ c : Dev Cert.ReferenceIdeal.nD, Cert.Pre_input_domain.fn (F := Ideal)
        (m' ((c.tc : Thread Cert.ReferenceIdeal.nD Cert.ReferenceIdeal.τ).loc Cert.ReferenceIdeal.main_arg0)) = fun _ => 1#1 := by
      intro c
      rw [hagree c]
      exact hpre c
    refine (θ_run (Cert.ReferenceIdeal.defs (F := Ideal)) _ _).mono (fun _ h c => ⟨(h c).1.trans ?_, (h c).2⟩)
      (Cert.ReferenceIdeal.RefValue.run m' g' hpre')
    rw [hagree c]

/-- The claim: the tile's task and the launch at each instance give the two runs. -/
theorem claim : Cert.Claim :=
  claim_of_runs
    (fun m ρ h => Cert.Proof.KB.run_main m ρ (Cert.Proof.KB.tileObl m Cert.Proof.KB.facts h) (Cert.Proof.KB.vecSplit m))
    (fun m ρ h => Cert.Proof.KI.run_main m ρ (Cert.Proof.KI.tileObl m Cert.Proof.KI.facts h) (Cert.Proof.KI.vecSplit m))

end Cert.Proof

end
